-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_v275) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S384x64 : Shape := ⟨2, ![384, 64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S384x64 : S_.BroadcastsInDim S384x64 (![] : Fin 0 → Fin S384x64.rank)
  reducesTo_S384x64_S_d0_1 : S384x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg5 : IVec S800000 32) (main_v48 : IVec S_ 1) (main_v50 : IVec S800000 1) : IVec S_ 1 :=
  let main_c_19 : IVec S_ 1 := constantI S_ 1 1#1
  let main_v51 : IVec S_ 1 := (fun x v => Host.reduce IntOp.andi x v reducesTo_S800000_S_d0 h_S_) main_v50 main_c_19
  let main_v52 : IVec S_ 1 := andi main_v48 main_v51
  let main_c_20 : IVec S_ 32 := constantI S_ 32 0#32
  let main_v53 : IVec S800000 32 := broadcastInDim S800000 ![] bcast_S_S800000 main_c_20
  let main_v54 : IVec S800000 1 := cmpi .sge main_arg5 main_v53
  let main_c_21 : IVec S_ 1 := constantI S_ 1 1#1
  let main_v55 : IVec S_ 1 := (fun x v => Host.reduce IntOp.andi x v reducesTo_S800000_S_d0 h_S_) main_v54 main_c_21
  let main_v56 : IVec S_ 1 := andi main_v52 main_v55
  main_v56

def fn_part2 {F : FTy → Type} [FloatOps F] (main_arg3 : IVec S800000 32) (main_arg5 : IVec S800000 32) (main_arg11 : FVec F S64 .f32) (main_arg12 : FVec F S64x2 .f32) (main_arg13 : FVec F S2 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x2 .f32 := Host.absf main_arg12
  let main_cst_14 : FVec F S_ .f32 := constant S_ .f32 0x7F800000#32
  let main_v40 : FVec F S64x2 .f32 := broadcastInDim S64x2 ![] bcast_S_S64x2 main_cst_14
  let main_v41 : IVec S64x2 1 := cmpf .olt main_v39 main_v40
  let main_c_15 : IVec S_ 1 := constantI S_ 1 1#1
  let main_v42 : IVec S_ 1 := (fun x v => Host.reduce IntOp.andi x v reducesTo_S64x2_S_d0_1 h_S_) main_v41 main_c_15
  let main_v43 : IVec S_ 1 := andi main_v38 main_v42
  let main_v44 : FVec F S2 .f32 := Host.absf main_arg13
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_c_18 : IVec S_ 32 := constantI S_ 32 0#32
  let main_v49 : IVec S800000 32 := broadcastInDim S800000 ![] bcast_S_S800000 main_c_18
  let main_v50 : IVec S800000 1 := cmpi .sge main_arg3 main_v49
  fn_part3 (F := F) main_arg5 main_v48 main_v50

def fn_part1 {F : FTy → Type} [FloatOps F] (main_arg3 : IVec S800000 32) (main_arg5 : IVec S800000 32) (main_arg8 : FVec F S128x64 .f32) (main_arg9 : FVec F S64 .f32) (main_arg10 : FVec F S384x64 .f32) (main_arg11 : FVec F S64 .f32) (main_arg12 : FVec F S64x2 .f32) (main_arg13 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg8
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S384x64 .f32 := Host.absf main_arg10
  let main_cst_10 : FVec F S_ .f32 := constant S_ .f32 0x7F800000#32
  let main_v30 : FVec F S384x64 .f32 := broadcastInDim S384x64 ![] bcast_S_S384x64 main_cst_10
  let main_v31 : IVec S384x64 1 := cmpf .olt main_v29 main_v30
  let main_c_11 : IVec S_ 1 := constantI S_ 1 1#1
  let main_v32 : IVec S_ 1 := (fun x v => Host.reduce IntOp.andi x v reducesTo_S384x64_S_d0_1 h_S_) main_v31 main_c_11
  let main_v33 : IVec S_ 1 := andi main_v28 main_v32
  fn_part2 (F := F) main_arg3 main_arg5 main_arg11 main_arg12 main_arg13 main_v33

def fn {F : FTy → Type} [FloatOps F] (main_arg0 : FVec F S50000x128 .f32) (main_arg1 : FVec F S50000x128 .f32) (main_arg2 : IVec S800000 32) (main_arg3 : IVec S800000 32) (main_arg4 : IVec S800000 32) (main_arg5 : IVec S800000 32) (main_arg6 : FVec F S128x64 .f32) (main_arg7 : FVec F S64 .f32) (main_arg8 : FVec F S128x64 .f32) (main_arg9 : FVec F S64 .f32) (main_arg10 : FVec F S384x64 .f32) (main_arg11 : FVec F S64 .f32) (main_arg12 : FVec F S64x2 .f32) (main_arg13 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x64 .f32 := Host.absf main_arg6
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg3 main_arg5 main_arg8 main_arg9 main_arg10 main_arg11 main_arg12 main_arg13 main_v13 main_v16
-- ==== Kernel.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S384x64 : Shape := ⟨2, ![384, 64]⟩
abbrev S64x2 : Shape := ⟨2, ![64, 2]⟩
abbrev S2 : Shape := ⟨1, ![2]⟩
abbrev S1x64 : Shape := ⟨2, ![1, 64]⟩
abbrev S1x2 : Shape := ⟨2, ![1, 2]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S2000x128 : Shape := ⟨2, ![2000, 128]⟩
abbrev S2000x1 : Shape := ⟨2, ![2000, 1]⟩
abbrev S2000x64 : Shape := ⟨2, ![2000, 64]⟩
abbrev S800000x64 : Shape := ⟨2, ![800000, 64]⟩
abbrev S50000x384 : Shape := ⟨2, ![50000, 384]⟩
abbrev S50000x2 : Shape := ⟨2, ![50000, 2]⟩
abbrev S2000x384 : Shape := ⟨2, ![2000, 384]⟩
abbrev S2000x2 : Shape := ⟨2, ![2000, 2]⟩

abbrev nBuf : Space → Nat
  | .hbm => 116
  | .vmem => 81
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S800000, .i32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S384x64, .f32⟩
  | .hbm, ⟨11, _⟩ => ⟨S64, .f32⟩
  | .hbm, ⟨12, _⟩ => ⟨S64x2, .f32⟩
  | .hbm, ⟨13, _⟩ => ⟨S2, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x2, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .bf16⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .bf16⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S50000x64, .f32⟩
  | .hbm, ⟨49, _⟩ => ⟨S50000x64, .bf16⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x64, .bf16⟩
  | .hbm, ⟨59, _⟩ => ⟨S800000x64, .f32⟩
  | .hbm, ⟨60, _⟩ => ⟨S_, .f32⟩
  | .hbm, ⟨61, _⟩ => ⟨S50000x64, .f32⟩
  | .hbm, ⟨62, _⟩ => ⟨S800000x1, .i32⟩
  | .hbm, ⟨63, _⟩ => ⟨S50000x64, .f32⟩
  | .hbm, ⟨64, _⟩ => ⟨S50000x64, .f32⟩
  | .hbm, ⟨65, _⟩ => ⟨S50000x64, .bf16⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S50000, .f32⟩
  | .hbm, ⟨70, _⟩ => ⟨S800000x1, .i32⟩
  | .hbm, ⟨71, _⟩ => ⟨S50000, .f32⟩
  | .hbm, ⟨72, _⟩ => ⟨S_, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x64, .f32⟩
  | .hbm, ⟨81, _⟩ => ⟨S50000x64, .bf16⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x64, .bf16⟩
  | .hbm, ⟨91, _⟩ => ⟨S800000x64, .f32⟩
  | .hbm, ⟨92, _⟩ => ⟨S_, .f32⟩
  | .hbm, ⟨93, _⟩ => ⟨S50000x64, .f32⟩
  | .hbm, ⟨94, _⟩ => ⟨S800000x1, .i32⟩
  | .hbm, ⟨95, _⟩ => ⟨S50000x64, .f32⟩
  | .hbm, ⟨96, _⟩ => ⟨S50000x64, .f32⟩
  | .hbm, ⟨97, _⟩ => ⟨S50000x64, .bf16⟩
  | .hbm, ⟨98, _⟩ => ⟨S_, .i32⟩
  | .hbm, ⟨99, _⟩ => ⟨S800000, .i32⟩
  | .hbm, ⟨100, _⟩ => ⟨S800000, .i1⟩
  | .hbm, ⟨101, _⟩ => ⟨S_, .i32⟩
  | .hbm, ⟨102, _⟩ => ⟨S800000, .i32⟩
  | .hbm, ⟨103, _⟩ => ⟨S800000, .i32⟩
  | .hbm, ⟨104, _⟩ => ⟨S800000, .i32⟩
  | .hbm, ⟨105, _⟩ => ⟨S800000x1, .i32⟩
  | .hbm, ⟨106, _⟩ => ⟨S800000x64, .bf16⟩
  | .hbm, ⟨107, _⟩ => ⟨S800000x64, .f32⟩
  | .hbm, ⟨108, _⟩ => ⟨S_, .f32⟩
  | .hbm, ⟨109, _⟩ => ⟨S50000x64, .f32⟩
  | .hbm, ⟨110, _⟩ => ⟨S800000x1, .i32⟩
  | .hbm, ⟨111, _⟩ => ⟨S50000x64, .f32⟩
  | .hbm, ⟨112, _⟩ => ⟨S50000x64, .f32⟩
  | .hbm, ⟨113, _⟩ => ⟨S50000x64, .bf16⟩
  | .hbm, ⟨114, _⟩ => ⟨S50000x384, .f32⟩
  | .hbm, ⟨115, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S2000x1, .f32⟩
  | .local _ .vmem, ⟨5, _⟩ => ⟨S2000x1, .f32⟩
  | .local _ .vmem, ⟨6, _⟩ => ⟨S2000x64, .f32⟩
  | .local _ .vmem, ⟨7, _⟩ => ⟨S2000x64, .f32⟩
  | .local _ .vmem, ⟨8, _⟩ => ⟨S2000x64, .bf16⟩
  | .local _ .vmem, ⟨9, _⟩ => ⟨S2000x64, .bf16⟩
  | .local _ .vmem, ⟨10, _⟩ => ⟨S2000x64, .f32⟩
  | .local _ .vmem, ⟨11, _⟩ => ⟨S2000x64, .f32⟩
  | .local _ .vmem, ⟨12, _⟩ => ⟨S2000x1, .f32⟩
  | .local _ .vmem, ⟨13, _⟩ => ⟨S2000x1, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .bf16⟩
  | .local _ .vmem, ⟨19, _⟩ => ⟨S2000x64, .bf16⟩
  | .local _ .vmem, ⟨20, _⟩ => ⟨S2000x64, .f32⟩
  | .local _ .vmem, ⟨21, _⟩ => ⟨S2000x64, .f32⟩
  | .local _ .vmem, ⟨22, _⟩ => ⟨S2000x1, .f32⟩
  | .local _ .vmem, ⟨23, _⟩ => ⟨S2000x1, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .bf16⟩
  | .local _ .vmem, ⟨29, _⟩ => ⟨S2000x64, .bf16⟩
  | .local _ .vmem, ⟨30, _⟩ => ⟨S2000x128, .f32⟩
  | .local _ .vmem, ⟨31, _⟩ => ⟨S2000x128, .f32⟩
  | .local _ .vmem, ⟨32, _⟩ => ⟨S128x64, .f32⟩
  | .local _ .vmem, ⟨33, _⟩ => ⟨S1x64, .f32⟩
  | .local _ .vmem, ⟨34, _⟩ => ⟨S2000x1, .f32⟩
  | .local _ .vmem, ⟨35, _⟩ => ⟨S2000x1, .f32⟩
  | .local _ .vmem, ⟨36, _⟩ => ⟨S2000x64, .f32⟩
  | .local _ .vmem, ⟨37, _⟩ => ⟨S2000x64, .f32⟩
  | .local _ .vmem, ⟨38, _⟩ => ⟨S2000x64, .bf16⟩
  | .local _ .vmem, ⟨39, _⟩ => ⟨S2000x64, .bf16⟩
  | .local _ .vmem, ⟨40, _⟩ => ⟨S2000x64, .f32⟩
  | .local _ .vmem, ⟨41, _⟩ => ⟨S2000x64, .f32⟩
  | .local _ .vmem, ⟨42, _⟩ => ⟨S2000x1, .f32⟩
  | .local _ .vmem, ⟨43, _⟩ => ⟨S2000x1, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S2000x64, .bf16⟩
  | .local _ .vmem, ⟨49, _⟩ => ⟨S2000x64, .bf16⟩
  | .local _ .vmem, ⟨50, _⟩ => ⟨S2000x64, .f32⟩
  | .local _ .vmem, ⟨51, _⟩ => ⟨S2000x64, .f32⟩
  | .local _ .vmem, ⟨52, _⟩ => ⟨S2000x1, .f32⟩
  | .local _ .vmem, ⟨53, _⟩ => ⟨S2000x1, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S2000x64, .f32⟩
  | .local _ .vmem, ⟨58, _⟩ => ⟨S2000x64, .bf16⟩
  | .local _ .vmem, ⟨59, _⟩ => ⟨S2000x64, .bf16⟩
  | .local _ .vmem, ⟨60, _⟩ => ⟨S2000x64, .f32⟩
  | .local _ .vmem, ⟨61, _⟩ => ⟨S2000x64, .f32⟩
  | .local _ .vmem, ⟨62, _⟩ => ⟨S2000x64, .f32⟩
  | .local _ .vmem, ⟨63, _⟩ => ⟨S2000x64, .f32⟩
  | .local _ .vmem, ⟨64, _⟩ => ⟨S2000x64, .f32⟩
  | .local _ .vmem, ⟨65, _⟩ => ⟨S2000x64, .f32⟩
  | .local _ .vmem, ⟨66, _⟩ => ⟨S2000x64, .f32⟩
  | .local _ .vmem, ⟨67, _⟩ => ⟨S2000x64, .f32⟩
  | .local _ .vmem, ⟨68, _⟩ => ⟨S2000x64, .f32⟩
  | .local _ .vmem, ⟨69, _⟩ => ⟨S2000x64, .f32⟩
  | .local _ .vmem, ⟨70, _⟩ => ⟨S2000x64, .f32⟩
  | .local _ .vmem, ⟨71, _⟩ => ⟨S2000x64, .f32⟩
  | .local _ .vmem, ⟨72, _⟩ => ⟨S384x64, .f32⟩
  | .local _ .vmem, ⟨73, _⟩ => ⟨S1x64, .f32⟩
  | .local _ .vmem, ⟨74, _⟩ => ⟨S64x2, .f32⟩
  | .local _ .vmem, ⟨75, _⟩ => ⟨S1x2, .f32⟩
  | .local _ .vmem, ⟨76, _⟩ => ⟨S2000x384, .f32⟩
  | .local _ .vmem, ⟨77, _⟩ => ⟨S2000x384, .f32⟩
  | .local _ .vmem, ⟨78, _⟩ => ⟨S2000x2, .f32⟩
  | .local _ .vmem, ⟨79, _⟩ => ⟨S2000x2, .f32⟩
  | .local _ .vmem, ⟨80, _⟩ => ⟨S2000x384, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12_0 : Ref sig .tc := ⟨.hbm, 32, rfl⟩
abbrev main_v12_1 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24_0 : Ref sig .tc := ⟨.hbm, 48, rfl⟩
abbrev main_v24_1 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36_0 : Ref sig .tc := ⟨.hbm, 64, rfl⟩
abbrev main_v36_1 : Ref sig .tc := ⟨.hbm, 65, rfl⟩
abbrev main_cst_8 : Ref sig .tc := ⟨.hbm, 66, rfl⟩
abbrev main_v37 : Ref sig .tc := ⟨.hbm, 67, rfl⟩
abbrev main_cst_9 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_10 : Ref sig .tc := ⟨.hbm, 72, rfl⟩
abbrev main_call1_v0 : Ref sig .tc := ⟨.hbm, 73, rfl⟩
abbrev main_call1_v1 : Ref sig .tc := ⟨.hbm, 74, rfl⟩
abbrev main_v41 : Ref sig .tc := ⟨.hbm, 75, rfl⟩
abbrev main_cst_11 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45_0 : Ref sig .tc := ⟨.hbm, 80, rfl⟩
abbrev main_v45_1 : Ref sig .tc := ⟨.hbm, 81, rfl⟩
abbrev main_c_12 : Ref sig .tc := ⟨.hbm, 82, rfl⟩
abbrev main_v46 : Ref sig .tc := ⟨.hbm, 83, rfl⟩
abbrev main_v47 : Ref sig .tc := ⟨.hbm, 84, rfl⟩
abbrev main_c_13 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_14 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57_0 : Ref sig .tc := ⟨.hbm, 96, rfl⟩
abbrev main_v57_1 : Ref sig .tc := ⟨.hbm, 97, rfl⟩
abbrev main_c_15 : Ref sig .tc := ⟨.hbm, 98, rfl⟩
abbrev main_v58 : Ref sig .tc := ⟨.hbm, 99, rfl⟩
abbrev main_v59 : Ref sig .tc := ⟨.hbm, 100, rfl⟩
abbrev main_c_16 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_17 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69_0 : Ref sig .tc := ⟨.hbm, 112, rfl⟩
abbrev main_v69_1 : Ref sig .tc := ⟨.hbm, 113, rfl⟩
abbrev main_v70_0 : Ref sig .tc := ⟨.hbm, 114, rfl⟩
abbrev main_v70_1 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg4_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc5_stg3_0 : Ref sig .tc := ⟨.vmem, 56, rfl⟩
abbrev cc5_stg3_1 : Ref sig .tc := ⟨.vmem, 57, rfl⟩
abbrev cc5_stg4_0 : Ref sig .tc := ⟨.vmem, 58, rfl⟩
abbrev cc5_stg4_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc6_stg3_0 : Ref sig .tc := ⟨.vmem, 66, rfl⟩
abbrev cc6_stg3_1 : Ref sig .tc := ⟨.vmem, 67, rfl⟩
abbrev cc6_stg4_0 : Ref sig .tc := ⟨.vmem, 68, rfl⟩
abbrev cc6_stg4_1 : Ref sig .tc := ⟨.vmem, 69, rfl⟩
abbrev cc6_stg5_0 : Ref sig .tc := ⟨.vmem, 70, rfl⟩
abbrev cc6_stg5_1 : Ref sig .tc := ⟨.vmem, 71, rfl⟩
abbrev cc6_stg6_0 : Ref sig .tc := ⟨.vmem, 72, rfl⟩
abbrev cc6_stg7_0 : Ref sig .tc := ⟨.vmem, 73, rfl⟩
abbrev cc6_stg8_0 : Ref sig .tc := ⟨.vmem, 74, rfl⟩
abbrev cc6_stg9_0 : Ref sig .tc := ⟨.vmem, 75, rfl⟩
abbrev cc6_stg10_0 : Ref sig .tc := ⟨.vmem, 76, rfl⟩
abbrev cc6_stg10_1 : Ref sig .tc := ⟨.vmem, 77, rfl⟩
abbrev cc6_stg11_0 : Ref sig .tc := ⟨.vmem, 78, rfl⟩
abbrev cc6_stg11_1 : Ref sig .tc := ⟨.vmem, 79, rfl⟩
abbrev cc6_scratch0 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem4_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55
abbrev cc5_sem3_0 : DmaSem sig := 56
abbrev cc5_sem3_1 : DmaSem sig := 57
abbrev cc5_sem4_0 : DmaSem sig := 58
abbrev cc5_sem4_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem3_1 : DmaSem sig := 67
abbrev cc6_sem4_0 : DmaSem sig := 68
abbrev cc6_sem4_1 : DmaSem sig := 69
abbrev cc6_sem5_0 : DmaSem sig := 70
abbrev cc6_sem5_1 : DmaSem sig := 71
abbrev cc6_sem6_0 : DmaSem sig := 72
abbrev cc6_sem7_0 : DmaSem sig := 73
abbrev cc6_sem8_0 : DmaSem sig := 74
abbrev cc6_sem9_0 : DmaSem sig := 75
abbrev cc6_sem10_0 : DmaSem sig := 76
abbrev cc6_sem10_1 : DmaSem sig := 77
abbrev cc6_sem11_0 : DmaSem sig := 78
abbrev cc6_sem11_1 : DmaSem sig := 79

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x64 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x64 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x64 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S2000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S384x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S64x2 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x2 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 2 → Memref sig .tc .vmem S2000x384 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev stage6_11 : Fin 2 → Memref sig .tc .vmem S2000x2 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

class Facts₀ : Prop where
  shapeCasts_S64_S1x64 : S64.ShapeCasts S1x64
  shapeCasts_S2_S1x2 : S2.ShapeCasts S1x2
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S2000x64_S2000x64 : S2000x64.ShapeCasts S2000x64
  inb_S2000x384_S2000x64_0_0 : ∀ a, (![0, 0] : Fin 2 → Nat) a + S2000x64.size a ≤ S2000x384.size a
  inb_S2000x384_S2000x64_0_64 : ∀ a, (![0, 64] : Fin 2 → Nat) a + S2000x64.size a ≤ S2000x384.size a
  inb_S2000x384_S2000x64_0_128 : ∀ a, (![0, 128] : Fin 2 → Nat) a + S2000x64.size a ≤ S2000x384.size a
  inb_S2000x384_S2000x64_0_192 : ∀ a, (![0, 192] : Fin 2 → Nat) a + S2000x64.size a ≤ S2000x384.size a
  inb_S2000x384_S2000x64_0_256 : ∀ a, (![0, 256] : Fin 2 → Nat) a + S2000x64.size a ≤ S2000x384.size a
  inb_S2000x384_S2000x64_0_320 : ∀ a, (![0, 320] : Fin 2 → Nat) a + S2000x64.size a ≤ S2000x384.size a
  inb_S2000x384_S2000x384_0_0 : ∀ a, (![0, 0] : Fin 2 → Nat) a + S2000x384.size a ≤ S2000x384.size a
  h_S2000x384 : 0 < S2000x384.numel
  inb_S384x64_S384x64_0_0 : ∀ a, (![0, 0] : Fin 2 → Nat) a + S384x64.size a ≤ S384x64.size a
  h_S384x64 : 0 < S384x64.numel
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x384_S384x64_S2000x64_1_0_0_1_n_n_wf : DotDims.WF S2000x384 S384x64 S2000x64 [1] [0] [0] [1] [] []
  dot_S2000x64_S64x2_S2000x2_1_0_0_1_n_n_wf : DotDims.WF S2000x64 S64x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S50000x64.size a
  hwx0_4 : ∀ i : grid0.Coords, EltTy.bits .f32 = 32 ∨ (Rect.block (s := S50000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .bf16 = 32 ∨ (Rect.block (s := S50000x64) S2000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .bf16 = 32 ∨ (Rect.block (s := S50000x64) S2000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .bf16 = 32 ∨ (Rect.block (s := S50000x64) S2000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .f32 = 32 ∨ (Rect.block (s := S50000x1) S2000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S50000x64.size a
  hwx3_5 : ∀ i : grid3.Coords, EltTy.bits .bf16 = 32 ∨ (Rect.block (s := S50000x64) S2000x64.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x64.size a ≤ S50000x64.size a
  hwx4_4 : ∀ i : grid4.Coords, EltTy.bits .bf16 = 32 ∨ (Rect.block (s := S50000x64) S2000x64.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .bf16 = 32 ∨ (Rect.block (s := S50000x64) S2000x64.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S50000x64.size a
  hwx6_1 : ∀ i : grid6.Coords, EltTy.bits .f32 = 32 ∨ (Rect.block (s := S50000x64) S2000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .f32 = 32 ∨ (Rect.block (s := S50000x64) S2000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x64.size a ≤ S50000x64.size a
  hwx6_4 : ∀ i : grid6.Coords, EltTy.bits .f32 = 32 ∨ (Rect.block (s := S50000x64) S2000x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x64.size a ≤ S50000x64.size a
  hwx6_5 : ∀ i : grid6.Coords, EltTy.bits .f32 = 32 ∨ (Rect.block (s := S50000x64) S2000x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S384x64.size a ≤ S384x64.size a
  hwx6_6 : ∀ i : grid6.Coords, EltTy.bits .f32 = 32 ∨ (Rect.block (s := S384x64) S384x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x64.size a ≤ S1x64.size a
  hwx6_7 : ∀ i : grid6.Coords, EltTy.bits .f32 = 32 ∨ (Rect.block (s := S1x64) S1x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S64x2.size a ≤ S64x2.size a
  hwx6_8 : ∀ i : grid6.Coords, EltTy.bits .f32 = 32 ∨ (Rect.block (s := S64x2) S64x2.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x2.size a ≤ S1x2.size a
  hwx6_9 : ∀ i : grid6.Coords, EltTy.bits .f32 = 32 ∨ (Rect.block (s := S1x2) S1x2.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S2000x384.size a ≤ S50000x384.size a
  hwx6_10 : ∀ i : grid6.Coords, EltTy.bits .f32 = 32 ∨ (Rect.block (s := S50000x384) S2000x384.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S2000x2.size a ≤ S50000x2.size a
  hwx6_11 : ∀ i : grid6.Coords, EltTy.bits .f32 = 32 ∨ (Rect.block (s := S50000x2) S2000x2.size (cc6_transform_11 i) (hinb6_11 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x384_S384x64_S2000x64_1_0_0_1_n_n : DotDims S2000x384 S384x64 S2000x64 where
  lhsContracting := [1]
  rhsContracting := [0]
  lhsNonContracting := [0]
  rhsNonContracting := [1]
  lhsBatch := []
  rhsBatch := []
  wf := dot_S2000x384_S384x64_S2000x64_1_0_0_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S2000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24_0) S2000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24_1) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24_0) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36_0) S2000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v36_1) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v1) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v45_0) S2000x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v45_1) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v45_0) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v57_0) S2000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v57_1) S2000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v57_0) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v68) S2000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v69_0) S2000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v69_1) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v12_0) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v24_0) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v36_0) S2000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v45_0) S2000x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v57_0) S2000x64.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v69_0) S2000x64.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_arg10) S384x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v2) S1x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_arg12) S64x2.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v3) S1x2.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v70_0) S2000x384.size cc6_transform_10 reads6_10 true false 2 stage6_10 sem6_10
    hrank6 hreads6_10 hinb6_10 nbuf6_10 (Memref.isWhole_whole _) hwx6_10 hstage6_10

abbrev win6_11 : Pipeline.Window sig grid6 :=
  Pipeline.Window.ofSpec (Memref.whole main_v70_1) S2000x2.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

class Facts : Prop extends Facts₀ where

variable [Facts]
-- ==== ReferenceIdeal.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S384x64 : Shape := ⟨2, ![384, 64]⟩
abbrev S64x2 : Shape := ⟨2, ![64, 2]⟩
abbrev S2 : Shape := ⟨1, ![2]⟩
abbrev S50000x64 : Shape := ⟨2, ![50000, 64]⟩
abbrev S1x64 : Shape := ⟨2, ![1, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S50000x192 : Shape := ⟨2, ![50000, 192]⟩
abbrev S50000x384 : Shape := ⟨2, ![50000, 384]⟩
abbrev S50000x2 : Shape := ⟨2, ![50000, 2]⟩
abbrev S1x2 : Shape := ⟨2, ![1, 2]⟩

abbrev nBuf : Space → Nat
  | .hbm => 366
  | .vmem => 0
  | .smem => 0
  | _ => 0

abbrev hbmTy0_0 (i : Nat) : BufTy := match i % 128 with
  | 0 => ⟨S50000x128, .f32⟩
  | 1 => ⟨S50000x128, .f32⟩
  | 2 => ⟨S800000, .i32⟩
  | 3 => ⟨S800000, .i32⟩
  | 4 => ⟨S800000, .i32⟩
  | 5 => ⟨S800000, .i32⟩
  | 6 => ⟨S128x64, .f32⟩
  | 7 => ⟨S64, .f32⟩
  | 8 => ⟨S128x64, .f32⟩
  | 9 => ⟨S64, .f32⟩
  | 10 => ⟨S384x64, .f32⟩
  | 11 => ⟨S64, .f32⟩
  | 12 => ⟨S64x2, .f32⟩
  | 13 => ⟨S2, .f32⟩
  | 14 => ⟨S50000x64, .f32⟩
  | 15 => ⟨S1x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S_, .f32⟩
  | 22 => ⟨S50000, .f32⟩
  | 23 => ⟨S_, .f32⟩
  | 24 => ⟨S800000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S_, .f32⟩
  | 39 => ⟨S50000, .f32⟩
  | 40 => ⟨S50000, .f32⟩
  | 41 => ⟨S50000x1, .f32⟩
  | 42 => ⟨S_, .f32⟩
  | 43 => ⟨S50000x64, .f32⟩
  | 44 => ⟨S50000x64, .f32⟩
  | 45 => ⟨S50000x64, .f32⟩
  | 46 => ⟨S50000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S50000x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S50000x64, .f32⟩
  | 67 => ⟨S50000x64, .f32⟩
  | 68 => ⟨S50000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S_, .f32⟩
  | 79 => ⟨S50000x64, .f32⟩
  | 80 => ⟨S800000x1, .i32⟩
  | 81 => ⟨S50000x64, .f32⟩
  | 82 => ⟨S50000x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S50000x64, .f32⟩
  | 93 => ⟨S50000x64, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S_, .f32⟩
  | 104 => ⟨S50000x64, .f32⟩
  | 105 => ⟨S800000x1, .i32⟩
  | 106 => ⟨S50000x64, .f32⟩
  | 107 => ⟨S50000x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x64, .f32⟩
  | 114 => ⟨S50000x64, .f32⟩
  | 115 => ⟨S50000x64, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x64, .f32⟩
  | 125 => ⟨S_, .f32⟩
  | 126 => ⟨S50000x64, .f32⟩
  | 127 => ⟨S800000x1, .i32⟩
  | _ => ⟨S50000x128, .f32⟩

abbrev hbmTy0_1 (i : Nat) : BufTy := match i % 128 with
  | 0 => ⟨S50000x64, .f32⟩
  | 1 => ⟨S50000x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S50000x64, .f32⟩
  | 8 => ⟨S_, .f32⟩
  | 9 => ⟨S50000x64, .f32⟩
  | 10 => ⟨S50000x64, .f32⟩
  | 11 => ⟨S50000x64, .f32⟩
  | 12 => ⟨S50000x64, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x64, .f32⟩
  | 22 => ⟨S_, .f32⟩
  | 23 => ⟨S50000x64, .f32⟩
  | 24 => ⟨S800000x1, .i32⟩
  | 25 => ⟨S50000x64, .f32⟩
  | 26 => ⟨S50000x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x64, .f32⟩
  | 33 => ⟨S50000x64, .f32⟩
  | 34 => ⟨S50000x64, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S50000x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S50000x192, .f32⟩
  | 56 => ⟨S50000x64, .f32⟩
  | 57 => ⟨S1x64, .f32⟩
  | 58 => ⟨S50000x64, .f32⟩
  | 59 => ⟨S50000x64, .f32⟩
  | 60 => ⟨S_, .f32⟩
  | 61 => ⟨S50000x64, .f32⟩
  | 62 => ⟨S50000x64, .f32⟩
  | 63 => ⟨S_, .f32⟩
  | 64 => ⟨S50000, .f32⟩
  | 65 => ⟨S_, .f32⟩
  | 66 => ⟨S800000, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S50000, .f32⟩
  | 76 => ⟨S_, .f32⟩
  | 77 => ⟨S_, .f32⟩
  | 78 => ⟨S50000, .f32⟩
  | 79 => ⟨S50000, .f32⟩
  | 80 => ⟨S_, .f32⟩
  | 81 => ⟨S50000, .f32⟩
  | 82 => ⟨S50000, .f32⟩
  | 83 => ⟨S50000x1, .f32⟩
  | 84 => ⟨S_, .f32⟩
  | 85 => ⟨S50000x64, .f32⟩
  | 86 => ⟨S50000x64, .f32⟩
  | 87 => ⟨S50000x64, .f32⟩
  | 88 => ⟨S50000x64, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S_, .f32⟩
  | 99 => ⟨S50000x64, .f32⟩
  | 100 => ⟨S800000x1, .i32⟩
  | 101 => ⟨S50000x64, .f32⟩
  | 102 => ⟨S50000x64, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S50000x64, .f32⟩
  | 109 => ⟨S50000x64, .f32⟩
  | 110 => ⟨S50000x64, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S_, .f32⟩
  | 121 => ⟨S50000x64, .f32⟩
  | 122 => ⟨S800000x1, .i32⟩
  | 123 => ⟨S50000x64, .f32⟩
  | 124 => ⟨S50000x64, .f32⟩
  | 125 => ⟨S50000x64, .f32⟩
  | 126 => ⟨S50000x64, .f32⟩
  | 127 => ⟨S_, .f32⟩
  | _ => ⟨S50000x128, .f32⟩

abbrev hbmTy0_2 (i : Nat) : BufTy := match i % 128 with
  | 0 => ⟨S50000x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S50000x64, .f32⟩
  | 7 => ⟨S50000x64, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S50000x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S50000x64, .f32⟩
  | 29 => ⟨S50000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .f32⟩
  | 40 => ⟨S50000x64, .f32⟩
  | 41 => ⟨S800000x1, .i32⟩
  | 42 => ⟨S50000x64, .f32⟩
  | 43 => ⟨S50000x64, .f32⟩
  | 44 => ⟨S50000x64, .f32⟩
  | 45 => ⟨S50000x64, .f32⟩
  | 46 => ⟨S_, .f32⟩
  | 47 => ⟨S50000x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S50000x64, .f32⟩
  | 54 => ⟨S50000x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S50000x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S50000x64, .f32⟩
  | 76 => ⟨S50000x64, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S_, .f32⟩
  | 87 => ⟨S50000x64, .f32⟩
  | 88 => ⟨S800000x1, .i32⟩
  | 89 => ⟨S50000x64, .f32⟩
  | 90 => ⟨S50000x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S50000x64, .f32⟩
  | 97 => ⟨S50000x192, .f32⟩
  | 98 => ⟨S50000x384, .f32⟩
  | 99 => ⟨S50000x64, .f32⟩
  | 100 => ⟨S1x64, .f32⟩
  | 101 => ⟨S50000x64, .f32⟩
  | 102 => ⟨S50000x64, .f32⟩
  | 103 => ⟨S_, .f32⟩
  | 104 => ⟨S50000x64, .f32⟩
  | 105 => ⟨S50000x64, .f32⟩
  | 106 => ⟨S50000x2, .f32⟩
  | 107 => ⟨S1x2, .f32⟩
  | 108 => ⟨S50000x2, .f32⟩
  | 109 => ⟨S50000x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_c_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_9 : Ref sig .tc := ⟨.hbm, 69, rfl⟩
abbrev main_v40 : Ref sig .tc := ⟨.hbm, 70, rfl⟩
abbrev main_v41 : Ref sig .tc := ⟨.hbm, 71, rfl⟩
abbrev main_c_10 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_14 : Ref sig .tc := ⟨.hbm, 94, rfl⟩
abbrev main_v60 : Ref sig .tc := ⟨.hbm, 95, rfl⟩
abbrev main_v61 : Ref sig .tc := ⟨.hbm, 96, rfl⟩
abbrev main_c_15 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_16 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_17 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_18 : Ref sig .tc := ⟨.hbm, 116, rfl⟩
abbrev main_v78 : Ref sig .tc := ⟨.hbm, 117, rfl⟩
abbrev main_v79 : Ref sig .tc := ⟨.hbm, 118, rfl⟩
abbrev main_c_19 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_20 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_21 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_22 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_23 : Ref sig .tc := ⟨.hbm, 141, rfl⟩
abbrev main_v98 : Ref sig .tc := ⟨.hbm, 142, rfl⟩
abbrev main_v99 : Ref sig .tc := ⟨.hbm, 143, rfl⟩
abbrev main_c_24 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_25 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_26 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_c_27 : Ref sig .tc := ⟨.hbm, 163, rfl⟩
abbrev main_v116 : Ref sig .tc := ⟨.hbm, 164, rfl⟩
abbrev main_v117 : Ref sig .tc := ⟨.hbm, 165, rfl⟩
abbrev main_c_28 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_29 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_30 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_call2_cst : Ref sig .tc := ⟨.hbm, 188, rfl⟩
abbrev main_call2_v0 : Ref sig .tc := ⟨.hbm, 189, rfl⟩
abbrev main_v137 : Ref sig .tc := ⟨.hbm, 190, rfl⟩
abbrev main_cst_31 : Ref sig .tc := ⟨.hbm, 191, rfl⟩
abbrev main_v138 : Ref sig .tc := ⟨.hbm, 192, rfl⟩
abbrev main_cst_32 : Ref sig .tc := ⟨.hbm, 193, rfl⟩
abbrev main_v139 : Ref sig .tc := ⟨.hbm, 194, rfl⟩
abbrev main_c_33 : Ref sig .tc := ⟨.hbm, 195, rfl⟩
abbrev main_v140 : Ref sig .tc := ⟨.hbm, 196, rfl⟩
abbrev main_v141 : Ref sig .tc := ⟨.hbm, 197, rfl⟩
abbrev main_c_34 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_35 : Ref sig .tc := ⟨.hbm, 204, rfl⟩
abbrev main_call3_v0 : Ref sig .tc := ⟨.hbm, 205, rfl⟩
abbrev main_call3_v1 : Ref sig .tc := ⟨.hbm, 206, rfl⟩
abbrev main_v147 : Ref sig .tc := ⟨.hbm, 207, rfl⟩
abbrev main_cst_36 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_cst_37 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_c_38 : Ref sig .tc := ⟨.hbm, 217, rfl⟩
abbrev main_v155 : Ref sig .tc := ⟨.hbm, 218, rfl⟩
abbrev main_v156 : Ref sig .tc := ⟨.hbm, 219, rfl⟩
abbrev main_c_39 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_cst_40 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_cst_41 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_c_42 : Ref sig .tc := ⟨.hbm, 239, rfl⟩
abbrev main_v173 : Ref sig .tc := ⟨.hbm, 240, rfl⟩
abbrev main_v174 : Ref sig .tc := ⟨.hbm, 241, rfl⟩
abbrev main_c_43 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_cst_44 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_cst_45 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_cst_46 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_c_47 : Ref sig .tc := ⟨.hbm, 264, rfl⟩
abbrev main_v193 : Ref sig .tc := ⟨.hbm, 265, rfl⟩
abbrev main_v194 : Ref sig .tc := ⟨.hbm, 266, rfl⟩
abbrev main_c_48 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_cst_49 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_cst_50 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_c_51 : Ref sig .tc := ⟨.hbm, 286, rfl⟩
abbrev main_v211 : Ref sig .tc := ⟨.hbm, 287, rfl⟩
abbrev main_v212 : Ref sig .tc := ⟨.hbm, 288, rfl⟩
abbrev main_c_52 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_cst_53 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_cst_54 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_cst_55 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_c_56 : Ref sig .tc := ⟨.hbm, 311, rfl⟩
abbrev main_v231 : Ref sig .tc := ⟨.hbm, 312, rfl⟩
abbrev main_v232 : Ref sig .tc := ⟨.hbm, 313, rfl⟩
abbrev main_c_57 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_cst_58 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_cst_59 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_c_60 : Ref sig .tc := ⟨.hbm, 333, rfl⟩
abbrev main_v249 : Ref sig .tc := ⟨.hbm, 334, rfl⟩
abbrev main_v250 : Ref sig .tc := ⟨.hbm, 335, rfl⟩
abbrev main_c_61 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_cst_62 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_cst_63 : Ref sig .tc := ⟨.hbm, 349, rfl⟩
abbrev main_v262 : Ref sig .tc := ⟨.hbm, 350, rfl⟩
abbrev main_v263 : Ref sig .tc := ⟨.hbm, 351, rfl⟩
abbrev main_v264 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_v270 : Ref sig .tc := ⟨.hbm, 358, rfl⟩
abbrev main_call4_cst : Ref sig .tc := ⟨.hbm, 359, rfl⟩
abbrev main_call4_v0 : Ref sig .tc := ⟨.hbm, 360, rfl⟩
abbrev main_v271 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_v275 : Ref sig .tc := ⟨.hbm, 365, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  concatenates_S50000x192_S50000x192_S50000x384_d1 : Shape.Concatenates [S50000x192, S50000x192] S50000x384 1
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x128_S128x64_S50000x64_1_0_0_1_n_n_wf : DotDims.WF S50000x128 S128x64 S50000x64 [1] [0] [0] [1] [] []
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x384_S384x64_S50000x64_1_0_0_1_n_n_wf : DotDims.WF S50000x384 S384x64 S50000x64 [1] [0] [0] [1] [] []
  dot_S50000x64_S64x2_S50000x2_1_0_0_1_n_n_wf : DotDims.WF S50000x64 S64x2 S50000x2 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x384_S384x64_S50000x64_1_0_0_1_n_n : DotDims S50000x384 S384x64 S50000x64 where
  lhsContracting := [1]
  rhsContracting := [0]
  lhsNonContracting := [0]
  rhsNonContracting := [1]
  lhsBatch := []
  rhsBatch := []
  wf := dot_S50000x384_S384x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.K.Reg0.lean ====
/- The region half of pipeline 0 of @main (custom_call 0, `cc0__linear_relu_scale_kernel`), at a PARAMETER `V` — the
   TensorCore's buffer contents when the region is entered —: each window's block at a point (`iblk0`), what the body
   leaves in each output window's buffer (`out0_4`, `out0_5`), the body's triple (`sound_kernel0`), the proof data
   (`dat0`) and the body obligation (`body_obligation0`). -/
import proofs.«134461_j6124623364543_2_alg».proof.Proof.Gen.Kernel.Launch
import proofs.«134461_j6124623364543_2_alg».proof.Proof.Gen.Kernel.Skeleton
import proofs.«134461_j6124623364543_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # REGION 0 of @main: custom_call 0, `cc0__linear_relu_scale_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S2000x1 := Rect.unit (s := S2000x1) ![0, 0] S2000x1.size inb_S2000x1_S2000x1_0_0
abbrev r0_4 : Rect S2000x64 := Rect.unit (s := S2000x64) ![0, 0] S2000x64.size inb_S2000x64_S2000x64_0_0

/-! ## What the body leaves in each output window's buffer -/

/-- Window 4's staging buffer after the body, from the input windows' blocks: its one store as a piece (the payload
    is the skeleton's). -/
def out0_4 (x0 : Vec F S2000x128 .f32) (x1 : Vec F S128x64 .f32) (x2 : Vec F S1x64 .f32) : Vec F S2000x64 .f32 :=
  View.canon [⟨r0_4, k0_pay1 (View.ld x0 r0_0) (View.ld x1 r0_1) (View.ld x2 r0_2)⟩]

/-- Window 5's staging buffer after the body, from the input windows' blocks: its one store as a piece. -/
def out0_5 (x0 : Vec F S2000x128 .f32) (x1 : Vec F S128x64 .f32) (x2 : Vec F S1x64 .f32) (x3 : Vec F S2000x1 .f32) : Vec F S2000x64 .bf16 :=
  View.canon [⟨r0_4, k0_pay2 (View.ld x0 r0_0) (View.ld x1 r0_1) (View.ld x2 r0_2) (View.ld x3 r0_3)⟩]

/-- The single whole-block store tiles the buffer, so it covers it. -/
theorem cover0_4 (p0 : Vec F S2000x64 .f32) (y : S2000x64.Idx) :
    ∃ pc ∈ ([⟨r0_4, p0⟩] : List (View.Piece (Elt F) S2000x64 .f32)), y ∈ pc.1.set :=
  View.cover_of_tiled [⟨r0_4, p0⟩] S2000x64.size (by rfl) y

theorem cover0_5 (p0 : Vec F S2000x64 .bf16) (y : S2000x64.Idx) :
    ∃ pc ∈ ([⟨r0_4, p0⟩] : List (View.Piece (Elt F) S2000x64 .bf16)), y ∈ pc.1.set :=
  View.cover_of_tiled [⟨r0_4, p0⟩] S2000x64.size (by rfl) y

/-! ## The body's triple -/

set_option maxHeartbeats 1000000 in
/-- The kernel body on whole staging memrefs, the inputs' at read contents `xW` and the outputs' at anything, runs to
    the continuation holding the inputs' as they were and each output's at `out0_W` of the inputs': the printed function
    is its skeleton, whose loads, stores and payloads are run one by one. -/
theorem sound_kernel0 (c : Dev nD) (E : Set ℕ) (i : grid0.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S2000x1 .f32) (harg4 : arg4.IsWhole)
    (arg5 : Memref sig .tc .vmem S2000x64 .f32) (harg5 : arg5.IsWhole) (arg6 : Memref sig .tc .vmem S2000x64 .bf16) (harg6 : arg6.IsWhole)
    (x0 : Vec F S2000x128 .f32) (x1 : Vec F S128x64 .f32) (x2 : Vec F S1x64 .f32) (x3 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2)
            ∗ owns (c : Thread nD τ) arg6 fullShare (out0_5 x0 x1 x2 x3)) -∗ K ⟨⟩))
      ⊢ wp frame (wpE (defs₀ (F := F)) Variants.none c none) E (cc0__linear_relu_scale_kernel i arg1 harg1 arg2 harg2 arg3 harg3 arg4 harg4 arg5 harg5 arg6 harg6) K := by
  simp only [cc0__linear_relu_scale_kernel_eq_skeleton]; unfold cc0__linear_relu_scale_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions
end Cert.Kernel.H
end
-- ==== Proof.K.Reg1.lean ====
/- The class-A half of region 1 of @main (custom_call 1, pipeline 1), at a parameter `V`: the TensorCore's buffer
   contents when the region is entered. Each window's block at a point (`iblk1`), what the body leaves in each
   output window's buffer as a function of the input blocks (`out1_3`, `out1_4`), the body's triple
   (`sound_kernel1`), the pipeline's proof data (`dat1`) and the body obligation (`body_obligation1`). -/
import proofs.«134461_j6124623364543_2_alg».proof.Proof.Gen.Kernel.Launch
import proofs.«134461_j6124623364543_2_alg».proof.Proof.Gen.Kernel.Skeleton
import proofs.«134461_j6124623364543_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): the window is uncut and
    never idle, and unfetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000x64 block: every 2000x64 load and store of the body goes through it. -/
abbrev r1_0 : Rect S2000x64 := Rect.unit (s := S2000x64) ![0, 0] S2000x64.size inb_S2000x64_S2000x64_0_0
/-- The whole 2000x1 block: the load of the per-row factor. -/
abbrev r1_1 : Rect S2000x1 := Rect.unit (s := S2000x1) ![0, 0] S2000x1.size inb_S2000x1_S2000x1_0_0

/-! ## What the body leaves in each output window's buffer -/

/-- Window 3's staging buffer after the body, from the input windows' blocks: its one store, of the whole block. -/
def out1_3 (x0 : Vec F S2000x64 .f32) (x1 : Vec F S2000x1 .f32) (x2 : Vec F S2000x64 .f32) : Vec F S2000x64 .f32 :=
  View.canon [⟨r1_0, k1_pay2 (View.ld x0 r1_0) (View.ld x1 r1_1) (View.ld x2 r1_0)⟩]

/-- Its store is of the whole block, so it covers the buffer. -/
theorem cover1_3 (p0 : Vec F S2000x64 .f32) (y : S2000x64.Idx) :
    ∃ pc ∈ ([⟨r1_0, p0⟩] : List (View.Piece (Elt F) S2000x64 .f32)), y ∈ pc.1.set :=
  View.cover_of_tiled [⟨r1_0, p0⟩] S2000x64.size (by rfl) y

/-- Window 4's staging buffer after the body, from the input windows' blocks: its one store, of the whole block. -/
def out1_4 (x0 : Vec F S2000x64 .f32) (x1 : Vec F S2000x1 .f32) (x2 : Vec F S2000x64 .f32) : Vec F S2000x64 .bf16 :=
  View.canon [⟨r1_0, k1_pay3 (View.ld x0 r1_0) (View.ld x1 r1_1) (View.ld x2 r1_0)⟩]

/-- Its store is of the whole block, so it covers the buffer. -/
theorem cover1_4 (p0 : Vec F S2000x64 .bf16) (y : S2000x64.Idx) :
    ∃ pc ∈ ([⟨r1_0, p0⟩] : List (View.Piece (Elt F) S2000x64 .bf16)), y ∈ pc.1.set :=
  View.cover_of_tiled [⟨r1_0, p0⟩] S2000x64.size (by rfl) y

/-! ## The body's triple -/

set_option maxHeartbeats 1000000 in
/-- The kernel body on whole staging memrefs, the inputs' at read contents `xW` and the outputs' at anything, runs to
    the continuation holding the inputs' as they were and each output's at `out1_W` of the inputs': the printed
    function is its skeleton of loads and stores, run one memory operation at a time; the two loads of the output
    buffers read values no payload uses. -/
theorem sound_kernel1 (c : Dev nD) (E : Set ℕ) (i : grid1.Coords) (arg1 : Memref sig .tc .vmem S2000x64 .f32) (harg1 : arg1.IsWhole) (arg2 : Memref sig .tc .vmem S2000x1 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .bf16) (harg5 : arg5.IsWhole)
    (x0 : Vec F S2000x64 .f32) (x1 : Vec F S2000x1 .f32) (x2 : Vec F S2000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__prop_step_kernel i arg1 harg1 arg2 harg2 arg3 harg3 arg4 harg4 arg5 harg5) K := by
  simp only [cc1__prop_step_kernel_eq_skeleton]; unfold cc1__prop_step_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.H

end
-- ==== Proof.K.Reg2.lean ====
/- The class-A half of region 2 of @main (custom_call 2, pipeline 2), at a parameter `V`: the TensorCore's buffer
   contents when the region is entered. Each window's block at a point (`iblk2`), what the body leaves in each
   output window's buffer as a function of the input blocks (`out2_3`, `out2_4`), the body's triple
   (`sound_kernel2`), the pipeline's proof data (`dat2`) and the body obligation (`body_obligation2`). -/
import proofs.«134461_j6124623364543_2_alg».proof.Proof.Gen.Kernel.Launch
import proofs.«134461_j6124623364543_2_alg».proof.Proof.Gen.Kernel.Skeleton
import proofs.«134461_j6124623364543_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): the window is uncut and
    never idle, and unfetched the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same of input window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 2000x64 block: every 2000x64 load and store of the body goes through it. -/
abbrev r2_0 : Rect S2000x64 := Rect.unit (s := S2000x64) ![0, 0] S2000x64.size inb_S2000x64_S2000x64_0_0
/-- The whole 2000x1 block: the load of the per-row factor. -/
abbrev r2_1 : Rect S2000x1 := Rect.unit (s := S2000x1) ![0, 0] S2000x1.size inb_S2000x1_S2000x1_0_0

/-! ## What the body leaves in each output window's buffer -/

/-- Window 3's staging buffer after the body, from the input windows' blocks: its one store, of the whole block. -/
def out2_3 (x0 : Vec F S2000x64 .f32) (x1 : Vec F S2000x1 .f32) (x2 : Vec F S2000x64 .f32) : Vec F S2000x64 .f32 :=
  View.canon [⟨r2_0, k2_pay2 (View.ld x0 r2_0) (View.ld x1 r2_1) (View.ld x2 r2_0)⟩]

/-- Its store is of the whole block, so it covers the buffer. -/
theorem cover2_3 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-- Window 4's staging buffer after the body, from the input windows' blocks: its one store, of the whole block. -/
def out2_4 (x0 : Vec F S2000x64 .f32) (x1 : Vec F S2000x1 .f32) (x2 : Vec F S2000x64 .f32) : Vec F S2000x64 .bf16 :=
  View.canon [⟨r2_0, k2_pay3 (View.ld x0 r2_0) (View.ld x1 r2_1) (View.ld x2 r2_0)⟩]

/-- Its store is of the whole block, so it covers the buffer. -/
theorem cover2_4 (p0 : Vec F S2000x64 .bf16) (y : S2000x64.Idx) :
    ∃ pc ∈ ([⟨r2_0, p0⟩] : List (View.Piece (Elt F) S2000x64 .bf16)), y ∈ pc.1.set :=
  View.cover_of_tiled [⟨r2_0, p0⟩] S2000x64.size (by rfl) y

/-! ## The body's triple -/

set_option maxHeartbeats 1000000 in
/-- The kernel body on whole staging memrefs, the inputs' at read contents `xW` and the outputs' at anything, runs to
    the continuation holding the inputs' as they were and each output's at `out2_W` of the inputs': the printed
    function is its skeleton of loads and stores, run one memory operation at a time; the two loads of the output
    buffers read values no payload uses. -/
theorem sound_kernel2 (c : Dev nD) (E : Set ℕ) (i : grid2.Coords) (arg1 : Memref sig .tc .vmem S2000x64 .f32) (harg1 : arg1.IsWhole) (arg2 : Memref sig .tc .vmem S2000x1 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .bf16) (harg5 : arg5.IsWhole)
    (x0 : Vec F S2000x64 .f32) (x1 : Vec F S2000x1 .f32) (x2 : Vec F S2000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2) ∗ owns (c : Thread nD τ) arg5 fullShare (out2_4 x0 x1 x2)) -∗ K ⟨⟩))
      ⊢ wp frame (wpE (defs₀ (F := F)) Variants.none c none) E (cc2__prop_step_kernel i arg1 harg1 arg2 harg2 arg3 harg3 arg4 harg4 arg5 harg5) K := by
  simp only [cc2__prop_step_kernel_eq_skeleton]; unfold cc2__prop_step_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant the
    class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.H

end
-- ==== Proof.K.Reg3.lean ====
/- The region half of pipeline 3 of @main (custom_call 3, `cc3__linear_relu_scale_kernel`), at a PARAMETER `V` — the
   TensorCore's buffer contents when the region is entered —: each window's block at a point (`iblk3`), what the body
   leaves in each output window's buffer (`out3_4`, `out3_5`), the body's triple (`sound_kernel3`), the proof data
   (`dat3`) and the body obligation (`body_obligation3`). -/
import proofs.«134461_j6124623364543_2_alg».proof.Proof.Gen.Kernel.Launch
import proofs.«134461_j6124623364543_2_alg».proof.Proof.Gen.Kernel.Skeleton
import proofs.«134461_j6124623364543_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # REGION 3 of @main: custom_call 3, `cc3__linear_relu_scale_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for ANY proof
    data whose array is `V`'s (`hA`) and whose body leaves the block in place (`hafter`): unfetched, the block index
    has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for ANY proof
    data whose array is `V`'s (`hA`) and whose body leaves the block in place (`hafter`): unfetched, the block index
    has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for ANY proof
    data whose array is `V`'s (`hA`) and whose body leaves the block in place (`hafter`): unfetched, the block index
    has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S2000x128 := Rect.unit (s := S2000x128) ![0, 0] S2000x128.size inb_S2000x128_S2000x128_0_0
abbrev r3_1 : Rect S128x64 := Rect.unit (s := S128x64) ![0, 0] S128x64.size inb_S128x64_S128x64_0_0
abbrev r3_2 : Rect S1x64 := Rect.unit (s := S1x64) ![0, 0] S1x64.size inb_S1x64_S1x64_0_0
abbrev r3_3 : Rect S2000x1 := Rect.unit (s := S2000x1) ![0, 0] S2000x1.size inb_S2000x1_S2000x1_0_0
abbrev r3_4 : Rect S2000x64 := Rect.unit (s := S2000x64) ![0, 0] S2000x64.size inb_S2000x64_S2000x64_0_0

/-! ## What the body leaves in each output window's buffer -/

/-- Window 4's staging buffer after the body, from the input windows' blocks: its one store as a piece (the payload
    is the skeleton's). -/
def out3_4 (x0 : Vec F S2000x128 .f32) (x1 : Vec F S128x64 .f32) (x2 : Vec F S1x64 .f32) : Vec F S2000x64 .f32 :=
  View.canon [⟨r3_4, k3_pay1 (View.ld x0 r3_0) (View.ld x1 r3_1) (View.ld x2 r3_2)⟩]

/-- Window 5's staging buffer after the body, from the input windows' blocks: its one store as a piece. -/
def out3_5 (x0 : Vec F S2000x128 .f32) (x1 : Vec F S128x64 .f32) (x2 : Vec F S1x64 .f32) (x3 : Vec F S2000x1 .f32) : Vec F S2000x64 .bf16 :=
  View.canon [⟨r3_4, k3_pay2 (View.ld x0 r3_0) (View.ld x1 r3_1) (View.ld x2 r3_2) (View.ld x3 r3_3)⟩]

/-- The single whole-block store tiles the buffer, so it covers it. -/
theorem cover3_4 (p0 : Vec F S2000x64 .f32) (y : S2000x64.Idx) :
    ∃ pc ∈ ([⟨r3_4, p0⟩] : List (View.Piece (Elt F) S2000x64 .f32)), y ∈ pc.1.set :=
  View.cover_of_tiled [⟨r3_4, p0⟩] S2000x64.size (by rfl) y

theorem cover3_5 (p0 : Vec F S2000x64 .bf16) (y : S2000x64.Idx) :
    ∃ pc ∈ ([⟨r3_4, p0⟩] : List (View.Piece (Elt F) S2000x64 .bf16)), y ∈ pc.1.set :=
  View.cover_of_tiled [⟨r3_4, p0⟩] S2000x64.size (by rfl) y

/-! ## The body's triple -/

set_option maxHeartbeats 1000000 in
/-- The kernel body on whole staging memrefs, the inputs' at read contents `xW` and the outputs' at anything, runs to
    the continuation holding the inputs' as they were and each output's at `out3_W` of the inputs': the printed function
    is its skeleton, whose loads, stores and payloads are run one by one. -/
theorem sound_kernel3 (c : Dev nD) (E : Set ℕ) (i : grid3.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S2000x1 .f32) (harg4 : arg4.IsWhole)
    (arg5 : Memref sig .tc .vmem S2000x64 .f32) (harg5 : arg5.IsWhole) (arg6 : Memref sig .tc .vmem S2000x64 .bf16) (harg6 : arg6.IsWhole)
    (x0 : Vec F S2000x128 .f32) (x1 : Vec F S128x64 .f32) (x2 : Vec F S1x64 .f32) (x3 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2)
            ∗ owns (c : Thread nD τ) arg6 fullShare (out3_5 x0 x1 x2 x3)) -∗ K ⟨⟩))
      ⊢ wp frame (wpE (defs₀ (F := F)) Variants.none c none) E (cc3__linear_relu_scale_kernel i arg1 harg1 arg2 harg2 arg3 harg3 arg4 harg4 arg5 harg5 arg6 harg6) K := by
  simp only [cc3__linear_relu_scale_kernel_eq_skeleton]; unfold cc3__linear_relu_scale_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and each output's at `out3_W` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t)
    | ⟨5, _⟩ => out3_5 (iblk3 V c 0 t) (iblk3 V c 1 t) (iblk3 V c 2 t) (iblk3 V c 3 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) := by dsimp only [dat3]
theorem after3_5 (c : Dev nD) (t : Fin cfg3.N) :
    (dat3 V c).after 5 t = out3_5 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions
end Cert.Kernel.H
end
-- ==== Proof.K.Reg4.lean ====
/- The class-A half of region 4 of @main (custom_call 4, pipeline 4), at a parameter `V`: the TensorCore's buffer
   contents when the region is entered. Each window's block at a point (`iblk4`), what the body leaves in each
   output window's buffer as a function of the input blocks (`out4_3`, `out4_4`), the body's triple
   (`sound_kernel4`), the pipeline's proof data (`dat4`) and the body obligation (`body_obligation4`). -/
import proofs.«134461_j6124623364543_2_alg».proof.Proof.Gen.Kernel.Launch
import proofs.«134461_j6124623364543_2_alg».proof.Proof.Gen.Kernel.Skeleton
import proofs.«134461_j6124623364543_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): the window is uncut and
    never idle, and unfetched the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same of input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same of input window 2. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 2000x64 block: every 2000x64 load and store of the body goes through it. -/
abbrev r4_0 : Rect S2000x64 := Rect.unit (s := S2000x64) ![0, 0] S2000x64.size inb_S2000x64_S2000x64_0_0
/-- The whole 2000x1 block: the load of the per-row factor. -/
abbrev r4_1 : Rect S2000x1 := Rect.unit (s := S2000x1) ![0, 0] S2000x1.size inb_S2000x1_S2000x1_0_0

/-! ## What the body leaves in each output window's buffer -/

/-- Window 3's staging buffer after the body, from the input windows' blocks: its one store, of the whole block. -/
def out4_3 (x0 : Vec F S2000x64 .f32) (x1 : Vec F S2000x1 .f32) (x2 : Vec F S2000x64 .f32) : Vec F S2000x64 .f32 :=
  View.canon [⟨r4_0, k4_pay2 (View.ld x0 r4_0) (View.ld x1 r4_1) (View.ld x2 r4_0)⟩]

/-- Its store is of the whole block, so it covers the buffer. -/
theorem cover4_3 (p0 : Vec F S2000x64 .f32) (y : S2000x64.Idx) :
    ∃ pc ∈ ([⟨r4_0, p0⟩] : List (View.Piece (Elt F) S2000x64 .f32)), y ∈ pc.1.set :=
  View.cover_of_tiled [⟨r4_0, p0⟩] S2000x64.size (by rfl) y

/-- Window 4's staging buffer after the body, from the input windows' blocks: its one store, of the whole block. -/
def out4_4 (x0 : Vec F S2000x64 .f32) (x1 : Vec F S2000x1 .f32) (x2 : Vec F S2000x64 .f32) : Vec F S2000x64 .bf16 :=
  View.canon [⟨r4_0, k4_pay3 (View.ld x0 r4_0) (View.ld x1 r4_1) (View.ld x2 r4_0)⟩]

/-- Its store is of the whole block, so it covers the buffer. -/
theorem cover4_4 (p0 : Vec F S2000x64 .bf16) (y : S2000x64.Idx) :
    ∃ pc ∈ ([⟨r4_0, p0⟩] : List (View.Piece (Elt F) S2000x64 .bf16)), y ∈ pc.1.set :=
  View.cover_of_tiled [⟨r4_0, p0⟩] S2000x64.size (by rfl) y

/-! ## The body's triple -/

set_option maxHeartbeats 1000000 in
/-- The kernel body on whole staging memrefs, the inputs' at read contents `xW` and the outputs' at anything, runs to
    the continuation holding the inputs' as they were and each output's at `out4_W` of the inputs': the printed
    function is its skeleton of loads and stores, run one memory operation at a time; the two loads of the output
    buffers read values no payload uses. -/
theorem sound_kernel4 (c : Dev nD) (E : Set ℕ) (i : grid4.Coords) (arg1 : Memref sig .tc .vmem S2000x64 .f32) (harg1 : arg1.IsWhole) (arg2 : Memref sig .tc .vmem S2000x1 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .bf16) (harg5 : arg5.IsWhole)
    (x0 : Vec F S2000x64 .f32) (x1 : Vec F S2000x1 .f32) (x2 : Vec F S2000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2) ∗ owns (c : Thread nD τ) arg5 fullShare (out4_4 x0 x1 x2)) -∗ K ⟨⟩))
      ⊢ wp frame (wpE (defs₀ (F := F)) Variants.none c none) E (cc4__prop_step_kernel i arg1 harg1 arg2 harg2 arg3 harg3 arg4 harg4 arg5 harg5) K := by
  simp only [cc4__prop_step_kernel_eq_skeleton]; unfold cc4__prop_step_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  iexists _; isplitr
  swap; · iexact H4
  ipureintro
  exact View.read_writes_eq_canon _ _ _ (cover4_4 _)

/-! ## The pipeline's proof data -/

/-- The proof data of pipeline 4 on core `c`: the arrays as the region finds them (`V`); after the body at
    point `t` each input's buffer at its block and each output's at `out4_W` of the input blocks; the invariant the
    class's (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => out4_4 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = out4_4 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.H

end
-- ==== Proof.K.Reg5.lean ====
/- The class-A half of region 5 of @main (custom_call 5, pipeline 5), at a parameter `V`: the TensorCore's buffer
   contents when the region is entered. Each window's block at a point (`iblk5`), what the body leaves in each
   output window's buffer as a function of the input blocks (`out5_3`, `out5_4`), the body's triple
   (`sound_kernel5`), the pipeline's proof data (`dat5`) and the body obligation (`body_obligation5`). -/
import proofs.«134461_j6124623364543_2_alg».proof.Proof.Gen.Kernel.Launch
import proofs.«134461_j6124623364543_2_alg».proof.Proof.Gen.Kernel.Skeleton
import proofs.«134461_j6124623364543_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): the window is uncut and
    never idle, and unfetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same of input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The same of input window 2. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 2000x64 block: every 2000x64 load and store of the body goes through it. -/
abbrev r5_0 : Rect S2000x64 := Rect.unit (s := S2000x64) ![0, 0] S2000x64.size inb_S2000x64_S2000x64_0_0
/-- The whole 2000x1 block: the load of the per-row factor. -/
abbrev r5_1 : Rect S2000x1 := Rect.unit (s := S2000x1) ![0, 0] S2000x1.size inb_S2000x1_S2000x1_0_0

/-! ## What the body leaves in each output window's buffer -/

/-- Window 3's staging buffer after the body, from the input windows' blocks: its one store, of the whole block. -/
def out5_3 (x0 : Vec F S2000x64 .f32) (x1 : Vec F S2000x1 .f32) (x2 : Vec F S2000x64 .f32) : Vec F S2000x64 .f32 :=
  View.canon [⟨r5_0, k5_pay2 (View.ld x0 r5_0) (View.ld x1 r5_1) (View.ld x2 r5_0)⟩]

/-- Its store is of the whole block, so it covers the buffer. -/
theorem cover5_3 (p0 : Vec F S2000x64 .f32) (y : S2000x64.Idx) :
    ∃ pc ∈ ([⟨r5_0, p0⟩] : List (View.Piece (Elt F) S2000x64 .f32)), y ∈ pc.1.set :=
  View.cover_of_tiled [⟨r5_0, p0⟩] S2000x64.size (by rfl) y

/-- Window 4's staging buffer after the body, from the input windows' blocks: its one store, of the whole block. -/
def out5_4 (x0 : Vec F S2000x64 .f32) (x1 : Vec F S2000x1 .f32) (x2 : Vec F S2000x64 .f32) : Vec F S2000x64 .bf16 :=
  View.canon [⟨r5_0, k5_pay3 (View.ld x0 r5_0) (View.ld x1 r5_1) (View.ld x2 r5_0)⟩]

/-- Its store is of the whole block, so it covers the buffer. -/
theorem cover5_4 (p0 : Vec F S2000x64 .bf16) (y : S2000x64.Idx) :
    ∃ pc ∈ ([⟨r5_0, p0⟩] : List (View.Piece (Elt F) S2000x64 .bf16)), y ∈ pc.1.set :=
  View.cover_of_tiled [⟨r5_0, p0⟩] S2000x64.size (by rfl) y

/-! ## The body's triple -/

set_option maxHeartbeats 1000000 in
/-- The kernel body on whole staging memrefs, the inputs' at read contents `xW` and the outputs' at anything, runs to
    the continuation holding the inputs' as they were and each output's at `out5_W` of the inputs': the printed
    function is its skeleton of loads and stores, run one memory operation at a time; the two loads of the output
    buffers read values no payload uses. -/
theorem sound_kernel5 (c : Dev nD) (E : Set ℕ) (i : grid5.Coords) (arg1 : Memref sig .tc .vmem S2000x64 .f32) (harg1 : arg1.IsWhole) (arg2 : Memref sig .tc .vmem S2000x1 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .bf16) (harg5 : arg5.IsWhole)
    (x0 : Vec F S2000x64 .f32) (x1 : Vec F S2000x1 .f32) (x2 : Vec F S2000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2) ∗ owns (c : Thread nD τ) arg5 fullShare (out5_4 x0 x1 x2)) -∗ K ⟨⟩))
      ⊢ wp frame (wpE (defs₀ (F := F)) Variants.none c none) E (cc5__prop_step_kernel i arg1 harg1 arg2 harg2 arg3 harg3 arg4 harg4 arg5 harg5) K := by
  simp only [cc5__prop_step_kernel_eq_skeleton]; unfold cc5__prop_step_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_3 _)
  iexists _; isplitr
  swap; · iexact H4
  ipureintro
  exact View.read_writes_eq_canon _ _ _ (cover5_4 _)

/-! ## The pipeline's proof data -/

/-- The proof data of pipeline 5 on core `c`: the arrays as the region finds them (`V`); after the body at
    point `t` each input's buffer at its block and each output's at `out5_W` of the input blocks; the invariant the
    class's (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
    | ⟨4, _⟩ => out5_4 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]
theorem after5_4 (c : Dev nD) (t : Fin cfg5.N) : (dat5 V c).after 4 t = out5_4 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.H

end
-- ==== Proof.K.Reg6.lean ====
import proofs.«134461_j6124623364543_2_alg».proof.Proof.Gen.Kernel.Launch
import proofs.«134461_j6124623364543_2_alg».proof.Proof.Gen.Kernel.Skeleton
import proofs.«134461_j6124623364543_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 6 of @main: custom_call 6, `cc6_kernel` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not, for any proof
    data whose array is `V`'s and whose body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, fetched there or not, for any proof
    data whose array is `V`'s and whose body leaves the block in place. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- Input window 8's current staging buffer holds its block at every point, fetched there or not, for any proof
    data whose array is `V`'s and whose body leaves the block in place. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-- Input window 9's current staging buffer holds its block at every point, fetched there or not, for any proof
    data whose array is `V`'s and whose body leaves the block in place. -/
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

-- a whole 2000x64 input block
abbrev r6_0 : Rect S2000x64 := Rect.unit (s := S2000x64) ![0, 0] S2000x64.size inb_S2000x64_S2000x64_0_0
-- the six 64-column slices of the 2000x384 scratch buffer
abbrev r6_1 : Rect S2000x384 := Rect.unit (s := S2000x384) ![0, 0] S2000x64.size inb_S2000x384_S2000x64_0_0
abbrev r6_2 : Rect S2000x384 := Rect.unit (s := S2000x384) ![0, 64] S2000x64.size inb_S2000x384_S2000x64_0_64
abbrev r6_3 : Rect S2000x384 := Rect.unit (s := S2000x384) ![0, 128] S2000x64.size inb_S2000x384_S2000x64_0_128
abbrev r6_4 : Rect S2000x384 := Rect.unit (s := S2000x384) ![0, 192] S2000x64.size inb_S2000x384_S2000x64_0_192
abbrev r6_5 : Rect S2000x384 := Rect.unit (s := S2000x384) ![0, 256] S2000x64.size inb_S2000x384_S2000x64_0_256
abbrev r6_6 : Rect S2000x384 := Rect.unit (s := S2000x384) ![0, 320] S2000x64.size inb_S2000x384_S2000x64_0_320
-- the whole 2000x384 buffer, and the whole weight, bias and result blocks
abbrev r6_7 : Rect S2000x384 := Rect.unit (s := S2000x384) ![0, 0] S2000x384.size inb_S2000x384_S2000x384_0_0
abbrev r6_8 : Rect S384x64 := Rect.unit (s := S384x64) ![0, 0] S384x64.size inb_S384x64_S384x64_0_0
abbrev r6_9 : Rect S1x64 := Rect.unit (s := S1x64) ![0, 0] S1x64.size inb_S1x64_S1x64_0_0
abbrev r6_10 : Rect S64x2 := Rect.unit (s := S64x2) ![0, 0] S64x2.size inb_S64x2_S64x2_0_0
abbrev r6_11 : Rect S1x2 := Rect.unit (s := S1x2) ![0, 0] S1x2.size inb_S1x2_S1x2_0_0
abbrev r6_12 : Rect S2000x2 := Rect.unit (s := S2000x2) ![0, 0] S2000x2.size inb_S2000x2_S2000x2_0_0

/-! ## What the body leaves in the scratch buffer and in each output window's buffer -/

/-- The six column slices the body stores into the scratch buffer, LAST FIRST, from the six 2000x64 input blocks. -/
def scrL6 (x0 x1 x2 x3 x4 x5 : Vec F S2000x64 .f32) : List (View.Piece (Elt F) S2000x384 .f32) :=
  [⟨r6_6, k6_pay1 (k6_pay14 (k6_pay6 (View.ld x3 r6_0)) (k6_pay7 (View.ld x4 r6_0))) (k6_pay15 (k6_pay8 (View.ld x5 r6_0)))⟩,
   ⟨r6_5, k6_pay13 (k6_pay6 (View.ld x3 r6_0)) (k6_pay7 (View.ld x4 r6_0)) (k6_pay8 (View.ld x5 r6_0))⟩,
   ⟨r6_4, k6_pay12 (k6_pay6 (View.ld x3 r6_0)) (k6_pay7 (View.ld x4 r6_0)) (k6_pay8 (View.ld x5 r6_0))⟩,
   ⟨r6_3, k6_pay11 (k6_pay3 (View.ld x0 r6_0)) (k6_pay4 (View.ld x1 r6_0)) (k6_pay5 (View.ld x2 r6_0)) (Scalar.ofBits .f32 0x00000000#32)⟩,
   ⟨r6_2, k6_pay10 (View.ld x0 r6_0) (View.ld x1 r6_0) (View.ld x2 r6_0)⟩,
   ⟨r6_1, k6_pay9 (View.ld x0 r6_0) (View.ld x1 r6_0) (View.ld x2 r6_0)⟩]

/-- The scratch buffer once the six slices are stored: every column is in exactly one slice, so nothing of what it
    held before is left. -/
def scr6 (x0 x1 x2 x3 x4 x5 : Vec F S2000x64 .f32) : Vec F S2000x384 .f32 :=
  View.canon (scrL6 x0 x1 x2 x3 x4 x5)

/-- Window 10's staging buffer after the body: its one store, of the whole scratch buffer read back. -/
def out6_10 (x0 x1 x2 x3 x4 x5 : Vec F S2000x64 .f32) : Vec F S2000x384 .f32 :=
  View.canon [⟨r6_7, View.ld (scr6 x0 x1 x2 x3 x4 x5) r6_7⟩]

/-- Window 11's staging buffer after the body: its one store, the two-layer product of the scratch buffer read back
    with the weight and bias blocks. -/
def out6_11 (x0 x1 x2 x3 x4 x5 : Vec F S2000x64 .f32) (x6 : Vec F S384x64 .f32) (x7 : Vec F S1x64 .f32) (x8 : Vec F S64x2 .f32) (x9 : Vec F S1x2 .f32) : Vec F S2000x2 .f32 :=
  View.canon [⟨r6_12, k6_pay2 (View.ld (scr6 x0 x1 x2 x3 x4 x5) r6_7) (View.ld x6 r6_8) (View.ld x7 r6_9) (View.ld x8 r6_10) (View.ld x9 r6_11)⟩]

/-- Each output's one store is of its whole buffer, so it covers it. -/
theorem cover6_10 (p0 : Vec F S2000x384 .f32) (y : S2000x384.Idx) :
    ∃ pc ∈ ([⟨r6_7, p0⟩] : List (View.Piece (Elt F) S2000x384 .f32)), y ∈ pc.1.set :=
  View.cover_of_tiled [⟨r6_7, p0⟩] S2000x384.size (by rfl) y
theorem cover6_11 (p0 : Vec F S2000x2 .f32) (y : S2000x2.Idx) :
    ∃ pc ∈ ([⟨r6_12, p0⟩] : List (View.Piece (Elt F) S2000x2 .f32)), y ∈ pc.1.set :=
  View.cover_of_tiled [⟨r6_12, p0⟩] S2000x2.size (by rfl) y

/-! ## The body's triple -/

set_option maxHeartbeats 4000000 in
/-- The kernel body on whole staging memrefs and a whole scratch buffer, the inputs' at read contents `xW`, the outputs'
    and the scratch at anything, runs to the continuation holding the inputs' as they were, each output's at `out6_W`
    of the inputs', and the scratch at some contents. -/
theorem sound_kernel6 (c : Dev nD) (E : Set ℕ) (i : grid6.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S384x64 .f32) (harg7 : arg7.IsWhole) (arg8 : Memref sig .tc .vmem S1x64 .f32) (harg8 : arg8.IsWhole) (arg9 : Memref sig .tc .vmem S64x2 .f32) (harg9 : arg9.IsWhole) (arg10 : Memref sig .tc .vmem S1x2 .f32) (harg10 : arg10.IsWhole) (arg11 : Memref sig .tc .vmem S2000x384 .f32) (harg11 : arg11.IsWhole) (arg12 : Memref sig .tc .vmem S2000x2 .f32) (harg12 : arg12.IsWhole) (arg13 : Memref sig .tc .vmem S2000x384 .f32) (harg13 : arg13.IsWhole)
    (x0 x1 x2 x3 x4 x5 : Vec F S2000x64 .f32) (x6 : Vec F S384x64 .f32) (x7 : Vec F S1x64 .f32) (x8 : Vec F S64x2 .f32) (x9 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out6_10 x0 x1 x2 x3 x4 x5) ∗ owns (c : Thread nD τ) arg12 fullShare (out6_11 x0 x1 x2 x3 x4 x5 x6 x7 x8 x9)
            ∗ (∃ d, owns (c : Thread nD τ) arg13 fullShare d)) -∗ K ⟨⟩))
      ⊢ wp frame (wpE (defs₀ (F := F)) Variants.none c none) E (cc6_kernel i arg1 harg1 arg2 harg2 arg3 harg3 arg4 harg4 arg5 harg5 arg6 harg6 arg7 harg7 arg8 harg8 arg9 harg9 arg10 harg10 arg11 harg11 arg12 harg12 arg13 harg13) K := by
  simp only [cc6_kernel_eq_skeleton, k6_part1_eq_skeleton, k6_part2_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0; subst hf1; subst hf2; subst hf3; subst hf4; subst hf5; subst hf6; subst hf7; subst hf8; subst hf9
  sl_exec
  sl_step
  -- the whole-buffer load of the scratch after its six slice stores is the closed form `scr6` of the input blocks
  have hv : sound_kernel6.sl.v78 c arg1 arg2 arg3 arg4 arg5 arg6 arg13 f0 f1 f2 f3 f4 f5
      = View.ld (scr6 (arg1.view.read (Elt F) f0) (arg2.view.read (Elt F) f1) (arg3.view.read (Elt F) f2)
          (arg4.view.read (Elt F) f3) (arg5.view.read (Elt F) f4) (arg6.view.read (Elt F) f5)) r6_7 := by
    unfold sound_kernel6.sl.v78 sound_kernel6.sl.H12_6 sound_kernel6.sl.r sound_kernel6.sl.r_1 sound_kernel6.sl.r_2 sound_kernel6.sl.r_3 sound_kernel6.sl.r_4 sound_kernel6.sl.r_5 sound_kernel6.sl.r_6 sound_kernel6.sl.r_7 sound_kernel6.sl.cst_19
    rw [View.readCov_eq_canon']
    rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [hv]
    exact View.read_writes_eq_canon _ _ _ (cover6_10 _)
  isplitl [H11]
  · iexists _; isplitr
    swap; · iexact H11
    ipureintro
    rw [hv]
    exact View.read_writes_eq_canon _ _ _ (cover6_11 _)
  iexists _, _; isplitr
  swap; · iexact H12
  ipureintro; rfl

/-! ## The pipeline's proof data -/

/-- The proof data of pipeline 6 on core `c`: the arrays as the region finds them (`V`); after the body at
    point `t` each input's buffer at its block and each output's at `out6_W` of the input blocks; the invariant the
    class's (the scoped rest, the scratch buffer among it at any contents, and the generator register); nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => out6_10 (iblk6 V c 0 t) (iblk6 V c 1 t) (iblk6 V c 2 t) (iblk6 V c 3 t) (iblk6 V c 4 t) (iblk6 V c 5 t)
    | ⟨11, _⟩ => out6_11 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = out6_10 (iblk6 V c 0 t) (iblk6 V c 1 t) (iblk6 V c 2 t) (iblk6 V c 3 t) (iblk6 V c 4 t) (iblk6 V c 5 t) := by dsimp only [dat6]
theorem after6_11 (c : Dev nD) (t : Fin cfg6.N) : (dat6 V c).after 11 t = out6_11 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t))

/-- The class invariant with the kernel's scratch buffer taken out of the scoped rest: the scratch whole at some
    contents, the other scoped buffers unopened, the generator register. -/
theorem Phi6_eq (c : Dev nD) (k : Fin (cfg6.N + 1)) :
    (dat6 (F := F) V c).Φ k = iprop(((∃ d, owns (c : Thread nD τ) (Memref.whole cc6_scratch0) fullShare d)
        ∗ Pipeline.scopedRestBut (Ix := Unit) (Name := ℕ) (U := UR sig nD τ) (Lvl := ℕ) (Val := Elt F) spec6 c [cc6_scratch0])
      ∗ ∃ r, prngReg c r) := by
  show Pipeline.ΦA spec6 c = _
  unfold Pipeline.ΦA
  rw [scopedRest6_split]
  simp only [owns_whole]

/-- The body at any point: the inputs' memrefs hold their blocks (`before6_W`) and the invariant yields the scratch
    buffer, so `sound_kernel6` applies; the scratch goes back into the invariant at whatever the body left in it,
    and the rest of the invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11, Phi6_eq]
  iintro ⟨⟨⟨Hs, Hrest⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel6 c Set.univ _ _ _ _ _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [Hs]; · iexact Hs
  iintro ⟨H0, H1, H2, H3, H4, H5, H6, H7, H8, H9, H10, H11, Hs⟩
  isplitl [Hs Hrest Hr]
  · isplitl [Hs Hrest]
    · isplitl [Hs]; · iexact Hs
      iexact Hrest
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation6 (c : Dev nD) : BodyObligation (dat6 (F := F) V c) (defs₀ (F := F)) Variants.none () Set.univ := fun t => by
  rw [bigSep_W6, bigSep_W6]
  exact sound_body6 V c t

end Regions
end Cert.Kernel.H
end
-- ==== Proof.K.Run.lean ====
/-
  The run of the whole program: its host stretches and its seven kernel regions in order, from the launch memory to the
  return. Between two items a core's unscoped buffers are held whole at a fold of contents `W0 … W17` through @main: a
  host stretch applies its operations (`StableHlo.after`), a kernel region leaves each of its window arrays at what
  its write-backs leave (`Dat.arrAt … N`: an input array as entered, an output array block by block) and every other
  buffer as entered. Every weakly fair execution terminates with each unscoped buffer at the last contents `W17`;
  an argument array is written by no stretch and no region, so the fold at an argument walks back to the launch memory.
-/
import proofs.«134461_j6124623364543_2_alg».proof.Proof.Gen.Kernel.Launch
import proofs.«134461_j6124623364543_2_alg».proof.Proof.Gen.Kernel.Skeleton
import proofs.«134461_j6124623364543_2_alg».proof.Proof.Gen.Kernel.Points
import proofs.«134461_j6124623364543_2_alg».proof.Proof.Gen.Kernel.Regions
import proofs.«134461_j6124623364543_2_alg».proof.Proof.K.Reg0
import proofs.«134461_j6124623364543_2_alg».proof.Proof.K.Reg1
import proofs.«134461_j6124623364543_2_alg».proof.Proof.K.Reg2
import proofs.«134461_j6124623364543_2_alg».proof.Proof.K.Reg3
import proofs.«134461_j6124623364543_2_alg».proof.Proof.K.Reg4
import proofs.«134461_j6124623364543_2_alg».proof.Proof.K.Reg5
import proofs.«134461_j6124623364543_2_alg».proof.Proof.K.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- A buffer the stretch does not write keeps its contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m ρ c)
/-- A buffer the stretch does not write keeps its contents. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
/-- After the host stretch `hostOps0_2`. -/
abbrev W3 : Dev nD → Valuation τ sig (Elt F) := fun c => StableHlo.after hostOps0_2 (W2 m ρ c)
/-- A buffer the stretch does not write keeps its contents. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- The same read at the TensorCore's references: what region 0's proof data take. -/
abbrev U3 : (c : Dev nD) → (b : Ref sig .tc) → Buf (Elt F) ((c : Thread nD τ).loc b) := fun c b => W3 m ρ c b
/-- At region 0's exit: its window arrays at what the pipeline leaves, every other buffer as entered. -/
def W4 (c : Dev nD) : Valuation τ sig (Elt F) :=
  Pipeline.withArrays spec0 c (W3 m ρ c) fun w => (dat0 (U3 m ρ) c).arrAt w cfg0.N
theorem W4_arr (c : Dev nD) (w : Fin cfg0.W) :
    W4 m ρ c (Proc.devRef .tc (Pipeline.arrRef spec0 w)) = (dat0 (U3 m ρ) c).arrAt w cfg0.N := by
  unfold W4; exact Pipeline.withArrays_arr spec0 launch0.win.arr_inj c _ _ w
theorem W4_of (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev U4 : (c : Dev nD) → (b : Ref sig .tc) → Buf (Elt F) ((c : Thread nD τ).loc b) := fun c b => W4 m ρ c b
theorem hF0 (c : Dev nD) (w : Fin cfg0.W) : (dat0 (U3 m ρ) c).arrAt w cfg0.N = U4 m ρ c (Pipeline.arrRef spec0 w) :=
  (W4_arr m ρ c w).symm
theorem hrest0 (c : Dev nD) : ∀ b, b ∉ Finset.univ.image (Pipeline.arrRef spec0) → U4 m ρ c b = U3 m ρ c b :=
  fun b hb => W4_of m ρ c b fun w e => hb (Finset.mem_image.mpr ⟨w, Finset.mem_univ _, e⟩)
/-- An input window's array leaves region 0 as it entered. -/
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (U3 m ρ) c).arrAt_in w hin _).trans (A_eq0 (U3 m ρ) c w))
/-- After the host stretch `hostOps1`. -/
abbrev W5 : Dev nD → Valuation τ sig (Elt F) := fun c => StableHlo.after hostOps1 (W4 m ρ c)
/-- A buffer the stretch does not write keeps its contents. -/
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
/-- The same read at the TensorCore's references: what region 1's proof data take. -/
abbrev U5 : (c : Dev nD) → (b : Ref sig .tc) → Buf (Elt F) ((c : Thread nD τ).loc b) := fun c b => W5 m ρ c b
/-- At region 1's exit: its window arrays at what the pipeline leaves, every other buffer as entered. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of m ρ c b fun w e => hb (Finset.mem_image.mpr ⟨w, Finset.mem_univ _, e⟩)
/-- An input window's array leaves region 1 as it entered. -/
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (U5 m ρ) c).arrAt_in w hin _).trans (A_eq1 (U5 m ρ) c w))
/-- After the host stretch `hostOps2`. -/
abbrev W7 : Dev nD → Valuation τ sig (Elt F) := fun c => StableHlo.after hostOps2 (W6 m ρ c)
/-- A buffer the stretch does not write keeps its contents. -/
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h
/-- The same read at the TensorCore's references: what region 2's proof data take. -/
abbrev U7 : (c : Dev nD) → (b : Ref sig .tc) → Buf (Elt F) ((c : Thread nD τ).loc b) := fun c b => W7 m ρ c b
/-- At region 2's exit: its window arrays at what the pipeline leaves, every other buffer as entered. -/
def W8 (c : Dev nD) : Valuation τ sig (Elt F) :=
  Pipeline.withArrays spec2 c (W7 m ρ c) fun w => (dat2 (U7 m ρ) c).arrAt w cfg2.N
theorem W8_arr (c : Dev nD) (w : Fin cfg2.W) :
    W8 m ρ c (Proc.devRef .tc (Pipeline.arrRef spec2 w)) = (dat2 (U7 m ρ) c).arrAt w cfg2.N := by
  unfold W8; exact Pipeline.withArrays_arr spec2 launch2.win.arr_inj c _ _ w
theorem W8_of (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev U8 : (c : Dev nD) → (b : Ref sig .tc) → Buf (Elt F) ((c : Thread nD τ).loc b) := fun c b => W8 m ρ c b
theorem hF2 (c : Dev nD) (w : Fin cfg2.W) : (dat2 (U7 m ρ) c).arrAt w cfg2.N = U8 m ρ c (Pipeline.arrRef spec2 w) :=
  (W8_arr m ρ c w).symm
theorem hrest2 (c : Dev nD) : ∀ b, b ∉ Finset.univ.image (Pipeline.arrRef spec2) → U8 m ρ c b = U7 m ρ c b :=
  fun b hb => W8_of m ρ c b fun w e => hb (Finset.mem_image.mpr ⟨w, Finset.mem_univ _, e⟩)
/-- An input window's array leaves region 2 as it entered. -/
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (U7 m ρ) c).arrAt_in w hin _).trans (A_eq2 (U7 m ρ) c w))
/-- After the host stretch `hostOps3`. -/
abbrev W9 : Dev nD → Valuation τ sig (Elt F) := fun c => StableHlo.after hostOps3 (W8 m ρ c)
/-- A buffer the stretch does not write keeps its contents. -/
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h
/-- After the host stretch `hostOps3_1`. -/
abbrev W10 : Dev nD → Valuation τ sig (Elt F) := fun c => StableHlo.after hostOps3_1 (W9 m ρ c)
/-- A buffer the stretch does not write keeps its contents. -/
theorem W10_of (c : Dev nD) (r : Ref sig .tc) (h : r ∉ hostOps3_1_W) :
    W10 m ρ c (Proc.devRef .tc r) = W9 m ρ c (Proc.devRef .tc r) :=
  StableHlo.after_of_writes_sub hostOps3_1 _ hostOps3_1_writes h
/-- After the host stretch `hostOps3_2`. -/
abbrev W11 : Dev nD → Valuation τ sig (Elt F) := fun c => StableHlo.after hostOps3_2 (W10 m ρ c)
/-- A buffer the stretch does not write keeps its contents. -/
theorem W11_of (c : Dev nD) (r : Ref sig .tc) (h : r ∉ hostOps3_2_W) :
    W11 m ρ c (Proc.devRef .tc r) = W10 m ρ c (Proc.devRef .tc r) :=
  StableHlo.after_of_writes_sub hostOps3_2 _ hostOps3_2_writes h
/-- The same read at the TensorCore's references: what region 3's proof data take. -/
abbrev U11 : (c : Dev nD) → (b : Ref sig .tc) → Buf (Elt F) ((c : Thread nD τ).loc b) := fun c b => W11 m ρ c b
/-- At region 3's exit: its window arrays at what the pipeline leaves, every other buffer as entered. -/
def W12 (c : Dev nD) : Valuation τ sig (Elt F) :=
  Pipeline.withArrays spec3 c (W11 m ρ c) fun w => (dat3 (U11 m ρ) c).arrAt w cfg3.N
theorem W12_arr (c : Dev nD) (w : Fin cfg3.W) :
    W12 m ρ c (Proc.devRef .tc (Pipeline.arrRef spec3 w)) = (dat3 (U11 m ρ) c).arrAt w cfg3.N := by
  unfold W12; exact Pipeline.withArrays_arr spec3 launch3.win.arr_inj c _ _ w
theorem W12_of (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev U12 : (c : Dev nD) → (b : Ref sig .tc) → Buf (Elt F) ((c : Thread nD τ).loc b) := fun c b => W12 m ρ c b
theorem hF3 (c : Dev nD) (w : Fin cfg3.W) : (dat3 (U11 m ρ) c).arrAt w cfg3.N = U12 m ρ c (Pipeline.arrRef spec3 w) :=
  (W12_arr m ρ c w).symm
theorem hrest3 (c : Dev nD) : ∀ b, b ∉ Finset.univ.image (Pipeline.arrRef spec3) → U12 m ρ c b = U11 m ρ c b :=
  fun b hb => W12_of m ρ c b fun w e => hb (Finset.mem_image.mpr ⟨w, Finset.mem_univ _, e⟩)
/-- An input window's array leaves region 3 as it entered. -/
theorem W12_in (c : Dev nD) (w : Fin cfg3.W) (hin : (cfg3.win w).isOut = false) :
    W12 m ρ c (Proc.devRef .tc (Pipeline.arrRef spec3 w)) = W11 m ρ c (Proc.devRef .tc (Pipeline.arrRef spec3 w)) :=
  (W12_arr m ρ c w).trans (((dat3 (U11 m ρ) c).arrAt_in w hin _).trans (A_eq3 (U11 m ρ) c w))
/-- After the host stretch `hostOps4`. -/
abbrev W13 : Dev nD → Valuation τ sig (Elt F) := fun c => StableHlo.after hostOps4 (W12 m ρ c)
/-- A buffer the stretch does not write keeps its contents. -/
theorem W13_of (c : Dev nD) (r : Ref sig .tc) (h : r ∉ hostOps4_W) :
    W13 m ρ c (Proc.devRef .tc r) = W12 m ρ c (Proc.devRef .tc r) :=
  StableHlo.after_of_writes_sub hostOps4 _ hostOps4_writes h
/-- The same read at the TensorCore's references: what region 4's proof data take. -/
abbrev U13 : (c : Dev nD) → (b : Ref sig .tc) → Buf (Elt F) ((c : Thread nD τ).loc b) := fun c b => W13 m ρ c b
/-- At region 4's exit: its window arrays at what the pipeline leaves, every other buffer as entered. -/
def W14 (c : Dev nD) : Valuation τ sig (Elt F) :=
  Pipeline.withArrays spec4 c (W13 m ρ c) fun w => (dat4 (U13 m ρ) c).arrAt w cfg4.N
theorem W14_arr (c : Dev nD) (w : Fin cfg4.W) :
    W14 m ρ c (Proc.devRef .tc (Pipeline.arrRef spec4 w)) = (dat4 (U13 m ρ) c).arrAt w cfg4.N := by
  unfold W14; exact Pipeline.withArrays_arr spec4 launch4.win.arr_inj c _ _ w
theorem W14_of (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
abbrev U14 : (c : Dev nD) → (b : Ref sig .tc) → Buf (Elt F) ((c : Thread nD τ).loc b) := fun c b => W14 m ρ c b
theorem hF4 (c : Dev nD) (w : Fin cfg4.W) : (dat4 (U13 m ρ) c).arrAt w cfg4.N = U14 m ρ c (Pipeline.arrRef spec4 w) :=
  (W14_arr m ρ c w).symm
theorem hrest4 (c : Dev nD) : ∀ b, b ∉ Finset.univ.image (Pipeline.arrRef spec4) → U14 m ρ c b = U13 m ρ c b :=
  fun b hb => W14_of m ρ c b fun w e => hb (Finset.mem_image.mpr ⟨w, Finset.mem_univ _, e⟩)
/-- An input window's array leaves region 4 as it entered. -/
theorem W14_in (c : Dev nD) (w : Fin cfg4.W) (hin : (cfg4.win w).isOut = false) :
    W14 m ρ c (Proc.devRef .tc (Pipeline.arrRef spec4 w)) = W13 m ρ c (Proc.devRef .tc (Pipeline.arrRef spec4 w)) :=
  (W14_arr m ρ c w).trans (((dat4 (U13 m ρ) c).arrAt_in w hin _).trans (A_eq4 (U13 m ρ) c w))
/-- After the host stretch `hostOps5`. -/
abbrev W15 : Dev nD → Valuation τ sig (Elt F) := fun c => StableHlo.after hostOps5 (W14 m ρ c)
/-- A buffer the stretch does not write keeps its contents. -/
theorem W15_of (c : Dev nD) (r : Ref sig .tc) (h : r ∉ hostOps5_W) :
    W15 m ρ c (Proc.devRef .tc r) = W14 m ρ c (Proc.devRef .tc r) :=
  StableHlo.after_of_writes_sub hostOps5 _ hostOps5_writes h
/-- The same read at the TensorCore's references: what region 5's proof data take. -/
abbrev U15 : (c : Dev nD) → (b : Ref sig .tc) → Buf (Elt F) ((c : Thread nD τ).loc b) := fun c b => W15 m ρ c b
/-- At region 5's exit: its window arrays at what the pipeline leaves, every other buffer as entered. -/
def W16 (c : Dev nD) : Valuation τ sig (Elt F) :=
  Pipeline.withArrays spec5 c (W15 m ρ c) fun w => (dat5 (U15 m ρ) c).arrAt w cfg5.N
theorem W16_arr (c : Dev nD) (w : Fin cfg5.W) :
    W16 m ρ c (Proc.devRef .tc (Pipeline.arrRef spec5 w)) = (dat5 (U15 m ρ) c).arrAt w cfg5.N := by
  unfold W16; exact Pipeline.withArrays_arr spec5 launch5.win.arr_inj c _ _ w
theorem W16_of (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb
abbrev U16 : (c : Dev nD) → (b : Ref sig .tc) → Buf (Elt F) ((c : Thread nD τ).loc b) := fun c b => W16 m ρ c b
theorem hF5 (c : Dev nD) (w : Fin cfg5.W) : (dat5 (U15 m ρ) c).arrAt w cfg5.N = U16 m ρ c (Pipeline.arrRef spec5 w) :=
  (W16_arr m ρ c w).symm
theorem hrest5 (c : Dev nD) : ∀ b, b ∉ Finset.univ.image (Pipeline.arrRef spec5) → U16 m ρ c b = U15 m ρ c b :=
  fun b hb => W16_of m ρ c b fun w e => hb (Finset.mem_image.mpr ⟨w, Finset.mem_univ _, e⟩)
/-- An input window's array leaves region 5 as it entered. -/
theorem W16_in (c : Dev nD) (w : Fin cfg5.W) (hin : (cfg5.win w).isOut = false) :
    W16 m ρ c (Proc.devRef .tc (Pipeline.arrRef spec5 w)) = W15 m ρ c (Proc.devRef .tc (Pipeline.arrRef spec5 w)) :=
  (W16_arr m ρ c w).trans (((dat5 (U15 m ρ) c).arrAt_in w hin _).trans (A_eq5 (U15 m ρ) c w))
/-- At region 6's exit: its window arrays at what the pipeline leaves, every other buffer as entered. -/
def W17 (c : Dev nD) : Valuation τ sig (Elt F) :=
  Pipeline.withArrays spec6 c (W16 m ρ c) fun w => (dat6 (U16 m ρ) c).arrAt w cfg6.N
theorem W17_arr (c : Dev nD) (w : Fin cfg6.W) :
    W17 m ρ c (Proc.devRef .tc (Pipeline.arrRef spec6 w)) = (dat6 (U16 m ρ) c).arrAt w cfg6.N := by
  unfold W17; exact Pipeline.withArrays_arr spec6 launch6.win.arr_inj c _ _ w
theorem W17_of (c : Dev nD) (b : Ref sig .tc) (hb : ∀ w, Pipeline.arrRef spec6 w ≠ b) :
    W17 m ρ c (Proc.devRef .tc b) = W16 m ρ c (Proc.devRef .tc b) := by
  unfold W17; exact Pipeline.withArrays_of_ne spec6 c _ _ b hb
abbrev U17 : (c : Dev nD) → (b : Ref sig .tc) → Buf (Elt F) ((c : Thread nD τ).loc b) := fun c b => W17 m ρ c b
theorem hF6 (c : Dev nD) (w : Fin cfg6.W) : (dat6 (U16 m ρ) c).arrAt w cfg6.N = U17 m ρ c (Pipeline.arrRef spec6 w) :=
  (W17_arr m ρ c w).symm
theorem hrest6 (c : Dev nD) : ∀ b, b ∉ Finset.univ.image (Pipeline.arrRef spec6) → U17 m ρ c b = U16 m ρ c b :=
  fun b hb => W17_of m ρ c b fun w e => hb (Finset.mem_image.mpr ⟨w, Finset.mem_univ _, e⟩)
/-- An input window's array leaves region 6 as it entered. -/
theorem W17_in (c : Dev nD) (w : Fin cfg6.W) (hin : (cfg6.win w).isOut = false) :
    W17 m ρ c (Proc.devRef .tc (Pipeline.arrRef spec6 w)) = W16 m ρ c (Proc.devRef .tc (Pipeline.arrRef spec6 w)) :=
  (W17_arr m ρ c w).trans (((dat6 (U16 m ρ) c).arrAt_in w hin _).trans (A_eq6 (U16 m ρ) c w))

/-! ## The proof data family and the thread state -/

/-- The prefetched tables' admissible contents: no pipeline has a table. -/
abbrev hadm : (p : Fin 7) → (pcfgs (F := F) p).Adm := fun p => (cfgs p).toPCfg_adm
/-- Every pipeline's proof data, each at its region's entry contents. -/
def hpdats : (p : Fin 7) → (c : Dev nD) → Dat τ (Elt F) Unit ℕ (UR sig nD τ) ℕ (Pipeline.pin (pcfgs (F := F)) hadm p) c
  | ⟨0, _⟩ => fun c => dat0 (U3 m ρ) c
  | ⟨1, _⟩ => fun c => dat1 (U5 m ρ) c
  | ⟨2, _⟩ => fun c => dat2 (U7 m ρ) c
  | ⟨3, _⟩ => fun c => dat3 (U11 m ρ) c
  | ⟨4, _⟩ => fun c => dat4 (U13 m ρ) c
  | ⟨5, _⟩ => fun c => dat5 (U15 m ρ) c
  | ⟨6, _⟩ => fun c => dat6 (U16 m ρ) c
abbrev h𝒱₀ : Variants := Variants.none
/-- No core owes another anything: no level is assigned. -/
abbrev hL : GSem nD τ sig → Finset Unit := fun _ => ∅
abbrev hlv : GSem nD τ sig → Unit → ℕ := fun _ _ => 0
/-- What rides beside the buffers through every item: the core's generator register at some state and its dues, at nothing. -/
abbrev hR (c : Dev nD) : sProp 𝕄 := iprop((∃ r, prngReg c r) ∗ ∃ W, owes (c : Thread nD τ) (0 : CellTallies nD τ sig Unit) W)
/-- A host stretch as a segment over the unscoped references from the contents `W`. -/
abbrev hhseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ h𝒱₀ hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
/-- An unscoped TensorCore reference is among those the thread state holds. -/
theorem hmem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev hTₙ (c : Dev nD) : sProp 𝕄 := iprop(StableHlo.held (c : Thread nD τ) (Pipeline.ucRefs τ sig) (W17 m ρ c) ∗ ∃ r, prngReg c r)

/-! ## The regions as segments -/

set_option backward.isDefEq.respectTransparency.types false in
/-- Region 0 over the thread state: entered from every unscoped buffer at `W3`, left at `W4`. Its arrays are split out
    of the unscoped buffers and put back at the exit contents; the generator register goes into the region invariant and comes
    back; nothing is owed. -/
def hreg0 : Pipeline.RegionSeg (pcfgs (F := F)) hadm (hpdats m ρ) () defs₀ h𝒱₀ hL hlv 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ hL hlv 0 fun _ _ => rfl
  pre c := iprop(StableHlo.held (c : Thread nD τ) (Pipeline.ucRefs τ sig) (W3 m ρ c) ∗ hR c)
  post c := iprop(StableHlo.held (c : Thread nD τ) (Pipeline.ucRefs τ sig) (W4 m ρ c) ∗ hR c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) hadm (hpdats m ρ) launch0.win launch0.arr_whole c
      ((hpdats m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hpdats m ρ) ((hpdats m ρ 0 c).share_full fun _ => rfl)
      (U3 m ρ c) (U4 m ρ c) ((hpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split out
    of the unscoped buffers and put back at the exit contents; the generator register goes into the region invariant and comes
    back; nothing is owed. -/
def hreg1 : Pipeline.RegionSeg (pcfgs (F := F)) hadm (hpdats m ρ) () defs₀ h𝒱₀ hL hlv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ hL hlv 1 fun _ _ => rfl
  pre c := iprop(StableHlo.held (c : Thread nD τ) (Pipeline.ucRefs τ sig) (W5 m ρ c) ∗ hR c)
  post c := iprop(StableHlo.held (c : Thread nD τ) (Pipeline.ucRefs τ sig) (W6 m ρ c) ∗ hR c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) hadm (hpdats m ρ) launch1.win launch1.arr_whole c
      ((hpdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hpdats m ρ) ((hpdats m ρ 1 c).share_full fun _ => rfl)
      (U5 m ρ c) (U6 m ρ c) ((hpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are split out
    of the unscoped buffers and put back at the exit contents; the generator register goes into the region invariant and comes
    back; nothing is owed. -/
def hreg2 : Pipeline.RegionSeg (pcfgs (F := F)) hadm (hpdats m ρ) () defs₀ h𝒱₀ hL hlv 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ hL hlv 2 fun _ _ => rfl
  pre c := iprop(StableHlo.held (c : Thread nD τ) (Pipeline.ucRefs τ sig) (W7 m ρ c) ∗ hR c)
  post c := iprop(StableHlo.held (c : Thread nD τ) (Pipeline.ucRefs τ sig) (W8 m ρ c) ∗ hR c)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) hadm (hpdats m ρ) launch2.win launch2.arr_whole c
      ((hpdats m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (hpdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (hpdats m ρ) ((hpdats m ρ 2 c).share_full fun _ => rfl)
      (U7 m ρ c) (U8 m ρ c) ((hpdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W11`, left at `W12`. Its arrays are split out
    of the unscoped buffers and put back at the exit contents; the generator register goes into the region invariant and comes
    back; nothing is owed. -/
def hreg3 : Pipeline.RegionSeg (pcfgs (F := F)) hadm (hpdats m ρ) () defs₀ h𝒱₀ hL hlv 3 where
  win := launch3.win.to₀
  block_pos := launch3.block_pos
  stage_whole := launch3.stage_whole
  K := PEmpty
  osem k := k.elim
  ho := Pipeline.OwnSemFacts.none _
  hbody c := (body_obligation3 (U11 m ρ) c).loose
  hwaits := Pipeline.hwaits_of_owed_zero _ _ _ _ hL hlv 3 fun _ _ => rfl
  pre c := iprop(StableHlo.held (c : Thread nD τ) (Pipeline.ucRefs τ sig) (W11 m ρ c) ∗ hR c)
  post c := iprop(StableHlo.held (c : Thread nD τ) (Pipeline.ucRefs τ sig) (W12 m ρ c) ∗ hR c)
  X c := iprop(∃ r, prngReg c r)
  Y c := iprop(∃ r, prngReg c r)
  Z c := Pipeline.unscopedRest (Ix := Unit) (Name := ℕ) (U := UR sig nD τ) (Lvl := ℕ) spec3 c (U11 m ρ c)
  hentry c := by
    rw [Pipeline.ownSems0_none]
    have hsplit := Pipeline.arrays_of_unscopedBufs (p := 3) (pcfgs (F := F)) hadm (hpdats m ρ) launch3.win launch3.arr_whole c
      ((hpdats m ρ 3 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (hpdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (hpdats m ρ) ((hpdats m ρ 3 c).share_full fun _ => rfl)
      (U11 m ρ c) (U12 m ρ c) ((hpdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W13`, left at `W14`. Its arrays are split out
    of the unscoped buffers and put back at the exit contents; the generator register goes into the region invariant and comes
    back; nothing is owed. -/
def hreg4 : Pipeline.RegionSeg (pcfgs (F := F)) hadm (hpdats m ρ) () defs₀ h𝒱₀ hL hlv 4 where
  win := launch4.win.to₀
  block_pos := launch4.block_pos
  stage_whole := launch4.stage_whole
  K := PEmpty
  osem k := k.elim
  ho := Pipeline.OwnSemFacts.none _
  hbody c := (body_obligation4 (U13 m ρ) c).loose
  hwaits := Pipeline.hwaits_of_owed_zero _ _ _ _ hL hlv 4 fun _ _ => rfl
  pre c := iprop(StableHlo.held (c : Thread nD τ) (Pipeline.ucRefs τ sig) (W13 m ρ c) ∗ hR c)
  post c := iprop(StableHlo.held (c : Thread nD τ) (Pipeline.ucRefs τ sig) (W14 m ρ c) ∗ hR c)
  X c := iprop(∃ r, prngReg c r)
  Y c := iprop(∃ r, prngReg c r)
  Z c := Pipeline.unscopedRest (Ix := Unit) (Name := ℕ) (U := UR sig nD τ) (Lvl := ℕ) spec4 c (U13 m ρ c)
  hentry c := by
    rw [Pipeline.ownSems0_none]
    have hsplit := Pipeline.arrays_of_unscopedBufs (p := 4) (pcfgs (F := F)) hadm (hpdats m ρ) launch4.win launch4.arr_whole c
      ((hpdats m ρ 4 c).share_full fun _ => rfl) (U13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (hpdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) hadm (Ix := Unit) (Name := ℕ) (U := UR sig nD τ) (Lvl := ℕ)
      launch4.win launch4.arr_whole c (hpdats m ρ) ((hpdats m ρ 4 c).share_full fun _ => rfl)
      (U13 m ρ c) (U14 m ρ c) ((hpdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W15`, left at `W16`. Its arrays are split out
    of the unscoped buffers and put back at the exit contents; the generator register goes into the region invariant and comes
    back; nothing is owed. -/
def hreg5 : Pipeline.RegionSeg (pcfgs (F := F)) hadm (hpdats m ρ) () defs₀ h𝒱₀ hL hlv 5 where
  win := launch5.win.to₀
  block_pos := launch5.block_pos
  stage_whole := launch5.stage_whole
  K := PEmpty
  osem k := k.elim
  ho := Pipeline.OwnSemFacts.none _
  hbody c := (body_obligation5 (U15 m ρ) c).loose
  hwaits := Pipeline.hwaits_of_owed_zero _ _ _ _ hL hlv 5 fun _ _ => rfl
  pre c := iprop(StableHlo.held (c : Thread nD τ) (Pipeline.ucRefs τ sig) (W15 m ρ c) ∗ hR c)
  post c := iprop(StableHlo.held (c : Thread nD τ) (Pipeline.ucRefs τ sig) (W16 m ρ c) ∗ hR c)
  X c := iprop(∃ r, prngReg c r)
  Y c := iprop(∃ r, prngReg c r)
  Z c := Pipeline.unscopedRest (Ix := Unit) (Name := ℕ) (U := UR sig nD τ) (Lvl := ℕ) spec5 c (U15 m ρ c)
  hentry c := by
    rw [Pipeline.ownSems0_none]
    have hsplit := Pipeline.arrays_of_unscopedBufs (p := 5) (pcfgs (F := F)) hadm (hpdats m ρ) launch5.win launch5.arr_whole c
      ((hpdats m ρ 5 c).share_full fun _ => rfl) (U15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (hpdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) hadm (Ix := Unit) (Name := ℕ) (U := UR sig nD τ) (Lvl := ℕ)
      launch5.win launch5.arr_whole c (hpdats m ρ) ((hpdats m ρ 5 c).share_full fun _ => rfl)
      (U15 m ρ c) (U16 m ρ c) ((hpdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W16`, left at `W17`. Its arrays are split out
    of the unscoped buffers and put back at the exit contents; the generator register goes into the region invariant and comes
    back; nothing is owed. -/
def hreg6 : Pipeline.RegionSeg (pcfgs (F := F)) hadm (hpdats m ρ) () defs₀ h𝒱₀ hL hlv 6 where
  win := launch6.win.to₀
  block_pos := launch6.block_pos
  stage_whole := launch6.stage_whole
  K := PEmpty
  osem k := k.elim
  ho := Pipeline.OwnSemFacts.none _
  hbody c := (body_obligation6 (U16 m ρ) c).loose
  hwaits := Pipeline.hwaits_of_owed_zero _ _ _ _ hL hlv 6 fun _ _ => rfl
  pre c := iprop(StableHlo.held (c : Thread nD τ) (Pipeline.ucRefs τ sig) (W16 m ρ c) ∗ hR c)
  post c := iprop(hTₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (U16 m ρ c)
  hentry c := by
    rw [Pipeline.ownSems0_none]
    have hsplit := Pipeline.arrays_of_unscopedBufs (p := 6) (pcfgs (F := F)) hadm (hpdats m ρ) launch6.win launch6.arr_whole c
      ((hpdats m ρ 6 c).share_full fun _ => rfl) (U16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (hpdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) hadm (Ix := Unit) (Name := ℕ) (U := UR sig nD τ) (Lvl := ℕ)
      launch6.win launch6.arr_whole c (hpdats m ρ) ((hpdats m ρ 6 c).share_full fun _ => rfl)
      (U16 m ρ c) (U17 m ρ c) ((hpdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 17 items in order: a host segment per stretch from its boundary's contents, a region per pallas_call. -/
abbrev hsegs : List (Pipeline.Seg (pcfgs (F := F)) hadm (hpdats m ρ) () defs₀ h𝒱₀ hL hlv) :=
  [ .host (hhseg hostOps0 hostOps0_sub hostOps0_fresh (W0 m ρ)),
    .host (hhseg hostOps0_1 hostOps0_1_sub hostOps0_1_fresh (W1 m ρ)),
    .host (hhseg hostOps0_2 hostOps0_2_sub hostOps0_2_fresh (W2 m ρ)),
    .region (hreg0 m ρ),
    .host (hhseg hostOps1 hostOps1_sub hostOps1_fresh (W4 m ρ)),
    .region (hreg1 m ρ),
    .host (hhseg hostOps2 hostOps2_sub hostOps2_fresh (W6 m ρ)),
    .region (hreg2 m ρ),
    .host (hhseg hostOps3 hostOps3_sub hostOps3_fresh (W8 m ρ)),
    .host (hhseg hostOps3_1 hostOps3_1_sub hostOps3_1_fresh (W9 m ρ)),
    .host (hhseg hostOps3_2 hostOps3_2_sub hostOps3_2_fresh (W10 m ρ)),
    .region (hreg3 m ρ),
    .host (hhseg hostOps4 hostOps4_sub hostOps4_fresh (W12 m ρ)),
    .region (hreg4 m ρ),
    .host (hhseg hostOps5 hostOps5_sub hostOps5_fresh (W14 m ρ)),
    .region (hreg5 m ρ),
    .region (hreg6 m ρ) ]
/-- @main is the run of the segments. -/
theorem hmain_run (c : Dev nD) : main (F := F) c = Pipeline.Seg.run (hsegs m ρ) := (main_chain c).trans (by chain_rfl)

set_option backward.isDefEq.respectTransparency.types false in
/-- Every weakly fair execution of @main from the memory `m` with zero counters terminates, nothing faulting, and every
    final state holds every unscoped buffer of every core at the last contents `W17`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) hadm (hpdats m ρ) () cellOf_inj emb₁ defs₀ h𝒱₀ hL hlv m ρ main (hsegs m ρ)
    (fun c Q => by rw [hmain_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ hR c)) (Tₙ := hTₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach hL hlv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

end Cert.Kernel.H

end
-- ==== Proof.K.Args.lean ====
/-
  An argument array is written by no host stretch and by no kernel region (a region reads it through an input window or
  not at all), so the fold of contents at an argument walks back to the launch memory, item by item; with the run of the
  whole program this is the frame claim: the program runs to the end and leaves its argument arrays unchanged.
-/
import proofs.«134461_j6124623364543_2_alg».proof.Proof.K.Run

set_option maxRecDepth 16384

noncomputable section

namespace Cert.Kernel.H

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W17_main_arg0 (c : Dev nD) : W17 m ρ c (Proc.devRef .tc main_arg0) = m ((c : Thread nD τ).loc main_arg0) :=
  (W17_of m ρ c main_arg0 (by decide)).trans <| (W16_of m ρ c main_arg0 (by decide)).trans <| (W15_of m ρ c main_arg0 (by decide)).trans <| (W14_of m ρ c main_arg0 (by decide)).trans <| (W13_of m ρ c main_arg0 (by decide)).trans <| (W12_of m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_in m ρ c 0 rfl).trans <| (W3_of m ρ c main_arg0 (by decide)).trans <| (W2_of m ρ c main_arg0 (by decide)).trans <| (W1_of m ρ c main_arg0 (by decide))
theorem W17_main_arg1 (c : Dev nD) : W17 m ρ c (Proc.devRef .tc main_arg1) = m ((c : Thread nD τ).loc main_arg1) :=
  (W17_of m ρ c main_arg1 (by decide)).trans <| (W16_of m ρ c main_arg1 (by decide)).trans <| (W15_of m ρ c main_arg1 (by decide)).trans <| (W14_of m ρ c main_arg1 (by decide)).trans <| (W13_of m ρ c main_arg1 (by decide)).trans <| (W12_in m ρ c 0 rfl).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide))
theorem W17_main_arg2 (c : Dev nD) : W17 m ρ c (Proc.devRef .tc main_arg2) = m ((c : Thread nD τ).loc main_arg2) :=
  (W17_of m ρ c main_arg2 (by decide)).trans <| (W16_of m ρ c main_arg2 (by decide)).trans <| (W15_of m ρ c main_arg2 (by decide)).trans <| (W14_of m ρ c main_arg2 (by decide)).trans <| (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide))
theorem W17_main_arg3 (c : Dev nD) : W17 m ρ c (Proc.devRef .tc main_arg3) = m ((c : Thread nD τ).loc main_arg3) :=
  (W17_of m ρ c main_arg3 (by decide)).trans <| (W16_of m ρ c main_arg3 (by decide)).trans <| (W15_of m ρ c main_arg3 (by decide)).trans <| (W14_of m ρ c main_arg3 (by decide)).trans <| (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide))
theorem W17_main_arg4 (c : Dev nD) : W17 m ρ c (Proc.devRef .tc main_arg4) = m ((c : Thread nD τ).loc main_arg4) :=
  (W17_of m ρ c main_arg4 (by decide)).trans <| (W16_of m ρ c main_arg4 (by decide)).trans <| (W15_of m ρ c main_arg4 (by decide)).trans <| (W14_of m ρ c main_arg4 (by decide)).trans <| (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide))
theorem W17_main_arg5 (c : Dev nD) : W17 m ρ c (Proc.devRef .tc main_arg5) = m ((c : Thread nD τ).loc main_arg5) :=
  (W17_of m ρ c main_arg5 (by decide)).trans <| (W16_of m ρ c main_arg5 (by decide)).trans <| (W15_of m ρ c main_arg5 (by decide)).trans <| (W14_of m ρ c main_arg5 (by decide)).trans <| (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide))
theorem W17_main_arg6 (c : Dev nD) : W17 m ρ c (Proc.devRef .tc main_arg6) = m ((c : Thread nD τ).loc main_arg6) :=
  (W17_of m ρ c main_arg6 (by decide)).trans <| (W16_of m ρ c main_arg6 (by decide)).trans <| (W15_of m ρ c main_arg6 (by decide)).trans <| (W14_of m ρ c main_arg6 (by decide)).trans <| (W13_of m ρ c main_arg6 (by decide)).trans <| (W12_of m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_in m ρ c 1 rfl).trans <| (W3_of m ρ c main_arg6 (by decide)).trans <| (W2_of m ρ c main_arg6 (by decide)).trans <| (W1_of m ρ c main_arg6 (by decide))
theorem W17_main_arg7 (c : Dev nD) : W17 m ρ c (Proc.devRef .tc main_arg7) = m ((c : Thread nD τ).loc main_arg7) :=
  (W17_of m ρ c main_arg7 (by decide)).trans <| (W16_of m ρ c main_arg7 (by decide)).trans <| (W15_of m ρ c main_arg7 (by decide)).trans <| (W14_of m ρ c main_arg7 (by decide)).trans <| (W13_of m ρ c main_arg7 (by decide)).trans <| (W12_of m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide))
theorem W17_main_arg8 (c : Dev nD) : W17 m ρ c (Proc.devRef .tc main_arg8) = m ((c : Thread nD τ).loc main_arg8) :=
  (W17_of m ρ c main_arg8 (by decide)).trans <| (W16_of m ρ c main_arg8 (by decide)).trans <| (W15_of m ρ c main_arg8 (by decide)).trans <| (W14_of m ρ c main_arg8 (by decide)).trans <| (W13_of m ρ c main_arg8 (by decide)).trans <| (W12_in m ρ c 1 rfl).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide))
theorem W17_main_arg9 (c : Dev nD) : W17 m ρ c (Proc.devRef .tc main_arg9) = m ((c : Thread nD τ).loc main_arg9) :=
  (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide))
theorem W17_main_arg10 (c : Dev nD) : W17 m ρ c (Proc.devRef .tc main_arg10) = m ((c : Thread nD τ).loc main_arg10) :=
  (W17_in m ρ c 6 rfl).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide))
theorem W17_main_arg11 (c : Dev nD) : W17 m ρ c (Proc.devRef .tc main_arg11) = m ((c : Thread nD τ).loc main_arg11) :=
  (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_of m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide))
theorem W17_main_arg12 (c : Dev nD) : W17 m ρ c (Proc.devRef .tc main_arg12) = m ((c : Thread nD τ).loc main_arg12) :=
  (W17_in m ρ c 8 rfl).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide))
theorem W17_main_arg13 (c : Dev nD) : W17 m ρ c (Proc.devRef .tc main_arg13) = m ((c : Thread nD τ).loc main_arg13) :=
  (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide))

/-- The frame claim at any float instance: every weakly fair execution terminates, nothing faulting, and every final
    state has the fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (hmem_uc main_arg0 (by decide))).trans (W17_main_arg0 m ρ c),
     (h c _ (hmem_uc main_arg1 (by decide))).trans (W17_main_arg1 m ρ c),
     (h c _ (hmem_uc main_arg2 (by decide))).trans (W17_main_arg2 m ρ c),
     (h c _ (hmem_uc main_arg3 (by decide))).trans (W17_main_arg3 m ρ c),
     (h c _ (hmem_uc main_arg4 (by decide))).trans (W17_main_arg4 m ρ c),
     (h c _ (hmem_uc main_arg5 (by decide))).trans (W17_main_arg5 m ρ c),
     (h c _ (hmem_uc main_arg6 (by decide))).trans (W17_main_arg6 m ρ c),
     (h c _ (hmem_uc main_arg7 (by decide))).trans (W17_main_arg7 m ρ c),
     (h c _ (hmem_uc main_arg8 (by decide))).trans (W17_main_arg8 m ρ c),
     (h c _ (hmem_uc main_arg9 (by decide))).trans (W17_main_arg9 m ρ c),
     (h c _ (hmem_uc main_arg10 (by decide))).trans (W17_main_arg10 m ρ c),
     (h c _ (hmem_uc main_arg11 (by decide))).trans (W17_main_arg11 m ρ c),
     (h c _ (hmem_uc main_arg12 (by decide))).trans (W17_main_arg12 m ρ c),
     (h c _ (hmem_uc main_arg13 (by decide))).trans (W17_main_arg13 m ρ c)⟩)
    (run_all m ρ)

end Cert.Kernel.H

end
-- ==== Proof.KI.Reg0.lean ====
/- The region half of pipeline 0 of @main (custom_call 0, `cc0__linear_relu_scale_kernel`), at a PARAMETER `V` — the
   TensorCore's buffer contents when the region is entered —: each window's block at a point (`iblk0`), what the body
   leaves in each output window's buffer (`out0_4`, `out0_5`), the body's triple (`sound_kernel0`), the proof data
   (`dat0`) and the body obligation (`body_obligation0`). -/
import proofs.«134461_j6124623364543_2_alg».proof.Proof.Gen.KernelIdeal.Launch
import proofs.«134461_j6124623364543_2_alg».proof.Proof.Gen.KernelIdeal.Skeleton
import proofs.«134461_j6124623364543_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # REGION 0 of @main: custom_call 0, `cc0__linear_relu_scale_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for ANY proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2000x128 := Rect.unit (s := S2000x128) ![0, 0] S2000x128.size inb_S2000x128_S2000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S2000x1 := Rect.unit (s := S2000x1) ![0, 0] S2000x1.size inb_S2000x1_S2000x1_0_0
abbrev r0_4 : Rect S2000x64 := Rect.unit (s := S2000x64) ![0, 0] S2000x64.size inb_S2000x64_S2000x64_0_0

/-! ## What the body leaves in each output window's buffer -/

/-- Window 4's staging buffer after the body, from the input windows' blocks: its one store as a piece (the payload
    is the skeleton's). -/
def out0_4 (x0 : Vec F S2000x128 .f32) (x1 : Vec F S128x64 .f32) (x2 : Vec F S1x64 .f32) : Vec F S2000x64 .f32 :=
  View.canon [⟨r0_4, k0_pay1 (View.ld x0 r0_0) (View.ld x1 r0_1) (View.ld x2 r0_2)⟩]

/-- Window 5's staging buffer after the body, from the input windows' blocks: its one store as a piece. -/
def out0_5 (x0 : Vec F S2000x128 .f32) (x1 : Vec F S128x64 .f32) (x2 : Vec F S1x64 .f32) (x3 : Vec F S2000x1 .f32) : Vec F S2000x64 .bf16 :=
  View.canon [⟨r0_4, k0_pay2 (View.ld x0 r0_0) (View.ld x1 r0_1) (View.ld x2 r0_2) (View.ld x3 r0_3)⟩]

/-- The single whole-block store tiles the buffer, so it covers it. -/
theorem cover0_4 (p0 : Vec F S2000x64 .f32) (y : S2000x64.Idx) :
    ∃ pc ∈ ([⟨r0_4, p0⟩] : List (View.Piece (Elt F) S2000x64 .f32)), y ∈ pc.1.set :=
  View.cover_of_tiled [⟨r0_4, p0⟩] S2000x64.size (by rfl) y

theorem cover0_5 (p0 : Vec F S2000x64 .bf16) (y : S2000x64.Idx) :
    ∃ pc ∈ ([⟨r0_4, p0⟩] : List (View.Piece (Elt F) S2000x64 .bf16)), y ∈ pc.1.set :=
  View.cover_of_tiled [⟨r0_4, p0⟩] S2000x64.size (by rfl) y

/-! ## The body's triple -/

set_option maxHeartbeats 1000000 in
/-- The kernel body on whole staging memrefs, the inputs' at read contents `xW` and the outputs' at anything, runs to
    the continuation holding the inputs' as they were and each output's at `out0_W` of the inputs': the printed function
    is its skeleton, whose loads, stores and payloads are run one by one. -/
theorem sound_kernel0 (c : Dev nD) (E : Set ℕ) (i : grid0.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S2000x1 .f32) (harg4 : arg4.IsWhole)
    (arg5 : Memref sig .tc .vmem S2000x64 .f32) (harg5 : arg5.IsWhole) (arg6 : Memref sig .tc .vmem S2000x64 .bf16) (harg6 : arg6.IsWhole)
    (x0 : Vec F S2000x128 .f32) (x1 : Vec F S128x64 .f32) (x2 : Vec F S1x64 .f32) (x3 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2)
            ∗ owns (c : Thread nD τ) arg6 fullShare (out0_5 x0 x1 x2 x3)) -∗ K ⟨⟩))
      ⊢ wp frame (wpE (defs₀ (F := F)) Variants.none c none) E (cc0__linear_relu_scale_kernel i arg1 harg1 arg2 harg2 arg3 harg3 arg4 harg4 arg5 harg5 arg6 harg6) K := by
  simp only [cc0__linear_relu_scale_kernel_eq_skeleton]; unfold cc0__linear_relu_scale_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t)
    | ⟨5, _⟩ => out0_5 (iblk0 V c 0 t) (iblk0 V c 1 t) (iblk0 V c 2 t) (iblk0 V c 3 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions
end Cert.KernelIdeal.H
end
-- ==== Proof.KI.Reg1.lean ====
/- The class-A half of region 1 of @main (custom_call 1, pipeline 1), at a parameter `V`: the TensorCore's buffer
   contents when the region is entered. Each window's block at a point (`iblk1`), what the body leaves in each
   output window's buffer as a function of the input blocks (`out1_3`, `out1_4`), the body's triple
   (`sound_kernel1`), the pipeline's proof data (`dat1`) and the body obligation (`body_obligation1`). -/
import proofs.«134461_j6124623364543_2_alg».proof.Proof.Gen.KernelIdeal.Launch
import proofs.«134461_j6124623364543_2_alg».proof.Proof.Gen.KernelIdeal.Skeleton
import proofs.«134461_j6124623364543_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): the window is uncut and
    never idle, and unfetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 2000x64 block: every 2000x64 load and store of the body goes through it. -/
abbrev r1_0 : Rect S2000x64 := Rect.unit (s := S2000x64) ![0, 0] S2000x64.size inb_S2000x64_S2000x64_0_0
/-- The whole 2000x1 block: the load of the per-row factor. -/
abbrev r1_1 : Rect S2000x1 := Rect.unit (s := S2000x1) ![0, 0] S2000x1.size inb_S2000x1_S2000x1_0_0

/-! ## What the body leaves in each output window's buffer -/

/-- Window 3's staging buffer after the body, from the input windows' blocks: its one store, of the whole block. -/
def out1_3 (x0 : Vec F S2000x64 .f32) (x1 : Vec F S2000x1 .f32) (x2 : Vec F S2000x64 .f32) : Vec F S2000x64 .f32 :=
  View.canon [⟨r1_0, k1_pay2 (View.ld x0 r1_0) (View.ld x1 r1_1) (View.ld x2 r1_0)⟩]

/-- Its store is of the whole block, so it covers the buffer. -/
theorem cover1_3 (p0 : Vec F S2000x64 .f32) (y : S2000x64.Idx) :
    ∃ pc ∈ ([⟨r1_0, p0⟩] : List (View.Piece (Elt F) S2000x64 .f32)), y ∈ pc.1.set :=
  View.cover_of_tiled [⟨r1_0, p0⟩] S2000x64.size (by rfl) y

/-- Window 4's staging buffer after the body, from the input windows' blocks: its one store, of the whole block. -/
def out1_4 (x0 : Vec F S2000x64 .f32) (x1 : Vec F S2000x1 .f32) (x2 : Vec F S2000x64 .f32) : Vec F S2000x64 .bf16 :=
  View.canon [⟨r1_0, k1_pay3 (View.ld x0 r1_0) (View.ld x1 r1_1) (View.ld x2 r1_0)⟩]

/-- Its store is of the whole block, so it covers the buffer. -/
theorem cover1_4 (p0 : Vec F S2000x64 .bf16) (y : S2000x64.Idx) :
    ∃ pc ∈ ([⟨r1_0, p0⟩] : List (View.Piece (Elt F) S2000x64 .bf16)), y ∈ pc.1.set :=
  View.cover_of_tiled [⟨r1_0, p0⟩] S2000x64.size (by rfl) y

/-! ## The body's triple -/

set_option maxHeartbeats 1000000 in
/-- The kernel body on whole staging memrefs, the inputs' at read contents `xW` and the outputs' at anything, runs to
    the continuation holding the inputs' as they were and each output's at `out1_W` of the inputs': the printed
    function is its skeleton of loads and stores, run one memory operation at a time; the two loads of the output
    buffers read values no payload uses. -/
theorem sound_kernel1 (c : Dev nD) (E : Set ℕ) (i : grid1.Coords) (arg1 : Memref sig .tc .vmem S2000x64 .f32) (harg1 : arg1.IsWhole) (arg2 : Memref sig .tc .vmem S2000x1 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .bf16) (harg5 : arg5.IsWhole)
    (x0 : Vec F S2000x64 .f32) (x1 : Vec F S2000x1 .f32) (x2 : Vec F S2000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4 x0 x1 x2)) -∗ K ⟨⟩))
      ⊢ wp frame (wpE (defs₀ (F := F)) Variants.none c none) E (cc1__prop_step_kernel i arg1 harg1 arg2 harg2 arg3 harg3 arg4 harg4 arg5 harg5) K := by
  simp only [cc1__prop_step_kernel_eq_skeleton]; unfold cc1__prop_step_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant the
    class's (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.H

end
-- ==== Proof.KI.Reg2.lean ====
/- The class-A half of region 2 of @main (custom_call 2, pipeline 2), at a parameter `V`: the TensorCore's buffer
   contents when the region is entered. Each window's block at a point (`iblk2`), what the body leaves in each
   output window's buffer as a function of the input blocks (`out2_3`, `out2_4`), the body's triple
   (`sound_kernel2`), the pipeline's proof data (`dat2`) and the body obligation (`body_obligation2`). -/
import proofs.«134461_j6124623364543_2_alg».proof.Proof.Gen.KernelIdeal.Launch
import proofs.«134461_j6124623364543_2_alg».proof.Proof.Gen.KernelIdeal.Skeleton
import proofs.«134461_j6124623364543_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): the window is uncut and
    never idle, and unfetched the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same of input window 2. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 2000x64 block: every 2000x64 load and store of the body goes through it. -/
abbrev r2_0 : Rect S2000x64 := Rect.unit (s := S2000x64) ![0, 0] S2000x64.size inb_S2000x64_S2000x64_0_0
/-- The whole 2000x1 block: the load of the per-row factor. -/
abbrev r2_1 : Rect S2000x1 := Rect.unit (s := S2000x1) ![0, 0] S2000x1.size inb_S2000x1_S2000x1_0_0

/-! ## What the body leaves in each output window's buffer -/

/-- Window 3's staging buffer after the body, from the input windows' blocks: its one store, of the whole block. -/
def out2_3 (x0 : Vec F S2000x64 .f32) (x1 : Vec F S2000x1 .f32) (x2 : Vec F S2000x64 .f32) : Vec F S2000x64 .f32 :=
  View.canon [⟨r2_0, k2_pay2 (View.ld x0 r2_0) (View.ld x1 r2_1) (View.ld x2 r2_0)⟩]

/-- Its store is of the whole block, so it covers the buffer. -/
theorem cover2_3 (p0 : Vec F S2000x64 .f32) (y : S2000x64.Idx) :
    ∃ pc ∈ ([⟨r2_0, p0⟩] : List (View.Piece (Elt F) S2000x64 .f32)), y ∈ pc.1.set :=
  View.cover_of_tiled [⟨r2_0, p0⟩] S2000x64.size (by rfl) y

/-- Window 4's staging buffer after the body, from the input windows' blocks: its one store, of the whole block. -/
def out2_4 (x0 : Vec F S2000x64 .f32) (x1 : Vec F S2000x1 .f32) (x2 : Vec F S2000x64 .f32) : Vec F S2000x64 .bf16 :=
  View.canon [⟨r2_0, k2_pay3 (View.ld x0 r2_0) (View.ld x1 r2_1) (View.ld x2 r2_0)⟩]

/-- Its store is of the whole block, so it covers the buffer. -/
theorem cover2_4 (p0 : Vec F S2000x64 .bf16) (y : S2000x64.Idx) :
    ∃ pc ∈ ([⟨r2_0, p0⟩] : List (View.Piece (Elt F) S2000x64 .bf16)), y ∈ pc.1.set :=
  View.cover_of_tiled [⟨r2_0, p0⟩] S2000x64.size (by rfl) y

/-! ## The body's triple -/

set_option maxHeartbeats 1000000 in
/-- The kernel body on whole staging memrefs, the inputs' at read contents `xW` and the outputs' at anything, runs to
    the continuation holding the inputs' as they were and each output's at `out2_W` of the inputs': the printed
    function is its skeleton of loads and stores, run one memory operation at a time; the two loads of the output
    buffers read values no payload uses. -/
theorem sound_kernel2 (c : Dev nD) (E : Set ℕ) (i : grid2.Coords) (arg1 : Memref sig .tc .vmem S2000x64 .f32) (harg1 : arg1.IsWhole) (arg2 : Memref sig .tc .vmem S2000x1 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .bf16) (harg5 : arg5.IsWhole)
    (x0 : Vec F S2000x64 .f32) (x1 : Vec F S2000x1 .f32) (x2 : Vec F S2000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2) ∗ owns (c : Thread nD τ) arg5 fullShare (out2_4 x0 x1 x2)) -∗ K ⟨⟩))
      ⊢ wp frame (wpE (defs₀ (F := F)) Variants.none c none) E (cc2__prop_step_kernel i arg1 harg1 arg2 harg2 arg3 harg3 arg4 harg4 arg5 harg5) K := by
  simp only [cc2__prop_step_kernel_eq_skeleton]; unfold cc2__prop_step_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant the
    class's (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
    | ⟨4, _⟩ => out2_4 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem after2_4 (c : Dev nD) (t : Fin cfg2.N) : (dat2 V c).after 4 t = out2_4 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.H

end
-- ==== Proof.KI.Reg3.lean ====
/- The region half of pipeline 3 of @main (custom_call 3, `cc3__linear_relu_scale_kernel`), at a PARAMETER `V` — the
   TensorCore's buffer contents when the region is entered —: each window's block at a point (`iblk3`), what the body
   leaves in each output window's buffer (`out3_4`, `out3_5`), the body's triple (`sound_kernel3`), the proof data
   (`dat3`) and the body obligation (`body_obligation3`). -/
import proofs.«134461_j6124623364543_2_alg».proof.Proof.Gen.KernelIdeal.Launch
import proofs.«134461_j6124623364543_2_alg».proof.Proof.Gen.KernelIdeal.Skeleton
import proofs.«134461_j6124623364543_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # REGION 3 of @main: custom_call 3, `cc3__linear_relu_scale_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for ANY proof
    data whose array is `V`'s (`hA`) and whose body leaves the block in place (`hafter`): unfetched, the block index
    has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for ANY proof
    data whose array is `V`'s (`hA`) and whose body leaves the block in place (`hafter`): unfetched, the block index
    has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for ANY proof
    data whose array is `V`'s (`hA`) and whose body leaves the block in place (`hafter`): unfetched, the block index
    has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S2000x128 := Rect.unit (s := S2000x128) ![0, 0] S2000x128.size inb_S2000x128_S2000x128_0_0
abbrev r3_1 : Rect S128x64 := Rect.unit (s := S128x64) ![0, 0] S128x64.size inb_S128x64_S128x64_0_0
abbrev r3_2 : Rect S1x64 := Rect.unit (s := S1x64) ![0, 0] S1x64.size inb_S1x64_S1x64_0_0
abbrev r3_3 : Rect S2000x1 := Rect.unit (s := S2000x1) ![0, 0] S2000x1.size inb_S2000x1_S2000x1_0_0
abbrev r3_4 : Rect S2000x64 := Rect.unit (s := S2000x64) ![0, 0] S2000x64.size inb_S2000x64_S2000x64_0_0

/-! ## What the body leaves in each output window's buffer -/

/-- Window 4's staging buffer after the body, from the input windows' blocks: its one store as a piece (the payload
    is the skeleton's). -/
def out3_4 (x0 : Vec F S2000x128 .f32) (x1 : Vec F S128x64 .f32) (x2 : Vec F S1x64 .f32) : Vec F S2000x64 .f32 :=
  View.canon [⟨r3_4, k3_pay1 (View.ld x0 r3_0) (View.ld x1 r3_1) (View.ld x2 r3_2)⟩]

/-- Window 5's staging buffer after the body, from the input windows' blocks: its one store as a piece. -/
def out3_5 (x0 : Vec F S2000x128 .f32) (x1 : Vec F S128x64 .f32) (x2 : Vec F S1x64 .f32) (x3 : Vec F S2000x1 .f32) : Vec F S2000x64 .bf16 :=
  View.canon [⟨r3_4, k3_pay2 (View.ld x0 r3_0) (View.ld x1 r3_1) (View.ld x2 r3_2) (View.ld x3 r3_3)⟩]

/-- The single whole-block store tiles the buffer, so it covers it. -/
theorem cover3_4 (p0 : Vec F S2000x64 .f32) (y : S2000x64.Idx) :
    ∃ pc ∈ ([⟨r3_4, p0⟩] : List (View.Piece (Elt F) S2000x64 .f32)), y ∈ pc.1.set :=
  View.cover_of_tiled [⟨r3_4, p0⟩] S2000x64.size (by rfl) y

theorem cover3_5 (p0 : Vec F S2000x64 .bf16) (y : S2000x64.Idx) :
    ∃ pc ∈ ([⟨r3_4, p0⟩] : List (View.Piece (Elt F) S2000x64 .bf16)), y ∈ pc.1.set :=
  View.cover_of_tiled [⟨r3_4, p0⟩] S2000x64.size (by rfl) y

/-! ## The body's triple -/

set_option maxHeartbeats 1000000 in
/-- The kernel body on whole staging memrefs, the inputs' at read contents `xW` and the outputs' at anything, runs to
    the continuation holding the inputs' as they were and each output's at `out3_W` of the inputs': the printed function
    is its skeleton, whose loads, stores and payloads are run one by one. -/
theorem sound_kernel3 (c : Dev nD) (E : Set ℕ) (i : grid3.Coords)
    (arg1 : Memref sig .tc .vmem S2000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S2000x1 .f32) (harg4 : arg4.IsWhole)
    (arg5 : Memref sig .tc .vmem S2000x64 .f32) (harg5 : arg5.IsWhole) (arg6 : Memref sig .tc .vmem S2000x64 .bf16) (harg6 : arg6.IsWhole)
    (x0 : Vec F S2000x128 .f32) (x1 : Vec F S128x64 .f32) (x2 : Vec F S1x64 .f32) (x3 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2)
            ∗ owns (c : Thread nD τ) arg6 fullShare (out3_5 x0 x1 x2 x3)) -∗ K ⟨⟩))
      ⊢ wp frame (wpE (defs₀ (F := F)) Variants.none c none) E (cc3__linear_relu_scale_kernel i arg1 harg1 arg2 harg2 arg3 harg3 arg4 harg4 arg5 harg5 arg6 harg6) K := by
  simp only [cc3__linear_relu_scale_kernel_eq_skeleton]; unfold cc3__linear_relu_scale_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_4 _)
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and each output's at `out3_W` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t)
    | ⟨5, _⟩ => out3_5 (iblk3 V c 0 t) (iblk3 V c 1 t) (iblk3 V c 2 t) (iblk3 V c 3 t)
  Φ _ := Pipeline.ΦA spec3 c
  q _ := fullShare
  owed _ := 0

/-- The proof data's arrays are the region-entry contents (the definition projected). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) := by dsimp only [dat3]
theorem after3_5 (c : Dev nD) (t : Fin cfg3.N) :
    (dat3 V c).after 5 t = out3_5 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions
end Cert.KernelIdeal.H
end
-- ==== Proof.KI.Reg4.lean ====
/- The class-A half of region 4 of @main (custom_call 4, pipeline 4), at a parameter `V`: the TensorCore's buffer
   contents when the region is entered. Each window's block at a point (`iblk4`), what the body leaves in each
   output window's buffer as a function of the input blocks (`out4_3`, `out4_4`), the body's triple
   (`sound_kernel4`), the pipeline's proof data (`dat4`) and the body obligation (`body_obligation4`). -/
import proofs.«134461_j6124623364543_2_alg».proof.Proof.Gen.KernelIdeal.Launch
import proofs.«134461_j6124623364543_2_alg».proof.Proof.Gen.KernelIdeal.Skeleton
import proofs.«134461_j6124623364543_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): the window is uncut and
    never idle, and unfetched the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same of input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same of input window 2. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- The whole 2000x64 block: every 2000x64 load and store of the body goes through it. -/
abbrev r4_0 : Rect S2000x64 := Rect.unit (s := S2000x64) ![0, 0] S2000x64.size inb_S2000x64_S2000x64_0_0
/-- The whole 2000x1 block: the load of the per-row factor. -/
abbrev r4_1 : Rect S2000x1 := Rect.unit (s := S2000x1) ![0, 0] S2000x1.size inb_S2000x1_S2000x1_0_0

/-! ## What the body leaves in each output window's buffer -/

/-- Window 3's staging buffer after the body, from the input windows' blocks: its one store, of the whole block. -/
def out4_3 (x0 : Vec F S2000x64 .f32) (x1 : Vec F S2000x1 .f32) (x2 : Vec F S2000x64 .f32) : Vec F S2000x64 .f32 :=
  View.canon [⟨r4_0, k4_pay2 (View.ld x0 r4_0) (View.ld x1 r4_1) (View.ld x2 r4_0)⟩]

/-- Its store is of the whole block, so it covers the buffer. -/
theorem cover4_3 (p0 : Vec F S2000x64 .f32) (y : S2000x64.Idx) :
    ∃ pc ∈ ([⟨r4_0, p0⟩] : List (View.Piece (Elt F) S2000x64 .f32)), y ∈ pc.1.set :=
  View.cover_of_tiled [⟨r4_0, p0⟩] S2000x64.size (by rfl) y

/-- Window 4's staging buffer after the body, from the input windows' blocks: its one store, of the whole block. -/
def out4_4 (x0 : Vec F S2000x64 .f32) (x1 : Vec F S2000x1 .f32) (x2 : Vec F S2000x64 .f32) : Vec F S2000x64 .bf16 :=
  View.canon [⟨r4_0, k4_pay3 (View.ld x0 r4_0) (View.ld x1 r4_1) (View.ld x2 r4_0)⟩]

/-- Its store is of the whole block, so it covers the buffer. -/
theorem cover4_4 (p0 : Vec F S2000x64 .bf16) (y : S2000x64.Idx) :
    ∃ pc ∈ ([⟨r4_0, p0⟩] : List (View.Piece (Elt F) S2000x64 .bf16)), y ∈ pc.1.set :=
  View.cover_of_tiled [⟨r4_0, p0⟩] S2000x64.size (by rfl) y

/-! ## The body's triple -/

set_option maxHeartbeats 1000000 in
/-- The kernel body on whole staging memrefs, the inputs' at read contents `xW` and the outputs' at anything, runs to
    the continuation holding the inputs' as they were and each output's at `out4_W` of the inputs': the printed
    function is its skeleton of loads and stores, run one memory operation at a time; the two loads of the output
    buffers read values no payload uses. -/
theorem sound_kernel4 (c : Dev nD) (E : Set ℕ) (i : grid4.Coords) (arg1 : Memref sig .tc .vmem S2000x64 .f32) (harg1 : arg1.IsWhole) (arg2 : Memref sig .tc .vmem S2000x1 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .bf16) (harg5 : arg5.IsWhole)
    (x0 : Vec F S2000x64 .f32) (x1 : Vec F S2000x1 .f32) (x2 : Vec F S2000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2) ∗ owns (c : Thread nD τ) arg5 fullShare (out4_4 x0 x1 x2)) -∗ K ⟨⟩))
      ⊢ wp frame (wpE (defs₀ (F := F)) Variants.none c none) E (cc4__prop_step_kernel i arg1 harg1 arg2 harg2 arg3 harg3 arg4 harg4 arg5 harg5) K := by
  simp only [cc4__prop_step_kernel_eq_skeleton]; unfold cc4__prop_step_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  iexists _; isplitr
  swap; · iexact H4
  ipureintro
  exact View.read_writes_eq_canon _ _ _ (cover4_4 _)

/-! ## The pipeline's proof data -/

/-- The proof data of pipeline 4 on core `c`: the arrays as the region finds them (`V`); after the body at
    point `t` each input's buffer at its block and each output's at `out4_W` of the input blocks; the invariant the
    class's (the scoped rest and the generator register, untouched); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
    | ⟨4, _⟩ => out4_4 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]
theorem after4_4 (c : Dev nD) (t : Fin cfg4.N) : (dat4 V c).after 4 t = out4_4 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.H

end
-- ==== Proof.KI.Reg5.lean ====
/- The class-A half of region 5 of @main (custom_call 5, pipeline 5), at a parameter `V`: the TensorCore's buffer
   contents when the region is entered. Each window's block at a point (`iblk5`), what the body leaves in each
   output window's buffer as a function of the input blocks (`out5_3`, `out5_4`), the body's triple
   (`sound_kernel5`), the pipeline's proof data (`dat5`) and the body obligation (`body_obligation5`). -/
import proofs.«134461_j6124623364543_2_alg».proof.Proof.Gen.KernelIdeal.Launch
import proofs.«134461_j6124623364543_2_alg».proof.Proof.Gen.KernelIdeal.Skeleton
import proofs.«134461_j6124623364543_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the structural check recurses once per coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): the window is uncut and
    never idle, and unfetched the block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The same of input window 1. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The same of input window 2. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 2000x64 block: every 2000x64 load and store of the body goes through it. -/
abbrev r5_0 : Rect S2000x64 := Rect.unit (s := S2000x64) ![0, 0] S2000x64.size inb_S2000x64_S2000x64_0_0
/-- The whole 2000x1 block: the load of the per-row factor. -/
abbrev r5_1 : Rect S2000x1 := Rect.unit (s := S2000x1) ![0, 0] S2000x1.size inb_S2000x1_S2000x1_0_0

/-! ## What the body leaves in each output window's buffer -/

/-- Window 3's staging buffer after the body, from the input windows' blocks: its one store, of the whole block. -/
def out5_3 (x0 : Vec F S2000x64 .f32) (x1 : Vec F S2000x1 .f32) (x2 : Vec F S2000x64 .f32) : Vec F S2000x64 .f32 :=
  View.canon [⟨r5_0, k5_pay2 (View.ld x0 r5_0) (View.ld x1 r5_1) (View.ld x2 r5_0)⟩]

/-- Its store is of the whole block, so it covers the buffer. -/
theorem cover5_3 (p0 : Vec F S2000x64 .f32) (y : S2000x64.Idx) :
    ∃ pc ∈ ([⟨r5_0, p0⟩] : List (View.Piece (Elt F) S2000x64 .f32)), y ∈ pc.1.set :=
  View.cover_of_tiled [⟨r5_0, p0⟩] S2000x64.size (by rfl) y

/-- Window 4's staging buffer after the body, from the input windows' blocks: its one store, of the whole block. -/
def out5_4 (x0 : Vec F S2000x64 .f32) (x1 : Vec F S2000x1 .f32) (x2 : Vec F S2000x64 .f32) : Vec F S2000x64 .bf16 :=
  View.canon [⟨r5_0, k5_pay3 (View.ld x0 r5_0) (View.ld x1 r5_1) (View.ld x2 r5_0)⟩]

/-- Its store is of the whole block, so it covers the buffer. -/
theorem cover5_4 (p0 : Vec F S2000x64 .bf16) (y : S2000x64.Idx) :
    ∃ pc ∈ ([⟨r5_0, p0⟩] : List (View.Piece (Elt F) S2000x64 .bf16)), y ∈ pc.1.set :=
  View.cover_of_tiled [⟨r5_0, p0⟩] S2000x64.size (by rfl) y

/-! ## The body's triple -/

set_option maxHeartbeats 1000000 in
/-- The kernel body on whole staging memrefs, the inputs' at read contents `xW` and the outputs' at anything, runs to
    the continuation holding the inputs' as they were and each output's at `out5_W` of the inputs': the printed
    function is its skeleton of loads and stores, run one memory operation at a time; the two loads of the output
    buffers read values no payload uses. -/
theorem sound_kernel5 (c : Dev nD) (E : Set ℕ) (i : grid5.Coords) (arg1 : Memref sig .tc .vmem S2000x64 .f32) (harg1 : arg1.IsWhole) (arg2 : Memref sig .tc .vmem S2000x1 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .bf16) (harg5 : arg5.IsWhole)
    (x0 : Vec F S2000x64 .f32) (x1 : Vec F S2000x1 .f32) (x2 : Vec F S2000x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2) ∗ owns (c : Thread nD τ) arg5 fullShare (out5_4 x0 x1 x2)) -∗ K ⟨⟩))
      ⊢ wp frame (wpE (defs₀ (F := F)) Variants.none c none) E (cc5__prop_step_kernel i arg1 harg1 arg2 harg2 arg3 harg3 arg4 harg4 arg5 harg5) K := by
  simp only [cc5__prop_step_kernel_eq_skeleton]; unfold cc5__prop_step_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover5_3 _)
  iexists _; isplitr
  swap; · iexact H4
  ipureintro
  exact View.read_writes_eq_canon _ _ _ (cover5_4 _)

/-! ## The pipeline's proof data -/

/-- The proof data of pipeline 5 on core `c`: the arrays as the region finds them (`V`); after the body at
    point `t` each input's buffer at its block and each output's at `out5_W` of the input blocks; the invariant the
    class's (the scoped rest and the generator register, untouched); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
    | ⟨4, _⟩ => out5_4 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]
theorem after5_4 (c : Dev nD) (t : Fin cfg5.N) : (dat5 V c).after 4 t = out5_4 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.H

end
-- ==== Proof.KI.Reg6.lean ====
import proofs.«134461_j6124623364543_2_alg».proof.Proof.Gen.KernelIdeal.Launch
import proofs.«134461_j6124623364543_2_alg».proof.Proof.Gen.KernelIdeal.Skeleton
import proofs.«134461_j6124623364543_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 6 of @main: custom_call 6, `cc6_kernel` (pipeline 6), at the entry contents `V` -/

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not, for any proof
    data whose array is `V`'s and whose body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, fetched there or not, for any proof
    data whose array is `V`'s and whose body leaves the block in place. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- Input window 8's current staging buffer holds its block at every point, fetched there or not, for any proof
    data whose array is `V`'s and whose body leaves the block in place. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-- Input window 9's current staging buffer holds its block at every point, fetched there or not, for any proof
    data whose array is `V`'s and whose body leaves the block in place. -/
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

-- a whole 2000x64 input block
abbrev r6_0 : Rect S2000x64 := Rect.unit (s := S2000x64) ![0, 0] S2000x64.size inb_S2000x64_S2000x64_0_0
-- the six 64-column slices of the 2000x384 scratch buffer
abbrev r6_1 : Rect S2000x384 := Rect.unit (s := S2000x384) ![0, 0] S2000x64.size inb_S2000x384_S2000x64_0_0
abbrev r6_2 : Rect S2000x384 := Rect.unit (s := S2000x384) ![0, 64] S2000x64.size inb_S2000x384_S2000x64_0_64
abbrev r6_3 : Rect S2000x384 := Rect.unit (s := S2000x384) ![0, 128] S2000x64.size inb_S2000x384_S2000x64_0_128
abbrev r6_4 : Rect S2000x384 := Rect.unit (s := S2000x384) ![0, 192] S2000x64.size inb_S2000x384_S2000x64_0_192
abbrev r6_5 : Rect S2000x384 := Rect.unit (s := S2000x384) ![0, 256] S2000x64.size inb_S2000x384_S2000x64_0_256
abbrev r6_6 : Rect S2000x384 := Rect.unit (s := S2000x384) ![0, 320] S2000x64.size inb_S2000x384_S2000x64_0_320
-- the whole 2000x384 buffer, and the whole weight, bias and result blocks
abbrev r6_7 : Rect S2000x384 := Rect.unit (s := S2000x384) ![0, 0] S2000x384.size inb_S2000x384_S2000x384_0_0
abbrev r6_8 : Rect S384x64 := Rect.unit (s := S384x64) ![0, 0] S384x64.size inb_S384x64_S384x64_0_0
abbrev r6_9 : Rect S1x64 := Rect.unit (s := S1x64) ![0, 0] S1x64.size inb_S1x64_S1x64_0_0
abbrev r6_10 : Rect S64x2 := Rect.unit (s := S64x2) ![0, 0] S64x2.size inb_S64x2_S64x2_0_0
abbrev r6_11 : Rect S1x2 := Rect.unit (s := S1x2) ![0, 0] S1x2.size inb_S1x2_S1x2_0_0
abbrev r6_12 : Rect S2000x2 := Rect.unit (s := S2000x2) ![0, 0] S2000x2.size inb_S2000x2_S2000x2_0_0

/-! ## What the body leaves in the scratch buffer and in each output window's buffer -/

/-- The six column slices the body stores into the scratch buffer, LAST FIRST, from the six 2000x64 input blocks. -/
def scrL6 (x0 x1 x2 x3 x4 x5 : Vec F S2000x64 .f32) : List (View.Piece (Elt F) S2000x384 .f32) :=
  [⟨r6_6, k6_pay1 (k6_pay14 (k6_pay6 (View.ld x3 r6_0)) (k6_pay7 (View.ld x4 r6_0))) (k6_pay15 (k6_pay8 (View.ld x5 r6_0)))⟩,
   ⟨r6_5, k6_pay13 (k6_pay6 (View.ld x3 r6_0)) (k6_pay7 (View.ld x4 r6_0)) (k6_pay8 (View.ld x5 r6_0))⟩,
   ⟨r6_4, k6_pay12 (k6_pay6 (View.ld x3 r6_0)) (k6_pay7 (View.ld x4 r6_0)) (k6_pay8 (View.ld x5 r6_0))⟩,
   ⟨r6_3, k6_pay11 (k6_pay3 (View.ld x0 r6_0)) (k6_pay4 (View.ld x1 r6_0)) (k6_pay5 (View.ld x2 r6_0)) (Scalar.ofBits .f32 0x00000000#32)⟩,
   ⟨r6_2, k6_pay10 (View.ld x0 r6_0) (View.ld x1 r6_0) (View.ld x2 r6_0)⟩,
   ⟨r6_1, k6_pay9 (View.ld x0 r6_0) (View.ld x1 r6_0) (View.ld x2 r6_0)⟩]

/-- The scratch buffer once the six slices are stored: every column is in exactly one slice, so nothing of what it
    held before is left. -/
def scr6 (x0 x1 x2 x3 x4 x5 : Vec F S2000x64 .f32) : Vec F S2000x384 .f32 :=
  View.canon (scrL6 x0 x1 x2 x3 x4 x5)

/-- Window 10's staging buffer after the body: its one store, of the whole scratch buffer read back. -/
def out6_10 (x0 x1 x2 x3 x4 x5 : Vec F S2000x64 .f32) : Vec F S2000x384 .f32 :=
  View.canon [⟨r6_7, View.ld (scr6 x0 x1 x2 x3 x4 x5) r6_7⟩]

/-- Window 11's staging buffer after the body: its one store, the two-layer product of the scratch buffer read back
    with the weight and bias blocks. -/
def out6_11 (x0 x1 x2 x3 x4 x5 : Vec F S2000x64 .f32) (x6 : Vec F S384x64 .f32) (x7 : Vec F S1x64 .f32) (x8 : Vec F S64x2 .f32) (x9 : Vec F S1x2 .f32) : Vec F S2000x2 .f32 :=
  View.canon [⟨r6_12, k6_pay2 (View.ld (scr6 x0 x1 x2 x3 x4 x5) r6_7) (View.ld x6 r6_8) (View.ld x7 r6_9) (View.ld x8 r6_10) (View.ld x9 r6_11)⟩]

/-- Each output's one store is of its whole buffer, so it covers it. -/
theorem cover6_10 (p0 : Vec F S2000x384 .f32) (y : S2000x384.Idx) :
    ∃ pc ∈ ([⟨r6_7, p0⟩] : List (View.Piece (Elt F) S2000x384 .f32)), y ∈ pc.1.set :=
  View.cover_of_tiled [⟨r6_7, p0⟩] S2000x384.size (by rfl) y
theorem cover6_11 (p0 : Vec F S2000x2 .f32) (y : S2000x2.Idx) :
    ∃ pc ∈ ([⟨r6_12, p0⟩] : List (View.Piece (Elt F) S2000x2 .f32)), y ∈ pc.1.set :=
  View.cover_of_tiled [⟨r6_12, p0⟩] S2000x2.size (by rfl) y

/-! ## The body's triple -/

set_option maxHeartbeats 4000000 in
/-- The kernel body on whole staging memrefs and a whole scratch buffer, the inputs' at read contents `xW`, the outputs'
    and the scratch at anything, runs to the continuation holding the inputs' as they were, each output's at `out6_W`
    of the inputs', and the scratch at some contents. -/
theorem sound_kernel6 (c : Dev nD) (E : Set ℕ) (i : grid6.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x64 .f32) (harg6 : arg6.IsWhole) (arg7 : Memref sig .tc .vmem S384x64 .f32) (harg7 : arg7.IsWhole) (arg8 : Memref sig .tc .vmem S1x64 .f32) (harg8 : arg8.IsWhole) (arg9 : Memref sig .tc .vmem S64x2 .f32) (harg9 : arg9.IsWhole) (arg10 : Memref sig .tc .vmem S1x2 .f32) (harg10 : arg10.IsWhole) (arg11 : Memref sig .tc .vmem S2000x384 .f32) (harg11 : arg11.IsWhole) (arg12 : Memref sig .tc .vmem S2000x2 .f32) (harg12 : arg12.IsWhole) (arg13 : Memref sig .tc .vmem S2000x384 .f32) (harg13 : arg13.IsWhole)
    (x0 x1 x2 x3 x4 x5 : Vec F S2000x64 .f32) (x6 : Vec F S384x64 .f32) (x7 : Vec F S1x64 .f32) (x8 : Vec F S64x2 .f32) (x9 : Vec F S1x2 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out6_10 x0 x1 x2 x3 x4 x5) ∗ owns (c : Thread nD τ) arg12 fullShare (out6_11 x0 x1 x2 x3 x4 x5 x6 x7 x8 x9)
            ∗ (∃ d, owns (c : Thread nD τ) arg13 fullShare d)) -∗ K ⟨⟩))
      ⊢ wp frame (wpE (defs₀ (F := F)) Variants.none c none) E (cc6_kernel i arg1 harg1 arg2 harg2 arg3 harg3 arg4 harg4 arg5 harg5 arg6 harg6 arg7 harg7 arg8 harg8 arg9 harg9 arg10 harg10 arg11 harg11 arg12 harg12 arg13 harg13) K := by
  simp only [cc6_kernel_eq_skeleton, k6_part1_eq_skeleton, k6_part2_eq_skeleton]; unfold cc6_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0; subst hf1; subst hf2; subst hf3; subst hf4; subst hf5; subst hf6; subst hf7; subst hf8; subst hf9
  sl_exec
  sl_step
  -- the whole-buffer load of the scratch after its six slice stores is the closed form `scr6` of the input blocks
  have hv : sound_kernel6.sl.v78 c arg1 arg2 arg3 arg4 arg5 arg6 arg13 f0 f1 f2 f3 f4 f5
      = View.ld (scr6 (arg1.view.read (Elt F) f0) (arg2.view.read (Elt F) f1) (arg3.view.read (Elt F) f2)
          (arg4.view.read (Elt F) f3) (arg5.view.read (Elt F) f4) (arg6.view.read (Elt F) f5)) r6_7 := by
    unfold sound_kernel6.sl.v78 sound_kernel6.sl.H12_6 sound_kernel6.sl.r sound_kernel6.sl.r_1 sound_kernel6.sl.r_2 sound_kernel6.sl.r_3 sound_kernel6.sl.r_4 sound_kernel6.sl.r_5 sound_kernel6.sl.r_6 sound_kernel6.sl.r_7 sound_kernel6.sl.cst_19
    rw [View.readCov_eq_canon']
    rfl
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [hv]
    exact View.read_writes_eq_canon _ _ _ (cover6_10 _)
  isplitl [H11]
  · iexists _; isplitr
    swap; · iexact H11
    ipureintro
    rw [hv]
    exact View.read_writes_eq_canon _ _ _ (cover6_11 _)
  iexists _, _; isplitr
  swap; · iexact H12
  ipureintro; rfl

/-! ## The pipeline's proof data -/

/-- The proof data of pipeline 6 on core `c`: the arrays as the region finds them (`V`); after the body at
    point `t` each input's buffer at its block and each output's at `out6_W` of the input blocks; the invariant the
    class's (the scoped rest, the scratch buffer among it at any contents, and the generator register); nothing owed;
    full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => out6_10 (iblk6 V c 0 t) (iblk6 V c 1 t) (iblk6 V c 2 t) (iblk6 V c 3 t) (iblk6 V c 4 t) (iblk6 V c 5 t)
    | ⟨11, _⟩ => out6_11 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = out6_10 (iblk6 V c 0 t) (iblk6 V c 1 t) (iblk6 V c 2 t) (iblk6 V c 3 t) (iblk6 V c 4 t) (iblk6 V c 5 t) := by dsimp only [dat6]
theorem after6_11 (c : Dev nD) (t : Fin cfg6.N) : (dat6 V c).after 11 t = out6_11 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t))

/-- The class invariant with the kernel's scratch buffer taken out of the scoped rest: the scratch whole at some
    contents, the other scoped buffers unopened, the generator register. -/
theorem Phi6_eq (c : Dev nD) (k : Fin (cfg6.N + 1)) :
    (dat6 (F := F) V c).Φ k = iprop(((∃ d, owns (c : Thread nD τ) (Memref.whole cc6_scratch0) fullShare d)
        ∗ Pipeline.scopedRestBut (Ix := Unit) (Name := ℕ) (U := UR sig nD τ) (Lvl := ℕ) (Val := Elt F) spec6 c [cc6_scratch0])
      ∗ ∃ r, prngReg c r) := by
  show Pipeline.ΦA spec6 c = _
  unfold Pipeline.ΦA
  rw [scopedRest6_split]
  simp only [owns_whole]

/-- The body at any point: the inputs' memrefs hold their blocks (`before6_W`) and the invariant yields the scratch
    buffer, so `sound_kernel6` applies; the scratch goes back into the invariant at whatever the body left in it,
    and the rest of the invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11, Phi6_eq]
  iintro ⟨⟨⟨Hs, Hrest⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel6 c Set.univ _ _ _ _ _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [Hs]; · iexact Hs
  iintro ⟨H0, H1, H2, H3, H4, H5, H6, H7, H8, H9, H10, H11, Hs⟩
  isplitl [Hs Hrest Hr]
  · isplitl [Hs Hrest]
    · isplitl [Hs]; · iexact Hs
      iexact Hrest
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation6 (c : Dev nD) : BodyObligation (dat6 (F := F) V c) (defs₀ (F := F)) Variants.none () Set.univ := fun t => by
  rw [bigSep_W6, bigSep_W6]
  exact sound_body6 V c t

end Regions
end Cert.KernelIdeal.H
end
-- ==== Proof.KI.Run.lean ====
/-
  The run of the whole program: its host stretches and its seven kernel regions in order, from the launch memory to the
  return. Between two items a core's unscoped buffers are held whole at a fold of contents `W0 … W17` through @main: a
  host stretch applies its operations (`StableHlo.after`), a kernel region leaves each of its window arrays at what
  its write-backs leave (`Dat.arrAt … N`: an input array as entered, an output array block by block) and every other
  buffer as entered. Every weakly fair execution terminates with each unscoped buffer at the last contents `W17`;
  an argument array is written by no stretch and no region, so the fold at an argument walks back to the launch memory.
-/
import proofs.«134461_j6124623364543_2_alg».proof.Proof.Gen.KernelIdeal.Launch
import proofs.«134461_j6124623364543_2_alg».proof.Proof.Gen.KernelIdeal.Skeleton
import proofs.«134461_j6124623364543_2_alg».proof.Proof.Gen.KernelIdeal.Points
import proofs.«134461_j6124623364543_2_alg».proof.Proof.Gen.KernelIdeal.Regions
import proofs.«134461_j6124623364543_2_alg».proof.Proof.KI.Reg0
import proofs.«134461_j6124623364543_2_alg».proof.Proof.KI.Reg1
import proofs.«134461_j6124623364543_2_alg».proof.Proof.KI.Reg2
import proofs.«134461_j6124623364543_2_alg».proof.Proof.KI.Reg3
import proofs.«134461_j6124623364543_2_alg».proof.Proof.KI.Reg4
import proofs.«134461_j6124623364543_2_alg».proof.Proof.KI.Reg5
import proofs.«134461_j6124623364543_2_alg».proof.Proof.KI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- A buffer the stretch does not write keeps its contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- After the host stretch `hostOps0_1`. -/
abbrev W2 : Dev nD → Valuation τ sig (Elt F) := fun c => StableHlo.after hostOps0_1 (W1 m ρ c)
/-- A buffer the stretch does not write keeps its contents. -/
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
/-- After the host stretch `hostOps0_2`. -/
abbrev W3 : Dev nD → Valuation τ sig (Elt F) := fun c => StableHlo.after hostOps0_2 (W2 m ρ c)
/-- A buffer the stretch does not write keeps its contents. -/
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- The same read at the TensorCore's references: what region 0's proof data take. -/
abbrev U3 : (c : Dev nD) → (b : Ref sig .tc) → Buf (Elt F) ((c : Thread nD τ).loc b) := fun c b => W3 m ρ c b
/-- At region 0's exit: its window arrays at what the pipeline leaves, every other buffer as entered. -/
def W4 (c : Dev nD) : Valuation τ sig (Elt F) :=
  Pipeline.withArrays spec0 c (W3 m ρ c) fun w => (dat0 (U3 m ρ) c).arrAt w cfg0.N
theorem W4_arr (c : Dev nD) (w : Fin cfg0.W) :
    W4 m ρ c (Proc.devRef .tc (Pipeline.arrRef spec0 w)) = (dat0 (U3 m ρ) c).arrAt w cfg0.N := by
  unfold W4; exact Pipeline.withArrays_arr spec0 launch0.win.arr_inj c _ _ w
theorem W4_of (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev U4 : (c : Dev nD) → (b : Ref sig .tc) → Buf (Elt F) ((c : Thread nD τ).loc b) := fun c b => W4 m ρ c b
theorem hF0 (c : Dev nD) (w : Fin cfg0.W) : (dat0 (U3 m ρ) c).arrAt w cfg0.N = U4 m ρ c (Pipeline.arrRef spec0 w) :=
  (W4_arr m ρ c w).symm
theorem hrest0 (c : Dev nD) : ∀ b, b ∉ Finset.univ.image (Pipeline.arrRef spec0) → U4 m ρ c b = U3 m ρ c b :=
  fun b hb => W4_of m ρ c b fun w e => hb (Finset.mem_image.mpr ⟨w, Finset.mem_univ _, e⟩)
/-- An input window's array leaves region 0 as it entered. -/
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (U3 m ρ) c).arrAt_in w hin _).trans (A_eq0 (U3 m ρ) c w))
/-- After the host stretch `hostOps1`. -/
abbrev W5 : Dev nD → Valuation τ sig (Elt F) := fun c => StableHlo.after hostOps1 (W4 m ρ c)
/-- A buffer the stretch does not write keeps its contents. -/
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
/-- The same read at the TensorCore's references: what region 1's proof data take. -/
abbrev U5 : (c : Dev nD) → (b : Ref sig .tc) → Buf (Elt F) ((c : Thread nD τ).loc b) := fun c b => W5 m ρ c b
/-- At region 1's exit: its window arrays at what the pipeline leaves, every other buffer as entered. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of m ρ c b fun w e => hb (Finset.mem_image.mpr ⟨w, Finset.mem_univ _, e⟩)
/-- An input window's array leaves region 1 as it entered. -/
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (U5 m ρ) c).arrAt_in w hin _).trans (A_eq1 (U5 m ρ) c w))
/-- After the host stretch `hostOps2`. -/
abbrev W7 : Dev nD → Valuation τ sig (Elt F) := fun c => StableHlo.after hostOps2 (W6 m ρ c)
/-- A buffer the stretch does not write keeps its contents. -/
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h
/-- The same read at the TensorCore's references: what region 2's proof data take. -/
abbrev U7 : (c : Dev nD) → (b : Ref sig .tc) → Buf (Elt F) ((c : Thread nD τ).loc b) := fun c b => W7 m ρ c b
/-- At region 2's exit: its window arrays at what the pipeline leaves, every other buffer as entered. -/
def W8 (c : Dev nD) : Valuation τ sig (Elt F) :=
  Pipeline.withArrays spec2 c (W7 m ρ c) fun w => (dat2 (U7 m ρ) c).arrAt w cfg2.N
theorem W8_arr (c : Dev nD) (w : Fin cfg2.W) :
    W8 m ρ c (Proc.devRef .tc (Pipeline.arrRef spec2 w)) = (dat2 (U7 m ρ) c).arrAt w cfg2.N := by
  unfold W8; exact Pipeline.withArrays_arr spec2 launch2.win.arr_inj c _ _ w
theorem W8_of (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev U8 : (c : Dev nD) → (b : Ref sig .tc) → Buf (Elt F) ((c : Thread nD τ).loc b) := fun c b => W8 m ρ c b
theorem hF2 (c : Dev nD) (w : Fin cfg2.W) : (dat2 (U7 m ρ) c).arrAt w cfg2.N = U8 m ρ c (Pipeline.arrRef spec2 w) :=
  (W8_arr m ρ c w).symm
theorem hrest2 (c : Dev nD) : ∀ b, b ∉ Finset.univ.image (Pipeline.arrRef spec2) → U8 m ρ c b = U7 m ρ c b :=
  fun b hb => W8_of m ρ c b fun w e => hb (Finset.mem_image.mpr ⟨w, Finset.mem_univ _, e⟩)
/-- An input window's array leaves region 2 as it entered. -/
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (U7 m ρ) c).arrAt_in w hin _).trans (A_eq2 (U7 m ρ) c w))
/-- After the host stretch `hostOps3`. -/
abbrev W9 : Dev nD → Valuation τ sig (Elt F) := fun c => StableHlo.after hostOps3 (W8 m ρ c)
/-- A buffer the stretch does not write keeps its contents. -/
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h
/-- After the host stretch `hostOps3_1`. -/
abbrev W10 : Dev nD → Valuation τ sig (Elt F) := fun c => StableHlo.after hostOps3_1 (W9 m ρ c)
/-- A buffer the stretch does not write keeps its contents. -/
theorem W10_of (c : Dev nD) (r : Ref sig .tc) (h : r ∉ hostOps3_1_W) :
    W10 m ρ c (Proc.devRef .tc r) = W9 m ρ c (Proc.devRef .tc r) :=
  StableHlo.after_of_writes_sub hostOps3_1 _ hostOps3_1_writes h
/-- After the host stretch `hostOps3_2`. -/
abbrev W11 : Dev nD → Valuation τ sig (Elt F) := fun c => StableHlo.after hostOps3_2 (W10 m ρ c)
/-- A buffer the stretch does not write keeps its contents. -/
theorem W11_of (c : Dev nD) (r : Ref sig .tc) (h : r ∉ hostOps3_2_W) :
    W11 m ρ c (Proc.devRef .tc r) = W10 m ρ c (Proc.devRef .tc r) :=
  StableHlo.after_of_writes_sub hostOps3_2 _ hostOps3_2_writes h
/-- The same read at the TensorCore's references: what region 3's proof data take. -/
abbrev U11 : (c : Dev nD) → (b : Ref sig .tc) → Buf (Elt F) ((c : Thread nD τ).loc b) := fun c b => W11 m ρ c b
/-- At region 3's exit: its window arrays at what the pipeline leaves, every other buffer as entered. -/
def W12 (c : Dev nD) : Valuation τ sig (Elt F) :=
  Pipeline.withArrays spec3 c (W11 m ρ c) fun w => (dat3 (U11 m ρ) c).arrAt w cfg3.N
theorem W12_arr (c : Dev nD) (w : Fin cfg3.W) :
    W12 m ρ c (Proc.devRef .tc (Pipeline.arrRef spec3 w)) = (dat3 (U11 m ρ) c).arrAt w cfg3.N := by
  unfold W12; exact Pipeline.withArrays_arr spec3 launch3.win.arr_inj c _ _ w
theorem W12_of (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
abbrev U12 : (c : Dev nD) → (b : Ref sig .tc) → Buf (Elt F) ((c : Thread nD τ).loc b) := fun c b => W12 m ρ c b
theorem hF3 (c : Dev nD) (w : Fin cfg3.W) : (dat3 (U11 m ρ) c).arrAt w cfg3.N = U12 m ρ c (Pipeline.arrRef spec3 w) :=
  (W12_arr m ρ c w).symm
theorem hrest3 (c : Dev nD) : ∀ b, b ∉ Finset.univ.image (Pipeline.arrRef spec3) → U12 m ρ c b = U11 m ρ c b :=
  fun b hb => W12_of m ρ c b fun w e => hb (Finset.mem_image.mpr ⟨w, Finset.mem_univ _, e⟩)
/-- An input window's array leaves region 3 as it entered. -/
theorem W12_in (c : Dev nD) (w : Fin cfg3.W) (hin : (cfg3.win w).isOut = false) :
    W12 m ρ c (Proc.devRef .tc (Pipeline.arrRef spec3 w)) = W11 m ρ c (Proc.devRef .tc (Pipeline.arrRef spec3 w)) :=
  (W12_arr m ρ c w).trans (((dat3 (U11 m ρ) c).arrAt_in w hin _).trans (A_eq3 (U11 m ρ) c w))
/-- After the host stretch `hostOps4`. -/
abbrev W13 : Dev nD → Valuation τ sig (Elt F) := fun c => StableHlo.after hostOps4 (W12 m ρ c)
/-- A buffer the stretch does not write keeps its contents. -/
theorem W13_of (c : Dev nD) (r : Ref sig .tc) (h : r ∉ hostOps4_W) :
    W13 m ρ c (Proc.devRef .tc r) = W12 m ρ c (Proc.devRef .tc r) :=
  StableHlo.after_of_writes_sub hostOps4 _ hostOps4_writes h
/-- The same read at the TensorCore's references: what region 4's proof data take. -/
abbrev U13 : (c : Dev nD) → (b : Ref sig .tc) → Buf (Elt F) ((c : Thread nD τ).loc b) := fun c b => W13 m ρ c b
/-- At region 4's exit: its window arrays at what the pipeline leaves, every other buffer as entered. -/
def W14 (c : Dev nD) : Valuation τ sig (Elt F) :=
  Pipeline.withArrays spec4 c (W13 m ρ c) fun w => (dat4 (U13 m ρ) c).arrAt w cfg4.N
theorem W14_arr (c : Dev nD) (w : Fin cfg4.W) :
    W14 m ρ c (Proc.devRef .tc (Pipeline.arrRef spec4 w)) = (dat4 (U13 m ρ) c).arrAt w cfg4.N := by
  unfold W14; exact Pipeline.withArrays_arr spec4 launch4.win.arr_inj c _ _ w
theorem W14_of (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
abbrev U14 : (c : Dev nD) → (b : Ref sig .tc) → Buf (Elt F) ((c : Thread nD τ).loc b) := fun c b => W14 m ρ c b
theorem hF4 (c : Dev nD) (w : Fin cfg4.W) : (dat4 (U13 m ρ) c).arrAt w cfg4.N = U14 m ρ c (Pipeline.arrRef spec4 w) :=
  (W14_arr m ρ c w).symm
theorem hrest4 (c : Dev nD) : ∀ b, b ∉ Finset.univ.image (Pipeline.arrRef spec4) → U14 m ρ c b = U13 m ρ c b :=
  fun b hb => W14_of m ρ c b fun w e => hb (Finset.mem_image.mpr ⟨w, Finset.mem_univ _, e⟩)
/-- An input window's array leaves region 4 as it entered. -/
theorem W14_in (c : Dev nD) (w : Fin cfg4.W) (hin : (cfg4.win w).isOut = false) :
    W14 m ρ c (Proc.devRef .tc (Pipeline.arrRef spec4 w)) = W13 m ρ c (Proc.devRef .tc (Pipeline.arrRef spec4 w)) :=
  (W14_arr m ρ c w).trans (((dat4 (U13 m ρ) c).arrAt_in w hin _).trans (A_eq4 (U13 m ρ) c w))
/-- After the host stretch `hostOps5`. -/
abbrev W15 : Dev nD → Valuation τ sig (Elt F) := fun c => StableHlo.after hostOps5 (W14 m ρ c)
/-- A buffer the stretch does not write keeps its contents. -/
theorem W15_of (c : Dev nD) (r : Ref sig .tc) (h : r ∉ hostOps5_W) :
    W15 m ρ c (Proc.devRef .tc r) = W14 m ρ c (Proc.devRef .tc r) :=
  StableHlo.after_of_writes_sub hostOps5 _ hostOps5_writes h
/-- The same read at the TensorCore's references: what region 5's proof data take. -/
abbrev U15 : (c : Dev nD) → (b : Ref sig .tc) → Buf (Elt F) ((c : Thread nD τ).loc b) := fun c b => W15 m ρ c b
/-- At region 5's exit: its window arrays at what the pipeline leaves, every other buffer as entered. -/
def W16 (c : Dev nD) : Valuation τ sig (Elt F) :=
  Pipeline.withArrays spec5 c (W15 m ρ c) fun w => (dat5 (U15 m ρ) c).arrAt w cfg5.N
theorem W16_arr (c : Dev nD) (w : Fin cfg5.W) :
    W16 m ρ c (Proc.devRef .tc (Pipeline.arrRef spec5 w)) = (dat5 (U15 m ρ) c).arrAt w cfg5.N := by
  unfold W16; exact Pipeline.withArrays_arr spec5 launch5.win.arr_inj c _ _ w
theorem W16_of (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb
abbrev U16 : (c : Dev nD) → (b : Ref sig .tc) → Buf (Elt F) ((c : Thread nD τ).loc b) := fun c b => W16 m ρ c b
theorem hF5 (c : Dev nD) (w : Fin cfg5.W) : (dat5 (U15 m ρ) c).arrAt w cfg5.N = U16 m ρ c (Pipeline.arrRef spec5 w) :=
  (W16_arr m ρ c w).symm
theorem hrest5 (c : Dev nD) : ∀ b, b ∉ Finset.univ.image (Pipeline.arrRef spec5) → U16 m ρ c b = U15 m ρ c b :=
  fun b hb => W16_of m ρ c b fun w e => hb (Finset.mem_image.mpr ⟨w, Finset.mem_univ _, e⟩)
/-- An input window's array leaves region 5 as it entered. -/
theorem W16_in (c : Dev nD) (w : Fin cfg5.W) (hin : (cfg5.win w).isOut = false) :
    W16 m ρ c (Proc.devRef .tc (Pipeline.arrRef spec5 w)) = W15 m ρ c (Proc.devRef .tc (Pipeline.arrRef spec5 w)) :=
  (W16_arr m ρ c w).trans (((dat5 (U15 m ρ) c).arrAt_in w hin _).trans (A_eq5 (U15 m ρ) c w))
/-- At region 6's exit: its window arrays at what the pipeline leaves, every other buffer as entered. -/
def W17 (c : Dev nD) : Valuation τ sig (Elt F) :=
  Pipeline.withArrays spec6 c (W16 m ρ c) fun w => (dat6 (U16 m ρ) c).arrAt w cfg6.N
theorem W17_arr (c : Dev nD) (w : Fin cfg6.W) :
    W17 m ρ c (Proc.devRef .tc (Pipeline.arrRef spec6 w)) = (dat6 (U16 m ρ) c).arrAt w cfg6.N := by
  unfold W17; exact Pipeline.withArrays_arr spec6 launch6.win.arr_inj c _ _ w
theorem W17_of (c : Dev nD) (b : Ref sig .tc) (hb : ∀ w, Pipeline.arrRef spec6 w ≠ b) :
    W17 m ρ c (Proc.devRef .tc b) = W16 m ρ c (Proc.devRef .tc b) := by
  unfold W17; exact Pipeline.withArrays_of_ne spec6 c _ _ b hb
abbrev U17 : (c : Dev nD) → (b : Ref sig .tc) → Buf (Elt F) ((c : Thread nD τ).loc b) := fun c b => W17 m ρ c b
theorem hF6 (c : Dev nD) (w : Fin cfg6.W) : (dat6 (U16 m ρ) c).arrAt w cfg6.N = U17 m ρ c (Pipeline.arrRef spec6 w) :=
  (W17_arr m ρ c w).symm
theorem hrest6 (c : Dev nD) : ∀ b, b ∉ Finset.univ.image (Pipeline.arrRef spec6) → U17 m ρ c b = U16 m ρ c b :=
  fun b hb => W17_of m ρ c b fun w e => hb (Finset.mem_image.mpr ⟨w, Finset.mem_univ _, e⟩)
/-- An input window's array leaves region 6 as it entered. -/
theorem W17_in (c : Dev nD) (w : Fin cfg6.W) (hin : (cfg6.win w).isOut = false) :
    W17 m ρ c (Proc.devRef .tc (Pipeline.arrRef spec6 w)) = W16 m ρ c (Proc.devRef .tc (Pipeline.arrRef spec6 w)) :=
  (W17_arr m ρ c w).trans (((dat6 (U16 m ρ) c).arrAt_in w hin _).trans (A_eq6 (U16 m ρ) c w))

/-! ## The proof data family and the thread state -/

/-- The prefetched tables' admissible contents: no pipeline has a table. -/
abbrev hadm : (p : Fin 7) → (pcfgs (F := F) p).Adm := fun p => (cfgs p).toPCfg_adm
/-- Every pipeline's proof data, each at its region's entry contents. -/
def hpdats : (p : Fin 7) → (c : Dev nD) → Dat τ (Elt F) Unit ℕ (UR sig nD τ) ℕ (Pipeline.pin (pcfgs (F := F)) hadm p) c
  | ⟨0, _⟩ => fun c => dat0 (U3 m ρ) c
  | ⟨1, _⟩ => fun c => dat1 (U5 m ρ) c
  | ⟨2, _⟩ => fun c => dat2 (U7 m ρ) c
  | ⟨3, _⟩ => fun c => dat3 (U11 m ρ) c
  | ⟨4, _⟩ => fun c => dat4 (U13 m ρ) c
  | ⟨5, _⟩ => fun c => dat5 (U15 m ρ) c
  | ⟨6, _⟩ => fun c => dat6 (U16 m ρ) c
abbrev h𝒱₀ : Variants := Variants.none
/-- No core owes another anything: no level is assigned. -/
abbrev hL : GSem nD τ sig → Finset Unit := fun _ => ∅
abbrev hlv : GSem nD τ sig → Unit → ℕ := fun _ _ => 0
/-- What rides beside the buffers through every item: the core's generator register at some state and its dues, at nothing. -/
abbrev hR (c : Dev nD) : sProp 𝕄 := iprop((∃ r, prngReg c r) ∗ ∃ W, owes (c : Thread nD τ) (0 : CellTallies nD τ sig Unit) W)
/-- A host stretch as a segment over the unscoped references from the contents `W`. -/
abbrev hhseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ h𝒱₀ hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
/-- An unscoped TensorCore reference is among those the thread state holds. -/
theorem hmem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev hTₙ (c : Dev nD) : sProp 𝕄 := iprop(StableHlo.held (c : Thread nD τ) (Pipeline.ucRefs τ sig) (W17 m ρ c) ∗ ∃ r, prngReg c r)

/-! ## The regions as segments -/

set_option backward.isDefEq.respectTransparency.types false in
/-- Region 0 over the thread state: entered from every unscoped buffer at `W3`, left at `W4`. Its arrays are split out
    of the unscoped buffers and put back at the exit contents; the generator register goes into the region invariant and comes
    back; nothing is owed. -/
def hreg0 : Pipeline.RegionSeg (pcfgs (F := F)) hadm (hpdats m ρ) () defs₀ h𝒱₀ hL hlv 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ hL hlv 0 fun _ _ => rfl
  pre c := iprop(StableHlo.held (c : Thread nD τ) (Pipeline.ucRefs τ sig) (W3 m ρ c) ∗ hR c)
  post c := iprop(StableHlo.held (c : Thread nD τ) (Pipeline.ucRefs τ sig) (W4 m ρ c) ∗ hR c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) hadm (hpdats m ρ) launch0.win launch0.arr_whole c
      ((hpdats m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (hpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hpdats m ρ) ((hpdats m ρ 0 c).share_full fun _ => rfl)
      (U3 m ρ c) (U4 m ρ c) ((hpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split out
    of the unscoped buffers and put back at the exit contents; the generator register goes into the region invariant and comes
    back; nothing is owed. -/
def hreg1 : Pipeline.RegionSeg (pcfgs (F := F)) hadm (hpdats m ρ) () defs₀ h𝒱₀ hL hlv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ hL hlv 1 fun _ _ => rfl
  pre c := iprop(StableHlo.held (c : Thread nD τ) (Pipeline.ucRefs τ sig) (W5 m ρ c) ∗ hR c)
  post c := iprop(StableHlo.held (c : Thread nD τ) (Pipeline.ucRefs τ sig) (W6 m ρ c) ∗ hR c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) hadm (hpdats m ρ) launch1.win launch1.arr_whole c
      ((hpdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (hpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hpdats m ρ) ((hpdats m ρ 1 c).share_full fun _ => rfl)
      (U5 m ρ c) (U6 m ρ c) ((hpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its arrays are split out
    of the unscoped buffers and put back at the exit contents; the generator register goes into the region invariant and comes
    back; nothing is owed. -/
def hreg2 : Pipeline.RegionSeg (pcfgs (F := F)) hadm (hpdats m ρ) () defs₀ h𝒱₀ hL hlv 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ hL hlv 2 fun _ _ => rfl
  pre c := iprop(StableHlo.held (c : Thread nD τ) (Pipeline.ucRefs τ sig) (W7 m ρ c) ∗ hR c)
  post c := iprop(StableHlo.held (c : Thread nD τ) (Pipeline.ucRefs τ sig) (W8 m ρ c) ∗ hR c)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) hadm (hpdats m ρ) launch2.win launch2.arr_whole c
      ((hpdats m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (hpdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (hpdats m ρ) ((hpdats m ρ 2 c).share_full fun _ => rfl)
      (U7 m ρ c) (U8 m ρ c) ((hpdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W11`, left at `W12`. Its arrays are split out
    of the unscoped buffers and put back at the exit contents; the generator register goes into the region invariant and comes
    back; nothing is owed. -/
def hreg3 : Pipeline.RegionSeg (pcfgs (F := F)) hadm (hpdats m ρ) () defs₀ h𝒱₀ hL hlv 3 where
  win := launch3.win.to₀
  block_pos := launch3.block_pos
  stage_whole := launch3.stage_whole
  K := PEmpty
  osem k := k.elim
  ho := Pipeline.OwnSemFacts.none _
  hbody c := (body_obligation3 (U11 m ρ) c).loose
  hwaits := Pipeline.hwaits_of_owed_zero _ _ _ _ hL hlv 3 fun _ _ => rfl
  pre c := iprop(StableHlo.held (c : Thread nD τ) (Pipeline.ucRefs τ sig) (W11 m ρ c) ∗ hR c)
  post c := iprop(StableHlo.held (c : Thread nD τ) (Pipeline.ucRefs τ sig) (W12 m ρ c) ∗ hR c)
  X c := iprop(∃ r, prngReg c r)
  Y c := iprop(∃ r, prngReg c r)
  Z c := Pipeline.unscopedRest (Ix := Unit) (Name := ℕ) (U := UR sig nD τ) (Lvl := ℕ) spec3 c (U11 m ρ c)
  hentry c := by
    rw [Pipeline.ownSems0_none]
    have hsplit := Pipeline.arrays_of_unscopedBufs (p := 3) (pcfgs (F := F)) hadm (hpdats m ρ) launch3.win launch3.arr_whole c
      ((hpdats m ρ 3 c).share_full fun _ => rfl) (U11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (hpdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (hpdats m ρ) ((hpdats m ρ 3 c).share_full fun _ => rfl)
      (U11 m ρ c) (U12 m ρ c) ((hpdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W13`, left at `W14`. Its arrays are split out
    of the unscoped buffers and put back at the exit contents; the generator register goes into the region invariant and comes
    back; nothing is owed. -/
def hreg4 : Pipeline.RegionSeg (pcfgs (F := F)) hadm (hpdats m ρ) () defs₀ h𝒱₀ hL hlv 4 where
  win := launch4.win.to₀
  block_pos := launch4.block_pos
  stage_whole := launch4.stage_whole
  K := PEmpty
  osem k := k.elim
  ho := Pipeline.OwnSemFacts.none _
  hbody c := (body_obligation4 (U13 m ρ) c).loose
  hwaits := Pipeline.hwaits_of_owed_zero _ _ _ _ hL hlv 4 fun _ _ => rfl
  pre c := iprop(StableHlo.held (c : Thread nD τ) (Pipeline.ucRefs τ sig) (W13 m ρ c) ∗ hR c)
  post c := iprop(StableHlo.held (c : Thread nD τ) (Pipeline.ucRefs τ sig) (W14 m ρ c) ∗ hR c)
  X c := iprop(∃ r, prngReg c r)
  Y c := iprop(∃ r, prngReg c r)
  Z c := Pipeline.unscopedRest (Ix := Unit) (Name := ℕ) (U := UR sig nD τ) (Lvl := ℕ) spec4 c (U13 m ρ c)
  hentry c := by
    rw [Pipeline.ownSems0_none]
    have hsplit := Pipeline.arrays_of_unscopedBufs (p := 4) (pcfgs (F := F)) hadm (hpdats m ρ) launch4.win launch4.arr_whole c
      ((hpdats m ρ 4 c).share_full fun _ => rfl) (U13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (hpdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) hadm (Ix := Unit) (Name := ℕ) (U := UR sig nD τ) (Lvl := ℕ)
      launch4.win launch4.arr_whole c (hpdats m ρ) ((hpdats m ρ 4 c).share_full fun _ => rfl)
      (U13 m ρ c) (U14 m ρ c) ((hpdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W15`, left at `W16`. Its arrays are split out
    of the unscoped buffers and put back at the exit contents; the generator register goes into the region invariant and comes
    back; nothing is owed. -/
def hreg5 : Pipeline.RegionSeg (pcfgs (F := F)) hadm (hpdats m ρ) () defs₀ h𝒱₀ hL hlv 5 where
  win := launch5.win.to₀
  block_pos := launch5.block_pos
  stage_whole := launch5.stage_whole
  K := PEmpty
  osem k := k.elim
  ho := Pipeline.OwnSemFacts.none _
  hbody c := (body_obligation5 (U15 m ρ) c).loose
  hwaits := Pipeline.hwaits_of_owed_zero _ _ _ _ hL hlv 5 fun _ _ => rfl
  pre c := iprop(StableHlo.held (c : Thread nD τ) (Pipeline.ucRefs τ sig) (W15 m ρ c) ∗ hR c)
  post c := iprop(StableHlo.held (c : Thread nD τ) (Pipeline.ucRefs τ sig) (W16 m ρ c) ∗ hR c)
  X c := iprop(∃ r, prngReg c r)
  Y c := iprop(∃ r, prngReg c r)
  Z c := Pipeline.unscopedRest (Ix := Unit) (Name := ℕ) (U := UR sig nD τ) (Lvl := ℕ) spec5 c (U15 m ρ c)
  hentry c := by
    rw [Pipeline.ownSems0_none]
    have hsplit := Pipeline.arrays_of_unscopedBufs (p := 5) (pcfgs (F := F)) hadm (hpdats m ρ) launch5.win launch5.arr_whole c
      ((hpdats m ρ 5 c).share_full fun _ => rfl) (U15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (hpdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) hadm (Ix := Unit) (Name := ℕ) (U := UR sig nD τ) (Lvl := ℕ)
      launch5.win launch5.arr_whole c (hpdats m ρ) ((hpdats m ρ 5 c).share_full fun _ => rfl)
      (U15 m ρ c) (U16 m ρ c) ((hpdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W16`, left at `W17`. Its arrays are split out
    of the unscoped buffers and put back at the exit contents; the generator register goes into the region invariant and comes
    back; nothing is owed. -/
def hreg6 : Pipeline.RegionSeg (pcfgs (F := F)) hadm (hpdats m ρ) () defs₀ h𝒱₀ hL hlv 6 where
  win := launch6.win.to₀
  block_pos := launch6.block_pos
  stage_whole := launch6.stage_whole
  K := PEmpty
  osem k := k.elim
  ho := Pipeline.OwnSemFacts.none _
  hbody c := (body_obligation6 (U16 m ρ) c).loose
  hwaits := Pipeline.hwaits_of_owed_zero _ _ _ _ hL hlv 6 fun _ _ => rfl
  pre c := iprop(StableHlo.held (c : Thread nD τ) (Pipeline.ucRefs τ sig) (W16 m ρ c) ∗ hR c)
  post c := iprop(hTₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (U16 m ρ c)
  hentry c := by
    rw [Pipeline.ownSems0_none]
    have hsplit := Pipeline.arrays_of_unscopedBufs (p := 6) (pcfgs (F := F)) hadm (hpdats m ρ) launch6.win launch6.arr_whole c
      ((hpdats m ρ 6 c).share_full fun _ => rfl) (U16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hpdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (hpdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) hadm (Ix := Unit) (Name := ℕ) (U := UR sig nD τ) (Lvl := ℕ)
      launch6.win launch6.arr_whole c (hpdats m ρ) ((hpdats m ρ 6 c).share_full fun _ => rfl)
      (U16 m ρ c) (U17 m ρ c) ((hpdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 17 items in order: a host segment per stretch from its boundary's contents, a region per pallas_call. -/
abbrev hsegs : List (Pipeline.Seg (pcfgs (F := F)) hadm (hpdats m ρ) () defs₀ h𝒱₀ hL hlv) :=
  [ .host (hhseg hostOps0 hostOps0_sub hostOps0_fresh (W0 m ρ)),
    .host (hhseg hostOps0_1 hostOps0_1_sub hostOps0_1_fresh (W1 m ρ)),
    .host (hhseg hostOps0_2 hostOps0_2_sub hostOps0_2_fresh (W2 m ρ)),
    .region (hreg0 m ρ),
    .host (hhseg hostOps1 hostOps1_sub hostOps1_fresh (W4 m ρ)),
    .region (hreg1 m ρ),
    .host (hhseg hostOps2 hostOps2_sub hostOps2_fresh (W6 m ρ)),
    .region (hreg2 m ρ),
    .host (hhseg hostOps3 hostOps3_sub hostOps3_fresh (W8 m ρ)),
    .host (hhseg hostOps3_1 hostOps3_1_sub hostOps3_1_fresh (W9 m ρ)),
    .host (hhseg hostOps3_2 hostOps3_2_sub hostOps3_2_fresh (W10 m ρ)),
    .region (hreg3 m ρ),
    .host (hhseg hostOps4 hostOps4_sub hostOps4_fresh (W12 m ρ)),
    .region (hreg4 m ρ),
    .host (hhseg hostOps5 hostOps5_sub hostOps5_fresh (W14 m ρ)),
    .region (hreg5 m ρ),
    .region (hreg6 m ρ) ]
/-- @main is the run of the segments. -/
theorem hmain_run (c : Dev nD) : main (F := F) c = Pipeline.Seg.run (hsegs m ρ) := (main_chain c).trans (by chain_rfl)

set_option backward.isDefEq.respectTransparency.types false in
/-- Every weakly fair execution of @main from the memory `m` with zero counters terminates, nothing faulting, and every
    final state holds every unscoped buffer of every core at the last contents `W17`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) hadm (hpdats m ρ) () cellOf_inj emb₁ defs₀ h𝒱₀ hL hlv m ρ main (hsegs m ρ)
    (fun c Q => by rw [hmain_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ hR c)) (Tₙ := hTₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach hL hlv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => h c)

end Cert.KernelIdeal.H

end
-- ==== Proof.KI.Args.lean ====
/-
  An argument array is written by no host stretch and by no kernel region (a region reads it through an input window or
  not at all), so the fold of contents at an argument walks back to the launch memory, item by item; with the run of the
  whole program this is the frame claim: the program runs to the end and leaves its argument arrays unchanged.
-/
import proofs.«134461_j6124623364543_2_alg».proof.Proof.KI.Run

set_option maxRecDepth 16384

noncomputable section

namespace Cert.KernelIdeal.H

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W17_main_arg0 (c : Dev nD) : W17 m ρ c (Proc.devRef .tc main_arg0) = m ((c : Thread nD τ).loc main_arg0) :=
  (W17_of m ρ c main_arg0 (by decide)).trans <| (W16_of m ρ c main_arg0 (by decide)).trans <| (W15_of m ρ c main_arg0 (by decide)).trans <| (W14_of m ρ c main_arg0 (by decide)).trans <| (W13_of m ρ c main_arg0 (by decide)).trans <| (W12_of m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_in m ρ c 0 rfl).trans <| (W3_of m ρ c main_arg0 (by decide)).trans <| (W2_of m ρ c main_arg0 (by decide)).trans <| (W1_of m ρ c main_arg0 (by decide))
theorem W17_main_arg1 (c : Dev nD) : W17 m ρ c (Proc.devRef .tc main_arg1) = m ((c : Thread nD τ).loc main_arg1) :=
  (W17_of m ρ c main_arg1 (by decide)).trans <| (W16_of m ρ c main_arg1 (by decide)).trans <| (W15_of m ρ c main_arg1 (by decide)).trans <| (W14_of m ρ c main_arg1 (by decide)).trans <| (W13_of m ρ c main_arg1 (by decide)).trans <| (W12_in m ρ c 0 rfl).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide))
theorem W17_main_arg2 (c : Dev nD) : W17 m ρ c (Proc.devRef .tc main_arg2) = m ((c : Thread nD τ).loc main_arg2) :=
  (W17_of m ρ c main_arg2 (by decide)).trans <| (W16_of m ρ c main_arg2 (by decide)).trans <| (W15_of m ρ c main_arg2 (by decide)).trans <| (W14_of m ρ c main_arg2 (by decide)).trans <| (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide))
theorem W17_main_arg3 (c : Dev nD) : W17 m ρ c (Proc.devRef .tc main_arg3) = m ((c : Thread nD τ).loc main_arg3) :=
  (W17_of m ρ c main_arg3 (by decide)).trans <| (W16_of m ρ c main_arg3 (by decide)).trans <| (W15_of m ρ c main_arg3 (by decide)).trans <| (W14_of m ρ c main_arg3 (by decide)).trans <| (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide))
theorem W17_main_arg4 (c : Dev nD) : W17 m ρ c (Proc.devRef .tc main_arg4) = m ((c : Thread nD τ).loc main_arg4) :=
  (W17_of m ρ c main_arg4 (by decide)).trans <| (W16_of m ρ c main_arg4 (by decide)).trans <| (W15_of m ρ c main_arg4 (by decide)).trans <| (W14_of m ρ c main_arg4 (by decide)).trans <| (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide))
theorem W17_main_arg5 (c : Dev nD) : W17 m ρ c (Proc.devRef .tc main_arg5) = m ((c : Thread nD τ).loc main_arg5) :=
  (W17_of m ρ c main_arg5 (by decide)).trans <| (W16_of m ρ c main_arg5 (by decide)).trans <| (W15_of m ρ c main_arg5 (by decide)).trans <| (W14_of m ρ c main_arg5 (by decide)).trans <| (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide))
theorem W17_main_arg6 (c : Dev nD) : W17 m ρ c (Proc.devRef .tc main_arg6) = m ((c : Thread nD τ).loc main_arg6) :=
  (W17_of m ρ c main_arg6 (by decide)).trans <| (W16_of m ρ c main_arg6 (by decide)).trans <| (W15_of m ρ c main_arg6 (by decide)).trans <| (W14_of m ρ c main_arg6 (by decide)).trans <| (W13_of m ρ c main_arg6 (by decide)).trans <| (W12_of m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_in m ρ c 1 rfl).trans <| (W3_of m ρ c main_arg6 (by decide)).trans <| (W2_of m ρ c main_arg6 (by decide)).trans <| (W1_of m ρ c main_arg6 (by decide))
theorem W17_main_arg7 (c : Dev nD) : W17 m ρ c (Proc.devRef .tc main_arg7) = m ((c : Thread nD τ).loc main_arg7) :=
  (W17_of m ρ c main_arg7 (by decide)).trans <| (W16_of m ρ c main_arg7 (by decide)).trans <| (W15_of m ρ c main_arg7 (by decide)).trans <| (W14_of m ρ c main_arg7 (by decide)).trans <| (W13_of m ρ c main_arg7 (by decide)).trans <| (W12_of m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide))
theorem W17_main_arg8 (c : Dev nD) : W17 m ρ c (Proc.devRef .tc main_arg8) = m ((c : Thread nD τ).loc main_arg8) :=
  (W17_of m ρ c main_arg8 (by decide)).trans <| (W16_of m ρ c main_arg8 (by decide)).trans <| (W15_of m ρ c main_arg8 (by decide)).trans <| (W14_of m ρ c main_arg8 (by decide)).trans <| (W13_of m ρ c main_arg8 (by decide)).trans <| (W12_in m ρ c 1 rfl).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide))
theorem W17_main_arg9 (c : Dev nD) : W17 m ρ c (Proc.devRef .tc main_arg9) = m ((c : Thread nD τ).loc main_arg9) :=
  (W17_of m ρ c main_arg9 (by decide)).trans <| (W16_of m ρ c main_arg9 (by decide)).trans <| (W15_of m ρ c main_arg9 (by decide)).trans <| (W14_of m ρ c main_arg9 (by decide)).trans <| (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide))
theorem W17_main_arg10 (c : Dev nD) : W17 m ρ c (Proc.devRef .tc main_arg10) = m ((c : Thread nD τ).loc main_arg10) :=
  (W17_in m ρ c 6 rfl).trans <| (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide))
theorem W17_main_arg11 (c : Dev nD) : W17 m ρ c (Proc.devRef .tc main_arg11) = m ((c : Thread nD τ).loc main_arg11) :=
  (W17_of m ρ c main_arg11 (by decide)).trans <| (W16_of m ρ c main_arg11 (by decide)).trans <| (W15_of m ρ c main_arg11 (by decide)).trans <| (W14_of m ρ c main_arg11 (by decide)).trans <| (W13_of m ρ c main_arg11 (by decide)).trans <| (W12_of m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide))
theorem W17_main_arg12 (c : Dev nD) : W17 m ρ c (Proc.devRef .tc main_arg12) = m ((c : Thread nD τ).loc main_arg12) :=
  (W17_in m ρ c 8 rfl).trans <| (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide))
theorem W17_main_arg13 (c : Dev nD) : W17 m ρ c (Proc.devRef .tc main_arg13) = m ((c : Thread nD τ).loc main_arg13) :=
  (W17_of m ρ c main_arg13 (by decide)).trans <| (W16_of m ρ c main_arg13 (by decide)).trans <| (W15_of m ρ c main_arg13 (by decide)).trans <| (W14_of m ρ c main_arg13 (by decide)).trans <| (W13_of m ρ c main_arg13 (by decide)).trans <| (W12_of m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide))

/-- The frame claim at any float instance: every weakly fair execution terminates, nothing faulting, and every final
    state has the fourteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (hmem_uc main_arg0 (by decide))).trans (W17_main_arg0 m ρ c),
     (h c _ (hmem_uc main_arg1 (by decide))).trans (W17_main_arg1 m ρ c),
     (h c _ (hmem_uc main_arg2 (by decide))).trans (W17_main_arg2 m ρ c),
     (h c _ (hmem_uc main_arg3 (by decide))).trans (W17_main_arg3 m ρ c),
     (h c _ (hmem_uc main_arg4 (by decide))).trans (W17_main_arg4 m ρ c),
     (h c _ (hmem_uc main_arg5 (by decide))).trans (W17_main_arg5 m ρ c),
     (h c _ (hmem_uc main_arg6 (by decide))).trans (W17_main_arg6 m ρ c),
     (h c _ (hmem_uc main_arg7 (by decide))).trans (W17_main_arg7 m ρ c),
     (h c _ (hmem_uc main_arg8 (by decide))).trans (W17_main_arg8 m ρ c),
     (h c _ (hmem_uc main_arg9 (by decide))).trans (W17_main_arg9 m ρ c),
     (h c _ (hmem_uc main_arg10 (by decide))).trans (W17_main_arg10 m ρ c),
     (h c _ (hmem_uc main_arg11 (by decide))).trans (W17_main_arg11 m ρ c),
     (h c _ (hmem_uc main_arg12 (by decide))).trans (W17_main_arg12 m ρ c),
     (h c _ (hmem_uc main_arg13 (by decide))).trans (W17_main_arg13 m ρ c)⟩)
    (run_all m ρ)

end Cert.KernelIdeal.H

end
-- ==== Proof.Spec.lean ====
/-
  The two programs' common value, as functions of whole arrays over literal shapes, at the ideal instance
  (floats are extended reals, every operation exact). A node feature table is a 50000 × 64 array; `lin` is the
  dense layer followed by the rectifier, `scl` the row scaling by the degree column D^{-1/2}, `nxt` one
  propagation step  f ↦ f − (A · (f · D^{-1/2})) · D^{-1/2}  given the aggregated neighbours `a`, `comb` a
  three-term filter  c₀ f₀ + c₁ f₁ + c₂ f₂  (summed left to right), `cat6` the six filters side by side along the
  feature axis, and `mlp` the two-layer perceptron on the concatenation. The neighbour aggregation itself (a gather
  by source node followed by a scatter-add by target node) is the same host computation in both programs and is
  never opened.
-/
import Idealize.ShloMosaic.PureOps.Ideal
import Idealize.ShloMosaic.Lib.ValueIdx

noncomputable section

namespace Cert.Spec

open Idealize.ShloMosaic Idealize.ShloMosaic.ValueIdx
open scoped BigOperators

abbrev SN128 : Shape := ⟨2, ![50000, 128]⟩
abbrev SN64 : Shape := ⟨2, ![50000, 64]⟩
abbrev SN1 : Shape := ⟨2, ![50000, 1]⟩
abbrev SN384 : Shape := ⟨2, ![50000, 384]⟩
abbrev SN2 : Shape := ⟨2, ![50000, 2]⟩
abbrev S128x64 : Shape := ⟨2, ![128, 64]⟩
abbrev S384x64 : Shape := ⟨2, ![384, 64]⟩
abbrev S64x2 : Shape := ⟨2, ![64, 2]⟩
abbrev S1x64 : Shape := ⟨2, ![1, 64]⟩
abbrev S1x2 : Shape := ⟨2, ![1, 2]⟩

/-- The dense layer with bias row `b` (a 1 × 64 array) and the rectifier, at row `r`, feature `j`. -/
def linAt (x : SN128.Idx → EReal) (W : S128x64.Idx → EReal) (b : S1x64.Idx → EReal) (r : Fin 50000) (j : Fin 64) : EReal :=
  max ((∑ k : Fin 128, x (ix2 r k) * W (ix2 k j)) + b (ix2 (0 : Fin 1) j)) (Ideal.ofBits .f32 0x00000000#32)
def lin (x : SN128.Idx → EReal) (W : S128x64.Idx → EReal) (b : S1x64.Idx → EReal) : SN64.Idx → EReal :=
  fun i => linAt x W b (i 0) (i 1)

/-- Row scaling by the column `d`. -/
def sclAt (f : SN64.Idx → EReal) (d : SN1.Idx → EReal) (r : Fin 50000) (j : Fin 64) : EReal :=
  f (ix2 r j) * d (ix2 r (0 : Fin 1))
def scl (f : SN64.Idx → EReal) (d : SN1.Idx → EReal) : SN64.Idx → EReal := fun i => sclAt f d (i 0) (i 1)

/-- One propagation step from the features `f`, the column `d` and the aggregated neighbours `a`. -/
def nxtAt (f : SN64.Idx → EReal) (d : SN1.Idx → EReal) (a : SN64.Idx → EReal) (r : Fin 50000) (j : Fin 64) : EReal :=
  f (ix2 r j) - a (ix2 r j) * d (ix2 r (0 : Fin 1))
def nxt (f : SN64.Idx → EReal) (d : SN1.Idx → EReal) (a : SN64.Idx → EReal) : SN64.Idx → EReal :=
  fun i => nxtAt f d a (i 0) (i 1)

/-- A three-term filter, summed left to right. -/
def combAt (c0 c1 c2 : EReal) (f0 f1 f2 : SN64.Idx → EReal) (r : Fin 50000) (j : Fin 64) : EReal :=
  c0 * f0 (ix2 r j) + c1 * f1 (ix2 r j) + c2 * f2 (ix2 r j)
def comb (c0 c1 c2 : EReal) (f0 f1 f2 : SN64.Idx → EReal) : SN64.Idx → EReal :=
  fun i => combAt c0 c1 c2 f0 f1 f2 (i 0) (i 1)

/-- Six 64-wide tables side by side: column `q` of the result is column `q % 64` of table `q / 64`. -/
def cat6At (p0 p1 p2 p3 p4 p5 : SN64.Idx → EReal) (r : Fin 50000) (q : Fin 384) : EReal :=
  if q.val < 64 then p0 (ix2 r ⟨q.val % 64, Nat.mod_lt _ (by decide)⟩)
  else if q.val < 128 then p1 (ix2 r ⟨q.val % 64, Nat.mod_lt _ (by decide)⟩)
  else if q.val < 192 then p2 (ix2 r ⟨q.val % 64, Nat.mod_lt _ (by decide)⟩)
  else if q.val < 256 then p3 (ix2 r ⟨q.val % 64, Nat.mod_lt _ (by decide)⟩)
  else if q.val < 320 then p4 (ix2 r ⟨q.val % 64, Nat.mod_lt _ (by decide)⟩)
  else p5 (ix2 r ⟨q.val % 64, Nat.mod_lt _ (by decide)⟩)
def cat6 (p0 p1 p2 p3 p4 p5 : SN64.Idx → EReal) : SN384.Idx → EReal :=
  fun i => cat6At p0 p1 p2 p3 p4 p5 (i 0) (i 1)

/-- The hidden layer of the perceptron at row `r`, unit `k`. -/
def hidAt (h : SN384.Idx → EReal) (W1 : S384x64.Idx → EReal) (b1 : S1x64.Idx → EReal) (r : Fin 50000) (k : Fin 64) : EReal :=
  max ((∑ q : Fin 384, h (ix2 r q) * W1 (ix2 q k)) + b1 (ix2 (0 : Fin 1) k)) (Ideal.ofBits .f32 0x00000000#32)
/-- The perceptron's output at row `r`, class `o`. -/
def mlpAt (h : SN384.Idx → EReal) (W1 : S384x64.Idx → EReal) (b1 : S1x64.Idx → EReal) (W2 : S64x2.Idx → EReal)
    (b2 : S1x2.Idx → EReal) (r : Fin 50000) (o : Fin 2) : EReal :=
  (∑ k : Fin 64, hidAt h W1 b1 r k * W2 (ix2 k o)) + b2 (ix2 (0 : Fin 1) o)
def mlp (h : SN384.Idx → EReal) (W1 : S384x64.Idx → EReal) (b1 : S1x64.Idx → EReal) (W2 : S64x2.Idx → EReal)
    (b2 : S1x2.Idx → EReal) : SN2.Idx → EReal :=
  fun i => mlpAt h W1 b1 W2 b2 (i 0) (i 1)

end Cert.Spec

end
-- ==== Proof.KI.Val0.lean ====
/- The VALUE of region 0's output arrays at the ideal instance (floats are extended reals, every operation exact), as
   whole-array functions of the arrays the region finds (`V`): window 4's array ends holding the dense layer with the
   rectifier (`Cert.Spec.lin`) of the `x`, weight and bias arrays, window 5's that layer scaled row by row by the
   column (`Cert.Spec.scl`). Per output window: the body's payload at a block index, read off the operations one by
   one (the matrix product as the sum over the contracted coordinate); what a point writes back is its block of the
   whole-array function (each input block read where the output's block says: block coordinate = block index × block
   size + the coordinate inside the block); the 25 blocks of 2000 rows tile the 50000 rows. -/
import proofs.«134461_j6124623364543_2_alg».proof.Proof.KI.Reg0
import proofs.«134461_j6124623364543_2_alg».proof.Proof.Spec
import Idealize.ShloMosaic.Lib.Pipeline.Value
import Idealize.ShloMosaic.Lib.ValueIdx
import Idealize.ShloMosaic.Lib.ValueLayout
import Idealize.ShloMosaic.PureOps.Ideal.Laws

-- membership in a rectangle of long extents: the elaborator's structural look recurses once per coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace Aux0v

/-- The body's one matrix product into the zero accumulator, at row `p`, column `j`: the sum over the contracted
    coordinate of the products of the entries. -/
theorem dot_apply (x : FVec Ideal S2000x128 .bf16) (W : FVec Ideal S128x64 .bf16) (p : Fin 2000) (j : Fin 64) :
    matmul dot_S2000x128_S128x64_S2000x64_1_0_0_1_n_n none x W (constant S2000x64 .f32 0x00000000#32) (ix2 p j)
      = ∑ k : Fin 128, x (ix2 p k) * W (ix2 k j) := by
  show FloatOps.matmul _ none x W _ (ix2 p j) = _
  rw [Ideal.matmul_constant_zero_apply,
    ← Equiv.sum_comp (contrEquiv1 dot_S2000x128_S128x64_S2000x64_1_0_0_1_n_n 128 rfl rfl).symm]
  refine Finset.sum_congr rfl fun c _ => ?_
  have c2 := contrEquiv1_symm_val dot_S2000x128_S128x64_S2000x64_1_0_0_1_n_n 128 rfl rfl c
  have l2 : dot_S2000x128_S128x64_S2000x64_1_0_0_1_n_n.lhsIdx (ix2 p j)
      ((contrEquiv1 dot_S2000x128_S128x64_S2000x64_1_0_0_1_n_n 128 rfl rfl).symm c) = ix2 p c := by
    funext ax; apply Fin.ext
    match ax with
    | ⟨0, _⟩ => simp [DotDims.lhsIdx, dot_S2000x128_S128x64_S2000x64_1_0_0_1_n_n]; rfl
    | ⟨1, _⟩ => simp [DotDims.lhsIdx, dot_S2000x128_S128x64_S2000x64_1_0_0_1_n_n]; exact c2
  have r2 : dot_S2000x128_S128x64_S2000x64_1_0_0_1_n_n.rhsIdx (ix2 p j)
      ((contrEquiv1 dot_S2000x128_S128x64_S2000x64_1_0_0_1_n_n 128 rfl rfl).symm c) = ix2 c j := by
    funext ax; apply Fin.ext
    match ax with
    | ⟨0, _⟩ => simp [DotDims.rhsIdx, dot_S2000x128_S128x64_S2000x64_1_0_0_1_n_n]; exact c2
    | ⟨1, _⟩ => simp [DotDims.rhsIdx, dot_S2000x128_S128x64_S2000x64_1_0_0_1_n_n]; rfl
  rw [l2, r2]

/-- A `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first payload (the dense layer, the bias row added, the rectifier) at row `p`, feature `j` of the block. -/
theorem pay1_apply (x : S2000x128.Idx → EReal) (W : S128x64.Idx → EReal) (b : S1x64.Idx → EReal) (p : Fin 2000) (j : Fin 64) :
    (k0_pay1 (F := Ideal) x W b (ix2 p j) : EReal)
      = max ((∑ k : Fin 128, x (ix2 p k) * W (ix2 k j)) + b (ix2 (0 : Fin 1) j)) (Ideal.ofBits .f32 0x00000000#32) := by
  unfold k0_pay1
  simp only [maximumf_apply, addf_apply, broadcast_apply, shapeCast_self, broadcastTo_1b_ab_apply, dot_apply, truncf_apply]
  rfl

/-- The second payload (the first scaled row by row by the column) at row `p`, feature `j` of the block. -/
theorem pay2_apply (x : S2000x128.Idx → EReal) (W : S128x64.Idx → EReal) (b : S1x64.Idx → EReal) (d : S2000x1.Idx → EReal) (p : Fin 2000) (j : Fin 64) :
    (k0_pay2 (F := Ideal) x W b d (ix2 p j) : EReal)
      = k0_pay1 (F := Ideal) x W b (ix2 p j) * d (ix2 p (0 : Fin 1)) := by
  unfold k0_pay2
  simp only [mulf_apply, truncf_apply, shapeCast_self, broadcastTo_a1_ab_apply]

end Aux0v

namespace Aux0v

theorem hz : (![0, 0] : Fin 2 → Nat) = fun _ => 0 := funext fun a => by fin_cases a <;> rfl

/-- The printed index maps, decided over the 25 points: the row-blocked windows are at block `(t, 0)`, the two
    once-fetched ones at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- An index of the array is in point `t`'s block of window 4 iff each coordinate is in the block's range on its axis. -/
theorem mem_blk4 (t : Fin cfg0.N) (i : S50000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v12_0).slice (win0_4.rect t)).set ↔ _
  rw [View.set_slice_whole, Rect.mem_set_unit]
  exact Iff.rfl

theorem mem_blk5 (t : Fin cfg0.N) (i : S50000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v12_1).slice (win0_5.rect t)).set ↔ _
  rw [View.set_slice_whole, Rect.mem_set_unit]
  exact Iff.rfl

/-- Every index of window 4's array is in the block of the point its row falls in: row `r` is in block `r / 2000`. -/
theorem cover4 (i : S50000x64.Idx) : ∃ t : Fin cfg0.N, (cfg0.win 4).flush t = true ∧ i ∈ ((cfg0.win 4).blk t).view.set := by
  have hN : grid0.N = 25 := Gen.N_0
  have hi0 : (i 0).val < 50000 := (i 0).isLt
  have hi1 : (i 1).val < 64 := (i 1).isLt
  refine ⟨⟨(i 0).val / 2000, by show _ < grid0.N; omega⟩, flush0_4 _, ?_⟩
  rw [mem_blk4]
  obtain ⟨-, -, -, -, -, -, -, -, e0, e1, -, -⟩ := idx_facts ⟨(i 0).val / 2000, by show _ < grid0.N; omega⟩
  intro a
  match a with
  | ⟨0, _⟩ =>
    show win0_4.index _ (0 : Fin 2) * 2000 ≤ (i 0).val ∧ (i 0).val < win0_4.index _ (0 : Fin 2) * 2000 + 2000
    rw [e0]; show (i 0).val / 2000 * 2000 ≤ (i 0).val ∧ (i 0).val < (i 0).val / 2000 * 2000 + 2000; omega
  | ⟨1, _⟩ =>
    show win0_4.index _ (1 : Fin 2) * 64 ≤ (i 1).val ∧ (i 1).val < win0_4.index _ (1 : Fin 2) * 64 + 64
    rw [e1]; omega

theorem cover5 (i : S50000x64.Idx) : ∃ t : Fin cfg0.N, (cfg0.win 5).flush t = true ∧ i ∈ ((cfg0.win 5).blk t).view.set := by
  have hN : grid0.N = 25 := Gen.N_0
  have hi0 : (i 0).val < 50000 := (i 0).isLt
  have hi1 : (i 1).val < 64 := (i 1).isLt
  refine ⟨⟨(i 0).val / 2000, by show _ < grid0.N; omega⟩, flush0_5 _, ?_⟩
  rw [mem_blk5]
  obtain ⟨-, -, -, -, -, -, -, -, -, -, e0, e1⟩ := idx_facts ⟨(i 0).val / 2000, by show _ < grid0.N; omega⟩
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 64 ≤ (i 1).val ∧ (i 1).val < win0_5.index _ (1 : Fin 2) * 64 + 64
    rw [e1]; omega

end Aux0v

/-! # The value of region 0's output arrays, as whole-array functions of the arrays the region finds -/

section Value
variable (V : (c : Dev nD) → (b : Ref sig .tc) → Buf (Elt Ideal) ((c : Thread nD τ).loc b))

namespace Aux0v

/-- A block of the dense layer: when the loaded `x` block's row `p` is the array's row `r` and the weight and bias
    blocks are the whole arrays, the first payload at `(p, j)` is the layer at `(r, j)`. -/
theorem pay1_blk (A0 : Cert.Spec.SN128.Idx → EReal) (A1 : Cert.Spec.S128x64.Idx → EReal) (A2 : Cert.Spec.S1x64.Idx → EReal)
    (x0 : S2000x128.Idx → EReal) (x1 : S128x64.Idx → EReal) (x2 : S1x64.Idx → EReal) (p : Fin 2000) (j : Fin 64) (r : Fin 50000)
    (h0 : ∀ k : Fin 128, x0 (ix2 p k) = A0 (ix2 r k)) (h1 : x1 = A1) (h2 : x2 = A2) :
    (k0_pay1 (F := Ideal) x0 x1 x2 (ix2 p j) : EReal) = Cert.Spec.linAt A0 A1 A2 r j := by
  rw [pay1_apply]
  subst h1 h2
  unfold Cert.Spec.linAt
  simp only [h0]

/-- The same of the scaled layer: the column block's row `p` is the array's row `r` too. -/
theorem pay2_blk (A0 : Cert.Spec.SN128.Idx → EReal) (A1 : Cert.Spec.S128x64.Idx → EReal) (A2 : Cert.Spec.S1x64.Idx → EReal)
    (A3 : Cert.Spec.SN1.Idx → EReal)
    (x0 : S2000x128.Idx → EReal) (x1 : S128x64.Idx → EReal) (x2 : S1x64.Idx → EReal) (x3 : S2000x1.Idx → EReal)
    (p : Fin 2000) (j : Fin 64) (r : Fin 50000)
    (h0 : ∀ k : Fin 128, x0 (ix2 p k) = A0 (ix2 r k)) (h1 : x1 = A1) (h2 : x2 = A2)
    (h3 : x3 (ix2 p (0 : Fin 1)) = A3 (ix2 r (0 : Fin 1))) :
    (k0_pay2 (F := Ideal) x0 x1 x2 x3 (ix2 p j) : EReal) = Cert.Spec.sclAt (Cert.Spec.lin A0 A1 A2) A3 r j := by
  rw [pay2_apply, pay1_blk A0 A1 A2 x0 x1 x2 p j r h0 h1 h2, h3]
  rfl

/-- What window 4's array ends holding: the dense layer of the arrays the region finds. -/
abbrev G4 (c : Dev nD) : Cert.Spec.SN64.Idx → EReal :=
  Cert.Spec.lin (V c (Pipeline.arrRef spec0 0)) (V c (Pipeline.arrRef spec0 1)) (V c (Pipeline.arrRef spec0 2))

/-- What window 5's array ends holding: that layer scaled row by row. -/
abbrev G5 (c : Dev nD) : Cert.Spec.SN64.Idx → EReal :=
  Cert.Spec.scl (G4 V c) (V c (Pipeline.arrRef spec0 3))

/-- The `x` block at point `t`, row `p`, is the array's row `t · 2000 + p` — the row of window 4's block too. -/
theorem blk0_row (c : Dev nD) (t : Fin cfg0.N) (p : Fin 2000) (j : Fin 64) (k : Fin 128) :
    (iblk0 V c 0 t (ix2 p k) : EReal)
      = (V c (Pipeline.arrRef spec0 0) : Cert.Spec.SN128.Idx → EReal) (ix2 ((((cfg0.win 4).blk t).view.emb (ix2 p j)) 0) k) := by
  obtain ⟨e00, e01, -, -, -, -, -, -, e40, e41, -, -⟩ := idx_facts t
  show V c (Pipeline.arrRef spec0 0) (((cfg0.win 0).blk t).view.emb (ix2 p k)) = V c (Pipeline.arrRef spec0 0) _
  refine congrArg _ (funext fun a => Fin.ext ?_)
  match a with
  | ⟨0, _⟩ =>
    show win0_0.index t (0 : Fin 2) * 2000 + 1 * p.val = win0_4.index t (0 : Fin 2) * 2000 + 1 * p.val
    rw [e00, e40]
  | ⟨1, _⟩ =>
    show win0_0.index t (1 : Fin 2) * 128 + 1 * k.val = k.val
    rw [e01]; omega

/-- The weight block at any point is the whole weight array. -/
theorem blk1_all (c : Dev nD) (t : Fin cfg0.N) :
    (iblk0 V c 1 t : S128x64.Idx → EReal) = (V c (Pipeline.arrRef spec0 1) : Cert.Spec.S128x64.Idx → EReal) := by
  obtain ⟨-, -, e10, e11, -, -, -, -, -, -, -, -⟩ := idx_facts t
  funext y
  show V c (Pipeline.arrRef spec0 1) (((cfg0.win 1).blk t).view.emb y) = V c (Pipeline.arrRef spec0 1) y
  refine congrArg _ (funext fun a => Fin.ext ?_)
  match a with
  | ⟨0, _⟩ =>
    show win0_1.index t (0 : Fin 2) * 128 + 1 * (y 0).val = (y 0).val
    rw [e10]; omega
  | ⟨1, _⟩ =>
    show win0_1.index t (1 : Fin 2) * 64 + 1 * (y 1).val = (y 1).val
    rw [e11]; omega

/-- The bias block at any point is the whole bias row. -/
theorem blk2_all (c : Dev nD) (t : Fin cfg0.N) :
    (iblk0 V c 2 t : S1x64.Idx → EReal) = (V c (Pipeline.arrRef spec0 2) : Cert.Spec.S1x64.Idx → EReal) := by
  obtain ⟨-, -, -, -, e20, e21, -, -, -, -, -, -⟩ := idx_facts t
  funext y
  show V c (Pipeline.arrRef spec0 2) (((cfg0.win 2).blk t).view.emb y) = V c (Pipeline.arrRef spec0 2) y
  refine congrArg _ (funext fun a => Fin.ext ?_)
  match a with
  | ⟨0, _⟩ =>
    show win0_2.index t (0 : Fin 2) * 1 + 1 * (y 0).val = (y 0).val
    rw [e20]; omega
  | ⟨1, _⟩ =>
    show win0_2.index t (1 : Fin 2) * 64 + 1 * (y 1).val = (y 1).val
    rw [e21]; omega

/-- The column block at point `t`, row `p`, is the column's row `t · 2000 + p`. -/
theorem blk3_row (c : Dev nD) (t : Fin cfg0.N) (p : Fin 2000) (j : Fin 64) :
    (iblk0 V c 3 t (ix2 p (0 : Fin 1)) : EReal)
      = (V c (Pipeline.arrRef spec0 3) : Cert.Spec.SN1.Idx → EReal) (ix2 ((((cfg0.win 4).blk t).view.emb (ix2 p j)) 0) (0 : Fin 1)) := by
  obtain ⟨-, -, -, -, -, -, e30, e31, e40, e41, -, -⟩ := idx_facts t
  show V c (Pipeline.arrRef spec0 3) (((cfg0.win 3).blk t).view.emb (ix2 p (0 : Fin 1))) = V c (Pipeline.arrRef spec0 3) _
  refine congrArg _ (funext fun a => Fin.ext ?_)
  match a with
  | ⟨0, _⟩ =>
    show win0_3.index t (0 : Fin 2) * 2000 + 1 * p.val = win0_4.index t (0 : Fin 2) * 2000 + 1 * p.val
    rw [e30, e40]
  | ⟨1, _⟩ =>
    show win0_3.index t (1 : Fin 2) * 1 + 1 * 0 = 0
    rw [e31]

/-- WHAT POINT `t` WRITES BACK to window 4's array is block `t` of the dense layer of the arrays. -/
theorem flushed4_eq (c : Dev nD) (t : Fin cfg0.N) :
    (dat0 (F := Ideal) V c).flushed 4 t = ((cfg0.win 4).blk t).view.read (Elt Ideal) (G4 V c) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x64) hz, View.ld_unit_zero (S := S1x64) hz]
  obtain ⟨-, -, -, -, -, -, -, -, e40, e41, -, -⟩ := idx_facts t
  funext y
  obtain ⟨p, j, rfl⟩ : ∃ (p : Fin 2000) (j : Fin 64), y = ix2 p j := ⟨y 0, y 1, eq_ix2 y⟩
  have hj : (((cfg0.win 4).blk t).view.emb (ix2 p j)) 1 = j :=
    Fin.ext (by show win0_4.index t (1 : Fin 2) * 64 + 1 * j.val = j.val; rw [e41]; omega)
  show (k0_pay1 (F := Ideal) (iblk0 V c 0 t) (iblk0 V c 1 t) (iblk0 V c 2 t) (ix2 p j) : EReal)
    = Cert.Spec.linAt _ _ _ ((((cfg0.win 4).blk t).view.emb (ix2 p j)) 0) ((((cfg0.win 4).blk t).view.emb (ix2 p j)) 1)
  rw [hj]
  exact pay1_blk _ _ _ _ _ _ p j _ (fun k => blk0_row V c t p j k) (blk1_all V c t) (blk2_all V c t)

/-- WHAT POINT `t` WRITES BACK to window 5's array is block `t` of the scaled layer of the arrays. -/
theorem flushed5_eq (c : Dev nD) (t : Fin cfg0.N) :
    (dat0 (F := Ideal) V c).flushed 5 t = ((cfg0.win 5).blk t).view.read (Elt Ideal) (G5 V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x64) hz, View.ld_unit_zero (S := S1x64) hz,
    View.ld_unit_zero (S := S2000x1) hz]
  obtain ⟨-, -, -, -, -, -, -, -, e40, e41, e50, e51⟩ := idx_facts t
  funext y
  obtain ⟨p, j, rfl⟩ : ∃ (p : Fin 2000) (j : Fin 64), y = ix2 p j := ⟨y 0, y 1, eq_ix2 y⟩
  -- windows 4 and 5 have the same blocks
  have h45 : ((cfg0.win 5).blk t).view.emb (ix2 p j) = ((cfg0.win 4).blk t).view.emb (ix2 p j) := by
    funext a; apply Fin.ext
    match a with
    | ⟨0, _⟩ =>
      show win0_5.index t (0 : Fin 2) * 2000 + 1 * p.val = win0_4.index t (0 : Fin 2) * 2000 + 1 * p.val
      rw [e50, e40]
    | ⟨1, _⟩ =>
      show win0_5.index t (1 : Fin 2) * 64 + 1 * j.val = win0_4.index t (1 : Fin 2) * 64 + 1 * j.val
      rw [e51, e41]
  have hj : (((cfg0.win 4).blk t).view.emb (ix2 p j)) 1 = j :=
    Fin.ext (by show win0_4.index t (1 : Fin 2) * 64 + 1 * j.val = j.val; rw [e41]; omega)
  show (k0_pay2 (F := Ideal) (iblk0 V c 0 t) (iblk0 V c 1 t) (iblk0 V c 2 t) (iblk0 V c 3 t) (ix2 p j) : EReal)
    = Cert.Spec.sclAt (G4 V c) _ ((((cfg0.win 5).blk t).view.emb (ix2 p j)) 0) ((((cfg0.win 5).blk t).view.emb (ix2 p j)) 1)
  rw [h45, hj]
  exact pay2_blk _ _ _ _ _ _ _ _ p j _ (fun k => blk0_row V c t p j k) (blk1_all V c t) (blk2_all V c t) (blk3_row V c t p j)

end Aux0v

open Aux0v in
/-- Window 4's array after region 0: the dense layer (with the rectifier) of the `x`, weight and bias arrays the
    region finds — every point writes its block of it, and the 25 blocks tile the array. -/
theorem arr0_4 (c : Dev nD) : ((dat0 (F := Ideal) V c).arrAt 4 cfg0.N : Cert.Spec.SN64.Idx → EReal)
    = Cert.Spec.lin (V c (Pipeline.arrRef spec0 0)) (V c (Pipeline.arrRef spec0 1)) (V c (Pipeline.arrRef spec0 2)) :=
  (dat0 V c).arrAt_eq_of_cover 4 (G4 V c) (fun t _ => flushed4_eq V c t) cover4

open Aux0v in
/-- Window 5's array after region 0: that layer scaled row by row by the column the region finds. -/
theorem arr0_5 (c : Dev nD) : ((dat0 (F := Ideal) V c).arrAt 5 cfg0.N : Cert.Spec.SN64.Idx → EReal)
    = Cert.Spec.scl (Cert.Spec.lin (V c (Pipeline.arrRef spec0 0)) (V c (Pipeline.arrRef spec0 1)) (V c (Pipeline.arrRef spec0 2)))
        (V c (Pipeline.arrRef spec0 3)) :=
  (dat0 V c).arrAt_eq_of_cover 5 (G5 V c) (fun t _ => flushed5_eq V c t) cover5

end Value

end Cert.KernelIdeal.H

end
-- ==== Proof.KI.Val1.lean ====
/- The value of region 1's two output arrays at the ideal instance (floats are extended reals), as whole-array
   functions of the input arrays as the region finds them: window 3 ends holding one propagation step
   f − (a · d) of the features `f`, the aggregated neighbours `a` and the row factors `d`, window 4 that step scaled
   again by the rows' factors. Each point writes back its block of the whole-array function; the 25 blocks of 2000 rows
   tile the 50000 rows. -/
import proofs.«134461_j6124623364543_2_alg».proof.Proof.KI.Reg1
import proofs.«134461_j6124623364543_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

namespace Aux1v

theorem hz : (![0, 0] : Fin 2 → Nat) = fun _ => 0 := funext fun a => by fin_cases a <;> rfl

/-- The column factor broadcast along the feature axis reads, at an index, the factor of the index's row. -/
theorem pay1_apply (x1 : Vec Ideal S2000x1 .f32) (y : S2000x64.Idx) :
    k1_pay1 x1 y = x1 (ix2 (y 0) (0 : Fin 1)) := by
  unfold k1_pay1
  simp only [shapeCast_self]
  exact broadcastTo_apply _ _ y (ix2 (y 0) (0 : Fin 1)) (fun a => by
    match a with
    | ⟨0, _⟩ => rfl
    | ⟨1, _⟩ => rfl)

/-- The first stored value at an index: the feature minus the aggregated neighbour times the row's factor. -/
theorem pay2_apply (x0 : Vec Ideal S2000x64 .f32) (x1 : Vec Ideal S2000x1 .f32) (x2 : Vec Ideal S2000x64 .f32) (y : S2000x64.Idx) :
    k1_pay2 x0 x1 x2 y = x0 y - x2 y * x1 (ix2 (y 0) (0 : Fin 1)) := by
  unfold k1_pay2
  simp only [shapeCast_self]
  rw [subf_apply, mulf_apply, pay1_apply]

/-- The second stored value at an index: the first times the row's factor (the change of format is the identity). -/
theorem pay3_apply (x0 : Vec Ideal S2000x64 .f32) (x1 : Vec Ideal S2000x1 .f32) (x2 : Vec Ideal S2000x64 .f32) (y : S2000x64.Idx) :
    k1_pay3 x0 x1 x2 y = (x0 y - x2 y * x1 (ix2 (y 0) (0 : Fin 1))) * x1 (ix2 (y 0) (0 : Fin 1)) := by
  unfold k1_pay3
  rw [truncf_apply, mulf_apply, pay2_apply, pay1_apply]

theorem out3_apply (x0 : Vec Ideal S2000x64 .f32) (x1 : Vec Ideal S2000x1 .f32) (x2 : Vec Ideal S2000x64 .f32) (y : S2000x64.Idx) :
    out1_3 x0 x1 x2 y = x0 y - x2 y * x1 (ix2 (y 0) (0 : Fin 1)) := by
  unfold out1_3
  rw [View.canon_unit_zero hz]
  simp only [View.ld_unit_zero (S := S2000x64) hz, View.ld_unit_zero (S := S2000x1) hz]
  exact pay2_apply x0 x1 x2 y

theorem out4_apply (x0 : Vec Ideal S2000x64 .f32) (x1 : Vec Ideal S2000x1 .f32) (x2 : Vec Ideal S2000x64 .f32) (y : S2000x64.Idx) :
    out1_4 x0 x1 x2 y = (x0 y - x2 y * x1 (ix2 (y 0) (0 : Fin 1))) * x1 (ix2 (y 0) (0 : Fin 1)) := by
  unfold out1_4
  rw [View.canon_unit_zero hz]
  simp only [View.ld_unit_zero (S := S2000x64) hz, View.ld_unit_zero (S := S2000x1) hz]
  exact pay3_apply x0 x1 x2 y

/-- The printed index maps, decided over the grid: at point `t` every window is on block row `t`, block column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

end Aux1v

end Cert.KernelIdeal.H

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace Aux1v

/-- One propagation step at an index. -/
theorem nxt_apply (f : Cert.Spec.SN64.Idx → EReal) (d : Cert.Spec.SN1.Idx → EReal) (a : Cert.Spec.SN64.Idx → EReal) (X : Cert.Spec.SN64.Idx) :
    Cert.Spec.nxt f d a X = f X - a X * d (ix2 (X 0) (0 : Fin 1)) := by
  have hx : (ix2 (X 0) (X 1) : Cert.Spec.SN64.Idx) = X := (eq_ix2 X).symm
  show f (ix2 (X 0) (X 1)) - a (ix2 (X 0) (X 1)) * d (ix2 (X 0) (0 : Fin 1)) = _
  rw [hx]

/-- The row scaling at an index. -/
theorem scl_apply (g : Cert.Spec.SN64.Idx → EReal) (d : Cert.Spec.SN1.Idx → EReal) (X : Cert.Spec.SN64.Idx) :
    Cert.Spec.scl g d X = g X * d (ix2 (X 0) (0 : Fin 1)) := by
  have hx : (ix2 (X 0) (X 1) : Cert.Spec.SN64.Idx) = X := (eq_ix2 X).symm
  show g (ix2 (X 0) (X 1)) * d (ix2 (X 0) (0 : Fin 1)) = _
  rw [hx]

/-- Row `r` of the array is in the block of point `r / 2000`: the 25 blocks of 2000 rows tile the 50000 rows. -/
theorem cover3 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 25 := Gen.N_1
  have ht : (i 0).val / 2000 < cfg1.N := by show _ < grid1.N; rw [hN]; omega
  obtain ⟨-, -, -, -, -, -, e30, e31, -, -⟩ := idx_facts ⟨(i 0).val / 2000, ht⟩
  refine ⟨⟨(i 0).val / 2000, ht⟩, flush1_3 _, ?_⟩
  have e : ((cfg1.win 3).blk ⟨(i 0).val / 2000, ht⟩).view.emb (ix2 (⟨(i 0).val % 2000, Nat.mod_lt _ (by decide)⟩ : Fin 2000) (i 1) : S2000x64.Idx) = i := by
    funext a; apply Fin.ext
    match a with
    | ⟨0, _⟩ =>
      show win1_3.index ⟨(i 0).val / 2000, ht⟩ (0 : Fin 2) * 2000 + 1 * ((i 0).val % 2000) = (i 0).val
      rw [e30]; show (i 0).val / 2000 * 2000 + 1 * ((i 0).val % 2000) = (i 0).val; omega
    | ⟨1, _⟩ =>
      show win1_3.index ⟨(i 0).val / 2000, ht⟩ (1 : Fin 2) * 64 + 1 * (i 1).val = (i 1).val
      rw [e31]; omega
  have hm := ((cfg1.win 3).blk ⟨(i 0).val / 2000, ht⟩).view.emb_mem_set (ix2 (⟨(i 0).val % 2000, Nat.mod_lt _ (by decide)⟩ : Fin 2000) (i 1) : S2000x64.Idx)
  rw [e] at hm
  exact hm

/-- The same of window 4. -/
theorem cover4 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : grid1.N = 25 := Gen.N_1
  have ht : (i 0).val / 2000 < cfg1.N := by show _ < grid1.N; rw [hN]; omega
  obtain ⟨-, -, -, -, -, -, -, -, e40, e41⟩ := idx_facts ⟨(i 0).val / 2000, ht⟩
  refine ⟨⟨(i 0).val / 2000, ht⟩, flush1_4 _, ?_⟩
  have e : ((cfg1.win 4).blk ⟨(i 0).val / 2000, ht⟩).view.emb (ix2 (⟨(i 0).val % 2000, Nat.mod_lt _ (by decide)⟩ : Fin 2000) (i 1) : S2000x64.Idx) = i := by
    funext a; apply Fin.ext
    match a with
    | ⟨0, _⟩ =>
      show win1_4.index ⟨(i 0).val / 2000, ht⟩ (0 : Fin 2) * 2000 + 1 * ((i 0).val % 2000) = (i 0).val
      rw [e40]; show (i 0).val / 2000 * 2000 + 1 * ((i 0).val % 2000) = (i 0).val; omega
    | ⟨1, _⟩ =>
      show win1_4.index ⟨(i 0).val / 2000, ht⟩ (1 : Fin 2) * 64 + 1 * (i 1).val = (i 1).val
      rw [e41]; omega
  have hm := ((cfg1.win 4).blk ⟨(i 0).val / 2000, ht⟩).view.emb_mem_set (ix2 (⟨(i 0).val % 2000, Nat.mod_lt _ (by decide)⟩ : Fin 2000) (i 1) : S2000x64.Idx)
  rw [e] at hm
  exact hm

/-- The three input arrays as the region finds them, as functions over the literal shapes. -/
abbrev f (c : Dev nD) : Cert.Spec.SN64.Idx → EReal := V c (Pipeline.arrRef spec1 0)
abbrev d (c : Dev nD) : Cert.Spec.SN1.Idx → EReal := V c (Pipeline.arrRef spec1 1)
abbrev a (c : Dev nD) : Cert.Spec.SN64.Idx → EReal := V c (Pipeline.arrRef spec1 2)

/-- Windows 0, 2, 3 and 4 put block element `y` of point `t` at the same place of their arrays. -/
theorem emb_eq (t : Fin cfg1.N) (y : S2000x64.Idx) :
    ((cfg1.win 0).blk t).view.emb y = ((cfg1.win 3).blk t).view.emb y
    ∧ ((cfg1.win 2).blk t).view.emb y = ((cfg1.win 3).blk t).view.emb y
    ∧ ((cfg1.win 4).blk t).view.emb y = ((cfg1.win 3).blk t).view.emb y := by
  obtain ⟨e00, e01, e10, e11, e20, e21, e30, e31, e40, e41⟩ := idx_facts t
  refine ⟨?_, ?_, ?_⟩
  · funext a; apply Fin.ext
    match a with
    | ⟨0, _⟩ => show win1_0.index t (0 : Fin 2) * 2000 + 1 * (y 0).val = win1_3.index t (0 : Fin 2) * 2000 + 1 * (y 0).val; omega
    | ⟨1, _⟩ => show win1_0.index t (1 : Fin 2) * 64 + 1 * (y 1).val = win1_3.index t (1 : Fin 2) * 64 + 1 * (y 1).val; omega
  · funext a; apply Fin.ext
    match a with
    | ⟨0, _⟩ => show win1_2.index t (0 : Fin 2) * 2000 + 1 * (y 0).val = win1_3.index t (0 : Fin 2) * 2000 + 1 * (y 0).val; omega
    | ⟨1, _⟩ => show win1_2.index t (1 : Fin 2) * 64 + 1 * (y 1).val = win1_3.index t (1 : Fin 2) * 64 + 1 * (y 1).val; omega
  · funext a; apply Fin.ext
    match a with
    | ⟨0, _⟩ => show win1_4.index t (0 : Fin 2) * 2000 + 1 * (y 0).val = win1_3.index t (0 : Fin 2) * 2000 + 1 * (y 0).val; omega
    | ⟨1, _⟩ => show win1_4.index t (1 : Fin 2) * 64 + 1 * (y 1).val = win1_3.index t (1 : Fin 2) * 64 + 1 * (y 1).val; omega

/-- Window 1 puts the factor of block row `y 0` at the row of the array where window 3 puts block element `y`. -/
theorem emb1_eq (t : Fin cfg1.N) (y : S2000x64.Idx) :
    ((cfg1.win 1).blk t).view.emb (ix2 (y 0) (0 : Fin 1)) = (ix2 ((((cfg1.win 3).blk t).view.emb y) 0) (0 : Fin 1) : S50000x1.Idx) := by
  obtain ⟨e00, e01, e10, e11, e20, e21, e30, e31, e40, e41⟩ := idx_facts t
  funext a; apply Fin.ext
  match a with
  | ⟨0, _⟩ => show win1_1.index t (0 : Fin 2) * 2000 + 1 * (y 0).val = win1_3.index t (0 : Fin 2) * 2000 + 1 * (y 0).val; omega
  | ⟨1, _⟩ => show win1_1.index t (1 : Fin 2) * 1 + 1 * 0 = 0; omega

end Aux1v

open Aux1v in
/-- What point `t` writes back to output window 3 is block `t` of one propagation step of the input arrays. -/
theorem flushed1_3_eq (c : Dev nD) (t : Fin cfg1.N) :
    (dat1 (F := Ideal) V c).flushed 3 t = ((cfg1.win 3).blk t).view.read (Elt Ideal) (Cert.Spec.nxt (Aux1v.f V c) (Aux1v.d V c) (Aux1v.a V c)) := by
  show (cfg1.win 3).cut (grid1.coords t) ((dat1 V c).after 3 t) = _
  rw [after1_3]
  refine funext fun (y : S2000x64.Idx) => ?_
  obtain ⟨h0, h2, h4⟩ := emb_eq t y
  have h1 := emb1_eq t y
  show out1_3 (iblk1 V c 0 t) (iblk1 V c 1 t) (iblk1 V c 2 t) y = Cert.Spec.nxt (Aux1v.f V c) (Aux1v.d V c) (Aux1v.a V c) (((cfg1.win 3).blk t).view.emb y)
  rw [out3_apply]
  show Aux1v.f V c (((cfg1.win 0).blk t).view.emb y) - Aux1v.a V c (((cfg1.win 2).blk t).view.emb y) * Aux1v.d V c (((cfg1.win 1).blk t).view.emb (ix2 (y 0) (0 : Fin 1))) = _
  rw [h0, h2, h1]
  exact (nxt_apply _ _ _ _).symm

open Aux1v in
/-- What point `t` writes back to output window 4 is block `t` of that step scaled by the rows' factors. -/
theorem flushed1_4_eq (c : Dev nD) (t : Fin cfg1.N) :
    (dat1 (F := Ideal) V c).flushed 4 t = ((cfg1.win 4).blk t).view.read (Elt Ideal) (Cert.Spec.scl (Cert.Spec.nxt (Aux1v.f V c) (Aux1v.d V c) (Aux1v.a V c)) (Aux1v.d V c)) := by
  show (cfg1.win 4).cut (grid1.coords t) ((dat1 V c).after 4 t) = _
  rw [after1_4]
  refine funext fun (y : S2000x64.Idx) => ?_
  obtain ⟨h0, h2, h4⟩ := emb_eq t y
  have h1 := emb1_eq t y
  show out1_4 (iblk1 V c 0 t) (iblk1 V c 1 t) (iblk1 V c 2 t) y = Cert.Spec.scl (Cert.Spec.nxt (Aux1v.f V c) (Aux1v.d V c) (Aux1v.a V c)) (Aux1v.d V c) (((cfg1.win 4).blk t).view.emb y)
  rw [out4_apply, h4]
  show (Aux1v.f V c (((cfg1.win 0).blk t).view.emb y) - Aux1v.a V c (((cfg1.win 2).blk t).view.emb y) * Aux1v.d V c (((cfg1.win 1).blk t).view.emb (ix2 (y 0) (0 : Fin 1)))) * Aux1v.d V c (((cfg1.win 1).blk t).view.emb (ix2 (y 0) (0 : Fin 1))) = _
  rw [h0, h2, h1]
  exact ((scl_apply _ _ _).trans (congrArg (· * _) (nxt_apply _ _ _ _))).symm

/-- Output window 3's array after the region: one propagation step of the input arrays as the region finds them. -/
theorem arr1_3 (c : Dev nD) : ((dat1 (F := Ideal) V c).arrAt 3 cfg1.N : Cert.Spec.SN64.Idx → EReal) = Cert.Spec.nxt (V c (Pipeline.arrRef spec1 0)) (V c (Pipeline.arrRef spec1 1)) (V c (Pipeline.arrRef spec1 2)) :=
  (dat1 V c).arrAt_eq_of_cover 3 _ (fun t _ => flushed1_3_eq V c t) Aux1v.cover3

/-- Output window 4's array after the region: that step scaled by the rows' factors. -/
theorem arr1_4 (c : Dev nD) : ((dat1 (F := Ideal) V c).arrAt 4 cfg1.N : Cert.Spec.SN64.Idx → EReal) = Cert.Spec.scl (Cert.Spec.nxt (V c (Pipeline.arrRef spec1 0)) (V c (Pipeline.arrRef spec1 1)) (V c (Pipeline.arrRef spec1 2))) (V c (Pipeline.arrRef spec1 1)) :=
  (dat1 V c).arrAt_eq_of_cover 4 _ (fun t _ => flushed1_4_eq V c t) Aux1v.cover4

end Cert.KernelIdeal.H

end
-- ==== Proof.KI.Val2.lean ====
/- The value of region 2's two output arrays at the ideal instance (floats are extended reals), as whole-array
   functions of the input arrays as the region finds them: window 3 ends holding one propagation step
   f − (a · d) of the features `f`, the aggregated neighbours `a` and the row factors `d`, window 4 that step scaled
   again by the rows' factors. Each point writes back its block of the whole-array function; the 25 blocks of 2000 rows
   tile the 50000 rows. -/
import proofs.«134461_j6124623364543_2_alg».proof.Proof.KI.Reg2
import proofs.«134461_j6124623364543_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

namespace Aux2v

theorem hz : (![0, 0] : Fin 2 → Nat) = fun _ => 0 := funext fun a => by fin_cases a <;> rfl

/-- The column factor broadcast along the feature axis reads, at an index, the factor of the index's row. -/
theorem pay1_apply (x1 : Vec Ideal S2000x1 .f32) (y : S2000x64.Idx) :
    k2_pay1 x1 y = x1 (ix2 (y 0) (0 : Fin 1)) := by
  unfold k2_pay1
  simp only [shapeCast_self]
  exact broadcastTo_apply _ _ y (ix2 (y 0) (0 : Fin 1)) (fun a => by
    match a with
    | ⟨0, _⟩ => rfl
    | ⟨1, _⟩ => rfl)

/-- The first stored value at an index: the feature minus the aggregated neighbour times the row's factor. -/
theorem pay2_apply (x0 : Vec Ideal S2000x64 .f32) (x1 : Vec Ideal S2000x1 .f32) (x2 : Vec Ideal S2000x64 .f32) (y : S2000x64.Idx) :
    k2_pay2 x0 x1 x2 y = x0 y - x2 y * x1 (ix2 (y 0) (0 : Fin 1)) := by
  unfold k2_pay2
  simp only [shapeCast_self]
  rw [subf_apply, mulf_apply, pay1_apply]

/-- The second stored value at an index: the first times the row's factor (the change of format is the identity). -/
theorem pay3_apply (x0 : Vec Ideal S2000x64 .f32) (x1 : Vec Ideal S2000x1 .f32) (x2 : Vec Ideal S2000x64 .f32) (y : S2000x64.Idx) :
    k2_pay3 x0 x1 x2 y = (x0 y - x2 y * x1 (ix2 (y 0) (0 : Fin 1))) * x1 (ix2 (y 0) (0 : Fin 1)) := by
  unfold k2_pay3
  rw [truncf_apply, mulf_apply, pay2_apply, pay1_apply]

theorem out3_apply (x0 : Vec Ideal S2000x64 .f32) (x1 : Vec Ideal S2000x1 .f32) (x2 : Vec Ideal S2000x64 .f32) (y : S2000x64.Idx) :
    out2_3 x0 x1 x2 y = x0 y - x2 y * x1 (ix2 (y 0) (0 : Fin 1)) := by
  unfold out2_3
  rw [View.canon_unit_zero hz]
  simp only [View.ld_unit_zero (S := S2000x64) hz, View.ld_unit_zero (S := S2000x1) hz]
  exact pay2_apply x0 x1 x2 y

theorem out4_apply (x0 : Vec Ideal S2000x64 .f32) (x1 : Vec Ideal S2000x1 .f32) (x2 : Vec Ideal S2000x64 .f32) (y : S2000x64.Idx) :
    out2_4 x0 x1 x2 y = (x0 y - x2 y * x1 (ix2 (y 0) (0 : Fin 1))) * x1 (ix2 (y 0) (0 : Fin 1)) := by
  unfold out2_4
  rw [View.canon_unit_zero hz]
  simp only [View.ld_unit_zero (S := S2000x64) hz, View.ld_unit_zero (S := S2000x1) hz]
  exact pay3_apply x0 x1 x2 y

/-- The printed index maps, decided over the grid: at point `t` every window is on block row `t`, block column 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

end Aux2v

end Cert.KernelIdeal.H

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace Aux2v

/-- One propagation step at an index. -/
theorem nxt_apply (f : Cert.Spec.SN64.Idx → EReal) (d : Cert.Spec.SN1.Idx → EReal) (a : Cert.Spec.SN64.Idx → EReal) (X : Cert.Spec.SN64.Idx) :
    Cert.Spec.nxt f d a X = f X - a X * d (ix2 (X 0) (0 : Fin 1)) := by
  have hx : (ix2 (X 0) (X 1) : Cert.Spec.SN64.Idx) = X := (eq_ix2 X).symm
  show f (ix2 (X 0) (X 1)) - a (ix2 (X 0) (X 1)) * d (ix2 (X 0) (0 : Fin 1)) = _
  rw [hx]

/-- The row scaling at an index. -/
theorem scl_apply (g : Cert.Spec.SN64.Idx → EReal) (d : Cert.Spec.SN1.Idx → EReal) (X : Cert.Spec.SN64.Idx) :
    Cert.Spec.scl g d X = g X * d (ix2 (X 0) (0 : Fin 1)) := by
  have hx : (ix2 (X 0) (X 1) : Cert.Spec.SN64.Idx) = X := (eq_ix2 X).symm
  show g (ix2 (X 0) (X 1)) * d (ix2 (X 0) (0 : Fin 1)) = _
  rw [hx]

/-- Row `r` of the array is in the block of point `r / 2000`: the 25 blocks of 2000 rows tile the 50000 rows. -/
theorem cover3 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : grid2.N = 25 := Gen.N_2
  have ht : (i 0).val / 2000 < cfg2.N := by show _ < grid2.N; rw [hN]; omega
  obtain ⟨-, -, -, -, -, -, e30, e31, -, -⟩ := idx_facts ⟨(i 0).val / 2000, ht⟩
  refine ⟨⟨(i 0).val / 2000, ht⟩, flush2_3 _, ?_⟩
  have e : ((cfg2.win 3).blk ⟨(i 0).val / 2000, ht⟩).view.emb (ix2 (⟨(i 0).val % 2000, Nat.mod_lt _ (by decide)⟩ : Fin 2000) (i 1) : S2000x64.Idx) = i := by
    funext a; apply Fin.ext
    match a with
    | ⟨0, _⟩ =>
      show win2_3.index ⟨(i 0).val / 2000, ht⟩ (0 : Fin 2) * 2000 + 1 * ((i 0).val % 2000) = (i 0).val
      rw [e30]; show (i 0).val / 2000 * 2000 + 1 * ((i 0).val % 2000) = (i 0).val; omega
    | ⟨1, _⟩ =>
      show win2_3.index ⟨(i 0).val / 2000, ht⟩ (1 : Fin 2) * 64 + 1 * (i 1).val = (i 1).val
      rw [e31]; omega
  have hm := ((cfg2.win 3).blk ⟨(i 0).val / 2000, ht⟩).view.emb_mem_set (ix2 (⟨(i 0).val % 2000, Nat.mod_lt _ (by decide)⟩ : Fin 2000) (i 1) : S2000x64.Idx)
  rw [e] at hm
  exact hm

/-- The same of window 4. -/
theorem cover4 (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  have hN : grid2.N = 25 := Gen.N_2
  have ht : (i 0).val / 2000 < cfg2.N := by show _ < grid2.N; rw [hN]; omega
  obtain ⟨-, -, -, -, -, -, -, -, e40, e41⟩ := idx_facts ⟨(i 0).val / 2000, ht⟩
  refine ⟨⟨(i 0).val / 2000, ht⟩, flush2_4 _, ?_⟩
  have e : ((cfg2.win 4).blk ⟨(i 0).val / 2000, ht⟩).view.emb (ix2 (⟨(i 0).val % 2000, Nat.mod_lt _ (by decide)⟩ : Fin 2000) (i 1) : S2000x64.Idx) = i := by
    funext a; apply Fin.ext
    match a with
    | ⟨0, _⟩ =>
      show win2_4.index ⟨(i 0).val / 2000, ht⟩ (0 : Fin 2) * 2000 + 1 * ((i 0).val % 2000) = (i 0).val
      rw [e40]; show (i 0).val / 2000 * 2000 + 1 * ((i 0).val % 2000) = (i 0).val; omega
    | ⟨1, _⟩ =>
      show win2_4.index ⟨(i 0).val / 2000, ht⟩ (1 : Fin 2) * 64 + 1 * (i 1).val = (i 1).val
      rw [e41]; omega
  have hm := ((cfg2.win 4).blk ⟨(i 0).val / 2000, ht⟩).view.emb_mem_set (ix2 (⟨(i 0).val % 2000, Nat.mod_lt _ (by decide)⟩ : Fin 2000) (i 1) : S2000x64.Idx)
  rw [e] at hm
  exact hm

/-- The three input arrays as the region finds them, as functions over the literal shapes. -/
abbrev f (c : Dev nD) : Cert.Spec.SN64.Idx → EReal := V c (Pipeline.arrRef spec2 0)
abbrev d (c : Dev nD) : Cert.Spec.SN1.Idx → EReal := V c (Pipeline.arrRef spec2 1)
abbrev a (c : Dev nD) : Cert.Spec.SN64.Idx → EReal := V c (Pipeline.arrRef spec2 2)

/-- Windows 0, 2, 3 and 4 put block element `y` of point `t` at the same place of their arrays. -/
theorem emb_eq (t : Fin cfg2.N) (y : S2000x64.Idx) :
    ((cfg2.win 0).blk t).view.emb y = ((cfg2.win 3).blk t).view.emb y
    ∧ ((cfg2.win 2).blk t).view.emb y = ((cfg2.win 3).blk t).view.emb y
    ∧ ((cfg2.win 4).blk t).view.emb y = ((cfg2.win 3).blk t).view.emb y := by
  obtain ⟨e00, e01, e10, e11, e20, e21, e30, e31, e40, e41⟩ := idx_facts t
  refine ⟨?_, ?_, ?_⟩
  · funext a; apply Fin.ext
    match a with
    | ⟨0, _⟩ => show win2_0.index t (0 : Fin 2) * 2000 + 1 * (y 0).val = win2_3.index t (0 : Fin 2) * 2000 + 1 * (y 0).val; omega
    | ⟨1, _⟩ => show win2_0.index t (1 : Fin 2) * 64 + 1 * (y 1).val = win2_3.index t (1 : Fin 2) * 64 + 1 * (y 1).val; omega
  · funext a; apply Fin.ext
    match a with
    | ⟨0, _⟩ => show win2_2.index t (0 : Fin 2) * 2000 + 1 * (y 0).val = win2_3.index t (0 : Fin 2) * 2000 + 1 * (y 0).val; omega
    | ⟨1, _⟩ => show win2_2.index t (1 : Fin 2) * 64 + 1 * (y 1).val = win2_3.index t (1 : Fin 2) * 64 + 1 * (y 1).val; omega
  · funext a; apply Fin.ext
    match a with
    | ⟨0, _⟩ => show win2_4.index t (0 : Fin 2) * 2000 + 1 * (y 0).val = win2_3.index t (0 : Fin 2) * 2000 + 1 * (y 0).val; omega
    | ⟨1, _⟩ => show win2_4.index t (1 : Fin 2) * 64 + 1 * (y 1).val = win2_3.index t (1 : Fin 2) * 64 + 1 * (y 1).val; omega

/-- Window 1 puts the factor of block row `y 0` at the row of the array where window 3 puts block element `y`. -/
theorem emb1_eq (t : Fin cfg2.N) (y : S2000x64.Idx) :
    ((cfg2.win 1).blk t).view.emb (ix2 (y 0) (0 : Fin 1)) = (ix2 ((((cfg2.win 3).blk t).view.emb y) 0) (0 : Fin 1) : S50000x1.Idx) := by
  obtain ⟨e00, e01, e10, e11, e20, e21, e30, e31, e40, e41⟩ := idx_facts t
  funext a; apply Fin.ext
  match a with
  | ⟨0, _⟩ => show win2_1.index t (0 : Fin 2) * 2000 + 1 * (y 0).val = win2_3.index t (0 : Fin 2) * 2000 + 1 * (y 0).val; omega
  | ⟨1, _⟩ => show win2_1.index t (1 : Fin 2) * 1 + 1 * 0 = 0; omega

end Aux2v

open Aux2v in
/-- What point `t` writes back to output window 3 is block `t` of one propagation step of the input arrays. -/
theorem flushed2_3_eq (c : Dev nD) (t : Fin cfg2.N) :
    (dat2 (F := Ideal) V c).flushed 3 t = ((cfg2.win 3).blk t).view.read (Elt Ideal) (Cert.Spec.nxt (Aux2v.f V c) (Aux2v.d V c) (Aux2v.a V c)) := by
  show (cfg2.win 3).cut (grid2.coords t) ((dat2 V c).after 3 t) = _
  rw [after2_3]
  refine funext fun (y : S2000x64.Idx) => ?_
  obtain ⟨h0, h2, h4⟩ := emb_eq t y
  have h1 := emb1_eq t y
  show out2_3 (iblk2 V c 0 t) (iblk2 V c 1 t) (iblk2 V c 2 t) y = Cert.Spec.nxt (Aux2v.f V c) (Aux2v.d V c) (Aux2v.a V c) (((cfg2.win 3).blk t).view.emb y)
  rw [out3_apply]
  show Aux2v.f V c (((cfg2.win 0).blk t).view.emb y) - Aux2v.a V c (((cfg2.win 2).blk t).view.emb y) * Aux2v.d V c (((cfg2.win 1).blk t).view.emb (ix2 (y 0) (0 : Fin 1))) = _
  rw [h0, h2, h1]
  exact (nxt_apply _ _ _ _).symm

open Aux2v in
/-- What point `t` writes back to output window 4 is block `t` of that step scaled by the rows' factors. -/
theorem flushed2_4_eq (c : Dev nD) (t : Fin cfg2.N) :
    (dat2 (F := Ideal) V c).flushed 4 t = ((cfg2.win 4).blk t).view.read (Elt Ideal) (Cert.Spec.scl (Cert.Spec.nxt (Aux2v.f V c) (Aux2v.d V c) (Aux2v.a V c)) (Aux2v.d V c)) := by
  show (cfg2.win 4).cut (grid2.coords t) ((dat2 V c).after 4 t) = _
  rw [after2_4]
  refine funext fun (y : S2000x64.Idx) => ?_
  obtain ⟨h0, h2, h4⟩ := emb_eq t y
  have h1 := emb1_eq t y
  show out2_4 (iblk2 V c 0 t) (iblk2 V c 1 t) (iblk2 V c 2 t) y = Cert.Spec.scl (Cert.Spec.nxt (Aux2v.f V c) (Aux2v.d V c) (Aux2v.a V c)) (Aux2v.d V c) (((cfg2.win 4).blk t).view.emb y)
  rw [out4_apply, h4]
  show (Aux2v.f V c (((cfg2.win 0).blk t).view.emb y) - Aux2v.a V c (((cfg2.win 2).blk t).view.emb y) * Aux2v.d V c (((cfg2.win 1).blk t).view.emb (ix2 (y 0) (0 : Fin 1)))) * Aux2v.d V c (((cfg2.win 1).blk t).view.emb (ix2 (y 0) (0 : Fin 1))) = _
  rw [h0, h2, h1]
  exact ((scl_apply _ _ _).trans (congrArg (· * _) (nxt_apply _ _ _ _))).symm

/-- Output window 3's array after the region: one propagation step of the input arrays as the region finds them. -/
theorem arr2_3 (c : Dev nD) : ((dat2 (F := Ideal) V c).arrAt 3 cfg2.N : Cert.Spec.SN64.Idx → EReal) = Cert.Spec.nxt (V c (Pipeline.arrRef spec2 0)) (V c (Pipeline.arrRef spec2 1)) (V c (Pipeline.arrRef spec2 2)) :=
  (dat2 V c).arrAt_eq_of_cover 3 _ (fun t _ => flushed2_3_eq V c t) Aux2v.cover3

/-- Output window 4's array after the region: that step scaled by the rows' factors. -/
theorem arr2_4 (c : Dev nD) : ((dat2 (F := Ideal) V c).arrAt 4 cfg2.N : Cert.Spec.SN64.Idx → EReal) = Cert.Spec.scl (Cert.Spec.nxt (V c (Pipeline.arrRef spec2 0)) (V c (Pipeline.arrRef spec2 1)) (V c (Pipeline.arrRef spec2 2))) (V c (Pipeline.arrRef spec2 1)) :=
  (dat2 V c).arrAt_eq_of_cover 4 _ (fun t _ => flushed2_4_eq V c t) Aux2v.cover4

end Cert.KernelIdeal.H

end
-- ==== Proof.KI.Val3.lean ====
/- The VALUE of region 3's output arrays at the ideal instance (floats are extended reals, every operation exact), as
   whole-array functions of the arrays the region finds (`V`): window 4's array ends holding the dense layer with the
   rectifier (`Cert.Spec.lin`) of the `x`, weight and bias arrays, window 5's that layer scaled row by row by the
   column (`Cert.Spec.scl`). Per output window: the body's payload at a block index, read off the operations one by
   one (the matrix product as the sum over the contracted coordinate); what a point writes back is its block of the
   whole-array function (each input block read where the output's block says: block coordinate = block index × block
   size + the coordinate inside the block); the 25 blocks of 2000 rows tile the 50000 rows. -/
import proofs.«134461_j6124623364543_2_alg».proof.Proof.KI.Reg3
import proofs.«134461_j6124623364543_2_alg».proof.Proof.Spec
import Idealize.ShloMosaic.Lib.Pipeline.Value
import Idealize.ShloMosaic.Lib.ValueIdx
import Idealize.ShloMosaic.Lib.ValueLayout
import Idealize.ShloMosaic.PureOps.Ideal.Laws

-- membership in a rectangle of long extents: the elaborator's structural look recurses once per coordinate
set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

namespace Aux3v

/-- The body's one matrix product into the zero accumulator, at row `p`, column `j`: the sum over the contracted
    coordinate of the products of the entries. -/
theorem dot_apply (x : FVec Ideal S2000x128 .bf16) (W : FVec Ideal S128x64 .bf16) (p : Fin 2000) (j : Fin 64) :
    matmul dot_S2000x128_S128x64_S2000x64_1_0_0_1_n_n none x W (constant S2000x64 .f32 0x00000000#32) (ix2 p j)
      = ∑ k : Fin 128, x (ix2 p k) * W (ix2 k j) := by
  show FloatOps.matmul _ none x W _ (ix2 p j) = _
  rw [Ideal.matmul_constant_zero_apply,
    ← Equiv.sum_comp (contrEquiv1 dot_S2000x128_S128x64_S2000x64_1_0_0_1_n_n 128 rfl rfl).symm]
  refine Finset.sum_congr rfl fun c _ => ?_
  have c2 := contrEquiv1_symm_val dot_S2000x128_S128x64_S2000x64_1_0_0_1_n_n 128 rfl rfl c
  have l2 : dot_S2000x128_S128x64_S2000x64_1_0_0_1_n_n.lhsIdx (ix2 p j)
      ((contrEquiv1 dot_S2000x128_S128x64_S2000x64_1_0_0_1_n_n 128 rfl rfl).symm c) = ix2 p c := by
    funext ax; apply Fin.ext
    match ax with
    | ⟨0, _⟩ => simp [DotDims.lhsIdx, dot_S2000x128_S128x64_S2000x64_1_0_0_1_n_n]; rfl
    | ⟨1, _⟩ => simp [DotDims.lhsIdx, dot_S2000x128_S128x64_S2000x64_1_0_0_1_n_n]; exact c2
  have r2 : dot_S2000x128_S128x64_S2000x64_1_0_0_1_n_n.rhsIdx (ix2 p j)
      ((contrEquiv1 dot_S2000x128_S128x64_S2000x64_1_0_0_1_n_n 128 rfl rfl).symm c) = ix2 c j := by
    funext ax; apply Fin.ext
    match ax with
    | ⟨0, _⟩ => simp [DotDims.rhsIdx, dot_S2000x128_S128x64_S2000x64_1_0_0_1_n_n]; exact c2
    | ⟨1, _⟩ => simp [DotDims.rhsIdx, dot_S2000x128_S128x64_S2000x64_1_0_0_1_n_n]; rfl
  rw [l2, r2]

/-- A `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first payload (the dense layer, the bias row added, the rectifier) at row `p`, feature `j` of the block. -/
theorem pay1_apply (x : S2000x128.Idx → EReal) (W : S128x64.Idx → EReal) (b : S1x64.Idx → EReal) (p : Fin 2000) (j : Fin 64) :
    (k3_pay1 (F := Ideal) x W b (ix2 p j) : EReal)
      = max ((∑ k : Fin 128, x (ix2 p k) * W (ix2 k j)) + b (ix2 (0 : Fin 1) j)) (Ideal.ofBits .f32 0x00000000#32) := by
  unfold k3_pay1
  simp only [maximumf_apply, addf_apply, broadcast_apply, shapeCast_self, broadcastTo_1b_ab_apply, dot_apply, truncf_apply]
  rfl

/-- The second payload (the first scaled row by row by the column) at row `p`, feature `j` of the block. -/
theorem pay2_apply (x : S2000x128.Idx → EReal) (W : S128x64.Idx → EReal) (b : S1x64.Idx → EReal) (d : S2000x1.Idx → EReal) (p : Fin 2000) (j : Fin 64) :
    (k3_pay2 (F := Ideal) x W b d (ix2 p j) : EReal)
      = k3_pay1 (F := Ideal) x W b (ix2 p j) * d (ix2 p (0 : Fin 1)) := by
  unfold k3_pay2
  simp only [mulf_apply, truncf_apply, shapeCast_self, broadcastTo_a1_ab_apply]

end Aux3v

namespace Aux3v

theorem hz : (![0, 0] : Fin 2 → Nat) = fun _ => 0 := funext fun a => by fin_cases a <;> rfl

/-- The printed index maps, decided over the 25 points: the row-blocked windows are at block `(t, 0)`, the two
    once-fetched ones at block `(0, 0)`. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- An index of the array is in point `t`'s block of window 4 iff each coordinate is in the block's range on its axis. -/
theorem mem_blk4 (t : Fin cfg3.N) (i : S50000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v45_0).slice (win3_4.rect t)).set ↔ _
  rw [View.set_slice_whole, Rect.mem_set_unit]
  exact Iff.rfl

theorem mem_blk5 (t : Fin cfg3.N) (i : S50000x64.Idx) :
    i ∈ ((cfg3.win 5).blk t).view.set ↔ ∀ a : Fin 2, win3_5.index t a * S2000x64.size a ≤ (i a).val ∧ (i a).val < win3_5.index t a * S2000x64.size a + S2000x64.size a := by
  show i ∈ ((View.whole main_v45_1).slice (win3_5.rect t)).set ↔ _
  rw [View.set_slice_whole, Rect.mem_set_unit]
  exact Iff.rfl

/-- Every index of window 4's array is in the block of the point its row falls in: row `r` is in block `r / 2000`. -/
theorem cover4 (i : S50000x64.Idx) : ∃ t : Fin cfg3.N, (cfg3.win 4).flush t = true ∧ i ∈ ((cfg3.win 4).blk t).view.set := by
  have hN : grid3.N = 25 := Gen.N_3
  have hi0 : (i 0).val < 50000 := (i 0).isLt
  have hi1 : (i 1).val < 64 := (i 1).isLt
  refine ⟨⟨(i 0).val / 2000, by show _ < grid3.N; omega⟩, flush3_4 _, ?_⟩
  rw [mem_blk4]
  obtain ⟨-, -, -, -, -, -, -, -, e0, e1, -, -⟩ := idx_facts ⟨(i 0).val / 2000, by show _ < grid3.N; omega⟩
  intro a
  match a with
  | ⟨0, _⟩ =>
    show win3_4.index _ (0 : Fin 2) * 2000 ≤ (i 0).val ∧ (i 0).val < win3_4.index _ (0 : Fin 2) * 2000 + 2000
    rw [e0]; show (i 0).val / 2000 * 2000 ≤ (i 0).val ∧ (i 0).val < (i 0).val / 2000 * 2000 + 2000; omega
  | ⟨1, _⟩ =>
    show win3_4.index _ (1 : Fin 2) * 64 ≤ (i 1).val ∧ (i 1).val < win3_4.index _ (1 : Fin 2) * 64 + 64
    rw [e1]; omega

theorem cover5 (i : S50000x64.Idx) : ∃ t : Fin cfg3.N, (cfg3.win 5).flush t = true ∧ i ∈ ((cfg3.win 5).blk t).view.set := by
  have hN : grid3.N = 25 := Gen.N_3
  have hi0 : (i 0).val < 50000 := (i 0).isLt
  have hi1 : (i 1).val < 64 := (i 1).isLt
  refine ⟨⟨(i 0).val / 2000, by show _ < grid3.N; omega⟩, flush3_5 _, ?_⟩
  rw [mem_blk5]
  obtain ⟨-, -, -, -, -, -, -, -, -, -, e0, e1⟩ := idx_facts ⟨(i 0).val / 2000, by show _ < grid3.N; omega⟩
  intro a
  match a with
  | ⟨0, _⟩ =>
    show win3_5.index _ (0 : Fin 2) * 2000 ≤ (i 0).val ∧ (i 0).val < win3_5.index _ (0 : Fin 2) * 2000 + 2000
    rw [e0]; show (i 0).val / 2000 * 2000 ≤ (i 0).val ∧ (i 0).val < (i 0).val / 2000 * 2000 + 2000; omega
  | ⟨1, _⟩ =>
    show win3_5.index _ (1 : Fin 2) * 64 ≤ (i 1).val ∧ (i 1).val < win3_5.index _ (1 : Fin 2) * 64 + 64
    rw [e1]; omega

end Aux3v

/-! # The value of region 3's output arrays, as whole-array functions of the arrays the region finds -/

section Value
variable (V : (c : Dev nD) → (b : Ref sig .tc) → Buf (Elt Ideal) ((c : Thread nD τ).loc b))

namespace Aux3v

/-- A block of the dense layer: when the loaded `x` block's row `p` is the array's row `r` and the weight and bias
    blocks are the whole arrays, the first payload at `(p, j)` is the layer at `(r, j)`. -/
theorem pay1_blk (A0 : Cert.Spec.SN128.Idx → EReal) (A1 : Cert.Spec.S128x64.Idx → EReal) (A2 : Cert.Spec.S1x64.Idx → EReal)
    (x0 : S2000x128.Idx → EReal) (x1 : S128x64.Idx → EReal) (x2 : S1x64.Idx → EReal) (p : Fin 2000) (j : Fin 64) (r : Fin 50000)
    (h0 : ∀ k : Fin 128, x0 (ix2 p k) = A0 (ix2 r k)) (h1 : x1 = A1) (h2 : x2 = A2) :
    (k3_pay1 (F := Ideal) x0 x1 x2 (ix2 p j) : EReal) = Cert.Spec.linAt A0 A1 A2 r j := by
  rw [pay1_apply]
  subst h1 h2
  unfold Cert.Spec.linAt
  simp only [h0]

/-- The same of the scaled layer: the column block's row `p` is the array's row `r` too. -/
theorem pay2_blk (A0 : Cert.Spec.SN128.Idx → EReal) (A1 : Cert.Spec.S128x64.Idx → EReal) (A2 : Cert.Spec.S1x64.Idx → EReal)
    (A3 : Cert.Spec.SN1.Idx → EReal)
    (x0 : S2000x128.Idx → EReal) (x1 : S128x64.Idx → EReal) (x2 : S1x64.Idx → EReal) (x3 : S2000x1.Idx → EReal)
    (p : Fin 2000) (j : Fin 64) (r : Fin 50000)
    (h0 : ∀ k : Fin 128, x0 (ix2 p k) = A0 (ix2 r k)) (h1 : x1 = A1) (h2 : x2 = A2)
    (h3 : x3 (ix2 p (0 : Fin 1)) = A3 (ix2 r (0 : Fin 1))) :
    (k3_pay2 (F := Ideal) x0 x1 x2 x3 (ix2 p j) : EReal) = Cert.Spec.sclAt (Cert.Spec.lin A0 A1 A2) A3 r j := by
  rw [pay2_apply, pay1_blk A0 A1 A2 x0 x1 x2 p j r h0 h1 h2, h3]
  rfl

/-- What window 4's array ends holding: the dense layer of the arrays the region finds. -/
abbrev G4 (c : Dev nD) : Cert.Spec.SN64.Idx → EReal :=
  Cert.Spec.lin (V c (Pipeline.arrRef spec3 0)) (V c (Pipeline.arrRef spec3 1)) (V c (Pipeline.arrRef spec3 2))

/-- What window 5's array ends holding: that layer scaled row by row. -/
abbrev G5 (c : Dev nD) : Cert.Spec.SN64.Idx → EReal :=
  Cert.Spec.scl (G4 V c) (V c (Pipeline.arrRef spec3 3))

/-- The `x` block at point `t`, row `p`, is the array's row `t · 2000 + p` — the row of window 4's block too. -/
theorem blk0_row (c : Dev nD) (t : Fin cfg3.N) (p : Fin 2000) (j : Fin 64) (k : Fin 128) :
    (iblk3 V c 0 t (ix2 p k) : EReal)
      = (V c (Pipeline.arrRef spec3 0) : Cert.Spec.SN128.Idx → EReal) (ix2 ((((cfg3.win 4).blk t).view.emb (ix2 p j)) 0) k) := by
  obtain ⟨e00, e01, -, -, -, -, -, -, e40, e41, -, -⟩ := idx_facts t
  show V c (Pipeline.arrRef spec3 0) (((cfg3.win 0).blk t).view.emb (ix2 p k)) = V c (Pipeline.arrRef spec3 0) _
  refine congrArg _ (funext fun a => Fin.ext ?_)
  match a with
  | ⟨0, _⟩ =>
    show win3_0.index t (0 : Fin 2) * 2000 + 1 * p.val = win3_4.index t (0 : Fin 2) * 2000 + 1 * p.val
    rw [e00, e40]
  | ⟨1, _⟩ =>
    show win3_0.index t (1 : Fin 2) * 128 + 1 * k.val = k.val
    rw [e01]; omega

/-- The weight block at any point is the whole weight array. -/
theorem blk1_all (c : Dev nD) (t : Fin cfg3.N) :
    (iblk3 V c 1 t : S128x64.Idx → EReal) = (V c (Pipeline.arrRef spec3 1) : Cert.Spec.S128x64.Idx → EReal) := by
  obtain ⟨-, -, e10, e11, -, -, -, -, -, -, -, -⟩ := idx_facts t
  funext y
  show V c (Pipeline.arrRef spec3 1) (((cfg3.win 1).blk t).view.emb y) = V c (Pipeline.arrRef spec3 1) y
  refine congrArg _ (funext fun a => Fin.ext ?_)
  match a with
  | ⟨0, _⟩ =>
    show win3_1.index t (0 : Fin 2) * 128 + 1 * (y 0).val = (y 0).val
    rw [e10]; omega
  | ⟨1, _⟩ =>
    show win3_1.index t (1 : Fin 2) * 64 + 1 * (y 1).val = (y 1).val
    rw [e11]; omega

/-- The bias block at any point is the whole bias row. -/
theorem blk2_all (c : Dev nD) (t : Fin cfg3.N) :
    (iblk3 V c 2 t : S1x64.Idx → EReal) = (V c (Pipeline.arrRef spec3 2) : Cert.Spec.S1x64.Idx → EReal) := by
  obtain ⟨-, -, -, -, e20, e21, -, -, -, -, -, -⟩ := idx_facts t
  funext y
  show V c (Pipeline.arrRef spec3 2) (((cfg3.win 2).blk t).view.emb y) = V c (Pipeline.arrRef spec3 2) y
  refine congrArg _ (funext fun a => Fin.ext ?_)
  match a with
  | ⟨0, _⟩ =>
    show win3_2.index t (0 : Fin 2) * 1 + 1 * (y 0).val = (y 0).val
    rw [e20]; omega
  | ⟨1, _⟩ =>
    show win3_2.index t (1 : Fin 2) * 64 + 1 * (y 1).val = (y 1).val
    rw [e21]; omega

/-- The column block at point `t`, row `p`, is the column's row `t · 2000 + p`. -/
theorem blk3_row (c : Dev nD) (t : Fin cfg3.N) (p : Fin 2000) (j : Fin 64) :
    (iblk3 V c 3 t (ix2 p (0 : Fin 1)) : EReal)
      = (V c (Pipeline.arrRef spec3 3) : Cert.Spec.SN1.Idx → EReal) (ix2 ((((cfg3.win 4).blk t).view.emb (ix2 p j)) 0) (0 : Fin 1)) := by
  obtain ⟨-, -, -, -, -, -, e30, e31, e40, e41, -, -⟩ := idx_facts t
  show V c (Pipeline.arrRef spec3 3) (((cfg3.win 3).blk t).view.emb (ix2 p (0 : Fin 1))) = V c (Pipeline.arrRef spec3 3) _
  refine congrArg _ (funext fun a => Fin.ext ?_)
  match a with
  | ⟨0, _⟩ =>
    show win3_3.index t (0 : Fin 2) * 2000 + 1 * p.val = win3_4.index t (0 : Fin 2) * 2000 + 1 * p.val
    rw [e30, e40]
  | ⟨1, _⟩ =>
    show win3_3.index t (1 : Fin 2) * 1 + 1 * 0 = 0
    rw [e31]

/-- WHAT POINT `t` WRITES BACK to window 4's array is block `t` of the dense layer of the arrays. -/
theorem flushed4_eq (c : Dev nD) (t : Fin cfg3.N) :
    (dat3 (F := Ideal) V c).flushed 4 t = ((cfg3.win 4).blk t).view.read (Elt Ideal) (G4 V c) := by
  show (cfg3.win 4).cut (grid3.coords t) ((dat3 V c).after 4 t) = _
  rw [after3_4]
  unfold out3_4
  rw [View.canon_unit_zero hz]
  simp only [View.ld_unit_zero (S := S2000x128) hz, View.ld_unit_zero (S := S128x64) hz, View.ld_unit_zero (S := S1x64) hz]
  obtain ⟨-, -, -, -, -, -, -, -, e40, e41, -, -⟩ := idx_facts t
  funext y
  obtain ⟨p, j, rfl⟩ : ∃ (p : Fin 2000) (j : Fin 64), y = ix2 p j := ⟨y 0, y 1, eq_ix2 y⟩
  have hj : (((cfg3.win 4).blk t).view.emb (ix2 p j)) 1 = j :=
    Fin.ext (by show win3_4.index t (1 : Fin 2) * 64 + 1 * j.val = j.val; rw [e41]; omega)
  show (k3_pay1 (F := Ideal) (iblk3 V c 0 t) (iblk3 V c 1 t) (iblk3 V c 2 t) (ix2 p j) : EReal)
    = Cert.Spec.linAt _ _ _ ((((cfg3.win 4).blk t).view.emb (ix2 p j)) 0) ((((cfg3.win 4).blk t).view.emb (ix2 p j)) 1)
  rw [hj]
  exact pay1_blk _ _ _ _ _ _ p j _ (fun k => blk0_row V c t p j k) (blk1_all V c t) (blk2_all V c t)

/-- WHAT POINT `t` WRITES BACK to window 5's array is block `t` of the scaled layer of the arrays. -/
theorem flushed5_eq (c : Dev nD) (t : Fin cfg3.N) :
    (dat3 (F := Ideal) V c).flushed 5 t = ((cfg3.win 5).blk t).view.read (Elt Ideal) (G5 V c) := by
  show (cfg3.win 5).cut (grid3.coords t) ((dat3 V c).after 5 t) = _
  rw [after3_5]
  unfold out3_5
  rw [View.canon_unit_zero hz]
  simp only [View.ld_unit_zero (S := S2000x128) hz, View.ld_unit_zero (S := S128x64) hz, View.ld_unit_zero (S := S1x64) hz,
    View.ld_unit_zero (S := S2000x1) hz]
  obtain ⟨-, -, -, -, -, -, -, -, e40, e41, e50, e51⟩ := idx_facts t
  funext y
  obtain ⟨p, j, rfl⟩ : ∃ (p : Fin 2000) (j : Fin 64), y = ix2 p j := ⟨y 0, y 1, eq_ix2 y⟩
  -- windows 4 and 5 have the same blocks
  have h45 : ((cfg3.win 5).blk t).view.emb (ix2 p j) = ((cfg3.win 4).blk t).view.emb (ix2 p j) := by
    funext a; apply Fin.ext
    match a with
    | ⟨0, _⟩ =>
      show win3_5.index t (0 : Fin 2) * 2000 + 1 * p.val = win3_4.index t (0 : Fin 2) * 2000 + 1 * p.val
      rw [e50, e40]
    | ⟨1, _⟩ =>
      show win3_5.index t (1 : Fin 2) * 64 + 1 * j.val = win3_4.index t (1 : Fin 2) * 64 + 1 * j.val
      rw [e51, e41]
  have hj : (((cfg3.win 4).blk t).view.emb (ix2 p j)) 1 = j :=
    Fin.ext (by show win3_4.index t (1 : Fin 2) * 64 + 1 * j.val = j.val; rw [e41]; omega)
  show (k3_pay2 (F := Ideal) (iblk3 V c 0 t) (iblk3 V c 1 t) (iblk3 V c 2 t) (iblk3 V c 3 t) (ix2 p j) : EReal)
    = Cert.Spec.sclAt (G4 V c) _ ((((cfg3.win 5).blk t).view.emb (ix2 p j)) 0) ((((cfg3.win 5).blk t).view.emb (ix2 p j)) 1)
  rw [h45, hj]
  exact pay2_blk _ _ _ _ _ _ _ _ p j _ (fun k => blk0_row V c t p j k) (blk1_all V c t) (blk2_all V c t) (blk3_row V c t p j)

end Aux3v

open Aux3v in
/-- Window 4's array after region 3: the dense layer (with the rectifier) of the `x`, weight and bias arrays the
    region finds — every point writes its block of it, and the 25 blocks tile the array. -/
theorem arr3_4 (c : Dev nD) : ((dat3 (F := Ideal) V c).arrAt 4 cfg3.N : Cert.Spec.SN64.Idx → EReal)
    = Cert.Spec.lin (V c (Pipeline.arrRef spec3 0)) (V c (Pipeline.arrRef spec3 1)) (V c (Pipeline.arrRef spec3 2)) :=
  (dat3 V c).arrAt_eq_of_cover 4 (G4 V c) (fun t _ => flushed4_eq V c t) cover4

open Aux3v in
/-- Window 5's array after region 3: that layer scaled row by row by the column the region finds. -/
theorem arr3_5 (c : Dev nD) : ((dat3 (F := Ideal) V c).arrAt 5 cfg3.N : Cert.Spec.SN64.Idx → EReal)
    = Cert.Spec.scl (Cert.Spec.lin (V c (Pipeline.arrRef spec3 0)) (V c (Pipeline.arrRef spec3 1)) (V c (Pipeline.arrRef spec3 2)))
        (V c (Pipeline.arrRef spec3 3)) :=
  (dat3 V c).arrAt_eq_of_cover 5 (G5 V c) (fun t _ => flushed5_eq V c t) cover5

end Value

end Cert.KernelIdeal.H

end
-- ==== Proof.KI.Val4.lean ====
/- The value of region 4's two output arrays at the ideal instance (floats are extended reals), as whole-array
   functions of the input arrays as the region finds them: window 3 ends holding one propagation step
   f − (a · d) of the features `f`, the aggregated neighbours `a` and the row factors `d`, window 4 that step scaled
   again by the rows' factors. Each point writes back its block of the whole-array function; the 25 blocks of 2000 rows
   tile the 50000 rows. -/
import proofs.«134461_j6124623364543_2_alg».proof.Proof.KI.Reg4
import proofs.«134461_j6124623364543_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

namespace Aux4v

theorem hz : (![0, 0] : Fin 2 → Nat) = fun _ => 0 := funext fun a => by fin_cases a <;> rfl

/-- The column factor broadcast along the feature axis reads, at an index, the factor of the index's row. -/
theorem pay1_apply (x1 : Vec Ideal S2000x1 .f32) (y : S2000x64.Idx) :
    k4_pay1 x1 y = x1 (ix2 (y 0) (0 : Fin 1)) := by
  unfold k4_pay1
  simp only [shapeCast_self]
  exact broadcastTo_apply _ _ y (ix2 (y 0) (0 : Fin 1)) (fun a => by
    match a with
    | ⟨0, _⟩ => rfl
    | ⟨1, _⟩ => rfl)

/-- The first stored value at an index: the feature minus the aggregated neighbour times the row's factor. -/
theorem pay2_apply (x0 : Vec Ideal S2000x64 .f32) (x1 : Vec Ideal S2000x1 .f32) (x2 : Vec Ideal S2000x64 .f32) (y : S2000x64.Idx) :
    k4_pay2 x0 x1 x2 y = x0 y - x2 y * x1 (ix2 (y 0) (0 : Fin 1)) := by
  unfold k4_pay2
  simp only [shapeCast_self]
  rw [subf_apply, mulf_apply, pay1_apply]

/-- The second stored value at an index: the first times the row's factor (the change of format is the identity). -/
theorem pay3_apply (x0 : Vec Ideal S2000x64 .f32) (x1 : Vec Ideal S2000x1 .f32) (x2 : Vec Ideal S2000x64 .f32) (y : S2000x64.Idx) :
    k4_pay3 x0 x1 x2 y = (x0 y - x2 y * x1 (ix2 (y 0) (0 : Fin 1))) * x1 (ix2 (y 0) (0 : Fin 1)) := by
  unfold k4_pay3
  rw [truncf_apply, mulf_apply, pay2_apply, pay1_apply]

theorem out3_apply (x0 : Vec Ideal S2000x64 .f32) (x1 : Vec Ideal S2000x1 .f32) (x2 : Vec Ideal S2000x64 .f32) (y : S2000x64.Idx) :
    out4_3 x0 x1 x2 y = x0 y - x2 y * x1 (ix2 (y 0) (0 : Fin 1)) := by
  unfold out4_3
  rw [View.canon_unit_zero hz]
  simp only [View.ld_unit_zero (S := S2000x64) hz, View.ld_unit_zero (S := S2000x1) hz]
  exact pay2_apply x0 x1 x2 y

theorem out4_apply (x0 : Vec Ideal S2000x64 .f32) (x1 : Vec Ideal S2000x1 .f32) (x2 : Vec Ideal S2000x64 .f32) (y : S2000x64.Idx) :
    out4_4 x0 x1 x2 y = (x0 y - x2 y * x1 (ix2 (y 0) (0 : Fin 1))) * x1 (ix2 (y 0) (0 : Fin 1)) := by
  unfold out4_4
  rw [View.canon_unit_zero hz]
  simp only [View.ld_unit_zero (S := S2000x64) hz, View.ld_unit_zero (S := S2000x1) hz]
  exact pay3_apply x0 x1 x2 y

/-- The printed index maps, decided over the grid: at point `t` every window is on block row `t`, block column 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

end Aux4v

end Cert.KernelIdeal.H

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace Aux4v

/-- One propagation step at an index. -/
theorem nxt_apply (f : Cert.Spec.SN64.Idx → EReal) (d : Cert.Spec.SN1.Idx → EReal) (a : Cert.Spec.SN64.Idx → EReal) (X : Cert.Spec.SN64.Idx) :
    Cert.Spec.nxt f d a X = f X - a X * d (ix2 (X 0) (0 : Fin 1)) := by
  have hx : (ix2 (X 0) (X 1) : Cert.Spec.SN64.Idx) = X := (eq_ix2 X).symm
  show f (ix2 (X 0) (X 1)) - a (ix2 (X 0) (X 1)) * d (ix2 (X 0) (0 : Fin 1)) = _
  rw [hx]

/-- The row scaling at an index. -/
theorem scl_apply (g : Cert.Spec.SN64.Idx → EReal) (d : Cert.Spec.SN1.Idx → EReal) (X : Cert.Spec.SN64.Idx) :
    Cert.Spec.scl g d X = g X * d (ix2 (X 0) (0 : Fin 1)) := by
  have hx : (ix2 (X 0) (X 1) : Cert.Spec.SN64.Idx) = X := (eq_ix2 X).symm
  show g (ix2 (X 0) (X 1)) * d (ix2 (X 0) (0 : Fin 1)) = _
  rw [hx]

/-- Row `r` of the array is in the block of point `r / 2000`: the 25 blocks of 2000 rows tile the 50000 rows. -/
theorem cover3 (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  have hN : grid4.N = 25 := Gen.N_4
  have ht : (i 0).val / 2000 < cfg4.N := by show _ < grid4.N; rw [hN]; omega
  obtain ⟨-, -, -, -, -, -, e30, e31, -, -⟩ := idx_facts ⟨(i 0).val / 2000, ht⟩
  refine ⟨⟨(i 0).val / 2000, ht⟩, flush4_3 _, ?_⟩
  have e : ((cfg4.win 3).blk ⟨(i 0).val / 2000, ht⟩).view.emb (ix2 (⟨(i 0).val % 2000, Nat.mod_lt _ (by decide)⟩ : Fin 2000) (i 1) : S2000x64.Idx) = i := by
    funext a; apply Fin.ext
    match a with
    | ⟨0, _⟩ =>
      show win4_3.index ⟨(i 0).val / 2000, ht⟩ (0 : Fin 2) * 2000 + 1 * ((i 0).val % 2000) = (i 0).val
      rw [e30]; show (i 0).val / 2000 * 2000 + 1 * ((i 0).val % 2000) = (i 0).val; omega
    | ⟨1, _⟩ =>
      show win4_3.index ⟨(i 0).val / 2000, ht⟩ (1 : Fin 2) * 64 + 1 * (i 1).val = (i 1).val
      rw [e31]; omega
  have hm := ((cfg4.win 3).blk ⟨(i 0).val / 2000, ht⟩).view.emb_mem_set (ix2 (⟨(i 0).val % 2000, Nat.mod_lt _ (by decide)⟩ : Fin 2000) (i 1) : S2000x64.Idx)
  rw [e] at hm
  exact hm

/-- The same of window 4. -/
theorem cover4 (i : S50000x64.Idx) : ∃ t : Fin cfg4.N, (cfg4.win 4).flush t = true ∧ i ∈ ((cfg4.win 4).blk t).view.set := by
  have hi0 : (i 0).val < 50000 := (i 0).isLt
  have hi1 : (i 1).val < 64 := (i 1).isLt
  have hN : grid4.N = 25 := Gen.N_4
  have ht : (i 0).val / 2000 < cfg4.N := by show _ < grid4.N; rw [hN]; omega
  obtain ⟨-, -, -, -, -, -, -, -, e40, e41⟩ := idx_facts ⟨(i 0).val / 2000, ht⟩
  refine ⟨⟨(i 0).val / 2000, ht⟩, flush4_4 _, ?_⟩
  have e : ((cfg4.win 4).blk ⟨(i 0).val / 2000, ht⟩).view.emb (ix2 (⟨(i 0).val % 2000, Nat.mod_lt _ (by decide)⟩ : Fin 2000) (i 1) : S2000x64.Idx) = i := by
    funext a; apply Fin.ext
    match a with
    | ⟨0, _⟩ =>
      show win4_4.index ⟨(i 0).val / 2000, ht⟩ (0 : Fin 2) * 2000 + 1 * ((i 0).val % 2000) = (i 0).val
      rw [e40]; show (i 0).val / 2000 * 2000 + 1 * ((i 0).val % 2000) = (i 0).val; omega
    | ⟨1, _⟩ =>
      show win4_4.index ⟨(i 0).val / 2000, ht⟩ (1 : Fin 2) * 64 + 1 * (i 1).val = (i 1).val
      rw [e41]; omega
  have hm := ((cfg4.win 4).blk ⟨(i 0).val / 2000, ht⟩).view.emb_mem_set (ix2 (⟨(i 0).val % 2000, Nat.mod_lt _ (by decide)⟩ : Fin 2000) (i 1) : S2000x64.Idx)
  rw [e] at hm
  exact hm

/-- The three input arrays as the region finds them, as functions over the literal shapes. -/
abbrev f (c : Dev nD) : Cert.Spec.SN64.Idx → EReal := V c (Pipeline.arrRef spec4 0)
abbrev d (c : Dev nD) : Cert.Spec.SN1.Idx → EReal := V c (Pipeline.arrRef spec4 1)
abbrev a (c : Dev nD) : Cert.Spec.SN64.Idx → EReal := V c (Pipeline.arrRef spec4 2)

/-- Windows 0, 2, 3 and 4 put block element `y` of point `t` at the same place of their arrays. -/
theorem emb_eq (t : Fin cfg4.N) (y : S2000x64.Idx) :
    ((cfg4.win 0).blk t).view.emb y = ((cfg4.win 3).blk t).view.emb y
    ∧ ((cfg4.win 2).blk t).view.emb y = ((cfg4.win 3).blk t).view.emb y
    ∧ ((cfg4.win 4).blk t).view.emb y = ((cfg4.win 3).blk t).view.emb y := by
  obtain ⟨e00, e01, e10, e11, e20, e21, e30, e31, e40, e41⟩ := idx_facts t
  refine ⟨?_, ?_, ?_⟩
  · funext a; apply Fin.ext
    match a with
    | ⟨0, _⟩ => show win4_0.index t (0 : Fin 2) * 2000 + 1 * (y 0).val = win4_3.index t (0 : Fin 2) * 2000 + 1 * (y 0).val; omega
    | ⟨1, _⟩ => show win4_0.index t (1 : Fin 2) * 64 + 1 * (y 1).val = win4_3.index t (1 : Fin 2) * 64 + 1 * (y 1).val; omega
  · funext a; apply Fin.ext
    match a with
    | ⟨0, _⟩ => show win4_2.index t (0 : Fin 2) * 2000 + 1 * (y 0).val = win4_3.index t (0 : Fin 2) * 2000 + 1 * (y 0).val; omega
    | ⟨1, _⟩ => show win4_2.index t (1 : Fin 2) * 64 + 1 * (y 1).val = win4_3.index t (1 : Fin 2) * 64 + 1 * (y 1).val; omega
  · funext a; apply Fin.ext
    match a with
    | ⟨0, _⟩ => show win4_4.index t (0 : Fin 2) * 2000 + 1 * (y 0).val = win4_3.index t (0 : Fin 2) * 2000 + 1 * (y 0).val; omega
    | ⟨1, _⟩ => show win4_4.index t (1 : Fin 2) * 64 + 1 * (y 1).val = win4_3.index t (1 : Fin 2) * 64 + 1 * (y 1).val; omega

/-- Window 1 puts the factor of block row `y 0` at the row of the array where window 3 puts block element `y`. -/
theorem emb1_eq (t : Fin cfg4.N) (y : S2000x64.Idx) :
    ((cfg4.win 1).blk t).view.emb (ix2 (y 0) (0 : Fin 1)) = (ix2 ((((cfg4.win 3).blk t).view.emb y) 0) (0 : Fin 1) : S50000x1.Idx) := by
  obtain ⟨e00, e01, e10, e11, e20, e21, e30, e31, e40, e41⟩ := idx_facts t
  funext a; apply Fin.ext
  match a with
  | ⟨0, _⟩ => show win4_1.index t (0 : Fin 2) * 2000 + 1 * (y 0).val = win4_3.index t (0 : Fin 2) * 2000 + 1 * (y 0).val; omega
  | ⟨1, _⟩ => show win4_1.index t (1 : Fin 2) * 1 + 1 * 0 = 0; omega

end Aux4v

open Aux4v in
/-- What point `t` writes back to output window 3 is block `t` of one propagation step of the input arrays. -/
theorem flushed4_3_eq (c : Dev nD) (t : Fin cfg4.N) :
    (dat4 (F := Ideal) V c).flushed 3 t = ((cfg4.win 3).blk t).view.read (Elt Ideal) (Cert.Spec.nxt (Aux4v.f V c) (Aux4v.d V c) (Aux4v.a V c)) := by
  show (cfg4.win 3).cut (grid4.coords t) ((dat4 V c).after 3 t) = _
  rw [after4_3]
  refine funext fun (y : S2000x64.Idx) => ?_
  obtain ⟨h0, h2, h4⟩ := emb_eq t y
  have h1 := emb1_eq t y
  show out4_3 (iblk4 V c 0 t) (iblk4 V c 1 t) (iblk4 V c 2 t) y = Cert.Spec.nxt (Aux4v.f V c) (Aux4v.d V c) (Aux4v.a V c) (((cfg4.win 3).blk t).view.emb y)
  rw [out3_apply]
  show Aux4v.f V c (((cfg4.win 0).blk t).view.emb y) - Aux4v.a V c (((cfg4.win 2).blk t).view.emb y) * Aux4v.d V c (((cfg4.win 1).blk t).view.emb (ix2 (y 0) (0 : Fin 1))) = _
  rw [h0, h2, h1]
  exact (nxt_apply _ _ _ _).symm

open Aux4v in
/-- What point `t` writes back to output window 4 is block `t` of that step scaled by the rows' factors. -/
theorem flushed4_4_eq (c : Dev nD) (t : Fin cfg4.N) :
    (dat4 (F := Ideal) V c).flushed 4 t = ((cfg4.win 4).blk t).view.read (Elt Ideal) (Cert.Spec.scl (Cert.Spec.nxt (Aux4v.f V c) (Aux4v.d V c) (Aux4v.a V c)) (Aux4v.d V c)) := by
  show (cfg4.win 4).cut (grid4.coords t) ((dat4 V c).after 4 t) = _
  rw [after4_4]
  refine funext fun (y : S2000x64.Idx) => ?_
  obtain ⟨h0, h2, h4⟩ := emb_eq t y
  have h1 := emb1_eq t y
  show out4_4 (iblk4 V c 0 t) (iblk4 V c 1 t) (iblk4 V c 2 t) y = Cert.Spec.scl (Cert.Spec.nxt (Aux4v.f V c) (Aux4v.d V c) (Aux4v.a V c)) (Aux4v.d V c) (((cfg4.win 4).blk t).view.emb y)
  rw [out4_apply, h4]
  show (Aux4v.f V c (((cfg4.win 0).blk t).view.emb y) - Aux4v.a V c (((cfg4.win 2).blk t).view.emb y) * Aux4v.d V c (((cfg4.win 1).blk t).view.emb (ix2 (y 0) (0 : Fin 1)))) * Aux4v.d V c (((cfg4.win 1).blk t).view.emb (ix2 (y 0) (0 : Fin 1))) = _
  rw [h0, h2, h1]
  exact ((scl_apply _ _ _).trans (congrArg (· * _) (nxt_apply _ _ _ _))).symm

/-- Output window 3's array after the region: one propagation step of the input arrays as the region finds them. -/
theorem arr4_3 (c : Dev nD) : ((dat4 (F := Ideal) V c).arrAt 3 cfg4.N : Cert.Spec.SN64.Idx → EReal) = Cert.Spec.nxt (V c (Pipeline.arrRef spec4 0)) (V c (Pipeline.arrRef spec4 1)) (V c (Pipeline.arrRef spec4 2)) :=
  (dat4 V c).arrAt_eq_of_cover 3 _ (fun t _ => flushed4_3_eq V c t) Aux4v.cover3

/-- Output window 4's array after the region: that step scaled by the rows' factors. -/
theorem arr4_4 (c : Dev nD) : ((dat4 (F := Ideal) V c).arrAt 4 cfg4.N : Cert.Spec.SN64.Idx → EReal) = Cert.Spec.scl (Cert.Spec.nxt (V c (Pipeline.arrRef spec4 0)) (V c (Pipeline.arrRef spec4 1)) (V c (Pipeline.arrRef spec4 2))) (V c (Pipeline.arrRef spec4 1)) :=
  (dat4 V c).arrAt_eq_of_cover 4 _ (fun t _ => flushed4_4_eq V c t) Aux4v.cover4

end Cert.KernelIdeal.H

end
-- ==== Proof.KI.Val5.lean ====
/- The value of region 5's two output arrays at the ideal instance (floats are extended reals), as whole-array
   functions of the input arrays as the region finds them: window 3 ends holding one propagation step
   f − (a · d) of the features `f`, the aggregated neighbours `a` and the row factors `d`, window 4 that step scaled
   again by the rows' factors. Each point writes back its block of the whole-array function; the 25 blocks of 2000 rows
   tile the 50000 rows. -/
import proofs.«134461_j6124623364543_2_alg».proof.Proof.KI.Reg5
import proofs.«134461_j6124623364543_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

namespace Aux5v

theorem hz : (![0, 0] : Fin 2 → Nat) = fun _ => 0 := funext fun a => by fin_cases a <;> rfl

/-- The column factor broadcast along the feature axis reads, at an index, the factor of the index's row. -/
theorem pay1_apply (x1 : Vec Ideal S2000x1 .f32) (y : S2000x64.Idx) :
    k5_pay1 x1 y = x1 (ix2 (y 0) (0 : Fin 1)) := by
  unfold k5_pay1
  simp only [shapeCast_self]
  exact broadcastTo_apply _ _ y (ix2 (y 0) (0 : Fin 1)) (fun a => by
    match a with
    | ⟨0, _⟩ => rfl
    | ⟨1, _⟩ => rfl)

/-- The first stored value at an index: the feature minus the aggregated neighbour times the row's factor. -/
theorem pay2_apply (x0 : Vec Ideal S2000x64 .f32) (x1 : Vec Ideal S2000x1 .f32) (x2 : Vec Ideal S2000x64 .f32) (y : S2000x64.Idx) :
    k5_pay2 x0 x1 x2 y = x0 y - x2 y * x1 (ix2 (y 0) (0 : Fin 1)) := by
  unfold k5_pay2
  simp only [shapeCast_self]
  rw [subf_apply, mulf_apply, pay1_apply]

/-- The second stored value at an index: the first times the row's factor (the change of format is the identity). -/
theorem pay3_apply (x0 : Vec Ideal S2000x64 .f32) (x1 : Vec Ideal S2000x1 .f32) (x2 : Vec Ideal S2000x64 .f32) (y : S2000x64.Idx) :
    k5_pay3 x0 x1 x2 y = (x0 y - x2 y * x1 (ix2 (y 0) (0 : Fin 1))) * x1 (ix2 (y 0) (0 : Fin 1)) := by
  unfold k5_pay3
  rw [truncf_apply, mulf_apply, pay2_apply, pay1_apply]

theorem out3_apply (x0 : Vec Ideal S2000x64 .f32) (x1 : Vec Ideal S2000x1 .f32) (x2 : Vec Ideal S2000x64 .f32) (y : S2000x64.Idx) :
    out5_3 x0 x1 x2 y = x0 y - x2 y * x1 (ix2 (y 0) (0 : Fin 1)) := by
  unfold out5_3
  rw [View.canon_unit_zero hz]
  simp only [View.ld_unit_zero (S := S2000x64) hz, View.ld_unit_zero (S := S2000x1) hz]
  exact pay2_apply x0 x1 x2 y

theorem out4_apply (x0 : Vec Ideal S2000x64 .f32) (x1 : Vec Ideal S2000x1 .f32) (x2 : Vec Ideal S2000x64 .f32) (y : S2000x64.Idx) :
    out5_4 x0 x1 x2 y = (x0 y - x2 y * x1 (ix2 (y 0) (0 : Fin 1))) * x1 (ix2 (y 0) (0 : Fin 1)) := by
  unfold out5_4
  rw [View.canon_unit_zero hz]
  simp only [View.ld_unit_zero (S := S2000x64) hz, View.ld_unit_zero (S := S2000x1) hz]
  exact pay3_apply x0 x1 x2 y

/-- The printed index maps, decided over the grid: at point `t` every window is on block row `t`, block column 0. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

end Aux5v

end Cert.KernelIdeal.H

namespace Cert.KernelIdeal.H

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace Aux5v

/-- One propagation step at an index. -/
theorem nxt_apply (f : Cert.Spec.SN64.Idx → EReal) (d : Cert.Spec.SN1.Idx → EReal) (a : Cert.Spec.SN64.Idx → EReal) (X : Cert.Spec.SN64.Idx) :
    Cert.Spec.nxt f d a X = f X - a X * d (ix2 (X 0) (0 : Fin 1)) := by
  have hx : (ix2 (X 0) (X 1) : Cert.Spec.SN64.Idx) = X := (eq_ix2 X).symm
  show f (ix2 (X 0) (X 1)) - a (ix2 (X 0) (X 1)) * d (ix2 (X 0) (0 : Fin 1)) = _
  rw [hx]

/-- The row scaling at an index. -/
theorem scl_apply (g : Cert.Spec.SN64.Idx → EReal) (d : Cert.Spec.SN1.Idx → EReal) (X : Cert.Spec.SN64.Idx) :
    Cert.Spec.scl g d X = g X * d (ix2 (X 0) (0 : Fin 1)) := by
  have hx : (ix2 (X 0) (X 1) : Cert.Spec.SN64.Idx) = X := (eq_ix2 X).symm
  show g (ix2 (X 0) (X 1)) * d (ix2 (X 0) (0 : Fin 1)) = _
  rw [hx]

/-- Row `r` of the array is in the block of point `r / 2000`: the 25 blocks of 2000 rows tile the 50000 rows. -/
theorem cover3 (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  have hN : grid5.N = 25 := Gen.N_5
  have ht : (i 0).val / 2000 < cfg5.N := by show _ < grid5.N; rw [hN]; omega
  obtain ⟨-, -, -, -, -, -, e30, e31, -, -⟩ := idx_facts ⟨(i 0).val / 2000, ht⟩
  refine ⟨⟨(i 0).val / 2000, ht⟩, flush5_3 _, ?_⟩
  have e : ((cfg5.win 3).blk ⟨(i 0).val / 2000, ht⟩).view.emb (ix2 (⟨(i 0).val % 2000, Nat.mod_lt _ (by decide)⟩ : Fin 2000) (i 1) : S2000x64.Idx) = i := by
    funext a; apply Fin.ext
    match a with
    | ⟨0, _⟩ =>
      show win5_3.index ⟨(i 0).val / 2000, ht⟩ (0 : Fin 2) * 2000 + 1 * ((i 0).val % 2000) = (i 0).val
      rw [e30]; show (i 0).val / 2000 * 2000 + 1 * ((i 0).val % 2000) = (i 0).val; omega
    | ⟨1, _⟩ =>
      show win5_3.index ⟨(i 0).val / 2000, ht⟩ (1 : Fin 2) * 64 + 1 * (i 1).val = (i 1).val
      rw [e31]; omega
  have hm := ((cfg5.win 3).blk ⟨(i 0).val / 2000, ht⟩).view.emb_mem_set (ix2 (⟨(i 0).val % 2000, Nat.mod_lt _ (by decide)⟩ : Fin 2000) (i 1) : S2000x64.Idx)
  rw [e] at hm
  exact hm

/-- The same of window 4. -/
theorem cover4 (i : S50000x64.Idx) : ∃ t : Fin cfg5.N, (cfg5.win 4).flush t = true ∧ i ∈ ((cfg5.win 4).blk t).view.set := by
  have hi0 : (i 0).val < 50000 := (i 0).isLt
  have hi1 : (i 1).val < 64 := (i 1).isLt
  have hN : grid5.N = 25 := Gen.N_5
  have ht : (i 0).val / 2000 < cfg5.N := by show _ < grid5.N; rw [hN]; omega
  obtain ⟨-, -, -, -, -, -, -, -, e40, e41⟩ := idx_facts ⟨(i 0).val / 2000, ht⟩
  refine ⟨⟨(i 0).val / 2000, ht⟩, flush5_4 _, ?_⟩
  have e : ((cfg5.win 4).blk ⟨(i 0).val / 2000, ht⟩).view.emb (ix2 (⟨(i 0).val % 2000, Nat.mod_lt _ (by decide)⟩ : Fin 2000) (i 1) : S2000x64.Idx) = i := by
    funext a; apply Fin.ext
    match a with
    | ⟨0, _⟩ =>
      show win5_4.index ⟨(i 0).val / 2000, ht⟩ (0 : Fin 2) * 2000 + 1 * ((i 0).val % 2000) = (i 0).val
      rw [e40]; show (i 0).val / 2000 * 2000 + 1 * ((i 0).val % 2000) = (i 0).val; omega
    | ⟨1, _⟩ =>
      show win5_4.index ⟨(i 0).val / 2000, ht⟩ (1 : Fin 2) * 64 + 1 * (i 1).val = (i 1).val
      rw [e41]; omega
  have hm := ((cfg5.win 4).blk ⟨(i 0).val / 2000, ht⟩).view.emb_mem_set (ix2 (⟨(i 0).val % 2000, Nat.mod_lt _ (by decide)⟩ : Fin 2000) (i 1) : S2000x64.Idx)
  rw [e] at hm
  exact hm

/-- The three input arrays as the region finds them, as functions over the literal shapes. -/
abbrev f (c : Dev nD) : Cert.Spec.SN64.Idx → EReal := V c (Pipeline.arrRef spec5 0)
abbrev d (c : Dev nD) : Cert.Spec.SN1.Idx → EReal := V c (Pipeline.arrRef spec5 1)
abbrev a (c : Dev nD) : Cert.Spec.SN64.Idx → EReal := V c (Pipeline.arrRef spec5 2)

/-- Windows 0, 2, 3 and 4 put block element `y` of point `t` at the same place of their arrays. -/
theorem emb_eq (t : Fin cfg5.N) (y : S2000x64.Idx) :
    ((cfg5.win 0).blk t).view.emb y = ((cfg5.win 3).blk t).view.emb y
    ∧ ((cfg5.win 2).blk t).view.emb y = ((cfg5.win 3).blk t).view.emb y
    ∧ ((cfg5.win 4).blk t).view.emb y = ((cfg5.win 3).blk t).view.emb y := by
  obtain ⟨e00, e01, e10, e11, e20, e21, e30, e31, e40, e41⟩ := idx_facts t
  refine ⟨?_, ?_, ?_⟩
  · funext a; apply Fin.ext
    match a with
    | ⟨0, _⟩ => show win5_0.index t (0 : Fin 2) * 2000 + 1 * (y 0).val = win5_3.index t (0 : Fin 2) * 2000 + 1 * (y 0).val; omega
    | ⟨1, _⟩ => show win5_0.index t (1 : Fin 2) * 64 + 1 * (y 1).val = win5_3.index t (1 : Fin 2) * 64 + 1 * (y 1).val; omega
  · funext a; apply Fin.ext
    match a with
    | ⟨0, _⟩ => show win5_2.index t (0 : Fin 2) * 2000 + 1 * (y 0).val = win5_3.index t (0 : Fin 2) * 2000 + 1 * (y 0).val; omega
    | ⟨1, _⟩ => show win5_2.index t (1 : Fin 2) * 64 + 1 * (y 1).val = win5_3.index t (1 : Fin 2) * 64 + 1 * (y 1).val; omega
  · funext a; apply Fin.ext
    match a with
    | ⟨0, _⟩ => show win5_4.index t (0 : Fin 2) * 2000 + 1 * (y 0).val = win5_3.index t (0 : Fin 2) * 2000 + 1 * (y 0).val; omega
    | ⟨1, _⟩ => show win5_4.index t (1 : Fin 2) * 64 + 1 * (y 1).val = win5_3.index t (1 : Fin 2) * 64 + 1 * (y 1).val; omega

/-- Window 1 puts the factor of block row `y 0` at the row of the array where window 3 puts block element `y`. -/
theorem emb1_eq (t : Fin cfg5.N) (y : S2000x64.Idx) :
    ((cfg5.win 1).blk t).view.emb (ix2 (y 0) (0 : Fin 1)) = (ix2 ((((cfg5.win 3).blk t).view.emb y) 0) (0 : Fin 1) : S50000x1.Idx) := by
  obtain ⟨e00, e01, e10, e11, e20, e21, e30, e31, e40, e41⟩ := idx_facts t
  funext a; apply Fin.ext
  match a with
  | ⟨0, _⟩ => show win5_1.index t (0 : Fin 2) * 2000 + 1 * (y 0).val = win5_3.index t (0 : Fin 2) * 2000 + 1 * (y 0).val; omega
  | ⟨1, _⟩ => show win5_1.index t (1 : Fin 2) * 1 + 1 * 0 = 0; omega

end Aux5v

open Aux5v in
/-- What point `t` writes back to output window 3 is block `t` of one propagation step of the input arrays. -/
theorem flushed5_3_eq (c : Dev nD) (t : Fin cfg5.N) :
    (dat5 (F := Ideal) V c).flushed 3 t = ((cfg5.win 3).blk t).view.read (Elt Ideal) (Cert.Spec.nxt (Aux5v.f V c) (Aux5v.d V c) (Aux5v.a V c)) := by
  show (cfg5.win 3).cut (grid5.coords t) ((dat5 V c).after 3 t) = _
  rw [after5_3]
  refine funext fun (y : S2000x64.Idx) => ?_
  obtain ⟨h0, h2, h4⟩ := emb_eq t y
  have h1 := emb1_eq t y
  show out5_3 (iblk5 V c 0 t) (iblk5 V c 1 t) (iblk5 V c 2 t) y = Cert.Spec.nxt (Aux5v.f V c) (Aux5v.d V c) (Aux5v.a V c) (((cfg5.win 3).blk t).view.emb y)
  rw [out3_apply]
  show Aux5v.f V c (((cfg5.win 0).blk t).view.emb y) - Aux5v.a V c (((cfg5.win 2).blk t).view.emb y) * Aux5v.d V c (((cfg5.win 1).blk t).view.emb (ix2 (y 0) (0 : Fin 1))) = _
  rw [h0, h2, h1]
  exact (nxt_apply _ _ _ _).symm

open Aux5v in
/-- What point `t` writes back to output window 4 is block `t` of that step scaled by the rows' factors. -/
theorem flushed5_4_eq (c : Dev nD) (t : Fin cfg5.N) :
    (dat5 (F := Ideal) V c).flushed 4 t = ((cfg5.win 4).blk t).view.read (Elt Ideal) (Cert.Spec.scl (Cert.Spec.nxt (Aux5v.f V c) (Aux5v.d V c) (Aux5v.a V c)) (Aux5v.d V c)) := by
  show (cfg5.win 4).cut (grid5.coords t) ((dat5 V c).after 4 t) = _
  rw [after5_4]
  refine funext fun (y : S2000x64.Idx) => ?_
  obtain ⟨h0, h2, h4⟩ := emb_eq t y
  have h1 := emb1_eq t y
  show out5_4 (iblk5 V c 0 t) (iblk5 V c 1 t) (iblk5 V c 2 t) y = Cert.Spec.scl (Cert.Spec.nxt (Aux5v.f V c) (Aux5v.d V c) (Aux5v.a V c)) (Aux5v.d V c) (((cfg5.win 4).blk t).view.emb y)
  rw [out4_apply, h4]
  show (Aux5v.f V c (((cfg5.win 0).blk t).view.emb y) - Aux5v.a V c (((cfg5.win 2).blk t).view.emb y) * Aux5v.d V c (((cfg5.win 1).blk t).view.emb (ix2 (y 0) (0 : Fin 1)))) * Aux5v.d V c (((cfg5.win 1).blk t).view.emb (ix2 (y 0) (0 : Fin 1))) = _
  rw [h0, h2, h1]
  exact ((scl_apply _ _ _).trans (congrArg (· * _) (nxt_apply _ _ _ _))).symm

/-- Output window 3's array after the region: one propagation step of the input arrays as the region finds them. -/
theorem arr5_3 (c : Dev nD) : ((dat5 (F := Ideal) V c).arrAt 3 cfg5.N : Cert.Spec.SN64.Idx → EReal) = Cert.Spec.nxt (V c (Pipeline.arrRef spec5 0)) (V c (Pipeline.arrRef spec5 1)) (V c (Pipeline.arrRef spec5 2)) :=
  (dat5 V c).arrAt_eq_of_cover 3 _ (fun t _ => flushed5_3_eq V c t) Aux5v.cover3

/-- Output window 4's array after the region: that step scaled by the rows' factors. -/
theorem arr5_4 (c : Dev nD) : ((dat5 (F := Ideal) V c).arrAt 4 cfg5.N : Cert.Spec.SN64.Idx → EReal) = Cert.Spec.scl (Cert.Spec.nxt (V c (Pipeline.arrRef spec5 0)) (V c (Pipeline.arrRef spec5 1)) (V c (Pipeline.arrRef spec5 2))) (V c (Pipeline.arrRef spec5 1)) :=
  (dat5 V c).arrAt_eq_of_cover 4 _ (fun t _ => flushed5_4_eq V c t) Aux5v.cover4

end Cert.KernelIdeal.H

end
-- ==== Proof.KI.Val6.lean ====
import proofs.«134461_j6124623364543_2_alg».proof.Proof.KI.Reg6
import proofs.«134461_j6124623364543_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators
open Idealize.ShloMosaic.Tactic

namespace Aux6v

theorem hz : (![0, 0] : Fin 2 → Nat) = fun _ => 0 := funext fun a => by fin_cases a <;> rfl

/-- A three-term filter of 2000 × 64 blocks, summed left to right. -/
def combB (c0 c1 c2 : EReal) (f0 f1 f2 : S2000x64.Idx → EReal) : S2000x64.Idx → EReal :=
  fun y => c0 * f0 y + c1 * f1 y + c2 * f2 y

/-- Six 2000 × 64 blocks side by side: column `q` of the result is column `q % 64` of block `q / 64`. -/
def catB (p0 p1 p2 p3 p4 p5 : S2000x64.Idx → EReal) : S2000x384.Idx → EReal := fun j =>
  if (j 1).val < 64 then p0 (ix2 (j 0) ⟨(j 1).val % 64, Nat.mod_lt _ (by decide)⟩)
  else if (j 1).val < 128 then p1 (ix2 (j 0) ⟨(j 1).val % 64, Nat.mod_lt _ (by decide)⟩)
  else if (j 1).val < 192 then p2 (ix2 (j 0) ⟨(j 1).val % 64, Nat.mod_lt _ (by decide)⟩)
  else if (j 1).val < 256 then p3 (ix2 (j 0) ⟨(j 1).val % 64, Nat.mod_lt _ (by decide)⟩)
  else if (j 1).val < 320 then p4 (ix2 (j 0) ⟨(j 1).val % 64, Nat.mod_lt _ (by decide)⟩)
  else p5 (ix2 (j 0) ⟨(j 1).val % 64, Nat.mod_lt _ (by decide)⟩)

/-! The six slice payloads at the ideal values: each is a three-term filter of its three input blocks. -/
theorem pay9_eq (x0 x1 x2 : Vec Ideal S2000x64 .f32) :
    k6_pay9 x0 x1 x2 = combB (Ideal.ofBits .f32 0x40400000#32) (Ideal.ofBits .f32 0xC0400000#32) (Ideal.ofBits .f32 0x3F400000#32) x0 x1 x2 := by
  unfold k6_pay9 k6_pay3 k6_pay4 k6_pay5
  simp only [shapeCast_self]
  rfl
theorem pay10_eq (x0 x1 x2 : Vec Ideal S2000x64 .f32) :
    k6_pay10 x0 x1 x2 = combB (Ideal.ofBits .f32 0x00000000#32) (Ideal.ofBits .f32 0x40400000#32) (Ideal.ofBits .f32 0xBFC00000#32) x0 x1 x2 := by
  unfold k6_pay10 k6_pay3 k6_pay4 k6_pay5
  simp only [shapeCast_self]
  rfl
theorem pay11_eq (x0 x1 x2 : Vec Ideal S2000x64 .f32) :
    k6_pay11 (k6_pay3 x0) (k6_pay4 x1) (k6_pay5 x2) (Scalar.ofBits .f32 0x00000000#32) = combB (Ideal.ofBits .f32 0x00000000#32) (Ideal.ofBits .f32 0x00000000#32) (Ideal.ofBits .f32 0x3F400000#32) x0 x1 x2 := by
  unfold k6_pay11 k6_pay3 k6_pay4 k6_pay5
  simp only [shapeCast_self]
  rfl
theorem pay12_eq (x3 x4 x5 : Vec Ideal S2000x64 .f32) :
    k6_pay12 (k6_pay6 x3) (k6_pay7 x4) (k6_pay8 x5) = combB (Ideal.ofBits .f32 0x40800000#32) (Ideal.ofBits .f32 0x40800000#32) (Ideal.ofBits .f32 0x40800000#32) x3 x4 x5 := by
  unfold k6_pay12 k6_pay6 k6_pay7 k6_pay8
  simp only [shapeCast_self]
  rfl
theorem pay13_eq (x3 x4 x5 : Vec Ideal S2000x64 .f32) :
    k6_pay13 (k6_pay6 x3) (k6_pay7 x4) (k6_pay8 x5) = combB (Ideal.ofBits .f32 0x40800000#32) (Ideal.ofBits .f32 0x40800000#32) (Ideal.ofBits .f32 0x40800000#32) x3 x4 x5 := by
  unfold k6_pay13 k6_pay6 k6_pay7 k6_pay8
  simp only [shapeCast_self]
  rfl
theorem pay1_eq (x3 x4 x5 : Vec Ideal S2000x64 .f32) :
    k6_pay1 (k6_pay14 (k6_pay6 x3) (k6_pay7 x4)) (k6_pay15 (k6_pay8 x5)) = combB (Ideal.ofBits .f32 0x40800000#32) (Ideal.ofBits .f32 0x40800000#32) (Ideal.ofBits .f32 0x40800000#32) x3 x4 x5 := by
  unfold k6_pay1 k6_pay14 k6_pay15 k6_pay6 k6_pay7 k6_pay8
  simp only [shapeCast_self]
  rfl

/-! An index of the 2000 × 384 block in column range `[64 K, 64 K + 64)` reads block `K` at the column less `64 K`. -/

theorem catB_0 (p0 p1 p2 p3 p4 p5 : S2000x64.Idx → EReal) (j : S2000x384.Idx) (y : S2000x64.Idx)
    (h0 : (j 0).val = (y 0).val) (h1 : (j 1).val = 0 + (y 1).val) : catB p0 p1 p2 p3 p4 p5 j = p0 y := by
  have hy : (y 1).val < 64 := (y 1).isLt
  have e : (ix2 (j 0) ⟨(j 1).val % 64, Nat.mod_lt _ (by decide)⟩ : S2000x64.Idx) = y :=
    funext fun a => Fin.ext (by
      match a with
      | ⟨0, _⟩ => exact h0
      | ⟨1, _⟩ => show (j 1).val % 64 = (y 1).val; omega)
  unfold catB
  rw [e]
  split_ifs <;> first | rfl | (exfalso; omega)

theorem catB_1 (p0 p1 p2 p3 p4 p5 : S2000x64.Idx → EReal) (j : S2000x384.Idx) (y : S2000x64.Idx)
    (h0 : (j 0).val = (y 0).val) (h1 : (j 1).val = 64 + (y 1).val) : catB p0 p1 p2 p3 p4 p5 j = p1 y := by
  have hy : (y 1).val < 64 := (y 1).isLt
  have e : (ix2 (j 0) ⟨(j 1).val % 64, Nat.mod_lt _ (by decide)⟩ : S2000x64.Idx) = y :=
    funext fun a => Fin.ext (by
      match a with
      | ⟨0, _⟩ => exact h0
      | ⟨1, _⟩ => show (j 1).val % 64 = (y 1).val; omega)
  unfold catB
  rw [e]
  split_ifs <;> first | rfl | (exfalso; omega)

theorem catB_2 (p0 p1 p2 p3 p4 p5 : S2000x64.Idx → EReal) (j : S2000x384.Idx) (y : S2000x64.Idx)
    (h0 : (j 0).val = (y 0).val) (h1 : (j 1).val = 128 + (y 1).val) : catB p0 p1 p2 p3 p4 p5 j = p2 y := by
  have hy : (y 1).val < 64 := (y 1).isLt
  have e : (ix2 (j 0) ⟨(j 1).val % 64, Nat.mod_lt _ (by decide)⟩ : S2000x64.Idx) = y :=
    funext fun a => Fin.ext (by
      match a with
      | ⟨0, _⟩ => exact h0
      | ⟨1, _⟩ => show (j 1).val % 64 = (y 1).val; omega)
  unfold catB
  rw [e]
  split_ifs <;> first | rfl | (exfalso; omega)

theorem catB_3 (p0 p1 p2 p3 p4 p5 : S2000x64.Idx → EReal) (j : S2000x384.Idx) (y : S2000x64.Idx)
    (h0 : (j 0).val = (y 0).val) (h1 : (j 1).val = 192 + (y 1).val) : catB p0 p1 p2 p3 p4 p5 j = p3 y := by
  have hy : (y 1).val < 64 := (y 1).isLt
  have e : (ix2 (j 0) ⟨(j 1).val % 64, Nat.mod_lt _ (by decide)⟩ : S2000x64.Idx) = y :=
    funext fun a => Fin.ext (by
      match a with
      | ⟨0, _⟩ => exact h0
      | ⟨1, _⟩ => show (j 1).val % 64 = (y 1).val; omega)
  unfold catB
  rw [e]
  split_ifs <;> first | rfl | (exfalso; omega)

theorem catB_4 (p0 p1 p2 p3 p4 p5 : S2000x64.Idx → EReal) (j : S2000x384.Idx) (y : S2000x64.Idx)
    (h0 : (j 0).val = (y 0).val) (h1 : (j 1).val = 256 + (y 1).val) : catB p0 p1 p2 p3 p4 p5 j = p4 y := by
  have hy : (y 1).val < 64 := (y 1).isLt
  have e : (ix2 (j 0) ⟨(j 1).val % 64, Nat.mod_lt _ (by decide)⟩ : S2000x64.Idx) = y :=
    funext fun a => Fin.ext (by
      match a with
      | ⟨0, _⟩ => exact h0
      | ⟨1, _⟩ => show (j 1).val % 64 = (y 1).val; omega)
  unfold catB
  rw [e]
  split_ifs <;> first | rfl | (exfalso; omega)

theorem catB_5 (p0 p1 p2 p3 p4 p5 : S2000x64.Idx → EReal) (j : S2000x384.Idx) (y : S2000x64.Idx)
    (h0 : (j 0).val = (y 0).val) (h1 : (j 1).val = 320 + (y 1).val) : catB p0 p1 p2 p3 p4 p5 j = p5 y := by
  have hy : (y 1).val < 64 := (y 1).isLt
  have e : (ix2 (j 0) ⟨(j 1).val % 64, Nat.mod_lt _ (by decide)⟩ : S2000x64.Idx) = y :=
    funext fun a => Fin.ext (by
      match a with
      | ⟨0, _⟩ => exact h0
      | ⟨1, _⟩ => show (j 1).val % 64 = (y 1).val; omega)
  unfold catB
  rw [e]
  split_ifs <;> first | rfl | (exfalso; omega)

/-- The scratch buffer after its six slice stores, at the ideal values: the six filters side by side. -/
theorem scr6_eq (x0 x1 x2 x3 x4 x5 : Vec Ideal S2000x64 .f32) :
    scr6 x0 x1 x2 x3 x4 x5 = catB (combB (Ideal.ofBits .f32 0x40400000#32) (Ideal.ofBits .f32 0xC0400000#32) (Ideal.ofBits .f32 0x3F400000#32) x0 x1 x2) (combB (Ideal.ofBits .f32 0x00000000#32) (Ideal.ofBits .f32 0x40400000#32) (Ideal.ofBits .f32 0xBFC00000#32) x0 x1 x2) (combB (Ideal.ofBits .f32 0x00000000#32) (Ideal.ofBits .f32 0x00000000#32) (Ideal.ofBits .f32 0x3F400000#32) x0 x1 x2)
      (combB (Ideal.ofBits .f32 0x40800000#32) (Ideal.ofBits .f32 0x40800000#32) (Ideal.ofBits .f32 0x40800000#32) x3 x4 x5) (combB (Ideal.ofBits .f32 0x40800000#32) (Ideal.ofBits .f32 0x40800000#32) (Ideal.ofBits .f32 0x40800000#32) x3 x4 x5) (combB (Ideal.ofBits .f32 0x40800000#32) (Ideal.ofBits .f32 0x40800000#32) (Ideal.ofBits .f32 0x40800000#32) x3 x4 x5) := by
  funext j
  unfold scr6 scrL6
  simp only [View.ld_unit_zero (S := S2000x64) hz]
  rw [pay9_eq, pay10_eq, pay11_eq, pay12_eq, pay13_eq, pay1_eq]
  refine View.canon_apply_of_pieces _ _ ?_ j ?_
  · intro p hp x
    simp only [List.mem_cons, List.not_mem_nil, or_false] at hp
    rcases hp with rfl | rfl | rfl | rfl | rfl | rfl
    · exact (catB_5 _ _ _ _ _ _ _ x (by show 0 + 1 * (x 0).val = (x 0).val; omega) (by show 320 + 1 * (x 1).val = 320 + (x 1).val; omega)).symm
    · exact (catB_4 _ _ _ _ _ _ _ x (by show 0 + 1 * (x 0).val = (x 0).val; omega) (by show 256 + 1 * (x 1).val = 256 + (x 1).val; omega)).symm
    · exact (catB_3 _ _ _ _ _ _ _ x (by show 0 + 1 * (x 0).val = (x 0).val; omega) (by show 192 + 1 * (x 1).val = 192 + (x 1).val; omega)).symm
    · exact (catB_2 _ _ _ _ _ _ _ x (by show 0 + 1 * (x 0).val = (x 0).val; omega) (by show 128 + 1 * (x 1).val = 128 + (x 1).val; omega)).symm
    · exact (catB_1 _ _ _ _ _ _ _ x (by show 0 + 1 * (x 0).val = (x 0).val; omega) (by show 64 + 1 * (x 1).val = 64 + (x 1).val; omega)).symm
    · exact (catB_0 _ _ _ _ _ _ _ x (by show 0 + 1 * (x 0).val = (x 0).val; omega) (by show 0 + 1 * (x 1).val = 0 + (x 1).val; omega)).symm
  · exact View.cover_of_tiledL (s := S2000x384) _ S2000x64.size (by sl_kernel_rfl) j

/-! The two products' operand indices, coordinate by coordinate, at the contraction index of coordinate `q`. -/
theorem lhsA (r : Fin 2000) (k : Fin 64) (q : Fin 384) :
    dot_S2000x384_S384x64_S2000x64_1_0_0_1_n_n.lhsIdx (ix2 r k) ((contrEquiv1 dot_S2000x384_S384x64_S2000x64_1_0_0_1_n_n 384 rfl rfl).symm q) = ix2 r q := by
  funext a; apply Fin.ext
  match a with
  | ⟨0, _⟩ => simp [DotDims.lhsIdx, dot_S2000x384_S384x64_S2000x64_1_0_0_1_n_n]; rfl
  | ⟨1, _⟩ => exact (dot_S2000x384_S384x64_S2000x64_1_0_0_1_n_n.lhsIdx_val_of_single (cl := 1) rfl _ _).trans (contrEquiv1_symm_val dot_S2000x384_S384x64_S2000x64_1_0_0_1_n_n 384 rfl rfl q)
theorem rhsA (r : Fin 2000) (k : Fin 64) (q : Fin 384) :
    dot_S2000x384_S384x64_S2000x64_1_0_0_1_n_n.rhsIdx (ix2 r k) ((contrEquiv1 dot_S2000x384_S384x64_S2000x64_1_0_0_1_n_n 384 rfl rfl).symm q) = ix2 q k := by
  funext a; apply Fin.ext
  match a with
  | ⟨0, _⟩ => exact (dot_S2000x384_S384x64_S2000x64_1_0_0_1_n_n.rhsIdx_val_of_single (cr := 0) rfl _ _).trans (contrEquiv1_symm_val dot_S2000x384_S384x64_S2000x64_1_0_0_1_n_n 384 rfl rfl q)
  | ⟨1, _⟩ => simp [DotDims.rhsIdx, dot_S2000x384_S384x64_S2000x64_1_0_0_1_n_n]; rfl
theorem lhsB (r : Fin 2000) (o : Fin 2) (k : Fin 64) :
    dot_S2000x64_S64x2_S2000x2_1_0_0_1_n_n.lhsIdx (ix2 r o) ((contrEquiv1 dot_S2000x64_S64x2_S2000x2_1_0_0_1_n_n 64 rfl rfl).symm k) = ix2 r k := by
  funext a; apply Fin.ext
  match a with
  | ⟨0, _⟩ => simp [DotDims.lhsIdx, dot_S2000x64_S64x2_S2000x2_1_0_0_1_n_n]; rfl
  | ⟨1, _⟩ => exact (dot_S2000x64_S64x2_S2000x2_1_0_0_1_n_n.lhsIdx_val_of_single (cl := 1) rfl _ _).trans (contrEquiv1_symm_val dot_S2000x64_S64x2_S2000x2_1_0_0_1_n_n 64 rfl rfl k)
theorem rhsB (r : Fin 2000) (o : Fin 2) (k : Fin 64) :
    dot_S2000x64_S64x2_S2000x2_1_0_0_1_n_n.rhsIdx (ix2 r o) ((contrEquiv1 dot_S2000x64_S64x2_S2000x2_1_0_0_1_n_n 64 rfl rfl).symm k) = ix2 k o := by
  funext a; apply Fin.ext
  match a with
  | ⟨0, _⟩ => exact (dot_S2000x64_S64x2_S2000x2_1_0_0_1_n_n.rhsIdx_val_of_single (cr := 0) rfl _ _).trans (contrEquiv1_symm_val dot_S2000x64_S64x2_S2000x2_1_0_0_1_n_n 64 rfl rfl k)
  | ⟨1, _⟩ => simp [DotDims.rhsIdx, dot_S2000x64_S64x2_S2000x2_1_0_0_1_n_n]; rfl

/-- The first product at the ideal values, read at row `r`, unit `k`. -/
theorem mmA_apply (h : Vec Ideal S2000x384 .f32) (w1 : Vec Ideal S384x64 .f32) (r : Fin 2000) (k : Fin 64) :
    FloatOps.matmul (F := Ideal) dot_S2000x384_S384x64_S2000x64_1_0_0_1_n_n none (truncf .bf16 (h : FVec Ideal S2000x384 .f32) bitsLt_bf16_f32)
        (truncf .bf16 (w1 : FVec Ideal S384x64 .f32) bitsLt_bf16_f32)
        (constant S2000x64 .f32 0x00000000#32) (ix2 r k) = ∑ q : Fin 384, h (ix2 r q) * w1 (ix2 q k) := by
  rw [Ideal.matmul_constant_zero_apply, ← Equiv.sum_comp (contrEquiv1 dot_S2000x384_S384x64_S2000x64_1_0_0_1_n_n 384 rfl rfl).symm]
  simp only [lhsA, rhsA, truncf_apply]

/-- The window-11 payload at the ideal values, read at row `r`, class `o`: the two-layer perceptron of the
    2000 × 384 block `h`. -/
theorem pay2_apply (h : Vec Ideal S2000x384 .f32) (w1 : Vec Ideal S384x64 .f32) (b1 : Vec Ideal S1x64 .f32)
    (w2 : Vec Ideal S64x2 .f32) (b2 : Vec Ideal S1x2 .f32) (r : Fin 2000) (o : Fin 2) :
    k6_pay2 h w1 b1 w2 b2 (ix2 r o)
      = (∑ k : Fin 64, max ((∑ q : Fin 384, h (ix2 r q) * w1 (ix2 q k)) + b1 (ix2 (0 : Fin 1) k)) (Ideal.ofBits .f32 0x00000000#32) * w2 (ix2 k o))
        + b2 (ix2 (0 : Fin 1) o) := by
  unfold k6_pay2
  simp only [shapeCast_self, matmul]
  rw [addf_apply, broadcastTo_1b_ab_apply, Ideal.matmul_constant_zero_apply,
    ← Equiv.sum_comp (contrEquiv1 dot_S2000x64_S64x2_S2000x2_1_0_0_1_n_n 64 rfl rfl).symm]
  simp only [lhsB, rhsB, truncf_apply, maximumf_apply, addf_apply, broadcastTo_1b_ab_apply, broadcast_apply, mmA_apply]
  rfl

/-! From a block to the array: block `b` of a 50000-row table is its rows `2000 b, …, 2000 b + 1999`. A block is
    related to its table by "the block at `y` is the table at every `z` of row `2000 b + y 0` and column `y 1`". -/

/-- A filter of three blocks is the block of the filter of their tables. -/
theorem combB_blk (c0 c1 c2 : EReal) (F0 F1 F2 : Cert.Spec.SN64.Idx → EReal) (f0 f1 f2 : S2000x64.Idx → EReal) (b : Nat)
    (h0 : ∀ (y : S2000x64.Idx) (z : Cert.Spec.SN64.Idx), (z 0).val = b * 2000 + (y 0).val → (z 1).val = (y 1).val → f0 y = F0 z)
    (h1 : ∀ (y : S2000x64.Idx) (z : Cert.Spec.SN64.Idx), (z 0).val = b * 2000 + (y 0).val → (z 1).val = (y 1).val → f1 y = F1 z)
    (h2 : ∀ (y : S2000x64.Idx) (z : Cert.Spec.SN64.Idx), (z 0).val = b * 2000 + (y 0).val → (z 1).val = (y 1).val → f2 y = F2 z) :
    ∀ (y : S2000x64.Idx) (z : Cert.Spec.SN64.Idx), (z 0).val = b * 2000 + (y 0).val → (z 1).val = (y 1).val →
      combB c0 c1 c2 f0 f1 f2 y = Cert.Spec.comb c0 c1 c2 F0 F1 F2 z := by
  intro y z hz0 hz1
  show c0 * f0 y + c1 * f1 y + c2 * f2 y
    = c0 * F0 (ix2 (z 0) (z 1)) + c1 * F1 (ix2 (z 0) (z 1)) + c2 * F2 (ix2 (z 0) (z 1))
  rw [h0 y (ix2 (z 0) (z 1)) hz0 hz1, h1 y (ix2 (z 0) (z 1)) hz0 hz1, h2 y (ix2 (z 0) (z 1)) hz0 hz1]

/-- Six blocks side by side are the block of their six tables side by side. -/
theorem catB_blk (P0 P1 P2 P3 P4 P5 : Cert.Spec.SN64.Idx → EReal) (p0 p1 p2 p3 p4 p5 : S2000x64.Idx → EReal) (b : Nat)
    (hp0 : ∀ (y : S2000x64.Idx) (z : Cert.Spec.SN64.Idx), (z 0).val = b * 2000 + (y 0).val → (z 1).val = (y 1).val → p0 y = P0 z)
    (hp1 : ∀ (y : S2000x64.Idx) (z : Cert.Spec.SN64.Idx), (z 0).val = b * 2000 + (y 0).val → (z 1).val = (y 1).val → p1 y = P1 z)
    (hp2 : ∀ (y : S2000x64.Idx) (z : Cert.Spec.SN64.Idx), (z 0).val = b * 2000 + (y 0).val → (z 1).val = (y 1).val → p2 y = P2 z)
    (hp3 : ∀ (y : S2000x64.Idx) (z : Cert.Spec.SN64.Idx), (z 0).val = b * 2000 + (y 0).val → (z 1).val = (y 1).val → p3 y = P3 z)
    (hp4 : ∀ (y : S2000x64.Idx) (z : Cert.Spec.SN64.Idx), (z 0).val = b * 2000 + (y 0).val → (z 1).val = (y 1).val → p4 y = P4 z)
    (hp5 : ∀ (y : S2000x64.Idx) (z : Cert.Spec.SN64.Idx), (z 0).val = b * 2000 + (y 0).val → (z 1).val = (y 1).val → p5 y = P5 z) :
    ∀ (j : S2000x384.Idx) (i : Cert.Spec.SN384.Idx), (i 0).val = b * 2000 + (j 0).val → (i 1).val = (j 1).val →
      catB p0 p1 p2 p3 p4 p5 j = Cert.Spec.cat6 P0 P1 P2 P3 P4 P5 i := by
  intro j i hi0 hi1
  have hm : (i 1).val % 64 = (j 1).val % 64 := by rw [hi1]
  unfold catB Cert.Spec.cat6 Cert.Spec.cat6At
  split_ifs <;> first
    | (exfalso; omega)
    | exact hp0 _ _ hi0 hm
    | exact hp1 _ _ hi0 hm
    | exact hp2 _ _ hi0 hm
    | exact hp3 _ _ hi0 hm
    | exact hp4 _ _ hi0 hm
    | exact hp5 _ _ hi0 hm

/-- The perceptron payload of a block is the block of the perceptron of its table. -/
theorem mlp_blk (H : Cert.Spec.SN384.Idx → EReal) (h : S2000x384.Idx → EReal) (W1 : S384x64.Idx → EReal) (B1 : S1x64.Idx → EReal)
    (W2 : S64x2.Idx → EReal) (B2 : S1x2.Idx → EReal) (b : Nat)
    (hh : ∀ (j : S2000x384.Idx) (i : Cert.Spec.SN384.Idx), (i 0).val = b * 2000 + (j 0).val → (i 1).val = (j 1).val → h j = H i)
    (y : S2000x2.Idx) (z : Cert.Spec.SN2.Idx) (hz0 : (z 0).val = b * 2000 + (y 0).val) (hz1 : (z 1).val = (y 1).val) :
    k6_pay2 (F := Ideal) h W1 B1 W2 B2 y = Cert.Spec.mlp H W1 B1 W2 B2 z := by
  obtain ⟨r, o, rfl⟩ : ∃ (r : Fin 2000) (o : Fin 2), y = ix2 r o := ⟨y 0, y 1, eq_ix2 y⟩
  obtain ⟨r', o', rfl⟩ : ∃ (r' : Fin 50000) (o' : Fin 2), z = ix2 r' o' := ⟨z 0, z 1, eq_ix2 z⟩
  have hr : r'.val = b * 2000 + r.val := hz0
  have ho : o' = o := Fin.ext hz1
  subst ho
  have hq : ∀ q : Fin 384, h (ix2 r q) = H (ix2 r' q) := fun q => hh _ _ hr rfl
  rw [pay2_apply]
  show _ = Cert.Spec.mlpAt H W1 B1 W2 B2 r' o'
  unfold Cert.Spec.mlpAt Cert.Spec.hidAt
  simp only [hq]

end Aux6v

open Aux6v

-- the TensorCore's buffer contents when region 6 is entered
variable (V : (c : Dev nD) → (b : Ref sig .tc) → Buf (Elt Ideal) ((c : Thread nD τ).loc b))

/-- The six three-term filters of the two graphs' feature tables (the arrays region 6 finds under its windows
    0–5), side by side along the feature axis. -/
def hall6 (c : Dev nD) : Cert.Spec.SN384.Idx → EReal :=
  Cert.Spec.cat6
    (Cert.Spec.comb (Ideal.ofBits .f32 0x40400000#32) (Ideal.ofBits .f32 0xC0400000#32) (Ideal.ofBits .f32 0x3F400000#32) (V c (Pipeline.arrRef spec6 0)) (V c (Pipeline.arrRef spec6 1)) (V c (Pipeline.arrRef spec6 2)))
    (Cert.Spec.comb (Ideal.ofBits .f32 0x00000000#32) (Ideal.ofBits .f32 0x40400000#32) (Ideal.ofBits .f32 0xBFC00000#32) (V c (Pipeline.arrRef spec6 0)) (V c (Pipeline.arrRef spec6 1)) (V c (Pipeline.arrRef spec6 2)))
    (Cert.Spec.comb (Ideal.ofBits .f32 0x00000000#32) (Ideal.ofBits .f32 0x00000000#32) (Ideal.ofBits .f32 0x3F400000#32) (V c (Pipeline.arrRef spec6 0)) (V c (Pipeline.arrRef spec6 1)) (V c (Pipeline.arrRef spec6 2)))
    (Cert.Spec.comb (Ideal.ofBits .f32 0x40800000#32) (Ideal.ofBits .f32 0x40800000#32) (Ideal.ofBits .f32 0x40800000#32) (V c (Pipeline.arrRef spec6 3)) (V c (Pipeline.arrRef spec6 4)) (V c (Pipeline.arrRef spec6 5)))
    (Cert.Spec.comb (Ideal.ofBits .f32 0x40800000#32) (Ideal.ofBits .f32 0x40800000#32) (Ideal.ofBits .f32 0x40800000#32) (V c (Pipeline.arrRef spec6 3)) (V c (Pipeline.arrRef spec6 4)) (V c (Pipeline.arrRef spec6 5)))
    (Cert.Spec.comb (Ideal.ofBits .f32 0x40800000#32) (Ideal.ofBits .f32 0x40800000#32) (Ideal.ofBits .f32 0x40800000#32) (V c (Pipeline.arrRef spec6 3)) (V c (Pipeline.arrRef spec6 4)) (V c (Pipeline.arrRef spec6 5)))

namespace Aux6v

/-- The printed index maps, decided over the 25 points: the six feature windows and the two outputs move down the
    rows with the point, a block per point; the weight and bias windows stay at the origin. -/
theorem idx6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = t.val
    ∧ win6_2.index t (1 : Fin 2) = 0
    ∧ win6_3.index t (0 : Fin 2) = t.val
    ∧ win6_3.index t (1 : Fin 2) = 0
    ∧ win6_4.index t (0 : Fin 2) = t.val
    ∧ win6_4.index t (1 : Fin 2) = 0
    ∧ win6_5.index t (0 : Fin 2) = t.val
    ∧ win6_5.index t (1 : Fin 2) = 0
    ∧ win6_6.index t (0 : Fin 2) = 0
    ∧ win6_6.index t (1 : Fin 2) = 0
    ∧ win6_7.index t (0 : Fin 2) = 0
    ∧ win6_7.index t (1 : Fin 2) = 0
    ∧ win6_8.index t (0 : Fin 2) = 0
    ∧ win6_8.index t (1 : Fin 2) = 0
    ∧ win6_9.index t (0 : Fin 2) = 0
    ∧ win6_9.index t (1 : Fin 2) = 0
    ∧ win6_10.index t (0 : Fin 2) = t.val
    ∧ win6_10.index t (1 : Fin 2) = 0
    ∧ win6_11.index t (0 : Fin 2) = t.val
    ∧ win6_11.index t (1 : Fin 2) = 0 :=
  (by decide +kernel : ∀ t : Fin grid6.N, _)

/-- Feature window 0's block at point `t` is rows `2000 t …` of its table. -/
theorem iblk6_tab_0 (c : Dev nD) (t : Fin cfg6.N) : ∀ (y : S2000x64.Idx) (z : Cert.Spec.SN64.Idx),
    (z 0).val = t.val * 2000 + (y 0).val → (z 1).val = (y 1).val → iblk6 V c 0 t y = V c (Pipeline.arrRef spec6 0) z := by
  intro y z hz0 hz1
  obtain ⟨e0, e1, e2, e3, e4, e5, e6, e7, e8, e9, e10, e11, e12, e13, e14, e15, e16, e17, e18, e19, e20, e21, e22, e23⟩ := idx6 t
  show V c (Pipeline.arrRef spec6 0) (((cfg6.win 0).blk t).view.emb y) = V c (Pipeline.arrRef spec6 0) z
  refine congrArg _ (funext fun a => Fin.ext ?_)
  match a with
  | ⟨0, _⟩ => show win6_0.index t (0 : Fin 2) * 2000 + 1 * (y 0).val = (z 0).val; omega
  | ⟨1, _⟩ => show win6_0.index t (1 : Fin 2) * 64 + 1 * (y 1).val = (z 1).val; omega

/-- Feature window 1's block at point `t` is rows `2000 t …` of its table. -/
theorem iblk6_tab_1 (c : Dev nD) (t : Fin cfg6.N) : ∀ (y : S2000x64.Idx) (z : Cert.Spec.SN64.Idx),
    (z 0).val = t.val * 2000 + (y 0).val → (z 1).val = (y 1).val → iblk6 V c 1 t y = V c (Pipeline.arrRef spec6 1) z := by
  intro y z hz0 hz1
  obtain ⟨e0, e1, e2, e3, e4, e5, e6, e7, e8, e9, e10, e11, e12, e13, e14, e15, e16, e17, e18, e19, e20, e21, e22, e23⟩ := idx6 t
  show V c (Pipeline.arrRef spec6 1) (((cfg6.win 1).blk t).view.emb y) = V c (Pipeline.arrRef spec6 1) z
  refine congrArg _ (funext fun a => Fin.ext ?_)
  match a with
  | ⟨0, _⟩ => show win6_1.index t (0 : Fin 2) * 2000 + 1 * (y 0).val = (z 0).val; omega
  | ⟨1, _⟩ => show win6_1.index t (1 : Fin 2) * 64 + 1 * (y 1).val = (z 1).val; omega

/-- Feature window 2's block at point `t` is rows `2000 t …` of its table. -/
theorem iblk6_tab_2 (c : Dev nD) (t : Fin cfg6.N) : ∀ (y : S2000x64.Idx) (z : Cert.Spec.SN64.Idx),
    (z 0).val = t.val * 2000 + (y 0).val → (z 1).val = (y 1).val → iblk6 V c 2 t y = V c (Pipeline.arrRef spec6 2) z := by
  intro y z hz0 hz1
  obtain ⟨e0, e1, e2, e3, e4, e5, e6, e7, e8, e9, e10, e11, e12, e13, e14, e15, e16, e17, e18, e19, e20, e21, e22, e23⟩ := idx6 t
  show V c (Pipeline.arrRef spec6 2) (((cfg6.win 2).blk t).view.emb y) = V c (Pipeline.arrRef spec6 2) z
  refine congrArg _ (funext fun a => Fin.ext ?_)
  match a with
  | ⟨0, _⟩ => show win6_2.index t (0 : Fin 2) * 2000 + 1 * (y 0).val = (z 0).val; omega
  | ⟨1, _⟩ => show win6_2.index t (1 : Fin 2) * 64 + 1 * (y 1).val = (z 1).val; omega

/-- Feature window 3's block at point `t` is rows `2000 t …` of its table. -/
theorem iblk6_tab_3 (c : Dev nD) (t : Fin cfg6.N) : ∀ (y : S2000x64.Idx) (z : Cert.Spec.SN64.Idx),
    (z 0).val = t.val * 2000 + (y 0).val → (z 1).val = (y 1).val → iblk6 V c 3 t y = V c (Pipeline.arrRef spec6 3) z := by
  intro y z hz0 hz1
  obtain ⟨e0, e1, e2, e3, e4, e5, e6, e7, e8, e9, e10, e11, e12, e13, e14, e15, e16, e17, e18, e19, e20, e21, e22, e23⟩ := idx6 t
  show V c (Pipeline.arrRef spec6 3) (((cfg6.win 3).blk t).view.emb y) = V c (Pipeline.arrRef spec6 3) z
  refine congrArg _ (funext fun a => Fin.ext ?_)
  match a with
  | ⟨0, _⟩ => show win6_3.index t (0 : Fin 2) * 2000 + 1 * (y 0).val = (z 0).val; omega
  | ⟨1, _⟩ => show win6_3.index t (1 : Fin 2) * 64 + 1 * (y 1).val = (z 1).val; omega

/-- Feature window 4's block at point `t` is rows `2000 t …` of its table. -/
theorem iblk6_tab_4 (c : Dev nD) (t : Fin cfg6.N) : ∀ (y : S2000x64.Idx) (z : Cert.Spec.SN64.Idx),
    (z 0).val = t.val * 2000 + (y 0).val → (z 1).val = (y 1).val → iblk6 V c 4 t y = V c (Pipeline.arrRef spec6 4) z := by
  intro y z hz0 hz1
  obtain ⟨e0, e1, e2, e3, e4, e5, e6, e7, e8, e9, e10, e11, e12, e13, e14, e15, e16, e17, e18, e19, e20, e21, e22, e23⟩ := idx6 t
  show V c (Pipeline.arrRef spec6 4) (((cfg6.win 4).blk t).view.emb y) = V c (Pipeline.arrRef spec6 4) z
  refine congrArg _ (funext fun a => Fin.ext ?_)
  match a with
  | ⟨0, _⟩ => show win6_4.index t (0 : Fin 2) * 2000 + 1 * (y 0).val = (z 0).val; omega
  | ⟨1, _⟩ => show win6_4.index t (1 : Fin 2) * 64 + 1 * (y 1).val = (z 1).val; omega

/-- Feature window 5's block at point `t` is rows `2000 t …` of its table. -/
theorem iblk6_tab_5 (c : Dev nD) (t : Fin cfg6.N) : ∀ (y : S2000x64.Idx) (z : Cert.Spec.SN64.Idx),
    (z 0).val = t.val * 2000 + (y 0).val → (z 1).val = (y 1).val → iblk6 V c 5 t y = V c (Pipeline.arrRef spec6 5) z := by
  intro y z hz0 hz1
  obtain ⟨e0, e1, e2, e3, e4, e5, e6, e7, e8, e9, e10, e11, e12, e13, e14, e15, e16, e17, e18, e19, e20, e21, e22, e23⟩ := idx6 t
  show V c (Pipeline.arrRef spec6 5) (((cfg6.win 5).blk t).view.emb y) = V c (Pipeline.arrRef spec6 5) z
  refine congrArg _ (funext fun a => Fin.ext ?_)
  match a with
  | ⟨0, _⟩ => show win6_5.index t (0 : Fin 2) * 2000 + 1 * (y 0).val = (z 0).val; omega
  | ⟨1, _⟩ => show win6_5.index t (1 : Fin 2) * 64 + 1 * (y 1).val = (z 1).val; omega

/-- Window 6's block at every point is its whole array. -/
theorem iblk6_all_6 (c : Dev nD) (t : Fin cfg6.N) : (iblk6 V c 6 t : S384x64.Idx → EReal) = V c (Pipeline.arrRef spec6 6) := by
  obtain ⟨e0, e1, e2, e3, e4, e5, e6, e7, e8, e9, e10, e11, e12, e13, e14, e15, e16, e17, e18, e19, e20, e21, e22, e23⟩ := idx6 t
  funext y
  show V c (Pipeline.arrRef spec6 6) (((cfg6.win 6).blk t).view.emb y) = V c (Pipeline.arrRef spec6 6) y
  refine congrArg _ (funext fun a => Fin.ext ?_)
  match a with
  | ⟨0, _⟩ => show win6_6.index t (0 : Fin 2) * 384 + 1 * (y 0).val = (y 0).val; omega
  | ⟨1, _⟩ => show win6_6.index t (1 : Fin 2) * 64 + 1 * (y 1).val = (y 1).val; omega

/-- Window 7's block at every point is its whole array. -/
theorem iblk6_all_7 (c : Dev nD) (t : Fin cfg6.N) : (iblk6 V c 7 t : S1x64.Idx → EReal) = V c (Pipeline.arrRef spec6 7) := by
  obtain ⟨e0, e1, e2, e3, e4, e5, e6, e7, e8, e9, e10, e11, e12, e13, e14, e15, e16, e17, e18, e19, e20, e21, e22, e23⟩ := idx6 t
  funext y
  show V c (Pipeline.arrRef spec6 7) (((cfg6.win 7).blk t).view.emb y) = V c (Pipeline.arrRef spec6 7) y
  refine congrArg _ (funext fun a => Fin.ext ?_)
  match a with
  | ⟨0, _⟩ => show win6_7.index t (0 : Fin 2) * 1 + 1 * (y 0).val = (y 0).val; omega
  | ⟨1, _⟩ => show win6_7.index t (1 : Fin 2) * 64 + 1 * (y 1).val = (y 1).val; omega

/-- Window 8's block at every point is its whole array. -/
theorem iblk6_all_8 (c : Dev nD) (t : Fin cfg6.N) : (iblk6 V c 8 t : S64x2.Idx → EReal) = V c (Pipeline.arrRef spec6 8) := by
  obtain ⟨e0, e1, e2, e3, e4, e5, e6, e7, e8, e9, e10, e11, e12, e13, e14, e15, e16, e17, e18, e19, e20, e21, e22, e23⟩ := idx6 t
  funext y
  show V c (Pipeline.arrRef spec6 8) (((cfg6.win 8).blk t).view.emb y) = V c (Pipeline.arrRef spec6 8) y
  refine congrArg _ (funext fun a => Fin.ext ?_)
  match a with
  | ⟨0, _⟩ => show win6_8.index t (0 : Fin 2) * 64 + 1 * (y 0).val = (y 0).val; omega
  | ⟨1, _⟩ => show win6_8.index t (1 : Fin 2) * 2 + 1 * (y 1).val = (y 1).val; omega

/-- Window 9's block at every point is its whole array. -/
theorem iblk6_all_9 (c : Dev nD) (t : Fin cfg6.N) : (iblk6 V c 9 t : S1x2.Idx → EReal) = V c (Pipeline.arrRef spec6 9) := by
  obtain ⟨e0, e1, e2, e3, e4, e5, e6, e7, e8, e9, e10, e11, e12, e13, e14, e15, e16, e17, e18, e19, e20, e21, e22, e23⟩ := idx6 t
  funext y
  show V c (Pipeline.arrRef spec6 9) (((cfg6.win 9).blk t).view.emb y) = V c (Pipeline.arrRef spec6 9) y
  refine congrArg _ (funext fun a => Fin.ext ?_)
  match a with
  | ⟨0, _⟩ => show win6_9.index t (0 : Fin 2) * 1 + 1 * (y 0).val = (y 0).val; omega
  | ⟨1, _⟩ => show win6_9.index t (1 : Fin 2) * 2 + 1 * (y 1).val = (y 1).val; omega

/-- The scratch buffer's closed form at point `t` is rows `2000 t …` of the six-filter table. -/
theorem scr6_tab (c : Dev nD) (t : Fin cfg6.N) : ∀ (j : S2000x384.Idx) (i : Cert.Spec.SN384.Idx),
    (i 0).val = t.val * 2000 + (j 0).val → (i 1).val = (j 1).val →
      scr6 (iblk6 V c 0 t) (iblk6 V c 1 t) (iblk6 V c 2 t) (iblk6 V c 3 t) (iblk6 V c 4 t) (iblk6 V c 5 t) j = hall6 V c i := by
  rw [scr6_eq]
  unfold hall6
  exact catB_blk _ _ _ _ _ _ _ _ _ _ _ _ t.val
    (combB_blk _ _ _ _ _ _ _ _ _ t.val (iblk6_tab_0 V c t) (iblk6_tab_1 V c t) (iblk6_tab_2 V c t))
    (combB_blk _ _ _ _ _ _ _ _ _ t.val (iblk6_tab_0 V c t) (iblk6_tab_1 V c t) (iblk6_tab_2 V c t))
    (combB_blk _ _ _ _ _ _ _ _ _ t.val (iblk6_tab_0 V c t) (iblk6_tab_1 V c t) (iblk6_tab_2 V c t))
    (combB_blk _ _ _ _ _ _ _ _ _ t.val (iblk6_tab_3 V c t) (iblk6_tab_4 V c t) (iblk6_tab_5 V c t))
    (combB_blk _ _ _ _ _ _ _ _ _ t.val (iblk6_tab_3 V c t) (iblk6_tab_4 V c t) (iblk6_tab_5 V c t))
    (combB_blk _ _ _ _ _ _ _ _ _ t.val (iblk6_tab_3 V c t) (iblk6_tab_4 V c t) (iblk6_tab_5 V c t))

/-- WHAT POINT `t` WRITES BACK to window 10's array is block `t` of the six-filter table. -/
theorem flushed6_10_eq (c : Dev nD) (t : Fin cfg6.N) :
    (dat6 (F := Ideal) V c).flushed 10 t = ((cfg6.win 10).blk t).view.read (Elt Ideal) (hall6 V c) := by
  show (cfg6.win 10).cut (grid6.coords t) ((dat6 V c).after 10 t) = _
  rw [after6_10]
  unfold out6_10
  rw [View.canon_unit_zero hz]
  simp only [View.ld_unit_zero (S := S2000x384) hz]
  obtain ⟨e0, e1, e2, e3, e4, e5, e6, e7, e8, e9, e10, e11, e12, e13, e14, e15, e16, e17, e18, e19, e20, e21, e22, e23⟩ := idx6 t
  funext j
  show scr6 (F := Ideal) _ _ _ _ _ _ j = hall6 V c (((cfg6.win 10).blk t).view.emb j)
  refine scr6_tab V c t j _ ?_ ?_
  · show win6_10.index t (0 : Fin 2) * 2000 + 1 * (j 0).val = t.val * 2000 + (j 0).val; omega
  · show win6_10.index t (1 : Fin 2) * 384 + 1 * (j 1).val = (j 1).val; omega

set_option maxHeartbeats 2000000 in
/-- WHAT POINT `t` WRITES BACK to window 11's array is block `t` of the perceptron of the six-filter table. -/
theorem flushed6_11_eq (c : Dev nD) (t : Fin cfg6.N) :
    (dat6 (F := Ideal) V c).flushed 11 t = ((cfg6.win 11).blk t).view.read (Elt Ideal)
      (Cert.Spec.mlp (hall6 V c) (V c (Pipeline.arrRef spec6 6)) (V c (Pipeline.arrRef spec6 7)) (V c (Pipeline.arrRef spec6 8)) (V c (Pipeline.arrRef spec6 9))) := by
  show (cfg6.win 11).cut (grid6.coords t) ((dat6 V c).after 11 t) = _
  rw [after6_11]
  unfold out6_11
  rw [View.canon_unit_zero hz]
  simp only [View.ld_unit_zero (S := S2000x384) hz, View.ld_unit_zero (S := S384x64) hz, View.ld_unit_zero (S := S1x64) hz,
    View.ld_unit_zero (S := S64x2) hz, View.ld_unit_zero (S := S1x2) hz]
  rw [iblk6_all_6 V c t, iblk6_all_7 V c t, iblk6_all_8 V c t, iblk6_all_9 V c t]
  obtain ⟨e0, e1, e2, e3, e4, e5, e6, e7, e8, e9, e10, e11, e12, e13, e14, e15, e16, e17, e18, e19, e20, e21, e22, e23⟩ := idx6 t
  funext y
  show k6_pay2 (F := Ideal) _ _ _ _ _ y = Cert.Spec.mlp _ _ _ _ _ (((cfg6.win 11).blk t).view.emb y)
  refine mlp_blk _ _ _ _ _ _ t.val (scr6_tab V c t) y _ ?_ ?_
  · show win6_11.index t (0 : Fin 2) * 2000 + 1 * (y 0).val = t.val * 2000 + (y 0).val; omega
  · show win6_11.index t (1 : Fin 2) * 2 + 1 * (y 1).val = (y 1).val; omega

/-- An index of window 10's array is in point `t`'s block iff each coordinate is in the block's range on its axis. -/
theorem mem_blk6_10 (t : Fin cfg6.N) (i : S50000x384.Idx) :
    i ∈ ((cfg6.win 10).blk t).view.set ↔ ∀ a : Fin 2, win6_10.index t a * S2000x384.size a ≤ (i a).val ∧ (i a).val < win6_10.index t a * S2000x384.size a + S2000x384.size a := by
  show i ∈ ((View.whole main_v70_0).slice (win6_10.rect t)).set ↔ _
  rw [View.set_slice_whole, Rect.mem_set_unit]
  exact Iff.rfl
theorem mem_blk6_11 (t : Fin cfg6.N) (i : S50000x2.Idx) :
    i ∈ ((cfg6.win 11).blk t).view.set ↔ ∀ a : Fin 2, win6_11.index t a * S2000x2.size a ≤ (i a).val ∧ (i a).val < win6_11.index t a * S2000x2.size a + S2000x2.size a := by
  show i ∈ ((View.whole main_v70_1).slice (win6_11.rect t)).set ↔ _
  rw [View.set_slice_whole, Rect.mem_set_unit]
  exact Iff.rfl

/-- Row `r` of either output is in the block of point `r / 2000`: the 25 blocks of 2000 rows tile the 50000 rows. -/
theorem covered6_10 (i : S50000x384.Idx) : ∃ t : Fin cfg6.N, (cfg6.win 10).flush t = true ∧ i ∈ ((cfg6.win 10).blk t).view.set := by
  have hi0 : (i 0).val < 50000 := (i 0).isLt
  have hi1 : (i 1).val < 384 := (i 1).isLt
  have hN : grid6.N = 25 := N_6
  have ht : (i 0).val / 2000 < cfg6.N := by show _ < grid6.N; rw [hN]; omega
  obtain ⟨e0, e1, e2, e3, e4, e5, e6, e7, e8, e9, e10, e11, e12, e13, e14, e15, e16, e17, e18, e19, e20, e21, e22, e23⟩ := idx6 ⟨(i 0).val / 2000, ht⟩
  refine ⟨⟨(i 0).val / 2000, ht⟩, flush6_10 _, ?_⟩
  rw [mem_blk6_10]
  intro a
  match a with
  | ⟨0, _⟩ =>
    show win6_10.index ⟨(i 0).val / 2000, ht⟩ (0 : Fin 2) * 2000 ≤ (i 0).val ∧ (i 0).val < win6_10.index ⟨(i 0).val / 2000, ht⟩ (0 : Fin 2) * 2000 + 2000
    have hv : (⟨(i 0).val / 2000, ht⟩ : Fin cfg6.N).val = (i 0).val / 2000 := rfl
    omega
  | ⟨1, _⟩ =>
    show win6_10.index ⟨(i 0).val / 2000, ht⟩ (1 : Fin 2) * 384 ≤ (i 1).val ∧ (i 1).val < win6_10.index ⟨(i 0).val / 2000, ht⟩ (1 : Fin 2) * 384 + 384
    omega
theorem covered6_11 (i : S50000x2.Idx) : ∃ t : Fin cfg6.N, (cfg6.win 11).flush t = true ∧ i ∈ ((cfg6.win 11).blk t).view.set := by
  have hi0 : (i 0).val < 50000 := (i 0).isLt
  have hi1 : (i 1).val < 2 := (i 1).isLt
  have hN : grid6.N = 25 := N_6
  have ht : (i 0).val / 2000 < cfg6.N := by show _ < grid6.N; rw [hN]; omega
  obtain ⟨e0, e1, e2, e3, e4, e5, e6, e7, e8, e9, e10, e11, e12, e13, e14, e15, e16, e17, e18, e19, e20, e21, e22, e23⟩ := idx6 ⟨(i 0).val / 2000, ht⟩
  refine ⟨⟨(i 0).val / 2000, ht⟩, flush6_11 _, ?_⟩
  rw [mem_blk6_11]
  intro a
  match a with
  | ⟨0, _⟩ =>
    show win6_11.index ⟨(i 0).val / 2000, ht⟩ (0 : Fin 2) * 2000 ≤ (i 0).val ∧ (i 0).val < win6_11.index ⟨(i 0).val / 2000, ht⟩ (0 : Fin 2) * 2000 + 2000
    have hv : (⟨(i 0).val / 2000, ht⟩ : Fin cfg6.N).val = (i 0).val / 2000 := rfl
    omega
  | ⟨1, _⟩ =>
    show win6_11.index ⟨(i 0).val / 2000, ht⟩ (1 : Fin 2) * 2 ≤ (i 1).val ∧ (i 1).val < win6_11.index ⟨(i 0).val / 2000, ht⟩ (1 : Fin 2) * 2 + 2
    omega

end Aux6v

/-- WINDOW 10'S ARRAY after region 6: the six-filter table of the feature tables the region finds. -/
theorem arr6_10 (c : Dev nD) : ((dat6 (F := Ideal) V c).arrAt 10 cfg6.N : Cert.Spec.SN384.Idx → EReal) = hall6 V c :=
  (dat6 V c).arrAt_eq_of_cover 10 (hall6 V c) (fun t _ => flushed6_10_eq V c t) covered6_10

/-- WINDOW 11'S ARRAY after region 6: the two-layer perceptron of the six-filter table, with the weight and bias
    arrays the region finds under its windows 6–9. -/
theorem arr6_11 (c : Dev nD) : ((dat6 (F := Ideal) V c).arrAt 11 cfg6.N : Cert.Spec.SN2.Idx → EReal) =
    Cert.Spec.mlp (hall6 V c) (V c (Pipeline.arrRef spec6 6)) (V c (Pipeline.arrRef spec6 7)) (V c (Pipeline.arrRef spec6 8)) (V c (Pipeline.arrRef spec6 9)) :=
  (dat6 V c).arrAt_eq_of_cover 11 _ (fun t _ => flushed6_11_eq V c t) covered6_11

end Cert.KernelIdeal.H

end
-- ==== Proof.KI.HostVal.lean ====
import proofs.«134461_j6124623364543_2_alg».proof.Proof.Gen.KernelIdeal.Launch
import Idealize.ShloMosaic.Lib.StableHlo.Run

set_option maxRecDepth 16384

noncomputable section

namespace Cert.KernelIdeal.H

open Cert.KernelIdeal Cert.KernelIdeal.Gen
open Idealize.ShloMosaic Idealize.ShloMosaic.TcCoe Idealize.SL.Sem Idealize.ShloMosaic.StableHlo

variable {F : FTy → Type} [FloatOps F]

/-! # What the host stretches of @main compute

Each stretch between two pallas_call regions is a straight line of StableHLO operations. Read back through
the fold of their results, the buffer a later region consumes is a pure function of the buffers the stretch
reads. Those functions are named here — the row view of a bias vector, the inverse square root of the clipped
in-degree as a column, the index normalisation that wraps negative sources, and the neighbourhood sum
(scatter-add over destinations of the gathered source rows) — and each stretch's result is proved equal to
its named function of the entry contents. -/

/-- A vector of 64 floats viewed as one row `[1, 64]`: the same elements in row-major order. -/
def rowOf64 (b : (⟨S64, .f32⟩ : BufTy).Contents (Elt F)) : (⟨S1x64, .f32⟩ : BufTy).Contents (Elt F) :=
  fun i => shapeCast S1x64 b shapeCasts_S64_S1x64 i

/-- A vector of 2 floats viewed as one row `[1, 2]`. -/
def rowOf2 (b : (⟨S2, .f32⟩ : BufTy).Contents (Elt F)) : (⟨S1x2, .f32⟩ : BufTy).Contents (Elt F) :=
  fun i => shapeCast S1x2 b shapeCasts_S2_S1x2 i

/-- The in-degree count of the destinations: ones scatter-added into zeros at `dst`. -/
def hvDeg (dst : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32 : (⟨S_, .f32⟩ : BufTy).Contents (Elt F)))
    (broadcastInDim S800000x1 ![0] bcast_S800000_S800000x1_0 dst)
    (broadcastInDim S800000 ![] bcast_S_S800000 (constant S_ .f32 0x3F800000#32 : (⟨S_, .f32⟩ : BufTy).Contents (Elt F)))

/-- The degree clipped below at one. -/
def hvClip (deg : (⟨S50000, .f32⟩ : BufTy).Contents (Elt F)) : (⟨S50000, .f32⟩ : BufTy).Contents (Elt F) :=
  maximumf (broadcastInDim S50000 ![] bcast_S_S50000 (id (constant S_ .f32 0x3F800000#32 : (⟨S_, .f32⟩ : BufTy).Contents (Elt F)))) deg

/-- The power `-1/2` of a vector, as a column `[50000, 1]`. -/
def hvRsqrtCol (d : (⟨S50000, .f32⟩ : BufTy).Contents (Elt F)) : (⟨S50000x1, .f32⟩ : BufTy).Contents (Elt F) :=
  broadcastInDim S50000x1 ![0] bcast_S50000_S50000x1_0
    (Host.powf d (broadcastInDim S50000 ![] bcast_S_S50000 (constant S_ .f32 0xBF000000#32 : (⟨S_, .f32⟩ : BufTy).Contents (Elt F))))

/-- `clip(deg(dst), 1) ^ (-1/2)` as a column: the symmetric normalisation's per-node factor. -/
def dinvCol (dst : (⟨S800000, .i32⟩ : BufTy).Contents (Elt F)) : (⟨S50000x1, .f32⟩ : BufTy).Contents (Elt F) :=
  hvRsqrtCol (hvClip (hvDeg dst))

/-- Index normalisation: a negative index is wrapped by adding the table's row count. -/
def normIdx (src : (⟨S800000, .i32⟩ : BufTy).Contents (Elt F)) : (⟨S800000, .i32⟩ : BufTy).Contents (Elt F) :=
  select (cmpi .slt src (broadcastInDim S800000 ![] bcast_S_S800000 (constantI S_ 32 0#32 : (⟨S_, .i32⟩ : BufTy).Contents (Elt F))))
    (addi src (broadcastInDim S800000 ![] bcast_S_S800000 (constantI S_ 32 50000#32 : (⟨S_, .i32⟩ : BufTy).Contents (Elt F)))) src

/-- The neighbourhood sum: the rows of the table `s` at the (normalised) sources, widened to f32, scatter-added
    into zeros at the destinations. -/
def aggOf (s : (⟨S50000x64, .bf16⟩ : BufTy).Contents (Elt F)) (src dst : (⟨S800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32 : (⟨S_, .f32⟩ : BufTy).Contents (Elt F)))
    (broadcastInDim S800000x1 ![0] bcast_S800000_S800000x1_0 dst)
    (extf .f32 (Host.gather gather_S50000x64_S800000x1_S800000x64_1_0_n_n_0_1_164 s
      (broadcastInDim S800000x1 ![0] bcast_S800000_S800000x1_0 (normIdx src))) bitsLt_bf16_f32)

/-! ## The first stretch: the bias rows -/

theorem hv0 (W : Valuation τ sig (Elt F)) :
    StableHlo.after hostOps0 W (Proc.devRef .tc main_v0) = rowOf64 (W (Proc.devRef .tc main_arg7)) := by
  dsimp only [hostOps0]; after_results; rfl

theorem hv1 (W : Valuation τ sig (Elt F)) :
    StableHlo.after hostOps0 W (Proc.devRef .tc main_v1) = rowOf64 (W (Proc.devRef .tc main_arg9)) := by
  dsimp only [hostOps0]; after_results; rfl

theorem hv2 (W : Valuation τ sig (Elt F)) :
    StableHlo.after hostOps0 W (Proc.devRef .tc main_v2) = rowOf64 (W (Proc.devRef .tc main_arg11)) := by
  dsimp only [hostOps0]; after_results; rfl

theorem hv3 (W : Valuation τ sig (Elt F)) :
    StableHlo.after hostOps0 W (Proc.devRef .tc main_v3) = rowOf2 (W (Proc.devRef .tc main_arg13)) := by
  dsimp only [hostOps0]; after_results; rfl

/-! ## The degree column of the first graph: three stretches composed -/

theorem hv11 (W : Valuation τ sig (Elt F)) :
    StableHlo.after hostOps0_2 (StableHlo.after hostOps0_1 (StableHlo.after hostOps0 W)) (Proc.devRef .tc main_v11)
      = dinvCol (W (Proc.devRef .tc main_arg3)) := by
  dsimp only [hostOps0_2, hostOps0_1, hostOps0]; after_results; rfl

/-! ## The neighbourhood sums -/

theorem hv23 (W : Valuation τ sig (Elt F)) :
    StableHlo.after hostOps1 W (Proc.devRef .tc main_v23)
      = aggOf (W (Proc.devRef .tc main_v12_1)) (W (Proc.devRef .tc main_arg2)) (W (Proc.devRef .tc main_arg3)) := by
  dsimp only [hostOps1]; after_results_simp; rfl

theorem hv35 (W : Valuation τ sig (Elt F)) :
    StableHlo.after hostOps2 W (Proc.devRef .tc main_v35)
      = aggOf (W (Proc.devRef .tc main_v24_1)) (W (Proc.devRef .tc main_arg2)) (W (Proc.devRef .tc main_arg3)) := by
  dsimp only [hostOps2]; after_results_simp; rfl

/-! ## The degree column of the second graph -/

theorem hv44 (W : Valuation τ sig (Elt F)) :
    StableHlo.after hostOps3_2 (StableHlo.after hostOps3_1 (StableHlo.after hostOps3 W)) (Proc.devRef .tc main_v44)
      = dinvCol (W (Proc.devRef .tc main_arg5)) := by
  dsimp only [hostOps3_2, hostOps3_1, hostOps3]; after_results; rfl

theorem hv56 (W : Valuation τ sig (Elt F)) :
    StableHlo.after hostOps4 W (Proc.devRef .tc main_v56)
      = aggOf (W (Proc.devRef .tc main_v45_1)) (W (Proc.devRef .tc main_arg4)) (W (Proc.devRef .tc main_arg5)) := by
  dsimp only [hostOps4]; after_results_simp; rfl

theorem hv68 (W : Valuation τ sig (Elt F)) :
    StableHlo.after hostOps5 W (Proc.devRef .tc main_v68)
      = aggOf (W (Proc.devRef .tc main_v57_1)) (W (Proc.devRef .tc main_arg4)) (W (Proc.devRef .tc main_arg5)) := by
  dsimp only [hostOps5]; after_results_simp; rfl

end Cert.KernelIdeal.H
-- ==== Proof.KI.Vals.lean ====
/- The VALUES of the program's buffers through the whole run, at the ideal instance (floats are extended reals, every
   operation exact): each buffer a later item reads, at the boundary where it is read, as a closed function of the
   launch contents of the argument arrays. Per graph: the bias row and the degree column (host stretches), the dense
   layer and its row scaling (a kernel region), the neighbourhood sums (a host stretch), a propagation step and its
   scaling (a region), the sums again, the second step. A region's output array is what its value lemma says of the
   arrays it finds; what it finds is walked back, item by item, to where it was made: an item that neither writes nor
   owns a buffer leaves it, and an input window's array leaves its region as entered. -/
import proofs.«134461_j6124623364543_2_alg».proof.Proof.KI.Run
import proofs.«134461_j6124623364543_2_alg».proof.Proof.KI.Val0
import proofs.«134461_j6124623364543_2_alg».proof.Proof.KI.Val1
import proofs.«134461_j6124623364543_2_alg».proof.Proof.KI.Val2
import proofs.«134461_j6124623364543_2_alg».proof.Proof.KI.Val3
import proofs.«134461_j6124623364543_2_alg».proof.Proof.KI.Val4
import proofs.«134461_j6124623364543_2_alg».proof.Proof.KI.Val5
import proofs.«134461_j6124623364543_2_alg».proof.Proof.KI.Val6
import proofs.«134461_j6124623364543_2_alg».proof.Proof.KI.HostVal
import proofs.«134461_j6124623364543_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The values of the program's buffers through the run, at the ideal instance -/

section Vals
variable (m : (ℓ : Loc nD τ sig) → Buf (Elt Ideal) ℓ) (ρ : Dev nD → PrngReg) (c : Dev nD)

/-- The degree column of graph 1: the clipped in-degree to the power −1/2. -/
def kd : Cert.Spec.SN1.Idx → EReal := dinvCol (F := Ideal) (m ((c : Thread nD τ).loc main_arg3))
/-- The dense layer of graph 1's features. -/
def kh : Cert.Spec.SN64.Idx → EReal := Cert.Spec.lin (m ((c : Thread nD τ).loc main_arg0)) (m ((c : Thread nD τ).loc main_arg6)) (rowOf64 (F := Ideal) (m ((c : Thread nD τ).loc main_arg7)))
/-- … scaled row by row, -/
def ks0 : Cert.Spec.SN64.Idx → EReal := Cert.Spec.scl (kh m c) (kd m c)
/-- its neighbourhood sums, -/
def ka1 : Cert.Spec.SN64.Idx → EReal := aggOf (F := Ideal) (ks0 m c) (m ((c : Thread nD τ).loc main_arg2)) (m ((c : Thread nD τ).loc main_arg3))
/-- the first propagation step, -/
def kf1 : Cert.Spec.SN64.Idx → EReal := Cert.Spec.nxt (kh m c) (kd m c) (ka1 m c)
/-- scaled, -/
def ks1 : Cert.Spec.SN64.Idx → EReal := Cert.Spec.scl (kf1 m c) (kd m c)
/-- its neighbourhood sums, -/
def ka2 : Cert.Spec.SN64.Idx → EReal := aggOf (F := Ideal) (ks1 m c) (m ((c : Thread nD τ).loc main_arg2)) (m ((c : Thread nD τ).loc main_arg3))
/-- and the second propagation step. -/
def kf2 : Cert.Spec.SN64.Idx → EReal := Cert.Spec.nxt (kf1 m c) (kd m c) (ka2 m c)

/-- The degree column of graph 2: the clipped in-degree to the power −1/2. -/
def kd' : Cert.Spec.SN1.Idx → EReal := dinvCol (F := Ideal) (m ((c : Thread nD τ).loc main_arg5))
/-- The dense layer of graph 2's features. -/
def kh' : Cert.Spec.SN64.Idx → EReal := Cert.Spec.lin (m ((c : Thread nD τ).loc main_arg1)) (m ((c : Thread nD τ).loc main_arg8)) (rowOf64 (F := Ideal) (m ((c : Thread nD τ).loc main_arg9)))
/-- … scaled row by row, -/
def ks0' : Cert.Spec.SN64.Idx → EReal := Cert.Spec.scl (kh' m c) (kd' m c)
/-- its neighbourhood sums, -/
def ka1' : Cert.Spec.SN64.Idx → EReal := aggOf (F := Ideal) (ks0' m c) (m ((c : Thread nD τ).loc main_arg4)) (m ((c : Thread nD τ).loc main_arg5))
/-- the first propagation step, -/
def kf1' : Cert.Spec.SN64.Idx → EReal := Cert.Spec.nxt (kh' m c) (kd' m c) (ka1' m c)
/-- scaled, -/
def ks1' : Cert.Spec.SN64.Idx → EReal := Cert.Spec.scl (kf1' m c) (kd' m c)
/-- its neighbourhood sums, -/
def ka2' : Cert.Spec.SN64.Idx → EReal := aggOf (F := Ideal) (ks1' m c) (m ((c : Thread nD τ).loc main_arg4)) (m ((c : Thread nD τ).loc main_arg5))
/-- and the second propagation step. -/
def kf2' : Cert.Spec.SN64.Idx → EReal := Cert.Spec.nxt (kf1' m c) (kd' m c) (ka2' m c)

/-! ## Graph 1 -/

/-- The bias row, made by the first stretch and carried to region 0's entry. -/
theorem val_v0 : (W3 m ρ c (Proc.devRef .tc main_v0) : Cert.Spec.S1x64.Idx → EReal) = rowOf64 (F := Ideal) (m ((c : Thread nD τ).loc main_arg7)) :=
  ((W3_of m ρ c main_v0 (by decide)).trans <| (W2_of m ρ c main_v0 (by decide))).trans (hv0 (W0 m ρ c))

/-- The degree column at region 0's entry. -/
theorem val_v11 : (W3 m ρ c (Proc.devRef .tc main_v11) : Cert.Spec.SN1.Idx → EReal) = kd m c :=
  (hv11 (W0 m ρ c)).trans (congrArg (dinvCol (F := Ideal)) (rfl))

namespace AuxVals
theorem in0_0_a : (U3 m ρ c (Pipeline.arrRef spec0 0) : Cert.Spec.SN128.Idx → EReal) = m ((c : Thread nD τ).loc main_arg0) := (W3_of m ρ c main_arg0 (by decide)).trans <| (W2_of m ρ c main_arg0 (by decide)).trans <| (W1_of m ρ c main_arg0 (by decide))
theorem in0_1_a : (U3 m ρ c (Pipeline.arrRef spec0 1) : Cert.Spec.S128x64.Idx → EReal) = m ((c : Thread nD τ).loc main_arg6) := (W3_of m ρ c main_arg6 (by decide)).trans <| (W2_of m ρ c main_arg6 (by decide)).trans <| (W1_of m ρ c main_arg6 (by decide))
theorem in0_2_a : (U3 m ρ c (Pipeline.arrRef spec0 2) : Cert.Spec.S1x64.Idx → EReal) = rowOf64 (F := Ideal) (m ((c : Thread nD τ).loc main_arg7)) := val_v0 m ρ c
theorem in0_3_a : (U3 m ρ c (Pipeline.arrRef spec0 3) : Cert.Spec.SN1.Idx → EReal) = kd m c := val_v11 m ρ c
end AuxVals

/-- Region 0's first output: the dense layer. -/
theorem val_v12_0 : (W4 m ρ c (Proc.devRef .tc main_v12_0) : Cert.Spec.SN64.Idx → EReal) = kh m c := by
  refine (W4_arr m ρ c 4).trans ((arr0_4 (U3 m ρ) c).trans ?_)
  rw [AuxVals.in0_0_a m ρ c, AuxVals.in0_1_a m ρ c, AuxVals.in0_2_a m ρ c]
  rfl

/-- Region 0's second output: the layer scaled. -/
theorem val_v12_1 : (W4 m ρ c (Proc.devRef .tc main_v12_1) : Cert.Spec.SN64.Idx → EReal) = ks0 m c := by
  refine (W4_arr m ρ c 5).trans ((arr0_5 (U3 m ρ) c).trans ?_)
  rw [AuxVals.in0_0_a m ρ c, AuxVals.in0_1_a m ρ c, AuxVals.in0_2_a m ρ c, AuxVals.in0_3_a m ρ c]
  rfl

/-- The first neighbourhood sums. -/
theorem val_v23 : (W5 m ρ c (Proc.devRef .tc main_v23) : Cert.Spec.SN64.Idx → EReal) = ka1 m c := by
  refine (hv23 (W4 m ρ c)).trans ?_
  rw [val_v12_1 m ρ c, show W4 m ρ c (Proc.devRef .tc main_arg2) = m ((c : Thread nD τ).loc main_arg2) from (W4_of m ρ c main_arg2 (by decide)).trans <| (W3_of m ρ c main_arg2 (by decide)).trans <| (W2_of m ρ c main_arg2 (by decide)).trans <| (W1_of m ρ c main_arg2 (by decide)),
    show W4 m ρ c (Proc.devRef .tc main_arg3) = m ((c : Thread nD τ).loc main_arg3) from (W4_of m ρ c main_arg3 (by decide)).trans <| (W3_of m ρ c main_arg3 (by decide)).trans <| (W2_of m ρ c main_arg3 (by decide)).trans <| (W1_of m ρ c main_arg3 (by decide))]
  rfl

namespace AuxVals
theorem in1_0_a : (U5 m ρ c (Pipeline.arrRef spec1 0) : Cert.Spec.SN64.Idx → EReal) = kh m c := ((W5_of m ρ c main_v12_0 (by decide))).trans (val_v12_0 m ρ c)
theorem in1_1_a : (U5 m ρ c (Pipeline.arrRef spec1 1) : Cert.Spec.SN1.Idx → EReal) = kd m c := ((W5_of m ρ c main_v11 (by decide)).trans <| (W4_in m ρ c 3 rfl)).trans (val_v11 m ρ c)
theorem in1_2_a : (U5 m ρ c (Pipeline.arrRef spec1 2) : Cert.Spec.SN64.Idx → EReal) = ka1 m c := val_v23 m ρ c
end AuxVals

/-- Region 1's first output: the first propagation step. -/
theorem val_v24_0 : (W6 m ρ c (Proc.devRef .tc main_v24_0) : Cert.Spec.SN64.Idx → EReal) = kf1 m c := by
  refine (W6_arr m ρ c 3).trans ((arr1_3 (U5 m ρ) c).trans ?_)
  rw [AuxVals.in1_0_a m ρ c, AuxVals.in1_1_a m ρ c, AuxVals.in1_2_a m ρ c]
  rfl

/-- Region 1's second output: that step scaled. -/
theorem val_v24_1 : (W6 m ρ c (Proc.devRef .tc main_v24_1) : Cert.Spec.SN64.Idx → EReal) = ks1 m c := by
  refine (W6_arr m ρ c 4).trans ((arr1_4 (U5 m ρ) c).trans ?_)
  rw [AuxVals.in1_0_a m ρ c, AuxVals.in1_1_a m ρ c, AuxVals.in1_2_a m ρ c]
  rfl

/-- The second neighbourhood sums. -/
theorem val_v35 : (W7 m ρ c (Proc.devRef .tc main_v35) : Cert.Spec.SN64.Idx → EReal) = ka2 m c := by
  refine (hv35 (W6 m ρ c)).trans ?_
  rw [val_v24_1 m ρ c, show W6 m ρ c (Proc.devRef .tc main_arg2) = m ((c : Thread nD τ).loc main_arg2) from (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)),
    show W6 m ρ c (Proc.devRef .tc main_arg3) = m ((c : Thread nD τ).loc main_arg3) from (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide))]
  rfl

namespace AuxVals
theorem in2_0_a : (U7 m ρ c (Pipeline.arrRef spec2 0) : Cert.Spec.SN64.Idx → EReal) = kf1 m c := ((W7_of m ρ c main_v24_0 (by decide))).trans (val_v24_0 m ρ c)
theorem in2_1_a : (U7 m ρ c (Pipeline.arrRef spec2 1) : Cert.Spec.SN1.Idx → EReal) = kd m c := ((W7_of m ρ c main_v11 (by decide)).trans <| (W6_in m ρ c 1 rfl).trans <| (W5_of m ρ c main_v11 (by decide)).trans <| (W4_in m ρ c 3 rfl)).trans (val_v11 m ρ c)
theorem in2_2_a : (U7 m ρ c (Pipeline.arrRef spec2 2) : Cert.Spec.SN64.Idx → EReal) = ka2 m c := val_v35 m ρ c
end AuxVals

/-- Region 2's first output: the second propagation step. -/
theorem val_v36_0 : (W8 m ρ c (Proc.devRef .tc main_v36_0) : Cert.Spec.SN64.Idx → EReal) = kf2 m c := by
  refine (W8_arr m ρ c 3).trans ((arr2_3 (U7 m ρ) c).trans ?_)
  rw [AuxVals.in2_0_a m ρ c, AuxVals.in2_1_a m ρ c, AuxVals.in2_2_a m ρ c]
  rfl

/-! ## Graph 2 -/

/-- The bias row, made by the first stretch and carried to region 3's entry. -/
theorem val_v1 : (W11 m ρ c (Proc.devRef .tc main_v1) : Cert.Spec.S1x64.Idx → EReal) = rowOf64 (F := Ideal) (m ((c : Thread nD τ).loc main_arg9)) :=
  ((W11_of m ρ c main_v1 (by decide)).trans <| (W10_of m ρ c main_v1 (by decide)).trans <| (W9_of m ρ c main_v1 (by decide)).trans <| (W8_of m ρ c main_v1 (by decide)).trans <| (W7_of m ρ c main_v1 (by decide)).trans <| (W6_of m ρ c main_v1 (by decide)).trans <| (W5_of m ρ c main_v1 (by decide)).trans <| (W4_of m ρ c main_v1 (by decide)).trans <| (W3_of m ρ c main_v1 (by decide)).trans <| (W2_of m ρ c main_v1 (by decide))).trans (hv1 (W0 m ρ c))

/-- The degree column at region 3's entry. -/
theorem val_v44 : (W11 m ρ c (Proc.devRef .tc main_v44) : Cert.Spec.SN1.Idx → EReal) = kd' m c :=
  (hv44 (W8 m ρ c)).trans (congrArg (dinvCol (F := Ideal)) ((W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide))))

namespace AuxVals
theorem in0_0_b : (U11 m ρ c (Pipeline.arrRef spec3 0) : Cert.Spec.SN128.Idx → EReal) = m ((c : Thread nD τ).loc main_arg1) := (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide))
theorem in0_1_b : (U11 m ρ c (Pipeline.arrRef spec3 1) : Cert.Spec.S128x64.Idx → EReal) = m ((c : Thread nD τ).loc main_arg8) := (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide))
theorem in0_2_b : (U11 m ρ c (Pipeline.arrRef spec3 2) : Cert.Spec.S1x64.Idx → EReal) = rowOf64 (F := Ideal) (m ((c : Thread nD τ).loc main_arg9)) := val_v1 m ρ c
theorem in0_3_b : (U11 m ρ c (Pipeline.arrRef spec3 3) : Cert.Spec.SN1.Idx → EReal) = kd' m c := val_v44 m ρ c
end AuxVals

/-- Region 3's first output: the dense layer. -/
theorem val_v45_0 : (W12 m ρ c (Proc.devRef .tc main_v45_0) : Cert.Spec.SN64.Idx → EReal) = kh' m c := by
  refine (W12_arr m ρ c 4).trans ((arr3_4 (U11 m ρ) c).trans ?_)
  rw [AuxVals.in0_0_b m ρ c, AuxVals.in0_1_b m ρ c, AuxVals.in0_2_b m ρ c]
  rfl

/-- Region 3's second output: the layer scaled. -/
theorem val_v45_1 : (W12 m ρ c (Proc.devRef .tc main_v45_1) : Cert.Spec.SN64.Idx → EReal) = ks0' m c := by
  refine (W12_arr m ρ c 5).trans ((arr3_5 (U11 m ρ) c).trans ?_)
  rw [AuxVals.in0_0_b m ρ c, AuxVals.in0_1_b m ρ c, AuxVals.in0_2_b m ρ c, AuxVals.in0_3_b m ρ c]
  rfl

/-- The first neighbourhood sums. -/
theorem val_v56 : (W13 m ρ c (Proc.devRef .tc main_v56) : Cert.Spec.SN64.Idx → EReal) = ka1' m c := by
  refine (hv56 (W12 m ρ c)).trans ?_
  rw [val_v45_1 m ρ c, show W12 m ρ c (Proc.devRef .tc main_arg4) = m ((c : Thread nD τ).loc main_arg4) from (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)),
    show W12 m ρ c (Proc.devRef .tc main_arg5) = m ((c : Thread nD τ).loc main_arg5) from (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide))]
  rfl

namespace AuxVals
theorem in1_0_b : (U13 m ρ c (Pipeline.arrRef spec4 0) : Cert.Spec.SN64.Idx → EReal) = kh' m c := ((W13_of m ρ c main_v45_0 (by decide))).trans (val_v45_0 m ρ c)
theorem in1_1_b : (U13 m ρ c (Pipeline.arrRef spec4 1) : Cert.Spec.SN1.Idx → EReal) = kd' m c := ((W13_of m ρ c main_v44 (by decide)).trans <| (W12_in m ρ c 3 rfl)).trans (val_v44 m ρ c)
theorem in1_2_b : (U13 m ρ c (Pipeline.arrRef spec4 2) : Cert.Spec.SN64.Idx → EReal) = ka1' m c := val_v56 m ρ c
end AuxVals

/-- Region 4's first output: the first propagation step. -/
theorem val_v57_0 : (W14 m ρ c (Proc.devRef .tc main_v57_0) : Cert.Spec.SN64.Idx → EReal) = kf1' m c := by
  refine (W14_arr m ρ c 3).trans ((arr4_3 (U13 m ρ) c).trans ?_)
  rw [AuxVals.in1_0_b m ρ c, AuxVals.in1_1_b m ρ c, AuxVals.in1_2_b m ρ c]
  rfl

/-- Region 4's second output: that step scaled. -/
theorem val_v57_1 : (W14 m ρ c (Proc.devRef .tc main_v57_1) : Cert.Spec.SN64.Idx → EReal) = ks1' m c := by
  refine (W14_arr m ρ c 4).trans ((arr4_4 (U13 m ρ) c).trans ?_)
  rw [AuxVals.in1_0_b m ρ c, AuxVals.in1_1_b m ρ c, AuxVals.in1_2_b m ρ c]
  rfl

/-- The second neighbourhood sums. -/
theorem val_v68 : (W15 m ρ c (Proc.devRef .tc main_v68) : Cert.Spec.SN64.Idx → EReal) = ka2' m c := by
  refine (hv68 (W14 m ρ c)).trans ?_
  rw [val_v57_1 m ρ c, show W14 m ρ c (Proc.devRef .tc main_arg4) = m ((c : Thread nD τ).loc main_arg4) from (W14_of m ρ c main_arg4 (by decide)).trans <| (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)),
    show W14 m ρ c (Proc.devRef .tc main_arg5) = m ((c : Thread nD τ).loc main_arg5) from (W14_of m ρ c main_arg5 (by decide)).trans <| (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide))]
  rfl

namespace AuxVals
theorem in2_0_b : (U15 m ρ c (Pipeline.arrRef spec5 0) : Cert.Spec.SN64.Idx → EReal) = kf1' m c := ((W15_of m ρ c main_v57_0 (by decide))).trans (val_v57_0 m ρ c)
theorem in2_1_b : (U15 m ρ c (Pipeline.arrRef spec5 1) : Cert.Spec.SN1.Idx → EReal) = kd' m c := ((W15_of m ρ c main_v44 (by decide)).trans <| (W14_in m ρ c 1 rfl).trans <| (W13_of m ρ c main_v44 (by decide)).trans <| (W12_in m ρ c 3 rfl)).trans (val_v44 m ρ c)
theorem in2_2_b : (U15 m ρ c (Pipeline.arrRef spec5 2) : Cert.Spec.SN64.Idx → EReal) = ka2' m c := val_v68 m ρ c
end AuxVals

/-- Region 5's first output: the second propagation step. -/
theorem val_v69_0 : (W16 m ρ c (Proc.devRef .tc main_v69_0) : Cert.Spec.SN64.Idx → EReal) = kf2' m c := by
  refine (W16_arr m ρ c 3).trans ((arr5_3 (U15 m ρ) c).trans ?_)
  rw [AuxVals.in2_0_b m ρ c, AuxVals.in2_1_b m ρ c, AuxVals.in2_2_b m ρ c]
  rfl

/-! ## Region 6's inputs -/

namespace AuxVals
theorem in6_0 : (U16 m ρ c (Pipeline.arrRef spec6 0) : Cert.Spec.SN64.Idx → EReal) = kh m c := ((W16_of m ρ c main_v12_0 (by decide)).trans <| (W15_of m ρ c main_v12_0 (by decide)).trans <| (W14_of m ρ c main_v12_0 (by decide)).trans <| (W13_of m ρ c main_v12_0 (by decide)).trans <| (W12_of m ρ c main_v12_0 (by decide)).trans <| (W11_of m ρ c main_v12_0 (by decide)).trans <| (W10_of m ρ c main_v12_0 (by decide)).trans <| (W9_of m ρ c main_v12_0 (by decide)).trans <| (W8_of m ρ c main_v12_0 (by decide)).trans <| (W7_of m ρ c main_v12_0 (by decide)).trans <| (W6_in m ρ c 0 rfl).trans <| (W5_of m ρ c main_v12_0 (by decide))).trans (val_v12_0 m ρ c)
theorem in6_1 : (U16 m ρ c (Pipeline.arrRef spec6 1) : Cert.Spec.SN64.Idx → EReal) = kf1 m c := ((W16_of m ρ c main_v24_0 (by decide)).trans <| (W15_of m ρ c main_v24_0 (by decide)).trans <| (W14_of m ρ c main_v24_0 (by decide)).trans <| (W13_of m ρ c main_v24_0 (by decide)).trans <| (W12_of m ρ c main_v24_0 (by decide)).trans <| (W11_of m ρ c main_v24_0 (by decide)).trans <| (W10_of m ρ c main_v24_0 (by decide)).trans <| (W9_of m ρ c main_v24_0 (by decide)).trans <| (W8_in m ρ c 0 rfl).trans <| (W7_of m ρ c main_v24_0 (by decide))).trans (val_v24_0 m ρ c)
theorem in6_2 : (U16 m ρ c (Pipeline.arrRef spec6 2) : Cert.Spec.SN64.Idx → EReal) = kf2 m c := ((W16_of m ρ c main_v36_0 (by decide)).trans <| (W15_of m ρ c main_v36_0 (by decide)).trans <| (W14_of m ρ c main_v36_0 (by decide)).trans <| (W13_of m ρ c main_v36_0 (by decide)).trans <| (W12_of m ρ c main_v36_0 (by decide)).trans <| (W11_of m ρ c main_v36_0 (by decide)).trans <| (W10_of m ρ c main_v36_0 (by decide)).trans <| (W9_of m ρ c main_v36_0 (by decide))).trans (val_v36_0 m ρ c)
theorem in6_3 : (U16 m ρ c (Pipeline.arrRef spec6 3) : Cert.Spec.SN64.Idx → EReal) = kh' m c := ((W16_of m ρ c main_v45_0 (by decide)).trans <| (W15_of m ρ c main_v45_0 (by decide)).trans <| (W14_in m ρ c 0 rfl).trans <| (W13_of m ρ c main_v45_0 (by decide))).trans (val_v45_0 m ρ c)
theorem in6_4 : (U16 m ρ c (Pipeline.arrRef spec6 4) : Cert.Spec.SN64.Idx → EReal) = kf1' m c := ((W16_in m ρ c 0 rfl).trans <| (W15_of m ρ c main_v57_0 (by decide))).trans (val_v57_0 m ρ c)
theorem in6_5 : (U16 m ρ c (Pipeline.arrRef spec6 5) : Cert.Spec.SN64.Idx → EReal) = kf2' m c := val_v69_0 m ρ c
theorem in6_6 : (U16 m ρ c (Pipeline.arrRef spec6 6) : Cert.Spec.S384x64.Idx → EReal) = m ((c : Thread nD τ).loc main_arg10) := (W16_of m ρ c main_arg10 (by decide)).trans <| (W15_of m ρ c main_arg10 (by decide)).trans <| (W14_of m ρ c main_arg10 (by decide)).trans <| (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide))
theorem in6_7 : (U16 m ρ c (Pipeline.arrRef spec6 7) : Cert.Spec.S1x64.Idx → EReal) = rowOf64 (F := Ideal) (m ((c : Thread nD τ).loc main_arg11)) := ((W16_of m ρ c main_v2 (by decide)).trans <| (W15_of m ρ c main_v2 (by decide)).trans <| (W14_of m ρ c main_v2 (by decide)).trans <| (W13_of m ρ c main_v2 (by decide)).trans <| (W12_of m ρ c main_v2 (by decide)).trans <| (W11_of m ρ c main_v2 (by decide)).trans <| (W10_of m ρ c main_v2 (by decide)).trans <| (W9_of m ρ c main_v2 (by decide)).trans <| (W8_of m ρ c main_v2 (by decide)).trans <| (W7_of m ρ c main_v2 (by decide)).trans <| (W6_of m ρ c main_v2 (by decide)).trans <| (W5_of m ρ c main_v2 (by decide)).trans <| (W4_of m ρ c main_v2 (by decide)).trans <| (W3_of m ρ c main_v2 (by decide)).trans <| (W2_of m ρ c main_v2 (by decide))).trans (hv2 (W0 m ρ c))
theorem in6_8 : (U16 m ρ c (Pipeline.arrRef spec6 8) : Cert.Spec.S64x2.Idx → EReal) = m ((c : Thread nD τ).loc main_arg12) := (W16_of m ρ c main_arg12 (by decide)).trans <| (W15_of m ρ c main_arg12 (by decide)).trans <| (W14_of m ρ c main_arg12 (by decide)).trans <| (W13_of m ρ c main_arg12 (by decide)).trans <| (W12_of m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide))
theorem in6_9 : (U16 m ρ c (Pipeline.arrRef spec6 9) : Cert.Spec.S1x2.Idx → EReal) = rowOf2 (F := Ideal) (m ((c : Thread nD τ).loc main_arg13)) := ((W16_of m ρ c main_v3 (by decide)).trans <| (W15_of m ρ c main_v3 (by decide)).trans <| (W14_of m ρ c main_v3 (by decide)).trans <| (W13_of m ρ c main_v3 (by decide)).trans <| (W12_of m ρ c main_v3 (by decide)).trans <| (W11_of m ρ c main_v3 (by decide)).trans <| (W10_of m ρ c main_v3 (by decide)).trans <| (W9_of m ρ c main_v3 (by decide)).trans <| (W8_of m ρ c main_v3 (by decide)).trans <| (W7_of m ρ c main_v3 (by decide)).trans <| (W6_of m ρ c main_v3 (by decide)).trans <| (W5_of m ρ c main_v3 (by decide)).trans <| (W4_of m ρ c main_v3 (by decide)).trans <| (W3_of m ρ c main_v3 (by decide)).trans <| (W2_of m ρ c main_v3 (by decide))).trans (hv3 (W0 m ρ c))
end AuxVals

/-! ## The two results -/

/-- The six three-term filters of the two graphs' features and propagation steps, side by side. -/
def kall : Cert.Spec.SN384.Idx → EReal :=
    Cert.Spec.cat6
      (Cert.Spec.comb (Ideal.ofBits .f32 0x40400000#32) (Ideal.ofBits .f32 0xC0400000#32) (Ideal.ofBits .f32 0x3F400000#32) (kh m c) (kf1 m c) (kf2 m c))
      (Cert.Spec.comb (Ideal.ofBits .f32 0x00000000#32) (Ideal.ofBits .f32 0x40400000#32) (Ideal.ofBits .f32 0xBFC00000#32) (kh m c) (kf1 m c) (kf2 m c))
      (Cert.Spec.comb (Ideal.ofBits .f32 0x00000000#32) (Ideal.ofBits .f32 0x00000000#32) (Ideal.ofBits .f32 0x3F400000#32) (kh m c) (kf1 m c) (kf2 m c))
      (Cert.Spec.comb (Ideal.ofBits .f32 0x40800000#32) (Ideal.ofBits .f32 0x40800000#32) (Ideal.ofBits .f32 0x40800000#32) (kh' m c) (kf1' m c) (kf2' m c))
      (Cert.Spec.comb (Ideal.ofBits .f32 0x40800000#32) (Ideal.ofBits .f32 0x40800000#32) (Ideal.ofBits .f32 0x40800000#32) (kh' m c) (kf1' m c) (kf2' m c))
      (Cert.Spec.comb (Ideal.ofBits .f32 0x40800000#32) (Ideal.ofBits .f32 0x40800000#32) (Ideal.ofBits .f32 0x40800000#32) (kh' m c) (kf1' m c) (kf2' m c))

namespace AuxVals
/-- Region 6's concatenation of filters, of ANY region-entry contents whose six feature tables are named. -/
theorem hall6_of (V : (c : Dev nD) → (b : Ref sig .tc) → Buf (Elt Ideal) ((c : Thread nD τ).loc b)) (c : Dev nD)
    (a0 a1 a2 a3 a4 a5 : Cert.Spec.SN64.Idx → EReal)
    (h0 : (V c (Pipeline.arrRef spec6 0) : Cert.Spec.SN64.Idx → EReal) = a0)
    (h1 : (V c (Pipeline.arrRef spec6 1) : Cert.Spec.SN64.Idx → EReal) = a1)
    (h2 : (V c (Pipeline.arrRef spec6 2) : Cert.Spec.SN64.Idx → EReal) = a2)
    (h3 : (V c (Pipeline.arrRef spec6 3) : Cert.Spec.SN64.Idx → EReal) = a3)
    (h4 : (V c (Pipeline.arrRef spec6 4) : Cert.Spec.SN64.Idx → EReal) = a4)
    (h5 : (V c (Pipeline.arrRef spec6 5) : Cert.Spec.SN64.Idx → EReal) = a5) :
    hall6 V c = Cert.Spec.cat6
      (Cert.Spec.comb (Ideal.ofBits .f32 0x40400000#32) (Ideal.ofBits .f32 0xC0400000#32) (Ideal.ofBits .f32 0x3F400000#32) a0 a1 a2)
      (Cert.Spec.comb (Ideal.ofBits .f32 0x00000000#32) (Ideal.ofBits .f32 0x40400000#32) (Ideal.ofBits .f32 0xBFC00000#32) a0 a1 a2)
      (Cert.Spec.comb (Ideal.ofBits .f32 0x00000000#32) (Ideal.ofBits .f32 0x00000000#32) (Ideal.ofBits .f32 0x3F400000#32) a0 a1 a2)
      (Cert.Spec.comb (Ideal.ofBits .f32 0x40800000#32) (Ideal.ofBits .f32 0x40800000#32) (Ideal.ofBits .f32 0x40800000#32) a3 a4 a5)
      (Cert.Spec.comb (Ideal.ofBits .f32 0x40800000#32) (Ideal.ofBits .f32 0x40800000#32) (Ideal.ofBits .f32 0x40800000#32) a3 a4 a5)
      (Cert.Spec.comb (Ideal.ofBits .f32 0x40800000#32) (Ideal.ofBits .f32 0x40800000#32) (Ideal.ofBits .f32 0x40800000#32) a3 a4 a5) := by
  subst h0 h1 h2 h3 h4 h5
  rfl

/-- The perceptron on it, the four parameter arrays named too. -/
theorem mlp6_of (V : (c : Dev nD) → (b : Ref sig .tc) → Buf (Elt Ideal) ((c : Thread nD τ).loc b)) (c : Dev nD)
    (H : Cert.Spec.SN384.Idx → EReal) (w1 : Cert.Spec.S384x64.Idx → EReal) (b1 : Cert.Spec.S1x64.Idx → EReal)
    (w2 : Cert.Spec.S64x2.Idx → EReal) (b2 : Cert.Spec.S1x2.Idx → EReal)
    (hH : hall6 V c = H)
    (h6 : (V c (Pipeline.arrRef spec6 6) : Cert.Spec.S384x64.Idx → EReal) = w1)
    (h7 : (V c (Pipeline.arrRef spec6 7) : Cert.Spec.S1x64.Idx → EReal) = b1)
    (h8 : (V c (Pipeline.arrRef spec6 8) : Cert.Spec.S64x2.Idx → EReal) = w2)
    (h9 : (V c (Pipeline.arrRef spec6 9) : Cert.Spec.S1x2.Idx → EReal) = b2) :
    Cert.Spec.mlp (hall6 V c) (V c (Pipeline.arrRef spec6 6)) (V c (Pipeline.arrRef spec6 7)) (V c (Pipeline.arrRef spec6 8))
        (V c (Pipeline.arrRef spec6 9)) = Cert.Spec.mlp H w1 b1 w2 b2 := by
  subst hH h6 h7 h8 h9
  rfl

theorem hall6_eq : hall6 (U16 m ρ) c = kall m c :=
  hall6_of (U16 m ρ) c _ _ _ _ _ _ (in6_0 m ρ c) (in6_1 m ρ c) (in6_2 m ρ c) (in6_3 m ρ c) (in6_4 m ρ c) (in6_5 m ρ c)
end AuxVals

/-- Region 6's first output: the concatenated filters. -/
theorem out0 : (W17 m ρ c (Proc.devRef .tc main_v70_0) : Cert.Spec.SN384.Idx → EReal) = kall m c :=
  (W17_arr m ρ c 10).trans ((arr6_10 (U16 m ρ) c).trans (AuxVals.hall6_eq m ρ c))

/-- Region 6's second output: the perceptron on the concatenation. -/
theorem out1 : (W17 m ρ c (Proc.devRef .tc main_v70_1) : Cert.Spec.SN2.Idx → EReal)
    = Cert.Spec.mlp (kall m c) (m ((c : Thread nD τ).loc main_arg10)) (rowOf64 (F := Ideal) (m ((c : Thread nD τ).loc main_arg11))) (m ((c : Thread nD τ).loc main_arg12)) (rowOf2 (F := Ideal) (m ((c : Thread nD τ).loc main_arg13))) :=
  (W17_arr m ρ c 11).trans ((arr6_11 (U16 m ρ) c).trans
    (AuxVals.mlp6_of (U16 m ρ) c _ _ _ _ _ (AuxVals.hall6_eq m ρ c) (AuxVals.in6_6 m ρ c) (AuxVals.in6_7 m ρ c)
      (AuxVals.in6_8 m ρ c) (AuxVals.in6_9 m ρ c)))

end Vals

end Cert.KernelIdeal.H

end
-- ==== Proof.RefRunH1.lean ====
/-
  The reference's run, first part: @main's line of 352 host operations cut into eleven consecutive stretches, the
  references each stretch writes, and the two facts the read-back rests on — the fold of the whole line is the fold of
  the stretches in turn, and a reference a stretch does not write keeps its contents through it.
-/
import proofs.«134461_j6124623364543_2_alg».proof.Proof.RefOps
import proofs.«134461_j6124623364543_2_alg».proof.Proof.RefStages

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-! # The reference's run, stretch by stretch

@main is a straight line of 352 host operations. The line is cut into eleven consecutive stretches at points where
few values are live; after each stretch the buffers later stretches read hold the named stages of the reference (the
module RefStages) at the launch contents of @main's arguments, and no operation writes an argument. -/

/-- The reference a one-result operation writes is in a list of references holding it. -/
theorem wr_sub {y : Ref sig .tc} {W : List (Ref sig .tc)} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The fold over two lines one after the other is the fold over the second from the fold over the first. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- Stretch 1: operations 0 to 27 of the line. -/
abbrev c1 : List (HloOp τ sig (Elt F)) :=
  [ binary main_arg0 main_arg6 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg7 main_v1 (broadcastInDim S1x64 ![1] bcast_S64_S1x64_1 : (⟨S64, .f32⟩ : BufTy).Contents (Elt F) → (⟨S1x64, .f32⟩ : BufTy).Contents (Elt F)),
    unary main_v1 main_v2 (broadcastInDim S50000x64 ![0, 1] bcast_S1x64_S50000x64_0_1 : (⟨S1x64, .f32⟩ : BufTy).Contents (Elt F) → (⟨S50000x64, .f32⟩ : BufTy).Contents (Elt F)),
    binary main_v0 main_v2 main_v3 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v3) (TRef.of (T := ⟨S50000x64, .f32⟩) main_call0_v0) (TRef.of (T := ⟨S50000x64, .f32⟩) main_v4) maximumf,
    nullary main_cst (constant S_ .f32 0x00000000#32),
    unary main_cst main_v5 (broadcastInDim S50000 ![] bcast_S_S50000 : (⟨S_, .f32⟩ : BufTy).Contents (Elt F) → (⟨S50000, .f32⟩ : BufTy).Contents (Elt F)),
    nullary main_cst_0 (constant S_ .f32 0x3F800000#32),
    unary main_cst_0 main_v6 (broadcastInDim S800000 ![] bcast_S_S800000 : (⟨S_, .f32⟩ : BufTy).Contents (Elt F) → (⟨S800000, .f32⟩ : BufTy).Contents (Elt F)),
    nullary main_c (constantI S_ 32 0#32),
    unary main_c main_v7 (broadcastInDim S800000 ![] bcast_S_S800000 : (⟨S_, .i32⟩ : BufTy).Contents (Elt F) → (⟨S800000, .i32⟩ : BufTy).Contents (Elt F)),
    binary main_arg3 main_v7 main_v8 (cmpi .slt : (⟨S800000, .i32⟩ : BufTy).Contents (Elt F) → (⟨S800000, .i32⟩ : BufTy).Contents (Elt F) → (⟨S800000, .i1⟩ : BufTy).Contents (Elt F)),
    nullary main_c_1 (constantI S_ 32 50000#32),
    unary main_c_1 main_v9 (broadcastInDim S800000 ![] bcast_S_S800000 : (⟨S_, .i32⟩ : BufTy).Contents (Elt F) → (⟨S800000, .i32⟩ : BufTy).Contents (Elt F)),
    binary main_arg3 main_v9 main_v10 (addi : (⟨S800000, .i32⟩ : BufTy).Contents (Elt F) → (⟨S800000, .i32⟩ : BufTy).Contents (Elt F) → (⟨S800000, .i32⟩ : BufTy).Contents (Elt F)),
    ternary main_v8 main_v10 main_arg3 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v11 main_v12 (broadcastInDim S800000x1 ![0] bcast_S800000_S800000x1_0 : (⟨S800000, .i32⟩ : BufTy).Contents (Elt F) → (⟨S800000x1, .i32⟩ : BufTy).Contents (Elt F)),
    ternary main_v5 main_v12 main_v6 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_v13) (TRef.of (T := ⟨S50000, .f32⟩) main_v14) maximumf,
    nullary main_cst_3 (constant S_ .f32 0xBF000000#32),
    unary main_cst_3 main_v15 (broadcastInDim S50000 ![] bcast_S_S50000 : (⟨S_, .f32⟩ : BufTy).Contents (Elt F) → (⟨S50000, .f32⟩ : BufTy).Contents (Elt F)),
    binary main_v14 main_v15 main_v16 (Host.powf : (⟨S50000, .f32⟩ : BufTy).Contents (Elt F) → (⟨S50000, .f32⟩ : BufTy).Contents (Elt F) → (⟨S50000, .f32⟩ : BufTy).Contents (Elt F)),
    unary main_v16 main_v17 (broadcastInDim S50000x1 ![0] bcast_S50000_S50000x1_0 : (⟨S50000, .f32⟩ : BufTy).Contents (Elt F) → (⟨S50000x1, .f32⟩ : BufTy).Contents (Elt F)) ]
/-- The references stretch 1 writes. -/
abbrev W1 : List (Ref sig .tc) := [main_v0, main_v1, main_v2, main_v3, main_call0_cst, main_call0_v0, main_v4, main_cst, main_v5, main_cst_0, main_v6, main_c, main_v7, main_v8, main_c_1, main_v9, main_v10, main_v11, main_v12, main_v13, main_cst_2, main_call1_v0, main_call1_v1, main_v14, main_cst_3, main_v15, main_v16, main_v17]
theorem c1_writes : (c1 : List (HloOp τ sig (Elt F))).Forall fun op => op.writes ⊆ (W1.map (Proc.devRef (τ := τ) .tc)).toFinset :=
  ⟨wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide)⟩
/-- A reference stretch 1 does not write keeps its contents. -/
theorem carry1 (V : Valuation τ sig (Elt F)) {r : Ref sig .tc} (hr : r ∉ W1) :
    StableHlo.after c1 V (Proc.devRef .tc r) = V (Proc.devRef .tc r) :=
  StableHlo.after_of_writes_sub c1 V c1_writes hr

/-- Stretch 2: operations 28 to 74 of the line. -/
abbrev c2 : List (HloOp τ sig (Elt F)) :=
  [ nullary main_cst_4 (constant S_ .f32 0x40400000#32),
    unary main_cst_4 main_v18 (broadcastInDim S50000x64 ![] bcast_S_S50000x64 : (⟨S_, .f32⟩ : BufTy).Contents (Elt F) → (⟨S50000x64, .f32⟩ : BufTy).Contents (Elt F)),
    binary main_v18 main_v4 main_v19 (mulf : (⟨S50000x64, .f32⟩ : BufTy).Contents (Elt F) → (⟨S50000x64, .f32⟩ : BufTy).Contents (Elt F) → (⟨S50000x64, .f32⟩ : BufTy).Contents (Elt F)),
    unary main_v17 main_v20 (broadcastInDim S50000x64 ![0, 1] bcast_S50000x1_S50000x64_0_1 : (⟨S50000x1, .f32⟩ : BufTy).Contents (Elt F) → (⟨S50000x64, .f32⟩ : BufTy).Contents (Elt F)),
    binary main_v4 main_v20 main_v21 (mulf : (⟨S50000x64, .f32⟩ : BufTy).Contents (Elt F) → (⟨S50000x64, .f32⟩ : BufTy).Contents (Elt F) → (⟨S50000x64, .f32⟩ : BufTy).Contents (Elt F)),
    nullary main_c_5 (constantI S_ 32 0#32),
    unary main_c_5 main_v22 (broadcastInDim S800000 ![] bcast_S_S800000 : (⟨S_, .i32⟩ : BufTy).Contents (Elt F) → (⟨S800000, .i32⟩ : BufTy).Contents (Elt F)),
    binary main_arg2 main_v22 main_v23 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v24 (broadcastInDim S800000 ![] bcast_S_S800000 : (⟨S_, .i32⟩ : BufTy).Contents (Elt F) → (⟨S800000, .i32⟩ : BufTy).Contents (Elt F)),
    binary main_arg2 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_arg2 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v21 main_v27 main_v28 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_7 (constant S_ .f32 0x00000000#32),
    unary main_cst_7 main_v29 (broadcastInDim S50000x64 ![] bcast_S_S50000x64 : (⟨S_, .f32⟩ : BufTy).Contents (Elt F) → (⟨S50000x64, .f32⟩ : BufTy).Contents (Elt F)),
    unary main_arg3 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v17 main_v32 (broadcastInDim S50000x64 ![0, 1] bcast_S50000x1_S50000x64_0_1 : (⟨S50000x1, .f32⟩ : BufTy).Contents (Elt F) → (⟨S50000x64, .f32⟩ : BufTy).Contents (Elt F)),
    binary main_v31 main_v32 main_v33 (mulf : (⟨S50000x64, .f32⟩ : BufTy).Contents (Elt F) → (⟨S50000x64, .f32⟩ : BufTy).Contents (Elt F) → (⟨S50000x64, .f32⟩ : BufTy).Contents (Elt F)),
    binary main_v4 main_v33 main_v34 (subf : (⟨S50000x64, .f32⟩ : BufTy).Contents (Elt F) → (⟨S50000x64, .f32⟩ : BufTy).Contents (Elt F) → (⟨S50000x64, .f32⟩ : BufTy).Contents (Elt F)),
    nullary main_cst_8 (constant S_ .f32 0xC0400000#32),
    unary main_cst_8 main_v35 (broadcastInDim S50000x64 ![] bcast_S_S50000x64 : (⟨S_, .f32⟩ : BufTy).Contents (Elt F) → (⟨S50000x64, .f32⟩ : BufTy).Contents (Elt F)),
    binary main_v35 main_v34 main_v36 (mulf : (⟨S50000x64, .f32⟩ : BufTy).Contents (Elt F) → (⟨S50000x64, .f32⟩ : BufTy).Contents (Elt F) → (⟨S50000x64, .f32⟩ : BufTy).Contents (Elt F)),
    binary main_v19 main_v36 main_v37 (addf : (⟨S50000x64, .f32⟩ : BufTy).Contents (Elt F) → (⟨S50000x64, .f32⟩ : BufTy).Contents (Elt F) → (⟨S50000x64, .f32⟩ : BufTy).Contents (Elt F)),
    unary main_v17 main_v38 (broadcastInDim S50000x64 ![0, 1] bcast_S50000x1_S50000x64_0_1 : (⟨S50000x1, .f32⟩ : BufTy).Contents (Elt F) → (⟨S50000x64, .f32⟩ : BufTy).Contents (Elt F)),
    binary main_v34 main_v38 main_v39 (mulf : (⟨S50000x64, .f32⟩ : BufTy).Contents (Elt F) → (⟨S50000x64, .f32⟩ : BufTy).Contents (Elt F) → (⟨S50000x64, .f32⟩ : BufTy).Contents (Elt F)),
    nullary main_c_9 (constantI S_ 32 0#32),
    unary main_c_9 main_v40 (broadcastInDim S800000 ![] bcast_S_S800000 : (⟨S_, .i32⟩ : BufTy).Contents (Elt F) → (⟨S800000, .i32⟩ : BufTy).Contents (Elt F)),
    binary main_arg2 main_v40 main_v41 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v42 (broadcastInDim S800000 ![] bcast_S_S800000 : (⟨S_, .i32⟩ : BufTy).Contents (Elt F) → (⟨S800000, .i32⟩ : BufTy).Contents (Elt F)),
    binary main_arg2 main_v42 main_v43 (addi : (⟨S800000, .i32⟩ : BufTy).Contents (Elt F) → (⟨S800000, .i32⟩ : BufTy).Contents (Elt F) → (⟨S800000, .i32⟩ : BufTy).Contents (Elt F)),
    ternary main_v41 main_v43 main_arg2 main_v44 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v44 main_v45 (broadcastInDim S800000x1 ![0] bcast_S800000_S800000x1_0 : (⟨S800000, .i32⟩ : BufTy).Contents (Elt F) → (⟨S800000x1, .i32⟩ : BufTy).Contents (Elt F)),
    binary main_v39 main_v45 main_v46 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_11 (constant S_ .f32 0x00000000#32),
    unary main_cst_11 main_v47 (broadcastInDim S50000x64 ![] bcast_S_S50000x64 : (⟨S_, .f32⟩ : BufTy).Contents (Elt F) → (⟨S50000x64, .f32⟩ : BufTy).Contents (Elt F)),
    unary main_arg3 main_v48 (broadcastInDim S800000x1 ![0] bcast_S800000_S800000x1_0 : (⟨S800000, .i32⟩ : BufTy).Contents (Elt F) → (⟨S800000x1, .i32⟩ : BufTy).Contents (Elt F)),
    ternary main_v47 main_v48 main_v46 main_v49 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v17 main_v50 (broadcastInDim S50000x64 ![0, 1] bcast_S50000x1_S50000x64_0_1 : (⟨S50000x1, .f32⟩ : BufTy).Contents (Elt F) → (⟨S50000x64, .f32⟩ : BufTy).Contents (Elt F)),
    binary main_v49 main_v50 main_v51 (mulf : (⟨S50000x64, .f32⟩ : BufTy).Contents (Elt F) → (⟨S50000x64, .f32⟩ : BufTy).Contents (Elt F) → (⟨S50000x64, .f32⟩ : BufTy).Contents (Elt F)),
    binary main_v34 main_v51 main_v52 (subf : (⟨S50000x64, .f32⟩ : BufTy).Contents (Elt F) → (⟨S50000x64, .f32⟩ : BufTy).Contents (Elt F) → (⟨S50000x64, .f32⟩ : BufTy).Contents (Elt F)),
    nullary main_cst_12 (constant S_ .f32 0x3F400000#32),
    unary main_cst_12 main_v53 (broadcastInDim S50000x64 ![] bcast_S_S50000x64 : (⟨S_, .f32⟩ : BufTy).Contents (Elt F) → (⟨S50000x64, .f32⟩ : BufTy).Contents (Elt F)),
    binary main_v53 main_v52 main_v54 (mulf : (⟨S50000x64, .f32⟩ : BufTy).Contents (Elt F) → (⟨S50000x64, .f32⟩ : BufTy).Contents (Elt F) → (⟨S50000x64, .f32⟩ : BufTy).Contents (Elt F)),
    binary main_v37 main_v54 main_v55 (addf : (⟨S50000x64, .f32⟩ : BufTy).Contents (Elt F) → (⟨S50000x64, .f32⟩ : BufTy).Contents (Elt F) → (⟨S50000x64, .f32⟩ : BufTy).Contents (Elt F)) ]
/-- The references stretch 2 writes. -/
abbrev W2 : List (Ref sig .tc) := [main_cst_4, main_v18, main_v19, main_v20, main_v21, main_c_5, main_v22, main_v23, main_c_6, main_v24, main_v25, main_v26, main_v27, main_v28, main_cst_7, main_v29, main_v30, main_v31, main_v32, main_v33, main_v34, main_cst_8, main_v35, main_v36, main_v37, main_v38, main_v39, main_c_9, main_v40, main_v41, main_c_10, main_v42, main_v43, main_v44, main_v45, main_v46, main_cst_11, main_v47, main_v48, main_v49, main_v50, main_v51, main_v52, main_cst_12, main_v53, main_v54, main_v55]
theorem c2_writes : (c2 : List (HloOp τ sig (Elt F))).Forall fun op => op.writes ⊆ (W2.map (Proc.devRef (τ := τ) .tc)).toFinset :=
  ⟨wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide)⟩
/-- A reference stretch 2 does not write keeps its contents. -/
theorem carry2 (V : Valuation τ sig (Elt F)) {r : Ref sig .tc} (hr : r ∉ W2) :
    StableHlo.after c2 V (Proc.devRef .tc r) = V (Proc.devRef .tc r) :=
  StableHlo.after_of_writes_sub c2 V c2_writes hr

/-- Stretch 3: operations 75 to 121 of the line. -/
abbrev c3 : List (HloOp τ sig (Elt F)) :=
  [ nullary main_cst_13 (constant S_ .f32 0x00000000#32),
    unary main_cst_13 main_v56 (broadcastInDim S50000x64 ![] bcast_S_S50000x64 : (⟨S_, .f32⟩ : BufTy).Contents (Elt F) → (⟨S50000x64, .f32⟩ : BufTy).Contents (Elt F)),
    binary main_v56 main_v4 main_v57 (mulf : (⟨S50000x64, .f32⟩ : BufTy).Contents (Elt F) → (⟨S50000x64, .f32⟩ : BufTy).Contents (Elt F) → (⟨S50000x64, .f32⟩ : BufTy).Contents (Elt F)),
    unary main_v17 main_v58 (broadcastInDim S50000x64 ![0, 1] bcast_S50000x1_S50000x64_0_1 : (⟨S50000x1, .f32⟩ : BufTy).Contents (Elt F) → (⟨S50000x64, .f32⟩ : BufTy).Contents (Elt F)),
    binary main_v4 main_v58 main_v59 (mulf : (⟨S50000x64, .f32⟩ : BufTy).Contents (Elt F) → (⟨S50000x64, .f32⟩ : BufTy).Contents (Elt F) → (⟨S50000x64, .f32⟩ : BufTy).Contents (Elt F)),
    nullary main_c_14 (constantI S_ 32 0#32),
    unary main_c_14 main_v60 (broadcastInDim S800000 ![] bcast_S_S800000 : (⟨S_, .i32⟩ : BufTy).Contents (Elt F) → (⟨S800000, .i32⟩ : BufTy).Contents (Elt F)),
    binary main_arg2 main_v60 main_v61 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v62 (broadcastInDim S800000 ![] bcast_S_S800000 : (⟨S_, .i32⟩ : BufTy).Contents (Elt F) → (⟨S800000, .i32⟩ : BufTy).Contents (Elt F)),
    binary main_arg2 main_v62 main_v63 (addi : (⟨S800000, .i32⟩ : BufTy).Contents (Elt F) → (⟨S800000, .i32⟩ : BufTy).Contents (Elt F) → (⟨S800000, .i32⟩ : BufTy).Contents (Elt F)),
    ternary main_v61 main_v63 main_arg2 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v64 main_v65 (broadcastInDim S800000x1 ![0] bcast_S800000_S800000x1_0 : (⟨S800000, .i32⟩ : BufTy).Contents (Elt F) → (⟨S800000x1, .i32⟩ : BufTy).Contents (Elt F)),
    binary main_v59 main_v65 main_v66 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_16 (constant S_ .f32 0x00000000#32),
    unary main_cst_16 main_v67 (broadcastInDim S50000x64 ![] bcast_S_S50000x64 : (⟨S_, .f32⟩ : BufTy).Contents (Elt F) → (⟨S50000x64, .f32⟩ : BufTy).Contents (Elt F)),
    unary main_arg3 main_v68 (broadcastInDim S800000x1 ![0] bcast_S800000_S800000x1_0 : (⟨S800000, .i32⟩ : BufTy).Contents (Elt F) → (⟨S800000x1, .i32⟩ : BufTy).Contents (Elt F)),
    ternary main_v67 main_v68 main_v66 main_v69 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v17 main_v70 (broadcastInDim S50000x64 ![0, 1] bcast_S50000x1_S50000x64_0_1 : (⟨S50000x1, .f32⟩ : BufTy).Contents (Elt F) → (⟨S50000x64, .f32⟩ : BufTy).Contents (Elt F)),
    binary main_v69 main_v70 main_v71 (mulf : (⟨S50000x64, .f32⟩ : BufTy).Contents (Elt F) → (⟨S50000x64, .f32⟩ : BufTy).Contents (Elt F) → (⟨S50000x64, .f32⟩ : BufTy).Contents (Elt F)),
    binary main_v4 main_v71 main_v72 (subf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x40400000#32),
    unary main_cst_17 main_v73 (broadcastInDim S50000x64 ![] bcast_S_S50000x64 : (⟨S_, .f32⟩ : BufTy).Contents (Elt F) → (⟨S50000x64, .f32⟩ : BufTy).Contents (Elt F)),
    binary main_v73 main_v72 main_v74 (mulf : (⟨S50000x64, .f32⟩ : BufTy).Contents (Elt F) → (⟨S50000x64, .f32⟩ : BufTy).Contents (Elt F) → (⟨S50000x64, .f32⟩ : BufTy).Contents (Elt F)),
    binary main_v57 main_v74 main_v75 (addf : (⟨S50000x64, .f32⟩ : BufTy).Contents (Elt F) → (⟨S50000x64, .f32⟩ : BufTy).Contents (Elt F) → (⟨S50000x64, .f32⟩ : BufTy).Contents (Elt F)),
    unary main_v17 main_v76 (broadcastInDim S50000x64 ![0, 1] bcast_S50000x1_S50000x64_0_1 : (⟨S50000x1, .f32⟩ : BufTy).Contents (Elt F) → (⟨S50000x64, .f32⟩ : BufTy).Contents (Elt F)),
    binary main_v72 main_v76 main_v77 (mulf : (⟨S50000x64, .f32⟩ : BufTy).Contents (Elt F) → (⟨S50000x64, .f32⟩ : BufTy).Contents (Elt F) → (⟨S50000x64, .f32⟩ : BufTy).Contents (Elt F)),
    nullary main_c_18 (constantI S_ 32 0#32),
    unary main_c_18 main_v78 (broadcastInDim S800000 ![] bcast_S_S800000 : (⟨S_, .i32⟩ : BufTy).Contents (Elt F) → (⟨S800000, .i32⟩ : BufTy).Contents (Elt F)),
    binary main_arg2 main_v78 main_v79 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v80 (broadcastInDim S800000 ![] bcast_S_S800000 : (⟨S_, .i32⟩ : BufTy).Contents (Elt F) → (⟨S800000, .i32⟩ : BufTy).Contents (Elt F)),
    binary main_arg2 main_v80 main_v81 (addi : (⟨S800000, .i32⟩ : BufTy).Contents (Elt F) → (⟨S800000, .i32⟩ : BufTy).Contents (Elt F) → (⟨S800000, .i32⟩ : BufTy).Contents (Elt F)),
    ternary main_v79 main_v81 main_arg2 main_v82 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v82 main_v83 (broadcastInDim S800000x1 ![0] bcast_S800000_S800000x1_0 : (⟨S800000, .i32⟩ : BufTy).Contents (Elt F) → (⟨S800000x1, .i32⟩ : BufTy).Contents (Elt F)),
    binary main_v77 main_v83 main_v84 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_20 (constant S_ .f32 0x00000000#32),
    unary main_cst_20 main_v85 (broadcastInDim S50000x64 ![] bcast_S_S50000x64 : (⟨S_, .f32⟩ : BufTy).Contents (Elt F) → (⟨S50000x64, .f32⟩ : BufTy).Contents (Elt F)),
    unary main_arg3 main_v86 (broadcastInDim S800000x1 ![0] bcast_S800000_S800000x1_0 : (⟨S800000, .i32⟩ : BufTy).Contents (Elt F) → (⟨S800000x1, .i32⟩ : BufTy).Contents (Elt F)),
    ternary main_v85 main_v86 main_v84 main_v87 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v17 main_v88 (broadcastInDim S50000x64 ![0, 1] bcast_S50000x1_S50000x64_0_1 : (⟨S50000x1, .f32⟩ : BufTy).Contents (Elt F) → (⟨S50000x64, .f32⟩ : BufTy).Contents (Elt F)),
    binary main_v87 main_v88 main_v89 (mulf : (⟨S50000x64, .f32⟩ : BufTy).Contents (Elt F) → (⟨S50000x64, .f32⟩ : BufTy).Contents (Elt F) → (⟨S50000x64, .f32⟩ : BufTy).Contents (Elt F)),
    binary main_v72 main_v89 main_v90 (subf : (⟨S50000x64, .f32⟩ : BufTy).Contents (Elt F) → (⟨S50000x64, .f32⟩ : BufTy).Contents (Elt F) → (⟨S50000x64, .f32⟩ : BufTy).Contents (Elt F)),
    nullary main_cst_21 (constant S_ .f32 0xBFC00000#32),
    unary main_cst_21 main_v91 (broadcastInDim S50000x64 ![] bcast_S_S50000x64 : (⟨S_, .f32⟩ : BufTy).Contents (Elt F) → (⟨S50000x64, .f32⟩ : BufTy).Contents (Elt F)),
    binary main_v91 main_v90 main_v92 (mulf : (⟨S50000x64, .f32⟩ : BufTy).Contents (Elt F) → (⟨S50000x64, .f32⟩ : BufTy).Contents (Elt F) → (⟨S50000x64, .f32⟩ : BufTy).Contents (Elt F)),
    binary main_v75 main_v92 main_v93 (addf : (⟨S50000x64, .f32⟩ : BufTy).Contents (Elt F) → (⟨S50000x64, .f32⟩ : BufTy).Contents (Elt F) → (⟨S50000x64, .f32⟩ : BufTy).Contents (Elt F)) ]
/-- The references stretch 3 writes. -/
abbrev W3 : List (Ref sig .tc) := [main_cst_13, main_v56, main_v57, main_v58, main_v59, main_c_14, main_v60, main_v61, main_c_15, main_v62, main_v63, main_v64, main_v65, main_v66, main_cst_16, main_v67, main_v68, main_v69, main_v70, main_v71, main_v72, main_cst_17, main_v73, main_v74, main_v75, main_v76, main_v77, main_c_18, main_v78, main_v79, main_c_19, main_v80, main_v81, main_v82, main_v83, main_v84, main_cst_20, main_v85, main_v86, main_v87, main_v88, main_v89, main_v90, main_cst_21, main_v91, main_v92, main_v93]
theorem c3_writes : (c3 : List (HloOp τ sig (Elt F))).Forall fun op => op.writes ⊆ (W3.map (Proc.devRef (τ := τ) .tc)).toFinset :=
  ⟨wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide)⟩
/-- A reference stretch 3 does not write keeps its contents. -/
theorem carry3 (V : Valuation τ sig (Elt F)) {r : Ref sig .tc} (hr : r ∉ W3) :
    StableHlo.after c3 V (Proc.devRef .tc r) = V (Proc.devRef .tc r) :=
  StableHlo.after_of_writes_sub c3 V c3_writes hr

/-- Stretch 4: operations 122 to 168 of the line. -/
abbrev c4 : List (HloOp τ sig (Elt F)) :=
  [ nullary main_cst_22 (constant S_ .f32 0x00000000#32),
    unary main_cst_22 main_v94 (broadcastInDim S50000x64 ![] bcast_S_S50000x64 : (⟨S_, .f32⟩ : BufTy).Contents (Elt F) → (⟨S50000x64, .f32⟩ : BufTy).Contents (Elt F)),
    binary main_v94 main_v4 main_v95 (mulf : (⟨S50000x64, .f32⟩ : BufTy).Contents (Elt F) → (⟨S50000x64, .f32⟩ : BufTy).Contents (Elt F) → (⟨S50000x64, .f32⟩ : BufTy).Contents (Elt F)),
    unary main_v17 main_v96 (broadcastInDim S50000x64 ![0, 1] bcast_S50000x1_S50000x64_0_1 : (⟨S50000x1, .f32⟩ : BufTy).Contents (Elt F) → (⟨S50000x64, .f32⟩ : BufTy).Contents (Elt F)),
    binary main_v4 main_v96 main_v97 (mulf : (⟨S50000x64, .f32⟩ : BufTy).Contents (Elt F) → (⟨S50000x64, .f32⟩ : BufTy).Contents (Elt F) → (⟨S50000x64, .f32⟩ : BufTy).Contents (Elt F)),
    nullary main_c_23 (constantI S_ 32 0#32),
    unary main_c_23 main_v98 (broadcastInDim S800000 ![] bcast_S_S800000 : (⟨S_, .i32⟩ : BufTy).Contents (Elt F) → (⟨S800000, .i32⟩ : BufTy).Contents (Elt F)),
    binary main_arg2 main_v98 main_v99 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v100 (broadcastInDim S800000 ![] bcast_S_S800000 : (⟨S_, .i32⟩ : BufTy).Contents (Elt F) → (⟨S800000, .i32⟩ : BufTy).Contents (Elt F)),
    binary main_arg2 main_v100 main_v101 (addi : (⟨S800000, .i32⟩ : BufTy).Contents (Elt F) → (⟨S800000, .i32⟩ : BufTy).Contents (Elt F) → (⟨S800000, .i32⟩ : BufTy).Contents (Elt F)),
    ternary main_v99 main_v101 main_arg2 main_v102 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v102 main_v103 (broadcastInDim S800000x1 ![0] bcast_S800000_S800000x1_0 : (⟨S800000, .i32⟩ : BufTy).Contents (Elt F) → (⟨S800000x1, .i32⟩ : BufTy).Contents (Elt F)),
    binary main_v97 main_v103 main_v104 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_25 (constant S_ .f32 0x00000000#32),
    unary main_cst_25 main_v105 (broadcastInDim S50000x64 ![] bcast_S_S50000x64 : (⟨S_, .f32⟩ : BufTy).Contents (Elt F) → (⟨S50000x64, .f32⟩ : BufTy).Contents (Elt F)),
    unary main_arg3 main_v106 (broadcastInDim S800000x1 ![0] bcast_S800000_S800000x1_0 : (⟨S800000, .i32⟩ : BufTy).Contents (Elt F) → (⟨S800000x1, .i32⟩ : BufTy).Contents (Elt F)),
    ternary main_v105 main_v106 main_v104 main_v107 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v17 main_v108 (broadcastInDim S50000x64 ![0, 1] bcast_S50000x1_S50000x64_0_1 : (⟨S50000x1, .f32⟩ : BufTy).Contents (Elt F) → (⟨S50000x64, .f32⟩ : BufTy).Contents (Elt F)),
    binary main_v107 main_v108 main_v109 (mulf : (⟨S50000x64, .f32⟩ : BufTy).Contents (Elt F) → (⟨S50000x64, .f32⟩ : BufTy).Contents (Elt F) → (⟨S50000x64, .f32⟩ : BufTy).Contents (Elt F)),
    binary main_v4 main_v109 main_v110 (subf : (⟨S50000x64, .f32⟩ : BufTy).Contents (Elt F) → (⟨S50000x64, .f32⟩ : BufTy).Contents (Elt F) → (⟨S50000x64, .f32⟩ : BufTy).Contents (Elt F)),
    nullary main_cst_26 (constant S_ .f32 0x00000000#32),
    unary main_cst_26 main_v111 (broadcastInDim S50000x64 ![] bcast_S_S50000x64 : (⟨S_, .f32⟩ : BufTy).Contents (Elt F) → (⟨S50000x64, .f32⟩ : BufTy).Contents (Elt F)),
    binary main_v111 main_v110 main_v112 (mulf : (⟨S50000x64, .f32⟩ : BufTy).Contents (Elt F) → (⟨S50000x64, .f32⟩ : BufTy).Contents (Elt F) → (⟨S50000x64, .f32⟩ : BufTy).Contents (Elt F)),
    binary main_v95 main_v112 main_v113 (addf : (⟨S50000x64, .f32⟩ : BufTy).Contents (Elt F) → (⟨S50000x64, .f32⟩ : BufTy).Contents (Elt F) → (⟨S50000x64, .f32⟩ : BufTy).Contents (Elt F)),
    unary main_v17 main_v114 (broadcastInDim S50000x64 ![0, 1] bcast_S50000x1_S50000x64_0_1 : (⟨S50000x1, .f32⟩ : BufTy).Contents (Elt F) → (⟨S50000x64, .f32⟩ : BufTy).Contents (Elt F)),
    binary main_v110 main_v114 main_v115 (mulf : (⟨S50000x64, .f32⟩ : BufTy).Contents (Elt F) → (⟨S50000x64, .f32⟩ : BufTy).Contents (Elt F) → (⟨S50000x64, .f32⟩ : BufTy).Contents (Elt F)),
    nullary main_c_27 (constantI S_ 32 0#32),
    unary main_c_27 main_v116 (broadcastInDim S800000 ![] bcast_S_S800000 : (⟨S_, .i32⟩ : BufTy).Contents (Elt F) → (⟨S800000, .i32⟩ : BufTy).Contents (Elt F)),
    binary main_arg2 main_v116 main_v117 (cmpi .slt : (⟨S800000, .i32⟩ : BufTy).Contents (Elt F) → (⟨S800000, .i32⟩ : BufTy).Contents (Elt F) → (⟨S800000, .i1⟩ : BufTy).Contents (Elt F)),
    nullary main_c_28 (constantI S_ 32 50000#32),
    unary main_c_28 main_v118 (broadcastInDim S800000 ![] bcast_S_S800000 : (⟨S_, .i32⟩ : BufTy).Contents (Elt F) → (⟨S800000, .i32⟩ : BufTy).Contents (Elt F)),
    binary main_arg2 main_v118 main_v119 (addi : (⟨S800000, .i32⟩ : BufTy).Contents (Elt F) → (⟨S800000, .i32⟩ : BufTy).Contents (Elt F) → (⟨S800000, .i32⟩ : BufTy).Contents (Elt F)),
    ternary main_v117 main_v119 main_arg2 main_v120 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v120 main_v121 (broadcastInDim S800000x1 ![0] bcast_S800000_S800000x1_0 : (⟨S800000, .i32⟩ : BufTy).Contents (Elt F) → (⟨S800000x1, .i32⟩ : BufTy).Contents (Elt F)),
    binary main_v115 main_v121 main_v122 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_29 (constant S_ .f32 0x00000000#32),
    unary main_cst_29 main_v123 (broadcastInDim S50000x64 ![] bcast_S_S50000x64 : (⟨S_, .f32⟩ : BufTy).Contents (Elt F) → (⟨S50000x64, .f32⟩ : BufTy).Contents (Elt F)),
    unary main_arg3 main_v124 (broadcastInDim S800000x1 ![0] bcast_S800000_S800000x1_0 : (⟨S800000, .i32⟩ : BufTy).Contents (Elt F) → (⟨S800000x1, .i32⟩ : BufTy).Contents (Elt F)),
    ternary main_v123 main_v124 main_v122 main_v125 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v17 main_v126 (broadcastInDim S50000x64 ![0, 1] bcast_S50000x1_S50000x64_0_1 : (⟨S50000x1, .f32⟩ : BufTy).Contents (Elt F) → (⟨S50000x64, .f32⟩ : BufTy).Contents (Elt F)),
    binary main_v125 main_v126 main_v127 (mulf : (⟨S50000x64, .f32⟩ : BufTy).Contents (Elt F) → (⟨S50000x64, .f32⟩ : BufTy).Contents (Elt F) → (⟨S50000x64, .f32⟩ : BufTy).Contents (Elt F)),
    binary main_v110 main_v127 main_v128 (subf : (⟨S50000x64, .f32⟩ : BufTy).Contents (Elt F) → (⟨S50000x64, .f32⟩ : BufTy).Contents (Elt F) → (⟨S50000x64, .f32⟩ : BufTy).Contents (Elt F)),
    nullary main_cst_30 (constant S_ .f32 0x3F400000#32),
    unary main_cst_30 main_v129 (broadcastInDim S50000x64 ![] bcast_S_S50000x64 : (⟨S_, .f32⟩ : BufTy).Contents (Elt F) → (⟨S50000x64, .f32⟩ : BufTy).Contents (Elt F)),
    binary main_v129 main_v128 main_v130 (mulf : (⟨S50000x64, .f32⟩ : BufTy).Contents (Elt F) → (⟨S50000x64, .f32⟩ : BufTy).Contents (Elt F) → (⟨S50000x64, .f32⟩ : BufTy).Contents (Elt F)),
    binary main_v113 main_v130 main_v131 (addf : (⟨S50000x64, .f32⟩ : BufTy).Contents (Elt F) → (⟨S50000x64, .f32⟩ : BufTy).Contents (Elt F) → (⟨S50000x64, .f32⟩ : BufTy).Contents (Elt F)) ]
/-- The references stretch 4 writes. -/
abbrev W4 : List (Ref sig .tc) := [main_cst_22, main_v94, main_v95, main_v96, main_v97, main_c_23, main_v98, main_v99, main_c_24, main_v100, main_v101, main_v102, main_v103, main_v104, main_cst_25, main_v105, main_v106, main_v107, main_v108, main_v109, main_v110, main_cst_26, main_v111, main_v112, main_v113, main_v114, main_v115, main_c_27, main_v116, main_v117, main_c_28, main_v118, main_v119, main_v120, main_v121, main_v122, main_cst_29, main_v123, main_v124, main_v125, main_v126, main_v127, main_v128, main_cst_30, main_v129, main_v130, main_v131]
theorem c4_writes : (c4 : List (HloOp τ sig (Elt F))).Forall fun op => op.writes ⊆ (W4.map (Proc.devRef (τ := τ) .tc)).toFinset :=
  ⟨wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide)⟩
/-- A reference stretch 4 does not write keeps its contents. -/
theorem carry4 (V : Valuation τ sig (Elt F)) {r : Ref sig .tc} (hr : r ∉ W4) :
    StableHlo.after c4 V (Proc.devRef .tc r) = V (Proc.devRef .tc r) :=
  StableHlo.after_of_writes_sub c4 V c4_writes hr

/-- Stretch 5: operations 169 to 169 of the line. -/
abbrev c5 : List (HloOp τ sig (Elt F)) :=
  [ nary ![main_v55, main_v93, main_v131] main_v132 (fun u => concatenate S50000x192 1 [⟨S50000x64, u 0⟩, ⟨S50000x64, u 1⟩, ⟨S50000x64, u 2⟩] concatenates_S50000x64_S50000x64_S50000x64_S50000x192_d1) ]
/-- The references stretch 5 writes. -/
abbrev W5 : List (Ref sig .tc) := [main_v132]
theorem c5_writes : (c5 : List (HloOp τ sig (Elt F))).Forall fun op => op.writes ⊆ (W5.map (Proc.devRef (τ := τ) .tc)).toFinset :=
  wr_sub (by decide)
/-- A reference stretch 5 does not write keeps its contents. -/
theorem carry5 (V : Valuation τ sig (Elt F)) {r : Ref sig .tc} (hr : r ∉ W5) :
    StableHlo.after c5 V (Proc.devRef .tc r) = V (Proc.devRef .tc r) :=
  StableHlo.after_of_writes_sub c5 V c5_writes hr

/-- Stretch 6: operations 170 to 197 of the line. -/
abbrev c6 : List (HloOp τ sig (Elt F)) :=
  [ binary main_arg1 main_arg8 main_v133 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg9 main_v134 (broadcastInDim S1x64 ![1] bcast_S64_S1x64_1 : (⟨S64, .f32⟩ : BufTy).Contents (Elt F) → (⟨S1x64, .f32⟩ : BufTy).Contents (Elt F)),
    unary main_v134 main_v135 (broadcastInDim S50000x64 ![0, 1] bcast_S1x64_S50000x64_0_1 : (⟨S1x64, .f32⟩ : BufTy).Contents (Elt F) → (⟨S50000x64, .f32⟩ : BufTy).Contents (Elt F)),
    binary main_v133 main_v135 main_v136 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v136) (TRef.of (T := ⟨S50000x64, .f32⟩) main_call2_v0) (TRef.of (T := ⟨S50000x64, .f32⟩) main_v137) maximumf,
    nullary main_cst_31 (constant S_ .f32 0x00000000#32),
    unary main_cst_31 main_v138 (broadcastInDim S50000 ![] bcast_S_S50000 : (⟨S_, .f32⟩ : BufTy).Contents (Elt F) → (⟨S50000, .f32⟩ : BufTy).Contents (Elt F)),
    nullary main_cst_32 (constant S_ .f32 0x3F800000#32),
    unary main_cst_32 main_v139 (broadcastInDim S800000 ![] bcast_S_S800000 : (⟨S_, .f32⟩ : BufTy).Contents (Elt F) → (⟨S800000, .f32⟩ : BufTy).Contents (Elt F)),
    nullary main_c_33 (constantI S_ 32 0#32),
    unary main_c_33 main_v140 (broadcastInDim S800000 ![] bcast_S_S800000 : (⟨S_, .i32⟩ : BufTy).Contents (Elt F) → (⟨S800000, .i32⟩ : BufTy).Contents (Elt F)),
    binary main_arg5 main_v140 main_v141 (cmpi .slt : (⟨S800000, .i32⟩ : BufTy).Contents (Elt F) → (⟨S800000, .i32⟩ : BufTy).Contents (Elt F) → (⟨S800000, .i1⟩ : BufTy).Contents (Elt F)),
    nullary main_c_34 (constantI S_ 32 50000#32),
    unary main_c_34 main_v142 (broadcastInDim S800000 ![] bcast_S_S800000 : (⟨S_, .i32⟩ : BufTy).Contents (Elt F) → (⟨S800000, .i32⟩ : BufTy).Contents (Elt F)),
    binary main_arg5 main_v142 main_v143 (addi : (⟨S800000, .i32⟩ : BufTy).Contents (Elt F) → (⟨S800000, .i32⟩ : BufTy).Contents (Elt F) → (⟨S800000, .i32⟩ : BufTy).Contents (Elt F)),
    ternary main_v141 main_v143 main_arg5 main_v144 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v144 main_v145 (broadcastInDim S800000x1 ![0] bcast_S800000_S800000x1_0 : (⟨S800000, .i32⟩ : BufTy).Contents (Elt F) → (⟨S800000x1, .i32⟩ : BufTy).Contents (Elt F)),
    ternary main_v138 main_v145 main_v139 main_v146 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_35 (constant S_ .f32 0x3F800000#32),
    TRef.unary (TRef.of (T := ⟨S_, .f32⟩) main_cst_35) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_v146) (TRef.of (T := ⟨S50000, .f32⟩) main_v147) maximumf,
    nullary main_cst_36 (constant S_ .f32 0xBF000000#32),
    unary main_cst_36 main_v148 (broadcastInDim S50000 ![] bcast_S_S50000 : (⟨S_, .f32⟩ : BufTy).Contents (Elt F) → (⟨S50000, .f32⟩ : BufTy).Contents (Elt F)),
    binary main_v147 main_v148 main_v149 (Host.powf : (⟨S50000, .f32⟩ : BufTy).Contents (Elt F) → (⟨S50000, .f32⟩ : BufTy).Contents (Elt F) → (⟨S50000, .f32⟩ : BufTy).Contents (Elt F)),
    unary main_v149 main_v150 (broadcastInDim S50000x1 ![0] bcast_S50000_S50000x1_0 : (⟨S50000, .f32⟩ : BufTy).Contents (Elt F) → (⟨S50000x1, .f32⟩ : BufTy).Contents (Elt F)) ]
/-- The references stretch 6 writes. -/
abbrev W6 : List (Ref sig .tc) := [main_v133, main_v134, main_v135, main_v136, main_call2_cst, main_call2_v0, main_v137, main_cst_31, main_v138, main_cst_32, main_v139, main_c_33, main_v140, main_v141, main_c_34, main_v142, main_v143, main_v144, main_v145, main_v146, main_cst_35, main_call3_v0, main_call3_v1, main_v147, main_cst_36, main_v148, main_v149, main_v150]
theorem c6_writes : (c6 : List (HloOp τ sig (Elt F))).Forall fun op => op.writes ⊆ (W6.map (Proc.devRef (τ := τ) .tc)).toFinset :=
  ⟨wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide)⟩
/-- A reference stretch 6 does not write keeps its contents. -/
theorem carry6 (V : Valuation τ sig (Elt F)) {r : Ref sig .tc} (hr : r ∉ W6) :
    StableHlo.after c6 V (Proc.devRef .tc r) = V (Proc.devRef .tc r) :=
  StableHlo.after_of_writes_sub c6 V c6_writes hr

/-- Stretch 7: operations 198 to 244 of the line. -/
abbrev c7 : List (HloOp τ sig (Elt F)) :=
  [ nullary main_cst_37 (constant S_ .f32 0x40800000#32),
    unary main_cst_37 main_v151 (broadcastInDim S50000x64 ![] bcast_S_S50000x64 : (⟨S_, .f32⟩ : BufTy).Contents (Elt F) → (⟨S50000x64, .f32⟩ : BufTy).Contents (Elt F)),
    binary main_v151 main_v137 main_v152 (mulf : (⟨S50000x64, .f32⟩ : BufTy).Contents (Elt F) → (⟨S50000x64, .f32⟩ : BufTy).Contents (Elt F) → (⟨S50000x64, .f32⟩ : BufTy).Contents (Elt F)),
    unary main_v150 main_v153 (broadcastInDim S50000x64 ![0, 1] bcast_S50000x1_S50000x64_0_1 : (⟨S50000x1, .f32⟩ : BufTy).Contents (Elt F) → (⟨S50000x64, .f32⟩ : BufTy).Contents (Elt F)),
    binary main_v137 main_v153 main_v154 (mulf : (⟨S50000x64, .f32⟩ : BufTy).Contents (Elt F) → (⟨S50000x64, .f32⟩ : BufTy).Contents (Elt F) → (⟨S50000x64, .f32⟩ : BufTy).Contents (Elt F)),
    nullary main_c_38 (constantI S_ 32 0#32),
    unary main_c_38 main_v155 (broadcastInDim S800000 ![] bcast_S_S800000 : (⟨S_, .i32⟩ : BufTy).Contents (Elt F) → (⟨S800000, .i32⟩ : BufTy).Contents (Elt F)),
    binary main_arg4 main_v155 main_v156 (cmpi .slt : (⟨S800000, .i32⟩ : BufTy).Contents (Elt F) → (⟨S800000, .i32⟩ : BufTy).Contents (Elt F) → (⟨S800000, .i1⟩ : BufTy).Contents (Elt F)),
    nullary main_c_39 (constantI S_ 32 50000#32),
    unary main_c_39 main_v157 (broadcastInDim S800000 ![] bcast_S_S800000 : (⟨S_, .i32⟩ : BufTy).Contents (Elt F) → (⟨S800000, .i32⟩ : BufTy).Contents (Elt F)),
    binary main_arg4 main_v157 main_v158 (addi : (⟨S800000, .i32⟩ : BufTy).Contents (Elt F) → (⟨S800000, .i32⟩ : BufTy).Contents (Elt F) → (⟨S800000, .i32⟩ : BufTy).Contents (Elt F)),
    ternary main_v156 main_v158 main_arg4 main_v159 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v159 main_v160 (broadcastInDim S800000x1 ![0] bcast_S800000_S800000x1_0 : (⟨S800000, .i32⟩ : BufTy).Contents (Elt F) → (⟨S800000x1, .i32⟩ : BufTy).Contents (Elt F)),
    binary main_v154 main_v160 main_v161 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_40 (constant S_ .f32 0x00000000#32),
    unary main_cst_40 main_v162 (broadcastInDim S50000x64 ![] bcast_S_S50000x64 : (⟨S_, .f32⟩ : BufTy).Contents (Elt F) → (⟨S50000x64, .f32⟩ : BufTy).Contents (Elt F)),
    unary main_arg5 main_v163 (broadcastInDim S800000x1 ![0] bcast_S800000_S800000x1_0 : (⟨S800000, .i32⟩ : BufTy).Contents (Elt F) → (⟨S800000x1, .i32⟩ : BufTy).Contents (Elt F)),
    ternary main_v162 main_v163 main_v161 main_v164 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v150 main_v165 (broadcastInDim S50000x64 ![0, 1] bcast_S50000x1_S50000x64_0_1 : (⟨S50000x1, .f32⟩ : BufTy).Contents (Elt F) → (⟨S50000x64, .f32⟩ : BufTy).Contents (Elt F)),
    binary main_v164 main_v165 main_v166 (mulf : (⟨S50000x64, .f32⟩ : BufTy).Contents (Elt F) → (⟨S50000x64, .f32⟩ : BufTy).Contents (Elt F) → (⟨S50000x64, .f32⟩ : BufTy).Contents (Elt F)),
    binary main_v137 main_v166 main_v167 (subf : (⟨S50000x64, .f32⟩ : BufTy).Contents (Elt F) → (⟨S50000x64, .f32⟩ : BufTy).Contents (Elt F) → (⟨S50000x64, .f32⟩ : BufTy).Contents (Elt F)),
    nullary main_cst_41 (constant S_ .f32 0x40800000#32),
    unary main_cst_41 main_v168 (broadcastInDim S50000x64 ![] bcast_S_S50000x64 : (⟨S_, .f32⟩ : BufTy).Contents (Elt F) → (⟨S50000x64, .f32⟩ : BufTy).Contents (Elt F)),
    binary main_v168 main_v167 main_v169 (mulf : (⟨S50000x64, .f32⟩ : BufTy).Contents (Elt F) → (⟨S50000x64, .f32⟩ : BufTy).Contents (Elt F) → (⟨S50000x64, .f32⟩ : BufTy).Contents (Elt F)),
    binary main_v152 main_v169 main_v170 (addf : (⟨S50000x64, .f32⟩ : BufTy).Contents (Elt F) → (⟨S50000x64, .f32⟩ : BufTy).Contents (Elt F) → (⟨S50000x64, .f32⟩ : BufTy).Contents (Elt F)),
    unary main_v150 main_v171 (broadcastInDim S50000x64 ![0, 1] bcast_S50000x1_S50000x64_0_1 : (⟨S50000x1, .f32⟩ : BufTy).Contents (Elt F) → (⟨S50000x64, .f32⟩ : BufTy).Contents (Elt F)),
    binary main_v167 main_v171 main_v172 (mulf : (⟨S50000x64, .f32⟩ : BufTy).Contents (Elt F) → (⟨S50000x64, .f32⟩ : BufTy).Contents (Elt F) → (⟨S50000x64, .f32⟩ : BufTy).Contents (Elt F)),
    nullary main_c_42 (constantI S_ 32 0#32),
    unary main_c_42 main_v173 (broadcastInDim S800000 ![] bcast_S_S800000 : (⟨S_, .i32⟩ : BufTy).Contents (Elt F) → (⟨S800000, .i32⟩ : BufTy).Contents (Elt F)),
    binary main_arg4 main_v173 main_v174 (cmpi .slt : (⟨S800000, .i32⟩ : BufTy).Contents (Elt F) → (⟨S800000, .i32⟩ : BufTy).Contents (Elt F) → (⟨S800000, .i1⟩ : BufTy).Contents (Elt F)),
    nullary main_c_43 (constantI S_ 32 50000#32),
    unary main_c_43 main_v175 (broadcastInDim S800000 ![] bcast_S_S800000 : (⟨S_, .i32⟩ : BufTy).Contents (Elt F) → (⟨S800000, .i32⟩ : BufTy).Contents (Elt F)),
    binary main_arg4 main_v175 main_v176 (addi : (⟨S800000, .i32⟩ : BufTy).Contents (Elt F) → (⟨S800000, .i32⟩ : BufTy).Contents (Elt F) → (⟨S800000, .i32⟩ : BufTy).Contents (Elt F)),
    ternary main_v174 main_v176 main_arg4 main_v177 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v177 main_v178 (broadcastInDim S800000x1 ![0] bcast_S800000_S800000x1_0 : (⟨S800000, .i32⟩ : BufTy).Contents (Elt F) → (⟨S800000x1, .i32⟩ : BufTy).Contents (Elt F)),
    binary main_v172 main_v178 main_v179 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_44 (constant S_ .f32 0x00000000#32),
    unary main_cst_44 main_v180 (broadcastInDim S50000x64 ![] bcast_S_S50000x64 : (⟨S_, .f32⟩ : BufTy).Contents (Elt F) → (⟨S50000x64, .f32⟩ : BufTy).Contents (Elt F)),
    unary main_arg5 main_v181 (broadcastInDim S800000x1 ![0] bcast_S800000_S800000x1_0 : (⟨S800000, .i32⟩ : BufTy).Contents (Elt F) → (⟨S800000x1, .i32⟩ : BufTy).Contents (Elt F)),
    ternary main_v180 main_v181 main_v179 main_v182 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v150 main_v183 (broadcastInDim S50000x64 ![0, 1] bcast_S50000x1_S50000x64_0_1 : (⟨S50000x1, .f32⟩ : BufTy).Contents (Elt F) → (⟨S50000x64, .f32⟩ : BufTy).Contents (Elt F)),
    binary main_v182 main_v183 main_v184 (mulf : (⟨S50000x64, .f32⟩ : BufTy).Contents (Elt F) → (⟨S50000x64, .f32⟩ : BufTy).Contents (Elt F) → (⟨S50000x64, .f32⟩ : BufTy).Contents (Elt F)),
    binary main_v167 main_v184 main_v185 (subf : (⟨S50000x64, .f32⟩ : BufTy).Contents (Elt F) → (⟨S50000x64, .f32⟩ : BufTy).Contents (Elt F) → (⟨S50000x64, .f32⟩ : BufTy).Contents (Elt F)),
    nullary main_cst_45 (constant S_ .f32 0x40800000#32),
    unary main_cst_45 main_v186 (broadcastInDim S50000x64 ![] bcast_S_S50000x64 : (⟨S_, .f32⟩ : BufTy).Contents (Elt F) → (⟨S50000x64, .f32⟩ : BufTy).Contents (Elt F)),
    binary main_v186 main_v185 main_v187 (mulf : (⟨S50000x64, .f32⟩ : BufTy).Contents (Elt F) → (⟨S50000x64, .f32⟩ : BufTy).Contents (Elt F) → (⟨S50000x64, .f32⟩ : BufTy).Contents (Elt F)),
    binary main_v170 main_v187 main_v188 (addf : (⟨S50000x64, .f32⟩ : BufTy).Contents (Elt F) → (⟨S50000x64, .f32⟩ : BufTy).Contents (Elt F) → (⟨S50000x64, .f32⟩ : BufTy).Contents (Elt F)) ]
/-- The references stretch 7 writes. -/
abbrev W7 : List (Ref sig .tc) := [main_cst_37, main_v151, main_v152, main_v153, main_v154, main_c_38, main_v155, main_v156, main_c_39, main_v157, main_v158, main_v159, main_v160, main_v161, main_cst_40, main_v162, main_v163, main_v164, main_v165, main_v166, main_v167, main_cst_41, main_v168, main_v169, main_v170, main_v171, main_v172, main_c_42, main_v173, main_v174, main_c_43, main_v175, main_v176, main_v177, main_v178, main_v179, main_cst_44, main_v180, main_v181, main_v182, main_v183, main_v184, main_v185, main_cst_45, main_v186, main_v187, main_v188]
theorem c7_writes : (c7 : List (HloOp τ sig (Elt F))).Forall fun op => op.writes ⊆ (W7.map (Proc.devRef (τ := τ) .tc)).toFinset :=
  ⟨wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide)⟩
/-- A reference stretch 7 does not write keeps its contents. -/
theorem carry7 (V : Valuation τ sig (Elt F)) {r : Ref sig .tc} (hr : r ∉ W7) :
    StableHlo.after c7 V (Proc.devRef .tc r) = V (Proc.devRef .tc r) :=
  StableHlo.after_of_writes_sub c7 V c7_writes hr

/-- Stretch 8: operations 245 to 291 of the line. -/
abbrev c8 : List (HloOp τ sig (Elt F)) :=
  [ nullary main_cst_46 (constant S_ .f32 0x40800000#32),
    unary main_cst_46 main_v189 (broadcastInDim S50000x64 ![] bcast_S_S50000x64 : (⟨S_, .f32⟩ : BufTy).Contents (Elt F) → (⟨S50000x64, .f32⟩ : BufTy).Contents (Elt F)),
    binary main_v189 main_v137 main_v190 (mulf : (⟨S50000x64, .f32⟩ : BufTy).Contents (Elt F) → (⟨S50000x64, .f32⟩ : BufTy).Contents (Elt F) → (⟨S50000x64, .f32⟩ : BufTy).Contents (Elt F)),
    unary main_v150 main_v191 (broadcastInDim S50000x64 ![0, 1] bcast_S50000x1_S50000x64_0_1 : (⟨S50000x1, .f32⟩ : BufTy).Contents (Elt F) → (⟨S50000x64, .f32⟩ : BufTy).Contents (Elt F)),
    binary main_v137 main_v191 main_v192 (mulf : (⟨S50000x64, .f32⟩ : BufTy).Contents (Elt F) → (⟨S50000x64, .f32⟩ : BufTy).Contents (Elt F) → (⟨S50000x64, .f32⟩ : BufTy).Contents (Elt F)),
    nullary main_c_47 (constantI S_ 32 0#32),
    unary main_c_47 main_v193 (broadcastInDim S800000 ![] bcast_S_S800000 : (⟨S_, .i32⟩ : BufTy).Contents (Elt F) → (⟨S800000, .i32⟩ : BufTy).Contents (Elt F)),
    binary main_arg4 main_v193 main_v194 (cmpi .slt : (⟨S800000, .i32⟩ : BufTy).Contents (Elt F) → (⟨S800000, .i32⟩ : BufTy).Contents (Elt F) → (⟨S800000, .i1⟩ : BufTy).Contents (Elt F)),
    nullary main_c_48 (constantI S_ 32 50000#32),
    unary main_c_48 main_v195 (broadcastInDim S800000 ![] bcast_S_S800000 : (⟨S_, .i32⟩ : BufTy).Contents (Elt F) → (⟨S800000, .i32⟩ : BufTy).Contents (Elt F)),
    binary main_arg4 main_v195 main_v196 (addi : (⟨S800000, .i32⟩ : BufTy).Contents (Elt F) → (⟨S800000, .i32⟩ : BufTy).Contents (Elt F) → (⟨S800000, .i32⟩ : BufTy).Contents (Elt F)),
    ternary main_v194 main_v196 main_arg4 main_v197 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v197 main_v198 (broadcastInDim S800000x1 ![0] bcast_S800000_S800000x1_0 : (⟨S800000, .i32⟩ : BufTy).Contents (Elt F) → (⟨S800000x1, .i32⟩ : BufTy).Contents (Elt F)),
    binary main_v192 main_v198 main_v199 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_49 (constant S_ .f32 0x00000000#32),
    unary main_cst_49 main_v200 (broadcastInDim S50000x64 ![] bcast_S_S50000x64 : (⟨S_, .f32⟩ : BufTy).Contents (Elt F) → (⟨S50000x64, .f32⟩ : BufTy).Contents (Elt F)),
    unary main_arg5 main_v201 (broadcastInDim S800000x1 ![0] bcast_S800000_S800000x1_0 : (⟨S800000, .i32⟩ : BufTy).Contents (Elt F) → (⟨S800000x1, .i32⟩ : BufTy).Contents (Elt F)),
    ternary main_v200 main_v201 main_v199 main_v202 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v150 main_v203 (broadcastInDim S50000x64 ![0, 1] bcast_S50000x1_S50000x64_0_1 : (⟨S50000x1, .f32⟩ : BufTy).Contents (Elt F) → (⟨S50000x64, .f32⟩ : BufTy).Contents (Elt F)),
    binary main_v202 main_v203 main_v204 (mulf : (⟨S50000x64, .f32⟩ : BufTy).Contents (Elt F) → (⟨S50000x64, .f32⟩ : BufTy).Contents (Elt F) → (⟨S50000x64, .f32⟩ : BufTy).Contents (Elt F)),
    binary main_v137 main_v204 main_v205 (subf : (⟨S50000x64, .f32⟩ : BufTy).Contents (Elt F) → (⟨S50000x64, .f32⟩ : BufTy).Contents (Elt F) → (⟨S50000x64, .f32⟩ : BufTy).Contents (Elt F)),
    nullary main_cst_50 (constant S_ .f32 0x40800000#32),
    unary main_cst_50 main_v206 (broadcastInDim S50000x64 ![] bcast_S_S50000x64 : (⟨S_, .f32⟩ : BufTy).Contents (Elt F) → (⟨S50000x64, .f32⟩ : BufTy).Contents (Elt F)),
    binary main_v206 main_v205 main_v207 (mulf : (⟨S50000x64, .f32⟩ : BufTy).Contents (Elt F) → (⟨S50000x64, .f32⟩ : BufTy).Contents (Elt F) → (⟨S50000x64, .f32⟩ : BufTy).Contents (Elt F)),
    binary main_v190 main_v207 main_v208 (addf : (⟨S50000x64, .f32⟩ : BufTy).Contents (Elt F) → (⟨S50000x64, .f32⟩ : BufTy).Contents (Elt F) → (⟨S50000x64, .f32⟩ : BufTy).Contents (Elt F)),
    unary main_v150 main_v209 (broadcastInDim S50000x64 ![0, 1] bcast_S50000x1_S50000x64_0_1 : (⟨S50000x1, .f32⟩ : BufTy).Contents (Elt F) → (⟨S50000x64, .f32⟩ : BufTy).Contents (Elt F)),
    binary main_v205 main_v209 main_v210 (mulf : (⟨S50000x64, .f32⟩ : BufTy).Contents (Elt F) → (⟨S50000x64, .f32⟩ : BufTy).Contents (Elt F) → (⟨S50000x64, .f32⟩ : BufTy).Contents (Elt F)),
    nullary main_c_51 (constantI S_ 32 0#32),
    unary main_c_51 main_v211 (broadcastInDim S800000 ![] bcast_S_S800000 : (⟨S_, .i32⟩ : BufTy).Contents (Elt F) → (⟨S800000, .i32⟩ : BufTy).Contents (Elt F)),
    binary main_arg4 main_v211 main_v212 (cmpi .slt : (⟨S800000, .i32⟩ : BufTy).Contents (Elt F) → (⟨S800000, .i32⟩ : BufTy).Contents (Elt F) → (⟨S800000, .i1⟩ : BufTy).Contents (Elt F)),
    nullary main_c_52 (constantI S_ 32 50000#32),
    unary main_c_52 main_v213 (broadcastInDim S800000 ![] bcast_S_S800000 : (⟨S_, .i32⟩ : BufTy).Contents (Elt F) → (⟨S800000, .i32⟩ : BufTy).Contents (Elt F)),
    binary main_arg4 main_v213 main_v214 (addi : (⟨S800000, .i32⟩ : BufTy).Contents (Elt F) → (⟨S800000, .i32⟩ : BufTy).Contents (Elt F) → (⟨S800000, .i32⟩ : BufTy).Contents (Elt F)),
    ternary main_v212 main_v214 main_arg4 main_v215 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v215 main_v216 (broadcastInDim S800000x1 ![0] bcast_S800000_S800000x1_0 : (⟨S800000, .i32⟩ : BufTy).Contents (Elt F) → (⟨S800000x1, .i32⟩ : BufTy).Contents (Elt F)),
    binary main_v210 main_v216 main_v217 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_53 (constant S_ .f32 0x00000000#32),
    unary main_cst_53 main_v218 (broadcastInDim S50000x64 ![] bcast_S_S50000x64 : (⟨S_, .f32⟩ : BufTy).Contents (Elt F) → (⟨S50000x64, .f32⟩ : BufTy).Contents (Elt F)),
    unary main_arg5 main_v219 (broadcastInDim S800000x1 ![0] bcast_S800000_S800000x1_0 : (⟨S800000, .i32⟩ : BufTy).Contents (Elt F) → (⟨S800000x1, .i32⟩ : BufTy).Contents (Elt F)),
    ternary main_v218 main_v219 main_v217 main_v220 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v150 main_v221 (broadcastInDim S50000x64 ![0, 1] bcast_S50000x1_S50000x64_0_1 : (⟨S50000x1, .f32⟩ : BufTy).Contents (Elt F) → (⟨S50000x64, .f32⟩ : BufTy).Contents (Elt F)),
    binary main_v220 main_v221 main_v222 (mulf : (⟨S50000x64, .f32⟩ : BufTy).Contents (Elt F) → (⟨S50000x64, .f32⟩ : BufTy).Contents (Elt F) → (⟨S50000x64, .f32⟩ : BufTy).Contents (Elt F)),
    binary main_v205 main_v222 main_v223 (subf : (⟨S50000x64, .f32⟩ : BufTy).Contents (Elt F) → (⟨S50000x64, .f32⟩ : BufTy).Contents (Elt F) → (⟨S50000x64, .f32⟩ : BufTy).Contents (Elt F)),
    nullary main_cst_54 (constant S_ .f32 0x40800000#32),
    unary main_cst_54 main_v224 (broadcastInDim S50000x64 ![] bcast_S_S50000x64 : (⟨S_, .f32⟩ : BufTy).Contents (Elt F) → (⟨S50000x64, .f32⟩ : BufTy).Contents (Elt F)),
    binary main_v224 main_v223 main_v225 (mulf : (⟨S50000x64, .f32⟩ : BufTy).Contents (Elt F) → (⟨S50000x64, .f32⟩ : BufTy).Contents (Elt F) → (⟨S50000x64, .f32⟩ : BufTy).Contents (Elt F)),
    binary main_v208 main_v225 main_v226 (addf : (⟨S50000x64, .f32⟩ : BufTy).Contents (Elt F) → (⟨S50000x64, .f32⟩ : BufTy).Contents (Elt F) → (⟨S50000x64, .f32⟩ : BufTy).Contents (Elt F)) ]
/-- The references stretch 8 writes. -/
abbrev W8 : List (Ref sig .tc) := [main_cst_46, main_v189, main_v190, main_v191, main_v192, main_c_47, main_v193, main_v194, main_c_48, main_v195, main_v196, main_v197, main_v198, main_v199, main_cst_49, main_v200, main_v201, main_v202, main_v203, main_v204, main_v205, main_cst_50, main_v206, main_v207, main_v208, main_v209, main_v210, main_c_51, main_v211, main_v212, main_c_52, main_v213, main_v214, main_v215, main_v216, main_v217, main_cst_53, main_v218, main_v219, main_v220, main_v221, main_v222, main_v223, main_cst_54, main_v224, main_v225, main_v226]
theorem c8_writes : (c8 : List (HloOp τ sig (Elt F))).Forall fun op => op.writes ⊆ (W8.map (Proc.devRef (τ := τ) .tc)).toFinset :=
  ⟨wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide)⟩
/-- A reference stretch 8 does not write keeps its contents. -/
theorem carry8 (V : Valuation τ sig (Elt F)) {r : Ref sig .tc} (hr : r ∉ W8) :
    StableHlo.after c8 V (Proc.devRef .tc r) = V (Proc.devRef .tc r) :=
  StableHlo.after_of_writes_sub c8 V c8_writes hr

/-- Stretch 9: operations 292 to 338 of the line. -/
abbrev c9 : List (HloOp τ sig (Elt F)) :=
  [ nullary main_cst_55 (constant S_ .f32 0x40800000#32),
    unary main_cst_55 main_v227 (broadcastInDim S50000x64 ![] bcast_S_S50000x64 : (⟨S_, .f32⟩ : BufTy).Contents (Elt F) → (⟨S50000x64, .f32⟩ : BufTy).Contents (Elt F)),
    binary main_v227 main_v137 main_v228 (mulf : (⟨S50000x64, .f32⟩ : BufTy).Contents (Elt F) → (⟨S50000x64, .f32⟩ : BufTy).Contents (Elt F) → (⟨S50000x64, .f32⟩ : BufTy).Contents (Elt F)),
    unary main_v150 main_v229 (broadcastInDim S50000x64 ![0, 1] bcast_S50000x1_S50000x64_0_1 : (⟨S50000x1, .f32⟩ : BufTy).Contents (Elt F) → (⟨S50000x64, .f32⟩ : BufTy).Contents (Elt F)),
    binary main_v137 main_v229 main_v230 (mulf : (⟨S50000x64, .f32⟩ : BufTy).Contents (Elt F) → (⟨S50000x64, .f32⟩ : BufTy).Contents (Elt F) → (⟨S50000x64, .f32⟩ : BufTy).Contents (Elt F)),
    nullary main_c_56 (constantI S_ 32 0#32),
    unary main_c_56 main_v231 (broadcastInDim S800000 ![] bcast_S_S800000 : (⟨S_, .i32⟩ : BufTy).Contents (Elt F) → (⟨S800000, .i32⟩ : BufTy).Contents (Elt F)),
    binary main_arg4 main_v231 main_v232 (cmpi .slt : (⟨S800000, .i32⟩ : BufTy).Contents (Elt F) → (⟨S800000, .i32⟩ : BufTy).Contents (Elt F) → (⟨S800000, .i1⟩ : BufTy).Contents (Elt F)),
    nullary main_c_57 (constantI S_ 32 50000#32),
    unary main_c_57 main_v233 (broadcastInDim S800000 ![] bcast_S_S800000 : (⟨S_, .i32⟩ : BufTy).Contents (Elt F) → (⟨S800000, .i32⟩ : BufTy).Contents (Elt F)),
    binary main_arg4 main_v233 main_v234 (addi : (⟨S800000, .i32⟩ : BufTy).Contents (Elt F) → (⟨S800000, .i32⟩ : BufTy).Contents (Elt F) → (⟨S800000, .i32⟩ : BufTy).Contents (Elt F)),
    ternary main_v232 main_v234 main_arg4 main_v235 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v235 main_v236 (broadcastInDim S800000x1 ![0] bcast_S800000_S800000x1_0 : (⟨S800000, .i32⟩ : BufTy).Contents (Elt F) → (⟨S800000x1, .i32⟩ : BufTy).Contents (Elt F)),
    binary main_v230 main_v236 main_v237 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_58 (constant S_ .f32 0x00000000#32),
    unary main_cst_58 main_v238 (broadcastInDim S50000x64 ![] bcast_S_S50000x64 : (⟨S_, .f32⟩ : BufTy).Contents (Elt F) → (⟨S50000x64, .f32⟩ : BufTy).Contents (Elt F)),
    unary main_arg5 main_v239 (broadcastInDim S800000x1 ![0] bcast_S800000_S800000x1_0 : (⟨S800000, .i32⟩ : BufTy).Contents (Elt F) → (⟨S800000x1, .i32⟩ : BufTy).Contents (Elt F)),
    ternary main_v238 main_v239 main_v237 main_v240 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v150 main_v241 (broadcastInDim S50000x64 ![0, 1] bcast_S50000x1_S50000x64_0_1 : (⟨S50000x1, .f32⟩ : BufTy).Contents (Elt F) → (⟨S50000x64, .f32⟩ : BufTy).Contents (Elt F)),
    binary main_v240 main_v241 main_v242 (mulf : (⟨S50000x64, .f32⟩ : BufTy).Contents (Elt F) → (⟨S50000x64, .f32⟩ : BufTy).Contents (Elt F) → (⟨S50000x64, .f32⟩ : BufTy).Contents (Elt F)),
    binary main_v137 main_v242 main_v243 (subf : (⟨S50000x64, .f32⟩ : BufTy).Contents (Elt F) → (⟨S50000x64, .f32⟩ : BufTy).Contents (Elt F) → (⟨S50000x64, .f32⟩ : BufTy).Contents (Elt F)),
    nullary main_cst_59 (constant S_ .f32 0x40800000#32),
    unary main_cst_59 main_v244 (broadcastInDim S50000x64 ![] bcast_S_S50000x64 : (⟨S_, .f32⟩ : BufTy).Contents (Elt F) → (⟨S50000x64, .f32⟩ : BufTy).Contents (Elt F)),
    binary main_v244 main_v243 main_v245 (mulf : (⟨S50000x64, .f32⟩ : BufTy).Contents (Elt F) → (⟨S50000x64, .f32⟩ : BufTy).Contents (Elt F) → (⟨S50000x64, .f32⟩ : BufTy).Contents (Elt F)),
    binary main_v228 main_v245 main_v246 (addf : (⟨S50000x64, .f32⟩ : BufTy).Contents (Elt F) → (⟨S50000x64, .f32⟩ : BufTy).Contents (Elt F) → (⟨S50000x64, .f32⟩ : BufTy).Contents (Elt F)),
    unary main_v150 main_v247 (broadcastInDim S50000x64 ![0, 1] bcast_S50000x1_S50000x64_0_1 : (⟨S50000x1, .f32⟩ : BufTy).Contents (Elt F) → (⟨S50000x64, .f32⟩ : BufTy).Contents (Elt F)),
    binary main_v243 main_v247 main_v248 (mulf : (⟨S50000x64, .f32⟩ : BufTy).Contents (Elt F) → (⟨S50000x64, .f32⟩ : BufTy).Contents (Elt F) → (⟨S50000x64, .f32⟩ : BufTy).Contents (Elt F)),
    nullary main_c_60 (constantI S_ 32 0#32),
    unary main_c_60 main_v249 (broadcastInDim S800000 ![] bcast_S_S800000 : (⟨S_, .i32⟩ : BufTy).Contents (Elt F) → (⟨S800000, .i32⟩ : BufTy).Contents (Elt F)),
    binary main_arg4 main_v249 main_v250 (cmpi .slt : (⟨S800000, .i32⟩ : BufTy).Contents (Elt F) → (⟨S800000, .i32⟩ : BufTy).Contents (Elt F) → (⟨S800000, .i1⟩ : BufTy).Contents (Elt F)),
    nullary main_c_61 (constantI S_ 32 50000#32),
    unary main_c_61 main_v251 (broadcastInDim S800000 ![] bcast_S_S800000 : (⟨S_, .i32⟩ : BufTy).Contents (Elt F) → (⟨S800000, .i32⟩ : BufTy).Contents (Elt F)),
    binary main_arg4 main_v251 main_v252 (addi : (⟨S800000, .i32⟩ : BufTy).Contents (Elt F) → (⟨S800000, .i32⟩ : BufTy).Contents (Elt F) → (⟨S800000, .i32⟩ : BufTy).Contents (Elt F)),
    ternary main_v250 main_v252 main_arg4 main_v253 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v253 main_v254 (broadcastInDim S800000x1 ![0] bcast_S800000_S800000x1_0 : (⟨S800000, .i32⟩ : BufTy).Contents (Elt F) → (⟨S800000x1, .i32⟩ : BufTy).Contents (Elt F)),
    binary main_v248 main_v254 main_v255 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_62 (constant S_ .f32 0x00000000#32),
    unary main_cst_62 main_v256 (broadcastInDim S50000x64 ![] bcast_S_S50000x64 : (⟨S_, .f32⟩ : BufTy).Contents (Elt F) → (⟨S50000x64, .f32⟩ : BufTy).Contents (Elt F)),
    unary main_arg5 main_v257 (broadcastInDim S800000x1 ![0] bcast_S800000_S800000x1_0 : (⟨S800000, .i32⟩ : BufTy).Contents (Elt F) → (⟨S800000x1, .i32⟩ : BufTy).Contents (Elt F)),
    ternary main_v256 main_v257 main_v255 main_v258 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v150 main_v259 (broadcastInDim S50000x64 ![0, 1] bcast_S50000x1_S50000x64_0_1 : (⟨S50000x1, .f32⟩ : BufTy).Contents (Elt F) → (⟨S50000x64, .f32⟩ : BufTy).Contents (Elt F)),
    binary main_v258 main_v259 main_v260 (mulf : (⟨S50000x64, .f32⟩ : BufTy).Contents (Elt F) → (⟨S50000x64, .f32⟩ : BufTy).Contents (Elt F) → (⟨S50000x64, .f32⟩ : BufTy).Contents (Elt F)),
    binary main_v243 main_v260 main_v261 (subf : (⟨S50000x64, .f32⟩ : BufTy).Contents (Elt F) → (⟨S50000x64, .f32⟩ : BufTy).Contents (Elt F) → (⟨S50000x64, .f32⟩ : BufTy).Contents (Elt F)),
    nullary main_cst_63 (constant S_ .f32 0x40800000#32),
    unary main_cst_63 main_v262 (broadcastInDim S50000x64 ![] bcast_S_S50000x64 : (⟨S_, .f32⟩ : BufTy).Contents (Elt F) → (⟨S50000x64, .f32⟩ : BufTy).Contents (Elt F)),
    binary main_v262 main_v261 main_v263 (mulf : (⟨S50000x64, .f32⟩ : BufTy).Contents (Elt F) → (⟨S50000x64, .f32⟩ : BufTy).Contents (Elt F) → (⟨S50000x64, .f32⟩ : BufTy).Contents (Elt F)),
    binary main_v246 main_v263 main_v264 (addf : (⟨S50000x64, .f32⟩ : BufTy).Contents (Elt F) → (⟨S50000x64, .f32⟩ : BufTy).Contents (Elt F) → (⟨S50000x64, .f32⟩ : BufTy).Contents (Elt F)) ]
/-- The references stretch 9 writes. -/
abbrev W9 : List (Ref sig .tc) := [main_cst_55, main_v227, main_v228, main_v229, main_v230, main_c_56, main_v231, main_v232, main_c_57, main_v233, main_v234, main_v235, main_v236, main_v237, main_cst_58, main_v238, main_v239, main_v240, main_v241, main_v242, main_v243, main_cst_59, main_v244, main_v245, main_v246, main_v247, main_v248, main_c_60, main_v249, main_v250, main_c_61, main_v251, main_v252, main_v253, main_v254, main_v255, main_cst_62, main_v256, main_v257, main_v258, main_v259, main_v260, main_v261, main_cst_63, main_v262, main_v263, main_v264]
theorem c9_writes : (c9 : List (HloOp τ sig (Elt F))).Forall fun op => op.writes ⊆ (W9.map (Proc.devRef (τ := τ) .tc)).toFinset :=
  ⟨wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide), wr_sub (by decide)⟩
/-- A reference stretch 9 does not write keeps its contents. -/
theorem carry9 (V : Valuation τ sig (Elt F)) {r : Ref sig .tc} (hr : r ∉ W9) :
    StableHlo.after c9 V (Proc.devRef .tc r) = V (Proc.devRef .tc r) :=
  StableHlo.after_of_writes_sub c9 V c9_writes hr

/-- Stretch 10: operations 339 to 339 of the line. -/
abbrev c10 : List (HloOp τ sig (Elt F)) :=
  [ nary ![main_v188, main_v226, main_v264] main_v265 (fun u => concatenate S50000x192 1 [⟨S50000x64, u 0⟩, ⟨S50000x64, u 1⟩, ⟨S50000x64, u 2⟩] concatenates_S50000x64_S50000x64_S50000x64_S50000x192_d1) ]
/-- The references stretch 10 writes. -/
abbrev W10 : List (Ref sig .tc) := [main_v265]
theorem c10_writes : (c10 : List (HloOp τ sig (Elt F))).Forall fun op => op.writes ⊆ (W10.map (Proc.devRef (τ := τ) .tc)).toFinset :=
  wr_sub (by decide)
/-- A reference stretch 10 does not write keeps its contents. -/
theorem carry10 (V : Valuation τ sig (Elt F)) {r : Ref sig .tc} (hr : r ∉ W10) :
    StableHlo.after c10 V (Proc.devRef .tc r) = V (Proc.devRef .tc r) :=
  StableHlo.after_of_writes_sub c10 V c10_writes hr

/-- Stretch 11: operations 340 to 351 of the line. -/
abbrev c11 : List (HloOp τ sig (Elt F)) :=
  [ binary main_v132 main_v265 main_v266 ((fun a b => concatenate S50000x384 1 [⟨S50000x192, a⟩, ⟨S50000x192, b⟩] concatenates_S50000x192_S50000x192_S50000x384_d1) : (⟨S50000x192, .f32⟩ : BufTy).Contents (Elt F) → (⟨S50000x192, .f32⟩ : BufTy).Contents (Elt F) → (⟨S50000x384, .f32⟩ : BufTy).Contents (Elt F)),
    binary main_v266 main_arg10 main_v267 ((fun l r => Host.dotGeneral dot_S50000x384_S384x64_S50000x64_1_0_0_1_n_n none l r) : (⟨S50000x384, .f32⟩ : BufTy).Contents (Elt F) → (⟨S384x64, .f32⟩ : BufTy).Contents (Elt F) → (⟨S50000x64, .f32⟩ : BufTy).Contents (Elt F)),
    unary main_arg11 main_v268 (broadcastInDim S1x64 ![1] bcast_S64_S1x64_1 : (⟨S64, .f32⟩ : BufTy).Contents (Elt F) → (⟨S1x64, .f32⟩ : BufTy).Contents (Elt F)),
    unary main_v268 main_v269 (broadcastInDim S50000x64 ![0, 1] bcast_S1x64_S50000x64_0_1 : (⟨S1x64, .f32⟩ : BufTy).Contents (Elt F) → (⟨S50000x64, .f32⟩ : BufTy).Contents (Elt F)),
    binary main_v267 main_v269 main_v270 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x64, .f32⟩) main_call4_v0) (broadcastInDim S50000x64 ![] bcast_S_S50000x64),
    TRef.binary (TRef.of (T := ⟨S50000x64, .f32⟩) main_v270) (TRef.of (T := ⟨S50000x64, .f32⟩) main_call4_v0) (TRef.of (T := ⟨S50000x64, .f32⟩) main_v271) maximumf,
    binary main_v271 main_arg12 main_v272 ((fun l r => Host.dotGeneral dot_S50000x64_S64x2_S50000x2_1_0_0_1_n_n none l r) : (⟨S50000x64, .f32⟩ : BufTy).Contents (Elt F) → (⟨S64x2, .f32⟩ : BufTy).Contents (Elt F) → (⟨S50000x2, .f32⟩ : BufTy).Contents (Elt F)),
    unary main_arg13 main_v273 (broadcastInDim S1x2 ![1] bcast_S2_S1x2_1 : (⟨S2, .f32⟩ : BufTy).Contents (Elt F) → (⟨S1x2, .f32⟩ : BufTy).Contents (Elt F)),
    unary main_v273 main_v274 (broadcastInDim S50000x2 ![0, 1] bcast_S1x2_S50000x2_0_1 : (⟨S1x2, .f32⟩ : BufTy).Contents (Elt F) → (⟨S50000x2, .f32⟩ : BufTy).Contents (Elt F)),
    binary main_v272 main_v274 main_v275 (addf : (⟨S50000x2, .f32⟩ : BufTy).Contents (Elt F) → (⟨S50000x2, .f32⟩ : BufTy).Contents (Elt F) → (⟨S50000x2, .f32⟩ : BufTy).Contents (Elt F)) ]
/-- The references stretch 11 writes. -/
abbrev W11 : List (Ref sig .tc) := [main_v266, main_v267, main_v268, main_v269, main_v270, main_call4_cst, main_call4_v0, main_v271, main_v272, main_v273, main_v274, main_v275]
theorem c11_writes : (c11 : List (HloOp τ sig (Elt F))).Forall fun op => op.writes ⊆ (W11.map (Proc.devRef (τ := τ) .tc)).toFinset :=
  ⟨wr_sub (by decide), wr_sub (by decide), wr_sub (by decide), wr_sub (by decide), wr_sub (by decide), wr_sub (by decide), wr_sub (by decide), wr_sub (by decide), wr_sub (by decide), wr_sub (by decide), wr_sub (by decide), wr_sub (by decide)⟩
/-- A reference stretch 11 does not write keeps its contents. -/
theorem carry11 (V : Valuation τ sig (Elt F)) {r : Ref sig .tc} (hr : r ∉ W11) :
    StableHlo.after c11 V (Proc.devRef .tc r) = V (Proc.devRef .tc r) :=
  StableHlo.after_of_writes_sub c11 V c11_writes hr

/-! ## The contents after the first k stretches -/
abbrev run1 (V : Valuation τ sig (Elt F)) : Valuation τ sig (Elt F) := StableHlo.after c1 V
abbrev run2 (V : Valuation τ sig (Elt F)) : Valuation τ sig (Elt F) := StableHlo.after c2 (run1 V)
abbrev run3 (V : Valuation τ sig (Elt F)) : Valuation τ sig (Elt F) := StableHlo.after c3 (run2 V)
abbrev run4 (V : Valuation τ sig (Elt F)) : Valuation τ sig (Elt F) := StableHlo.after c4 (run3 V)
abbrev run5 (V : Valuation τ sig (Elt F)) : Valuation τ sig (Elt F) := StableHlo.after c5 (run4 V)
abbrev run6 (V : Valuation τ sig (Elt F)) : Valuation τ sig (Elt F) := StableHlo.after c6 (run5 V)
abbrev run7 (V : Valuation τ sig (Elt F)) : Valuation τ sig (Elt F) := StableHlo.after c7 (run6 V)
abbrev run8 (V : Valuation τ sig (Elt F)) : Valuation τ sig (Elt F) := StableHlo.after c8 (run7 V)
abbrev run9 (V : Valuation τ sig (Elt F)) : Valuation τ sig (Elt F) := StableHlo.after c9 (run8 V)
abbrev run10 (V : Valuation τ sig (Elt F)) : Valuation τ sig (Elt F) := StableHlo.after c10 (run9 V)
abbrev run11 (V : Valuation τ sig (Elt F)) : Valuation τ sig (Elt F) := StableHlo.after c11 (run10 V)

/-- The whole line is the eleven stretches in order. -/
theorem ops_eq : (ValueP.ops : List (HloOp τ sig (Elt F))) = c1 ++ (c2 ++ (c3 ++ (c4 ++ (c5 ++ (c6 ++ (c7 ++ (c8 ++ (c9 ++ (c10 ++ c11))))))))) := rfl

/-- The fold over the whole line is the fold over the stretches in turn. -/
theorem after_ops (V : Valuation τ sig (Elt F)) : StableHlo.after ValueP.ops V = run11 V := by
  rw [ops_eq]; simp only [after_append]

/-! ## A reference no stretch so far writes keeps its launch contents -/
theorem keep1 (V : Valuation τ sig (Elt F)) {r : Ref sig .tc} (h1 : r ∉ W1) :
    run1 V (Proc.devRef .tc r) = V (Proc.devRef .tc r) :=
  (carry1 _ h1)
theorem keep2 (V : Valuation τ sig (Elt F)) {r : Ref sig .tc} (h1 : r ∉ W1) (h2 : r ∉ W2) :
    run2 V (Proc.devRef .tc r) = V (Proc.devRef .tc r) :=
  (carry2 _ h2).trans (keep1 V h1)
theorem keep3 (V : Valuation τ sig (Elt F)) {r : Ref sig .tc} (h1 : r ∉ W1) (h2 : r ∉ W2) (h3 : r ∉ W3) :
    run3 V (Proc.devRef .tc r) = V (Proc.devRef .tc r) :=
  (carry3 _ h3).trans (keep2 V h1 h2)
theorem keep4 (V : Valuation τ sig (Elt F)) {r : Ref sig .tc} (h1 : r ∉ W1) (h2 : r ∉ W2) (h3 : r ∉ W3) (h4 : r ∉ W4) :
    run4 V (Proc.devRef .tc r) = V (Proc.devRef .tc r) :=
  (carry4 _ h4).trans (keep3 V h1 h2 h3)
theorem keep5 (V : Valuation τ sig (Elt F)) {r : Ref sig .tc} (h1 : r ∉ W1) (h2 : r ∉ W2) (h3 : r ∉ W3) (h4 : r ∉ W4) (h5 : r ∉ W5) :
    run5 V (Proc.devRef .tc r) = V (Proc.devRef .tc r) :=
  (carry5 _ h5).trans (keep4 V h1 h2 h3 h4)
theorem keep6 (V : Valuation τ sig (Elt F)) {r : Ref sig .tc} (h1 : r ∉ W1) (h2 : r ∉ W2) (h3 : r ∉ W3) (h4 : r ∉ W4) (h5 : r ∉ W5) (h6 : r ∉ W6) :
    run6 V (Proc.devRef .tc r) = V (Proc.devRef .tc r) :=
  (carry6 _ h6).trans (keep5 V h1 h2 h3 h4 h5)
theorem keep7 (V : Valuation τ sig (Elt F)) {r : Ref sig .tc} (h1 : r ∉ W1) (h2 : r ∉ W2) (h3 : r ∉ W3) (h4 : r ∉ W4) (h5 : r ∉ W5) (h6 : r ∉ W6) (h7 : r ∉ W7) :
    run7 V (Proc.devRef .tc r) = V (Proc.devRef .tc r) :=
  (carry7 _ h7).trans (keep6 V h1 h2 h3 h4 h5 h6)
theorem keep8 (V : Valuation τ sig (Elt F)) {r : Ref sig .tc} (h1 : r ∉ W1) (h2 : r ∉ W2) (h3 : r ∉ W3) (h4 : r ∉ W4) (h5 : r ∉ W5) (h6 : r ∉ W6) (h7 : r ∉ W7) (h8 : r ∉ W8) :
    run8 V (Proc.devRef .tc r) = V (Proc.devRef .tc r) :=
  (carry8 _ h8).trans (keep7 V h1 h2 h3 h4 h5 h6 h7)
theorem keep9 (V : Valuation τ sig (Elt F)) {r : Ref sig .tc} (h1 : r ∉ W1) (h2 : r ∉ W2) (h3 : r ∉ W3) (h4 : r ∉ W4) (h5 : r ∉ W5) (h6 : r ∉ W6) (h7 : r ∉ W7) (h8 : r ∉ W8) (h9 : r ∉ W9) :
    run9 V (Proc.devRef .tc r) = V (Proc.devRef .tc r) :=
  (carry9 _ h9).trans (keep8 V h1 h2 h3 h4 h5 h6 h7 h8)
theorem keep10 (V : Valuation τ sig (Elt F)) {r : Ref sig .tc} (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) :
    run10 V (Proc.devRef .tc r) = V (Proc.devRef .tc r) :=
  (carry10 _ h10).trans (keep9 V h1 h2 h3 h4 h5 h6 h7 h8 h9)
theorem keep11 (V : Valuation τ sig (Elt F)) {r : Ref sig .tc} (h1 : r ∉ W1) (h2 : r ∉ W2) (h3 : r ∉ W3) (h4 : r ∉ W4) (h5 : r ∉ W5) (h6 : r ∉ W6) (h7 : r ∉ W7) (h8 : r ∉ W8) (h9 : r ∉ W9) (h10 : r ∉ W10) (h11 : r ∉ W11) :
    run11 V (Proc.devRef .tc r) = V (Proc.devRef .tc r) :=
  (carry11 _ h11).trans (keep10 V h1 h2 h3 h4 h5 h6 h7 h8 h9 h10)

end Cert.ReferenceIdeal.RunH

end
-- ==== Proof.RefRunH.lean ====
/-
  The reference's run, second part: the buffers each stretch leaves hold the named stages of the reference, and so the
  run ends with the two results at the stages %266 and %275 of the launch contents of @main's arguments, the arguments
  unchanged.
-/
import proofs.«134461_j6124623364543_2_alg».proof.Proof.RefRunH1

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-! # The reference's run read back at the named stages

## One stretch at a time

From contents `W` in which the buffers a stretch reads hold the stages they should (and the arguments any values
`a`), the buffer the stretch leaves for later ones holds its stage: the fold of the stretch's operations composes the
very operations the stage's definition names, one by one. -/

theorem st1_v4 (W : Valuation τ sig (Elt F)) (a0 : (⟨S50000x128, .f32⟩ : BufTy).Contents (Elt F)) (a6 : (⟨S128x64, .f32⟩ : BufTy).Contents (Elt F)) (a7 : (⟨S64, .f32⟩ : BufTy).Contents (Elt F))
     (e0 : W (Proc.devRef .tc main_arg0) = a0) (e6 : W (Proc.devRef .tc main_arg6) = a6) (e7 : W (Proc.devRef .tc main_arg7) = a7) :
    StableHlo.after c1 W (Proc.devRef .tc main_v4) = ReadP.val_main_v4 (F := F) a0 a6 a7 := by
  subst e0 e6 e7
  dsimp only [c1]; after_results_simp
  rfl
theorem st1_v17 (W : Valuation τ sig (Elt F)) (a3 : (⟨S800000, .i32⟩ : BufTy).Contents (Elt F))
     (e3 : W (Proc.devRef .tc main_arg3) = a3) :
    StableHlo.after c1 W (Proc.devRef .tc main_v17) = ReadP.val_main_v17 (F := F) a3 := by
  subst e3
  dsimp only [c1]; after_results_simp
  rfl
theorem st2 (W : Valuation τ sig (Elt F)) (a0 : (⟨S50000x128, .f32⟩ : BufTy).Contents (Elt F)) (a2 : (⟨S800000, .i32⟩ : BufTy).Contents (Elt F)) (a3 : (⟨S800000, .i32⟩ : BufTy).Contents (Elt F)) (a6 : (⟨S128x64, .f32⟩ : BufTy).Contents (Elt F)) (a7 : (⟨S64, .f32⟩ : BufTy).Contents (Elt F))
    (hv4 : W (Proc.devRef .tc main_v4) = ReadP.val_main_v4 (F := F) a0 a6 a7) (hv17 : W (Proc.devRef .tc main_v17) = ReadP.val_main_v17 (F := F) a3) (e2 : W (Proc.devRef .tc main_arg2) = a2) (e3 : W (Proc.devRef .tc main_arg3) = a3) :
    StableHlo.after c2 W (Proc.devRef .tc main_v55) = ReadP.val_main_v55 (F := F) a0 a2 a3 a6 a7 := by
  subst e2 e3
  dsimp only [c2]; after_results_simp
  rw [hv4, hv17]
  rfl
theorem st3 (W : Valuation τ sig (Elt F)) (a0 : (⟨S50000x128, .f32⟩ : BufTy).Contents (Elt F)) (a2 : (⟨S800000, .i32⟩ : BufTy).Contents (Elt F)) (a3 : (⟨S800000, .i32⟩ : BufTy).Contents (Elt F)) (a6 : (⟨S128x64, .f32⟩ : BufTy).Contents (Elt F)) (a7 : (⟨S64, .f32⟩ : BufTy).Contents (Elt F))
    (hv4 : W (Proc.devRef .tc main_v4) = ReadP.val_main_v4 (F := F) a0 a6 a7) (hv17 : W (Proc.devRef .tc main_v17) = ReadP.val_main_v17 (F := F) a3) (e2 : W (Proc.devRef .tc main_arg2) = a2) (e3 : W (Proc.devRef .tc main_arg3) = a3) :
    StableHlo.after c3 W (Proc.devRef .tc main_v93) = ReadP.val_main_v93 (F := F) a0 a2 a3 a6 a7 := by
  subst e2 e3
  dsimp only [c3]; after_results_simp
  rw [hv4, hv17]
  rfl
theorem st4 (W : Valuation τ sig (Elt F)) (a0 : (⟨S50000x128, .f32⟩ : BufTy).Contents (Elt F)) (a2 : (⟨S800000, .i32⟩ : BufTy).Contents (Elt F)) (a3 : (⟨S800000, .i32⟩ : BufTy).Contents (Elt F)) (a6 : (⟨S128x64, .f32⟩ : BufTy).Contents (Elt F)) (a7 : (⟨S64, .f32⟩ : BufTy).Contents (Elt F))
    (hv4 : W (Proc.devRef .tc main_v4) = ReadP.val_main_v4 (F := F) a0 a6 a7) (hv17 : W (Proc.devRef .tc main_v17) = ReadP.val_main_v17 (F := F) a3) (e2 : W (Proc.devRef .tc main_arg2) = a2) (e3 : W (Proc.devRef .tc main_arg3) = a3) :
    StableHlo.after c4 W (Proc.devRef .tc main_v131) = ReadP.val_main_v131 (F := F) a0 a2 a3 a6 a7 := by
  subst e2 e3
  dsimp only [c4]; after_results_simp
  rw [hv4, hv17]
  rfl
theorem st5 (W : Valuation τ sig (Elt F)) (a0 : (⟨S50000x128, .f32⟩ : BufTy).Contents (Elt F)) (a2 : (⟨S800000, .i32⟩ : BufTy).Contents (Elt F)) (a3 : (⟨S800000, .i32⟩ : BufTy).Contents (Elt F)) (a6 : (⟨S128x64, .f32⟩ : BufTy).Contents (Elt F)) (a7 : (⟨S64, .f32⟩ : BufTy).Contents (Elt F))
    (hv55 : W (Proc.devRef .tc main_v55) = ReadP.val_main_v55 (F := F) a0 a2 a3 a6 a7) (hv93 : W (Proc.devRef .tc main_v93) = ReadP.val_main_v93 (F := F) a0 a2 a3 a6 a7) (hv131 : W (Proc.devRef .tc main_v131) = ReadP.val_main_v131 (F := F) a0 a2 a3 a6 a7) :
    StableHlo.after c5 W (Proc.devRef .tc main_v132) = ReadP.val_main_v132 (F := F) a0 a2 a3 a6 a7 := by
  refine Eq.trans (?_ : _ = concatenate S50000x192 1 [⟨S50000x64, W (Proc.devRef .tc main_v55)⟩, ⟨S50000x64, W (Proc.devRef .tc main_v93)⟩, ⟨S50000x64, W (Proc.devRef .tc main_v131)⟩]
    concatenates_S50000x64_S50000x64_S50000x64_S50000x192_d1) ?_
  · dsimp only [c5]; after_results_simp <;> rfl
  · rw [hv55, hv93, hv131]; rfl
theorem st6_v137 (W : Valuation τ sig (Elt F)) (a1 : (⟨S50000x128, .f32⟩ : BufTy).Contents (Elt F)) (a8 : (⟨S128x64, .f32⟩ : BufTy).Contents (Elt F)) (a9 : (⟨S64, .f32⟩ : BufTy).Contents (Elt F))
     (e1 : W (Proc.devRef .tc main_arg1) = a1) (e8 : W (Proc.devRef .tc main_arg8) = a8) (e9 : W (Proc.devRef .tc main_arg9) = a9) :
    StableHlo.after c6 W (Proc.devRef .tc main_v137) = ReadP.val_main_v137 (F := F) a1 a8 a9 := by
  subst e1 e8 e9
  dsimp only [c6]; after_results_simp
  rfl
theorem st6_v150 (W : Valuation τ sig (Elt F)) (a5 : (⟨S800000, .i32⟩ : BufTy).Contents (Elt F))
     (e5 : W (Proc.devRef .tc main_arg5) = a5) :
    StableHlo.after c6 W (Proc.devRef .tc main_v150) = ReadP.val_main_v150 (F := F) a5 := by
  subst e5
  dsimp only [c6]; after_results_simp
  rfl
theorem st7 (W : Valuation τ sig (Elt F)) (a1 : (⟨S50000x128, .f32⟩ : BufTy).Contents (Elt F)) (a4 : (⟨S800000, .i32⟩ : BufTy).Contents (Elt F)) (a5 : (⟨S800000, .i32⟩ : BufTy).Contents (Elt F)) (a8 : (⟨S128x64, .f32⟩ : BufTy).Contents (Elt F)) (a9 : (⟨S64, .f32⟩ : BufTy).Contents (Elt F))
    (hv137 : W (Proc.devRef .tc main_v137) = ReadP.val_main_v137 (F := F) a1 a8 a9) (hv150 : W (Proc.devRef .tc main_v150) = ReadP.val_main_v150 (F := F) a5) (e4 : W (Proc.devRef .tc main_arg4) = a4) (e5 : W (Proc.devRef .tc main_arg5) = a5) :
    StableHlo.after c7 W (Proc.devRef .tc main_v188) = ReadP.val_main_v188 (F := F) a1 a4 a5 a8 a9 := by
  subst e4 e5
  dsimp only [c7]; after_results_simp
  rw [hv137, hv150]
  rfl
theorem st8 (W : Valuation τ sig (Elt F)) (a1 : (⟨S50000x128, .f32⟩ : BufTy).Contents (Elt F)) (a4 : (⟨S800000, .i32⟩ : BufTy).Contents (Elt F)) (a5 : (⟨S800000, .i32⟩ : BufTy).Contents (Elt F)) (a8 : (⟨S128x64, .f32⟩ : BufTy).Contents (Elt F)) (a9 : (⟨S64, .f32⟩ : BufTy).Contents (Elt F))
    (hv137 : W (Proc.devRef .tc main_v137) = ReadP.val_main_v137 (F := F) a1 a8 a9) (hv150 : W (Proc.devRef .tc main_v150) = ReadP.val_main_v150 (F := F) a5) (e4 : W (Proc.devRef .tc main_arg4) = a4) (e5 : W (Proc.devRef .tc main_arg5) = a5) :
    StableHlo.after c8 W (Proc.devRef .tc main_v226) = ReadP.val_main_v226 (F := F) a1 a4 a5 a8 a9 := by
  subst e4 e5
  dsimp only [c8]; after_results_simp
  rw [hv137, hv150]
  rfl
theorem st9 (W : Valuation τ sig (Elt F)) (a1 : (⟨S50000x128, .f32⟩ : BufTy).Contents (Elt F)) (a4 : (⟨S800000, .i32⟩ : BufTy).Contents (Elt F)) (a5 : (⟨S800000, .i32⟩ : BufTy).Contents (Elt F)) (a8 : (⟨S128x64, .f32⟩ : BufTy).Contents (Elt F)) (a9 : (⟨S64, .f32⟩ : BufTy).Contents (Elt F))
    (hv137 : W (Proc.devRef .tc main_v137) = ReadP.val_main_v137 (F := F) a1 a8 a9) (hv150 : W (Proc.devRef .tc main_v150) = ReadP.val_main_v150 (F := F) a5) (e4 : W (Proc.devRef .tc main_arg4) = a4) (e5 : W (Proc.devRef .tc main_arg5) = a5) :
    StableHlo.after c9 W (Proc.devRef .tc main_v264) = ReadP.val_main_v264 (F := F) a1 a4 a5 a8 a9 := by
  subst e4 e5
  dsimp only [c9]; after_results_simp
  rw [hv137, hv150]
  rfl
theorem st10 (W : Valuation τ sig (Elt F)) (a1 : (⟨S50000x128, .f32⟩ : BufTy).Contents (Elt F)) (a4 : (⟨S800000, .i32⟩ : BufTy).Contents (Elt F)) (a5 : (⟨S800000, .i32⟩ : BufTy).Contents (Elt F)) (a8 : (⟨S128x64, .f32⟩ : BufTy).Contents (Elt F)) (a9 : (⟨S64, .f32⟩ : BufTy).Contents (Elt F))
    (hv188 : W (Proc.devRef .tc main_v188) = ReadP.val_main_v188 (F := F) a1 a4 a5 a8 a9) (hv226 : W (Proc.devRef .tc main_v226) = ReadP.val_main_v226 (F := F) a1 a4 a5 a8 a9) (hv264 : W (Proc.devRef .tc main_v264) = ReadP.val_main_v264 (F := F) a1 a4 a5 a8 a9) :
    StableHlo.after c10 W (Proc.devRef .tc main_v265) = ReadP.val_main_v265 (F := F) a1 a4 a5 a8 a9 := by
  refine Eq.trans (?_ : _ = concatenate S50000x192 1 [⟨S50000x64, W (Proc.devRef .tc main_v188)⟩, ⟨S50000x64, W (Proc.devRef .tc main_v226)⟩, ⟨S50000x64, W (Proc.devRef .tc main_v264)⟩]
    concatenates_S50000x64_S50000x64_S50000x64_S50000x192_d1) ?_
  · dsimp only [c10]; after_results_simp <;> rfl
  · rw [hv188, hv226, hv264]; rfl
theorem st11_v266 (W : Valuation τ sig (Elt F)) (a0 : (⟨S50000x128, .f32⟩ : BufTy).Contents (Elt F)) (a1 : (⟨S50000x128, .f32⟩ : BufTy).Contents (Elt F)) (a2 : (⟨S800000, .i32⟩ : BufTy).Contents (Elt F)) (a3 : (⟨S800000, .i32⟩ : BufTy).Contents (Elt F)) (a4 : (⟨S800000, .i32⟩ : BufTy).Contents (Elt F)) (a5 : (⟨S800000, .i32⟩ : BufTy).Contents (Elt F)) (a6 : (⟨S128x64, .f32⟩ : BufTy).Contents (Elt F)) (a7 : (⟨S64, .f32⟩ : BufTy).Contents (Elt F)) (a8 : (⟨S128x64, .f32⟩ : BufTy).Contents (Elt F)) (a9 : (⟨S64, .f32⟩ : BufTy).Contents (Elt F))
    (hv132 : W (Proc.devRef .tc main_v132) = ReadP.val_main_v132 (F := F) a0 a2 a3 a6 a7) (hv265 : W (Proc.devRef .tc main_v265) = ReadP.val_main_v265 (F := F) a1 a4 a5 a8 a9)  :
    StableHlo.after c11 W (Proc.devRef .tc main_v266) = ReadP.val_main_v266 (F := F) a0 a1 a2 a3 a4 a5 a6 a7 a8 a9 := by
  dsimp only [c11]; after_results_simp
  rw [hv132, hv265]
  rfl
theorem st11_v275 (W : Valuation τ sig (Elt F)) (a0 : (⟨S50000x128, .f32⟩ : BufTy).Contents (Elt F)) (a1 : (⟨S50000x128, .f32⟩ : BufTy).Contents (Elt F)) (a2 : (⟨S800000, .i32⟩ : BufTy).Contents (Elt F)) (a3 : (⟨S800000, .i32⟩ : BufTy).Contents (Elt F)) (a4 : (⟨S800000, .i32⟩ : BufTy).Contents (Elt F)) (a5 : (⟨S800000, .i32⟩ : BufTy).Contents (Elt F)) (a6 : (⟨S128x64, .f32⟩ : BufTy).Contents (Elt F)) (a7 : (⟨S64, .f32⟩ : BufTy).Contents (Elt F)) (a8 : (⟨S128x64, .f32⟩ : BufTy).Contents (Elt F)) (a9 : (⟨S64, .f32⟩ : BufTy).Contents (Elt F)) (a10 : (⟨S384x64, .f32⟩ : BufTy).Contents (Elt F)) (a11 : (⟨S64, .f32⟩ : BufTy).Contents (Elt F)) (a12 : (⟨S64x2, .f32⟩ : BufTy).Contents (Elt F)) (a13 : (⟨S2, .f32⟩ : BufTy).Contents (Elt F))
    (hv132 : W (Proc.devRef .tc main_v132) = ReadP.val_main_v132 (F := F) a0 a2 a3 a6 a7) (hv265 : W (Proc.devRef .tc main_v265) = ReadP.val_main_v265 (F := F) a1 a4 a5 a8 a9) (e10 : W (Proc.devRef .tc main_arg10) = a10) (e11 : W (Proc.devRef .tc main_arg11) = a11) (e12 : W (Proc.devRef .tc main_arg12) = a12) (e13 : W (Proc.devRef .tc main_arg13) = a13) :
    StableHlo.after c11 W (Proc.devRef .tc main_v275) = ReadP.val_main_v275 (F := F) a0 a1 a2 a3 a4 a5 a6 a7 a8 a9 a10 a11 a12 a13 := by
  subst e10 e11 e12 e13
  dsimp only [c11]; after_results_simp
  rw [hv132, hv265]
  rfl

/-! ## The stretches in turn

After the first k stretches from launch contents `V`, each buffer a later stretch reads holds its stage at `V`'s
contents of @main's arguments: a stretch's own result by the lemma above, an earlier one carried through the
stretches that do not write it. -/

theorem v4_1 (V : Valuation τ sig (Elt F)) :
    run1 V (Proc.devRef .tc main_v4) = ReadP.val_main_v4 (F := F) (V (Proc.devRef .tc main_arg0)) (V (Proc.devRef .tc main_arg6)) (V (Proc.devRef .tc main_arg7)) :=
  st1_v4 V _ _ _  rfl rfl rfl
theorem v17_1 (V : Valuation τ sig (Elt F)) :
    run1 V (Proc.devRef .tc main_v17) = ReadP.val_main_v17 (F := F) (V (Proc.devRef .tc main_arg3)) :=
  st1_v17 V _  rfl
theorem v55_2 (V : Valuation τ sig (Elt F)) :
    run2 V (Proc.devRef .tc main_v55) = ReadP.val_main_v55 (F := F) (V (Proc.devRef .tc main_arg0)) (V (Proc.devRef .tc main_arg2)) (V (Proc.devRef .tc main_arg3)) (V (Proc.devRef .tc main_arg6)) (V (Proc.devRef .tc main_arg7)) :=
  st2 (run1 V) _ _ _ _ _ (v4_1 V) (v17_1 V) (keep1 V (r := main_arg2) (by decide)) (keep1 V (r := main_arg3) (by decide))
theorem v4_2 (V : Valuation τ sig (Elt F)) :
    run2 V (Proc.devRef .tc main_v4) = ReadP.val_main_v4 (F := F) (V (Proc.devRef .tc main_arg0)) (V (Proc.devRef .tc main_arg6)) (V (Proc.devRef .tc main_arg7)) :=
  (carry2 _ (by decide)).trans (v4_1 V)
theorem v17_2 (V : Valuation τ sig (Elt F)) :
    run2 V (Proc.devRef .tc main_v17) = ReadP.val_main_v17 (F := F) (V (Proc.devRef .tc main_arg3)) :=
  (carry2 _ (by decide)).trans (v17_1 V)
theorem v93_3 (V : Valuation τ sig (Elt F)) :
    run3 V (Proc.devRef .tc main_v93) = ReadP.val_main_v93 (F := F) (V (Proc.devRef .tc main_arg0)) (V (Proc.devRef .tc main_arg2)) (V (Proc.devRef .tc main_arg3)) (V (Proc.devRef .tc main_arg6)) (V (Proc.devRef .tc main_arg7)) :=
  st3 (run2 V) _ _ _ _ _ (v4_2 V) (v17_2 V) (keep2 V (r := main_arg2) (by decide) (by decide)) (keep2 V (r := main_arg3) (by decide) (by decide))
theorem v4_3 (V : Valuation τ sig (Elt F)) :
    run3 V (Proc.devRef .tc main_v4) = ReadP.val_main_v4 (F := F) (V (Proc.devRef .tc main_arg0)) (V (Proc.devRef .tc main_arg6)) (V (Proc.devRef .tc main_arg7)) :=
  (carry3 _ (by decide)).trans (v4_2 V)
theorem v17_3 (V : Valuation τ sig (Elt F)) :
    run3 V (Proc.devRef .tc main_v17) = ReadP.val_main_v17 (F := F) (V (Proc.devRef .tc main_arg3)) :=
  (carry3 _ (by decide)).trans (v17_2 V)
theorem v55_3 (V : Valuation τ sig (Elt F)) :
    run3 V (Proc.devRef .tc main_v55) = ReadP.val_main_v55 (F := F) (V (Proc.devRef .tc main_arg0)) (V (Proc.devRef .tc main_arg2)) (V (Proc.devRef .tc main_arg3)) (V (Proc.devRef .tc main_arg6)) (V (Proc.devRef .tc main_arg7)) :=
  (carry3 _ (by decide)).trans (v55_2 V)
theorem v131_4 (V : Valuation τ sig (Elt F)) :
    run4 V (Proc.devRef .tc main_v131) = ReadP.val_main_v131 (F := F) (V (Proc.devRef .tc main_arg0)) (V (Proc.devRef .tc main_arg2)) (V (Proc.devRef .tc main_arg3)) (V (Proc.devRef .tc main_arg6)) (V (Proc.devRef .tc main_arg7)) :=
  st4 (run3 V) _ _ _ _ _ (v4_3 V) (v17_3 V) (keep3 V (r := main_arg2) (by decide) (by decide) (by decide)) (keep3 V (r := main_arg3) (by decide) (by decide) (by decide))
theorem v55_4 (V : Valuation τ sig (Elt F)) :
    run4 V (Proc.devRef .tc main_v55) = ReadP.val_main_v55 (F := F) (V (Proc.devRef .tc main_arg0)) (V (Proc.devRef .tc main_arg2)) (V (Proc.devRef .tc main_arg3)) (V (Proc.devRef .tc main_arg6)) (V (Proc.devRef .tc main_arg7)) :=
  (carry4 _ (by decide)).trans (v55_3 V)
theorem v93_4 (V : Valuation τ sig (Elt F)) :
    run4 V (Proc.devRef .tc main_v93) = ReadP.val_main_v93 (F := F) (V (Proc.devRef .tc main_arg0)) (V (Proc.devRef .tc main_arg2)) (V (Proc.devRef .tc main_arg3)) (V (Proc.devRef .tc main_arg6)) (V (Proc.devRef .tc main_arg7)) :=
  (carry4 _ (by decide)).trans (v93_3 V)
theorem v132_5 (V : Valuation τ sig (Elt F)) :
    run5 V (Proc.devRef .tc main_v132) = ReadP.val_main_v132 (F := F) (V (Proc.devRef .tc main_arg0)) (V (Proc.devRef .tc main_arg2)) (V (Proc.devRef .tc main_arg3)) (V (Proc.devRef .tc main_arg6)) (V (Proc.devRef .tc main_arg7)) :=
  st5 (run4 V) _ _ _ _ _ (v55_4 V) (v93_4 V) (v131_4 V)
theorem v137_6 (V : Valuation τ sig (Elt F)) :
    run6 V (Proc.devRef .tc main_v137) = ReadP.val_main_v137 (F := F) (V (Proc.devRef .tc main_arg1)) (V (Proc.devRef .tc main_arg8)) (V (Proc.devRef .tc main_arg9)) :=
  st6_v137 (run5 V) _ _ _  (keep5 V (r := main_arg1) (by decide) (by decide) (by decide) (by decide) (by decide)) (keep5 V (r := main_arg8) (by decide) (by decide) (by decide) (by decide) (by decide)) (keep5 V (r := main_arg9) (by decide) (by decide) (by decide) (by decide) (by decide))
theorem v150_6 (V : Valuation τ sig (Elt F)) :
    run6 V (Proc.devRef .tc main_v150) = ReadP.val_main_v150 (F := F) (V (Proc.devRef .tc main_arg5)) :=
  st6_v150 (run5 V) _  (keep5 V (r := main_arg5) (by decide) (by decide) (by decide) (by decide) (by decide))
theorem v132_6 (V : Valuation τ sig (Elt F)) :
    run6 V (Proc.devRef .tc main_v132) = ReadP.val_main_v132 (F := F) (V (Proc.devRef .tc main_arg0)) (V (Proc.devRef .tc main_arg2)) (V (Proc.devRef .tc main_arg3)) (V (Proc.devRef .tc main_arg6)) (V (Proc.devRef .tc main_arg7)) :=
  (carry6 _ (by decide)).trans (v132_5 V)
theorem v188_7 (V : Valuation τ sig (Elt F)) :
    run7 V (Proc.devRef .tc main_v188) = ReadP.val_main_v188 (F := F) (V (Proc.devRef .tc main_arg1)) (V (Proc.devRef .tc main_arg4)) (V (Proc.devRef .tc main_arg5)) (V (Proc.devRef .tc main_arg8)) (V (Proc.devRef .tc main_arg9)) :=
  st7 (run6 V) _ _ _ _ _ (v137_6 V) (v150_6 V) (keep6 V (r := main_arg4) (by decide) (by decide) (by decide) (by decide) (by decide) (by decide)) (keep6 V (r := main_arg5) (by decide) (by decide) (by decide) (by decide) (by decide) (by decide))
theorem v137_7 (V : Valuation τ sig (Elt F)) :
    run7 V (Proc.devRef .tc main_v137) = ReadP.val_main_v137 (F := F) (V (Proc.devRef .tc main_arg1)) (V (Proc.devRef .tc main_arg8)) (V (Proc.devRef .tc main_arg9)) :=
  (carry7 _ (by decide)).trans (v137_6 V)
theorem v150_7 (V : Valuation τ sig (Elt F)) :
    run7 V (Proc.devRef .tc main_v150) = ReadP.val_main_v150 (F := F) (V (Proc.devRef .tc main_arg5)) :=
  (carry7 _ (by decide)).trans (v150_6 V)
theorem v132_7 (V : Valuation τ sig (Elt F)) :
    run7 V (Proc.devRef .tc main_v132) = ReadP.val_main_v132 (F := F) (V (Proc.devRef .tc main_arg0)) (V (Proc.devRef .tc main_arg2)) (V (Proc.devRef .tc main_arg3)) (V (Proc.devRef .tc main_arg6)) (V (Proc.devRef .tc main_arg7)) :=
  (carry7 _ (by decide)).trans (v132_6 V)
theorem v226_8 (V : Valuation τ sig (Elt F)) :
    run8 V (Proc.devRef .tc main_v226) = ReadP.val_main_v226 (F := F) (V (Proc.devRef .tc main_arg1)) (V (Proc.devRef .tc main_arg4)) (V (Proc.devRef .tc main_arg5)) (V (Proc.devRef .tc main_arg8)) (V (Proc.devRef .tc main_arg9)) :=
  st8 (run7 V) _ _ _ _ _ (v137_7 V) (v150_7 V) (keep7 V (r := main_arg4) (by decide) (by decide) (by decide) (by decide) (by decide) (by decide) (by decide)) (keep7 V (r := main_arg5) (by decide) (by decide) (by decide) (by decide) (by decide) (by decide) (by decide))
theorem v137_8 (V : Valuation τ sig (Elt F)) :
    run8 V (Proc.devRef .tc main_v137) = ReadP.val_main_v137 (F := F) (V (Proc.devRef .tc main_arg1)) (V (Proc.devRef .tc main_arg8)) (V (Proc.devRef .tc main_arg9)) :=
  (carry8 _ (by decide)).trans (v137_7 V)
theorem v150_8 (V : Valuation τ sig (Elt F)) :
    run8 V (Proc.devRef .tc main_v150) = ReadP.val_main_v150 (F := F) (V (Proc.devRef .tc main_arg5)) :=
  (carry8 _ (by decide)).trans (v150_7 V)
theorem v132_8 (V : Valuation τ sig (Elt F)) :
    run8 V (Proc.devRef .tc main_v132) = ReadP.val_main_v132 (F := F) (V (Proc.devRef .tc main_arg0)) (V (Proc.devRef .tc main_arg2)) (V (Proc.devRef .tc main_arg3)) (V (Proc.devRef .tc main_arg6)) (V (Proc.devRef .tc main_arg7)) :=
  (carry8 _ (by decide)).trans (v132_7 V)
theorem v188_8 (V : Valuation τ sig (Elt F)) :
    run8 V (Proc.devRef .tc main_v188) = ReadP.val_main_v188 (F := F) (V (Proc.devRef .tc main_arg1)) (V (Proc.devRef .tc main_arg4)) (V (Proc.devRef .tc main_arg5)) (V (Proc.devRef .tc main_arg8)) (V (Proc.devRef .tc main_arg9)) :=
  (carry8 _ (by decide)).trans (v188_7 V)
theorem v264_9 (V : Valuation τ sig (Elt F)) :
    run9 V (Proc.devRef .tc main_v264) = ReadP.val_main_v264 (F := F) (V (Proc.devRef .tc main_arg1)) (V (Proc.devRef .tc main_arg4)) (V (Proc.devRef .tc main_arg5)) (V (Proc.devRef .tc main_arg8)) (V (Proc.devRef .tc main_arg9)) :=
  st9 (run8 V) _ _ _ _ _ (v137_8 V) (v150_8 V) (keep8 V (r := main_arg4) (by decide) (by decide) (by decide) (by decide) (by decide) (by decide) (by decide) (by decide)) (keep8 V (r := main_arg5) (by decide) (by decide) (by decide) (by decide) (by decide) (by decide) (by decide) (by decide))
theorem v132_9 (V : Valuation τ sig (Elt F)) :
    run9 V (Proc.devRef .tc main_v132) = ReadP.val_main_v132 (F := F) (V (Proc.devRef .tc main_arg0)) (V (Proc.devRef .tc main_arg2)) (V (Proc.devRef .tc main_arg3)) (V (Proc.devRef .tc main_arg6)) (V (Proc.devRef .tc main_arg7)) :=
  (carry9 _ (by decide)).trans (v132_8 V)
theorem v188_9 (V : Valuation τ sig (Elt F)) :
    run9 V (Proc.devRef .tc main_v188) = ReadP.val_main_v188 (F := F) (V (Proc.devRef .tc main_arg1)) (V (Proc.devRef .tc main_arg4)) (V (Proc.devRef .tc main_arg5)) (V (Proc.devRef .tc main_arg8)) (V (Proc.devRef .tc main_arg9)) :=
  (carry9 _ (by decide)).trans (v188_8 V)
theorem v226_9 (V : Valuation τ sig (Elt F)) :
    run9 V (Proc.devRef .tc main_v226) = ReadP.val_main_v226 (F := F) (V (Proc.devRef .tc main_arg1)) (V (Proc.devRef .tc main_arg4)) (V (Proc.devRef .tc main_arg5)) (V (Proc.devRef .tc main_arg8)) (V (Proc.devRef .tc main_arg9)) :=
  (carry9 _ (by decide)).trans (v226_8 V)
theorem v265_10 (V : Valuation τ sig (Elt F)) :
    run10 V (Proc.devRef .tc main_v265) = ReadP.val_main_v265 (F := F) (V (Proc.devRef .tc main_arg1)) (V (Proc.devRef .tc main_arg4)) (V (Proc.devRef .tc main_arg5)) (V (Proc.devRef .tc main_arg8)) (V (Proc.devRef .tc main_arg9)) :=
  st10 (run9 V) _ _ _ _ _ (v188_9 V) (v226_9 V) (v264_9 V)
theorem v132_10 (V : Valuation τ sig (Elt F)) :
    run10 V (Proc.devRef .tc main_v132) = ReadP.val_main_v132 (F := F) (V (Proc.devRef .tc main_arg0)) (V (Proc.devRef .tc main_arg2)) (V (Proc.devRef .tc main_arg3)) (V (Proc.devRef .tc main_arg6)) (V (Proc.devRef .tc main_arg7)) :=
  (carry10 _ (by decide)).trans (v132_9 V)
theorem v266_11 (V : Valuation τ sig (Elt F)) :
    run11 V (Proc.devRef .tc main_v266) = ReadP.val_main_v266 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  st11_v266 (run10 V) _ _ _ _ _ _ _ _ _ _ (v132_10 V) (v265_10 V)
theorem v275_11 (V : Valuation τ sig (Elt F)) :
    run11 V (Proc.devRef .tc main_v275) = ReadP.val_main_v275 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
  st11_v275 (run10 V) _ _ _ _ _ _ _ _ _ _ _ _ _ _ (v132_10 V) (v265_10 V) (keep10 V (r := main_arg10) (by decide) (by decide) (by decide) (by decide) (by decide) (by decide) (by decide) (by decide) (by decide) (by decide)) (keep10 V (r := main_arg11) (by decide) (by decide) (by decide) (by decide) (by decide) (by decide) (by decide) (by decide) (by decide) (by decide)) (keep10 V (r := main_arg12) (by decide) (by decide) (by decide) (by decide) (by decide) (by decide) (by decide) (by decide) (by decide) (by decide)) (keep10 V (r := main_arg13) (by decide) (by decide) (by decide) (by decide) (by decide) (by decide) (by decide) (by decide) (by decide) (by decide))

/-! ## The run -/

/-- A reference the line never writes keeps its launch contents through the whole line. -/
theorem keeps (V : Valuation τ sig (Elt F)) {r : Ref sig .tc} (h1 : r ∉ W1) (h2 : r ∉ W2) (h3 : r ∉ W3) (h4 : r ∉ W4) (h5 : r ∉ W5)
    (h6 : r ∉ W6) (h7 : r ∉ W7) (h8 : r ∉ W8) (h9 : r ∉ W9) (h10 : r ∉ W10) (h11 : r ∉ W11) :
    StableHlo.after ValueP.ops V (Proc.devRef .tc r) = V (Proc.devRef .tc r) :=
  (congrFun (after_ops V) _).trans (keep11 V h1 h2 h3 h4 h5 h6 h7 h8 h9 h10 h11)
/-- The first result's buffer after the whole line: the stage %266 at the launch contents of the arguments. -/
theorem out0 (V : Valuation τ sig (Elt F)) :
    StableHlo.after ValueP.ops V (Proc.devRef .tc main_v266) = ReadP.val_main_v266 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (congrFun (after_ops V) _).trans (v266_11 V)
/-- The second result's buffer after the whole line: the stage %275 at the launch contents of the arguments. -/
theorem out1 (V : Valuation τ sig (Elt F)) :
    StableHlo.after ValueP.ops V (Proc.devRef .tc main_v275) = ReadP.val_main_v275 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
  (congrFun (after_ops V) _).trans (v275_11 V)

/-- On every device, for any float values, from any memory with zero counters: every weakly fair execution of
    @main terminates with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v266) = ReadP.val_main_v266 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v275) = ReadP.val_main_v275 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v266).trans (out0 _), (h c main_v275).trans (out1 _),
      (h c main_arg0).trans (keeps _ (by decide) (by decide) (by decide) (by decide) (by decide) (by decide) (by decide) (by decide) (by decide) (by decide) (by decide)),
      (h c main_arg1).trans (keeps _ (by decide) (by decide) (by decide) (by decide) (by decide) (by decide) (by decide) (by decide) (by decide) (by decide) (by decide)),
      (h c main_arg2).trans (keeps _ (by decide) (by decide) (by decide) (by decide) (by decide) (by decide) (by decide) (by decide) (by decide) (by decide) (by decide)),
      (h c main_arg3).trans (keeps _ (by decide) (by decide) (by decide) (by decide) (by decide) (by decide) (by decide) (by decide) (by decide) (by decide) (by decide)),
      (h c main_arg4).trans (keeps _ (by decide) (by decide) (by decide) (by decide) (by decide) (by decide) (by decide) (by decide) (by decide) (by decide) (by decide)),
      (h c main_arg5).trans (keeps _ (by decide) (by decide) (by decide) (by decide) (by decide) (by decide) (by decide) (by decide) (by decide) (by decide) (by decide)),
      (h c main_arg6).trans (keeps _ (by decide) (by decide) (by decide) (by decide) (by decide) (by decide) (by decide) (by decide) (by decide) (by decide) (by decide)),
      (h c main_arg7).trans (keeps _ (by decide) (by decide) (by decide) (by decide) (by decide) (by decide) (by decide) (by decide) (by decide) (by decide) (by decide)),
      (h c main_arg8).trans (keeps _ (by decide) (by decide) (by decide) (by decide) (by decide) (by decide) (by decide) (by decide) (by decide) (by decide) (by decide)),
      (h c main_arg9).trans (keeps _ (by decide) (by decide) (by decide) (by decide) (by decide) (by decide) (by decide) (by decide) (by decide) (by decide) (by decide)),
      (h c main_arg10).trans (keeps _ (by decide) (by decide) (by decide) (by decide) (by decide) (by decide) (by decide) (by decide) (by decide) (by decide) (by decide)),
      (h c main_arg11).trans (keeps _ (by decide) (by decide) (by decide) (by decide) (by decide) (by decide) (by decide) (by decide) (by decide) (by decide) (by decide)),
      (h c main_arg12).trans (keeps _ (by decide) (by decide) (by decide) (by decide) (by decide) (by decide) (by decide) (by decide) (by decide) (by decide) (by decide)),
      (h c main_arg13).trans (keeps _ (by decide) (by decide) (by decide) (by decide) (by decide) (by decide) (by decide) (by decide) (by decide) (by decide) (by decide))⟩)
    (run_seq ValueP.scopedRefs_eq ValueP.scopedSems_eq defs main (fun _ => ValueP.ops) ValueP.main_eq (fun _ => ValueP.ops_sub) m ρ)

end Cert.ReferenceIdeal.RunH

end
-- ==== Proof.RefSpecA.lean ====
/-
  The reference program through the specification's functions, first part: per graph, the dense layer with the
  rectifier (`lin`), the row scaling by the degree column (`scl`), the neighbour aggregation (a gather by source node
  followed by a scatter-add by target node, kept as one opaque whole-array term `aggR`), and the two propagation steps
  (`nxt`). Each stage of the reference is a named function of the program's arguments; a stage that acts element by
  element is read at an index `(r, j)` from its operands at an index, and the equation with the specification's
  function follows by unfolding both sides. The reference recomputes the two propagation steps once per filter, and
  runs the same text on the second graph: those copies are the same functions, equal by unfolding.
-/
import proofs.«134461_j6124623364543_2_alg».proof.Proof.RefStages
import proofs.«134461_j6124623364543_2_alg».proof.Proof.Spec

noncomputable section

namespace Cert.ReferenceIdeal.RefSpec

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! The argument types of the reference's stages, at the ideal instance. Each unfolds to a function from the
    shape's indices to extended reals (or to 32-bit words, for the edge lists). -/
abbrev TN128 := (⟨S50000x128, .f32⟩ : BufTy).Contents (Elt Ideal)
abbrev TN64 := (⟨S50000x64, .f32⟩ : BufTy).Contents (Elt Ideal)
abbrev TN1 := (⟨S50000x1, .f32⟩ : BufTy).Contents (Elt Ideal)
abbrev TW := (⟨S128x64, .f32⟩ : BufTy).Contents (Elt Ideal)
abbrev TB := (⟨S64, .f32⟩ : BufTy).Contents (Elt Ideal)
abbrev TE := (⟨S800000, .i32⟩ : BufTy).Contents (Elt Ideal)

/-- The degree column D^{-1/2} of a graph, a 50000 × 1 array, from the graph's list of target nodes: the count of
    edges into each node (a scatter-add of ones), clipped below at one, to the power −1/2. Kept whole. -/
abbrev dcol (dst : TE) : TN1 := ReadP.val_main_v17 (F := Ideal) dst

/-- The all-zero 50000 × 64 table the aggregation adds into. -/
abbrev zeros64 : TN64 := broadcastInDim S50000x64 ![] bcast_S_S50000x64 (constant (F := Ideal) S_ .f32 0x00000000#32)
/-- A list of node numbers with every negative entry moved up by the node count (the reference's index normalisation). -/
abbrev normIdx (src : TE) : TE :=
  select (cmpi .slt src (broadcastInDim S800000 ![] bcast_S_S800000 (constantI S_ 32 0#32)))
    (addi src (broadcastInDim S800000 ![] bcast_S_S800000 (constantI S_ 32 50000#32))) src
/-- A list of 800000 node numbers as an 800000 × 1 column. -/
abbrev col1 (v : TE) : (⟨S800000x1, .i32⟩ : BufTy).Contents (Elt Ideal) :=
  broadcastInDim S800000x1 ![0] bcast_S800000_S800000x1_0 v

/-- The neighbour aggregation of the table `s` over the edge list `(src, dst)`: row `src e` of `s` gathered for every
    edge `e`, then added into row `dst e` of a zero table. Kept whole: nothing below opens the gather or the scatter. -/
def aggR (s : TN64) (src dst : TE) : TN64 :=
  Host.scatterAdd (F := Ideal) (φ := FTy.f32) scatter_S50000x64_S800000x1_S800000x64_1_0_0_1 zeros64 (col1 dst)
    (Host.gather (α := Ideal FTy.f32) gather_S50000x64_S800000x1_S800000x64_1_0_n_n_0_1_164 s (col1 (normIdx src)))

namespace Aux

theorem lidx0 (r : Fin 50000) (j : Fin 64) (k : Fin 128) : ReadP.lidx_main_v0 (ix2 r j) k = ix2 r k := by
  funext a; match a with
  | ⟨0, _⟩ => rfl
  | ⟨1, _⟩ => rfl
theorem ridx0 (r : Fin 50000) (j : Fin 64) (k : Fin 128) : ReadP.ridx_main_v0 (ix2 r j) k = ix2 k j := by
  funext a; match a with
  | ⟨0, _⟩ => rfl
  | ⟨1, _⟩ => rfl
theorem idx2 (r : Fin 50000) (j : Fin 64) : ReadP.idx_main_v2 (ix2 r j) = ix2 (0 : Fin 1) j := by
  funext a; match a with
  | ⟨0, _⟩ => rfl
  | ⟨1, _⟩ => rfl
theorem idx20 (r : Fin 50000) (j : Fin 64) : ReadP.idx_main_v20 (ix2 r j) = ix2 r (0 : Fin 1) := by
  funext a; match a with
  | ⟨0, _⟩ => rfl
  | ⟨1, _⟩ => rfl

theorem idx32 (r : Fin 50000) (j : Fin 64) : ReadP.idx_main_v32 (ix2 r j) = ix2 r (0 : Fin 1) := by
  funext a; match a with
  | ⟨0, _⟩ => rfl
  | ⟨1, _⟩ => rfl
theorem idx38 (r : Fin 50000) (j : Fin 64) : ReadP.idx_main_v38 (ix2 r j) = ix2 r (0 : Fin 1) := by
  funext a; match a with
  | ⟨0, _⟩ => rfl
  | ⟨1, _⟩ => rfl
theorem idx50 (r : Fin 50000) (j : Fin 64) : ReadP.idx_main_v50 (ix2 r j) = ix2 r (0 : Fin 1) := by
  funext a; match a with
  | ⟨0, _⟩ => rfl
  | ⟨1, _⟩ => rfl

end Aux

/-- The dense layer and the rectifier: stage %4 is `lin` of the features, the weights and the bias row. -/
theorem ref_h (x0 : TN128) (x6 : TW) (x7 : TB) :
    ReadP.val_main_v4 (F := Ideal) x0 x6 x7 = Cert.Spec.lin x0 x6 (ReadP.val_main_v1 (F := Ideal) x7) := by
  funext i
  obtain ⟨r, j, rfl⟩ : ∃ (r : Fin 50000) (j : Fin 64), i = ix2 r j := ⟨i 0, i 1, eq_ix2 i⟩
  rw [ReadP.val_main_v4_apply, ReadP.val_main_v3_apply, ReadP.val_main_v0_apply, ReadP.val_main_v2_apply,
    ReadP.val_main_call0_v0_apply, ReadP.val_main_call0_cst_apply, Aux.idx2]
  simp only [Aux.lidx0, Aux.ridx0]
  rfl

/-- The scaled features: stage %21 is `scl` of the features by the degree column. -/
theorem ref_s0 (x0 : TN128) (x3 : TE) (x6 : TW) (x7 : TB) :
    ReadP.val_main_v21 (F := Ideal) x0 x3 x6 x7 = Cert.Spec.scl (ReadP.val_main_v4 (F := Ideal) x0 x6 x7) (dcol x3) := by
  funext i
  obtain ⟨r, j, rfl⟩ : ∃ (r : Fin 50000) (j : Fin 64), i = ix2 r j := ⟨i 0, i 1, eq_ix2 i⟩
  rw [ReadP.val_main_v21_apply, ReadP.val_main_v20_apply, Aux.idx20]
  rfl

/-- The first aggregation: stage %31 is the aggregation of stage %21. -/
theorem ref_a1 (x0 : TN128) (x2 x3 : TE) (x6 : TW) (x7 : TB) :
    ReadP.val_main_v31 (F := Ideal) x0 x2 x3 x6 x7 = aggR (ReadP.val_main_v21 (F := Ideal) x0 x3 x6 x7) x2 x3 := rfl

/-- One propagation step: stage %34 is `nxt` of the features, the degree column and the first aggregation. -/
theorem ref_f1 (x0 : TN128) (x2 x3 : TE) (x6 : TW) (x7 : TB) :
    ReadP.val_main_v34 (F := Ideal) x0 x2 x3 x6 x7
      = Cert.Spec.nxt (ReadP.val_main_v4 (F := Ideal) x0 x6 x7) (dcol x3) (ReadP.val_main_v31 (F := Ideal) x0 x2 x3 x6 x7) := by
  funext i
  obtain ⟨r, j, rfl⟩ : ∃ (r : Fin 50000) (j : Fin 64), i = ix2 r j := ⟨i 0, i 1, eq_ix2 i⟩
  rw [ReadP.val_main_v34_apply, ReadP.val_main_v33_apply, ReadP.val_main_v32_apply, Aux.idx32]
  rfl

/-- The scaled first step: stage %39 is `scl` of stage %34. -/
theorem ref_s1 (x0 : TN128) (x2 x3 : TE) (x6 : TW) (x7 : TB) :
    ReadP.val_main_v39 (F := Ideal) x0 x2 x3 x6 x7 = Cert.Spec.scl (ReadP.val_main_v34 (F := Ideal) x0 x2 x3 x6 x7) (dcol x3) := by
  funext i
  obtain ⟨r, j, rfl⟩ : ∃ (r : Fin 50000) (j : Fin 64), i = ix2 r j := ⟨i 0, i 1, eq_ix2 i⟩
  rw [ReadP.val_main_v39_apply, ReadP.val_main_v38_apply, Aux.idx38]
  rfl

/-- The second aggregation: stage %49 is the aggregation of stage %39. -/
theorem ref_a2 (x0 : TN128) (x2 x3 : TE) (x6 : TW) (x7 : TB) :
    ReadP.val_main_v49 (F := Ideal) x0 x2 x3 x6 x7 = aggR (ReadP.val_main_v39 (F := Ideal) x0 x2 x3 x6 x7) x2 x3 := rfl

/-- The second propagation step: stage %52 is `nxt` of stage %34, the degree column and the second aggregation. -/
theorem ref_f2 (x0 : TN128) (x2 x3 : TE) (x6 : TW) (x7 : TB) :
    ReadP.val_main_v52 (F := Ideal) x0 x2 x3 x6 x7
      = Cert.Spec.nxt (ReadP.val_main_v34 (F := Ideal) x0 x2 x3 x6 x7) (dcol x3) (ReadP.val_main_v49 (F := Ideal) x0 x2 x3 x6 x7) := by
  funext i
  obtain ⟨r, j, rfl⟩ : ∃ (r : Fin 50000) (j : Fin 64), i = ix2 r j := ⟨i 0, i 1, eq_ix2 i⟩
  rw [ReadP.val_main_v52_apply, ReadP.val_main_v51_apply, ReadP.val_main_v50_apply, Aux.idx50]
  rfl

/-! The reference computes the two propagation steps once per filter; the three copies are the same functions of
    the same arguments. -/
theorem ref_f1_b (x0 : TN128) (x2 x3 : TE) (x6 : TW) (x7 : TB) :
    ReadP.val_main_v72 (F := Ideal) x0 x2 x3 x6 x7 = ReadP.val_main_v34 (F := Ideal) x0 x2 x3 x6 x7 := rfl
theorem ref_f2_b (x0 : TN128) (x2 x3 : TE) (x6 : TW) (x7 : TB) :
    ReadP.val_main_v90 (F := Ideal) x0 x2 x3 x6 x7 = ReadP.val_main_v52 (F := Ideal) x0 x2 x3 x6 x7 := rfl
theorem ref_f1_c (x0 : TN128) (x2 x3 : TE) (x6 : TW) (x7 : TB) :
    ReadP.val_main_v110 (F := Ideal) x0 x2 x3 x6 x7 = ReadP.val_main_v34 (F := Ideal) x0 x2 x3 x6 x7 := rfl
theorem ref_f2_c (x0 : TN128) (x2 x3 : TE) (x6 : TW) (x7 : TB) :
    ReadP.val_main_v128 (F := Ideal) x0 x2 x3 x6 x7 = ReadP.val_main_v52 (F := Ideal) x0 x2 x3 x6 x7 := rfl

/-! The second graph's stages are the first graph's functions at the second graph's arguments. -/
theorem ref_h' (x1 : TN128) (x8 : TW) (x9 : TB) :
    ReadP.val_main_v137 (F := Ideal) x1 x8 x9 = ReadP.val_main_v4 (F := Ideal) x1 x8 x9 := rfl
theorem ref_b' (x9 : TB) : ReadP.val_main_v134 (F := Ideal) x9 = ReadP.val_main_v1 (F := Ideal) x9 := rfl
theorem ref_d' (x5 : TE) : ReadP.val_main_v150 (F := Ideal) x5 = dcol x5 := rfl
theorem ref_f1' (x1 : TN128) (x4 x5 : TE) (x8 : TW) (x9 : TB) :
    ReadP.val_main_v167 (F := Ideal) x1 x4 x5 x8 x9 = ReadP.val_main_v34 (F := Ideal) x1 x4 x5 x8 x9 := rfl
theorem ref_f2' (x1 : TN128) (x4 x5 : TE) (x8 : TW) (x9 : TB) :
    ReadP.val_main_v185 (F := Ideal) x1 x4 x5 x8 x9 = ReadP.val_main_v52 (F := Ideal) x1 x4 x5 x8 x9 := rfl
theorem ref_f1_b' (x1 : TN128) (x4 x5 : TE) (x8 : TW) (x9 : TB) :
    ReadP.val_main_v205 (F := Ideal) x1 x4 x5 x8 x9 = ReadP.val_main_v34 (F := Ideal) x1 x4 x5 x8 x9 := rfl
theorem ref_f2_b' (x1 : TN128) (x4 x5 : TE) (x8 : TW) (x9 : TB) :
    ReadP.val_main_v223 (F := Ideal) x1 x4 x5 x8 x9 = ReadP.val_main_v52 (F := Ideal) x1 x4 x5 x8 x9 := rfl
theorem ref_f1_c' (x1 : TN128) (x4 x5 : TE) (x8 : TW) (x9 : TB) :
    ReadP.val_main_v243 (F := Ideal) x1 x4 x5 x8 x9 = ReadP.val_main_v34 (F := Ideal) x1 x4 x5 x8 x9 := rfl
theorem ref_f2_c' (x1 : TN128) (x4 x5 : TE) (x8 : TW) (x9 : TB) :
    ReadP.val_main_v261 (F := Ideal) x1 x4 x5 x8 x9 = ReadP.val_main_v52 (F := Ideal) x1 x4 x5 x8 x9 := rfl

/-! The three tables of a graph through the specification's functions alone: the features `hS`, and the two
    propagation steps `f1S`, `f2S`, from the node features `x`, the layer's weights `W` and bias `b`, and the edge
    list `(src, dst)`. -/
abbrev hS (x : TN128) (W : TW) (b : TB) : TN64 := Cert.Spec.lin x W (ReadP.val_main_v1 (F := Ideal) b)
abbrev f1S (x : TN128) (W : TW) (b : TB) (src dst : TE) : TN64 :=
  Cert.Spec.nxt (hS x W b) (dcol dst) (aggR (Cert.Spec.scl (hS x W b) (dcol dst)) src dst)
abbrev f2S (x : TN128) (W : TW) (b : TB) (src dst : TE) : TN64 :=
  Cert.Spec.nxt (f1S x W b src dst) (dcol dst) (aggR (Cert.Spec.scl (f1S x W b src dst) (dcol dst)) src dst)

theorem ref_f1S (x0 : TN128) (x2 x3 : TE) (x6 : TW) (x7 : TB) :
    ReadP.val_main_v34 (F := Ideal) x0 x2 x3 x6 x7 = f1S x0 x6 x7 x2 x3 := by
  rw [ref_f1, ref_a1, ref_s0, ref_h]
theorem ref_f2S (x0 : TN128) (x2 x3 : TE) (x6 : TW) (x7 : TB) :
    ReadP.val_main_v52 (F := Ideal) x0 x2 x3 x6 x7 = f2S x0 x6 x7 x2 x3 := by
  rw [ref_f2, ref_a2, ref_s1, ref_f1S]

end Cert.ReferenceIdeal.RefSpec

end
-- ==== Proof.RefSpecB.lean ====
/-
  The reference program through the specification's functions, second part: the six three-term filters (`comb` at the
  printed coefficients), their concatenation along the feature axis (`cat6`: three 64-wide tables side by side per
  graph, then the two 192-wide results side by side), and the two-layer perceptron (`mlp`). A filter stage is a sum of
  tables times constant tables and is `comb` by unfolding; a concatenation is read at an index by locating the piece
  that holds the column; a dense layer's element is the sum over the contracted axis.
-/
import proofs.«134461_j6124623364543_2_alg».proof.Proof.RefSpecA

noncomputable section

namespace Cert.ReferenceIdeal.RefSpec

open Cert.ReferenceIdeal Cert.ReferenceIdeal.Gen Idealize.ShloMosaic Idealize.ShloMosaic.TcCoe Idealize.SL.Sem Idealize.ShloMosaic.StableHlo
open Idealize.ShloMosaic.ValueIdx
open scoped BigOperators

abbrev TN192 := (⟨S50000x192, .f32⟩ : BufTy).Contents (Elt Ideal)
abbrev TN384 := (⟨S50000x384, .f32⟩ : BufTy).Contents (Elt Ideal)
abbrev TN2 := (⟨S50000x2, .f32⟩ : BufTy).Contents (Elt Ideal)

/-- A coefficient word as a constant 50000 × 64 table. -/
abbrev bc64 (c : BitVec 32) : TN64 := broadcastInDim S50000x64 ![] bcast_S_S50000x64 (constant (F := Ideal) S_ .f32 c)

namespace Aux

/-- A three-term filter as the reference spells it — each table times a constant table, summed left to right — is
    `comb` at the constants' values. -/
theorem comb_stage (c0 c1 c2 : BitVec 32) (f0 f1 f2 : TN64) :
    addf (F := Ideal) (s := S50000x64) (φ := FTy.f32) (addf (mulf (bc64 c0) f0) (mulf (bc64 c1) f1)) (mulf (bc64 c2) f2)
      = Cert.Spec.comb (Ideal.ofBits .f32 c0) (Ideal.ofBits .f32 c1) (Ideal.ofBits .f32 c2) f0 f1 f2 := by
  funext i
  obtain ⟨r, j, rfl⟩ : ∃ (r : Fin 50000) (j : Fin 64), i = ix2 r j := ⟨i 0, i 1, eq_ix2 i⟩
  rfl

/-- Three 64-wide tables side by side, read in the first table's columns. -/
theorem cat3_0 (p0 p1 p2 : TN64) (r : Fin 50000) (q : Fin 192) (c : Fin 64) (hc : c.val = q.val) :
    concatenate S50000x192 1 [⟨S50000x64, p0⟩, ⟨S50000x64, p1⟩, ⟨S50000x64, p2⟩]
      concatenates_S50000x64_S50000x64_S50000x64_S50000x192_d1 (ix2 r q) = p0 (ix2 r c) :=
  concatenate_apply_piece (1 : Fin S50000x192.rank) _ _ (ix2 r q) 0 (by show (0 : Nat) < 3; omega) S50000x64 p0 rfl rfl 0 rfl (ix2 r c)
    (fun b => match b with
      | ⟨0, _⟩ => fun _ => rfl
      | ⟨1, _⟩ => fun h => absurd rfl h)
    (by show 0 + c.val = q.val; omega)
/-- … in the second table's columns. -/
theorem cat3_1 (p0 p1 p2 : TN64) (r : Fin 50000) (q : Fin 192) (c : Fin 64) (hc : 64 + c.val = q.val) :
    concatenate S50000x192 1 [⟨S50000x64, p0⟩, ⟨S50000x64, p1⟩, ⟨S50000x64, p2⟩]
      concatenates_S50000x64_S50000x64_S50000x64_S50000x192_d1 (ix2 r q) = p1 (ix2 r c) :=
  concatenate_apply_piece (1 : Fin S50000x192.rank) _ _ (ix2 r q) 1 (by show (1 : Nat) < 3; omega) S50000x64 p1 rfl rfl 64 rfl (ix2 r c)
    (fun b => match b with
      | ⟨0, _⟩ => fun _ => rfl
      | ⟨1, _⟩ => fun h => absurd rfl h)
    (by show 64 + c.val = q.val; exact hc)
/-- … in the third table's columns. -/
theorem cat3_2 (p0 p1 p2 : TN64) (r : Fin 50000) (q : Fin 192) (c : Fin 64) (hc : 128 + c.val = q.val) :
    concatenate S50000x192 1 [⟨S50000x64, p0⟩, ⟨S50000x64, p1⟩, ⟨S50000x64, p2⟩]
      concatenates_S50000x64_S50000x64_S50000x64_S50000x192_d1 (ix2 r q) = p2 (ix2 r c) :=
  concatenate_apply_piece (1 : Fin S50000x192.rank) _ _ (ix2 r q) 2 (by show (2 : Nat) < 3; omega) S50000x64 p2 rfl rfl 128 rfl (ix2 r c)
    (fun b => match b with
      | ⟨0, _⟩ => fun _ => rfl
      | ⟨1, _⟩ => fun h => absurd rfl h)
    (by show 128 + c.val = q.val; exact hc)

/-- Two 192-wide tables side by side, read in the first table's columns. -/
theorem cat2_l (A B : TN192) (r : Fin 50000) (q : Fin 384) (c : Fin 192) (hc : c.val = q.val) :
    concatenate S50000x384 1 [⟨S50000x192, A⟩, ⟨S50000x192, B⟩] concatenates_S50000x192_S50000x192_S50000x384_d1 (ix2 r q)
      = A (ix2 r c) :=
  concatenate_pair_apply_left (1 : Fin S50000x384.rank) A B _ (ix2 r q) rfl (ix2 r c)
    (fun b => match b with
      | ⟨0, _⟩ => rfl
      | ⟨1, _⟩ => hc)
/-- … in the second table's columns. -/
theorem cat2_r (A B : TN192) (r : Fin 50000) (q : Fin 384) (c : Fin 192) (hc : c.val + 192 = q.val) :
    concatenate S50000x384 1 [⟨S50000x192, A⟩, ⟨S50000x192, B⟩] concatenates_S50000x192_S50000x192_S50000x384_d1 (ix2 r q)
      = B (ix2 r c) :=
  concatenate_pair_apply_right (1 : Fin S50000x384.rank) A B _ (ix2 r q) rfl rfl (ix2 r c)
    (fun b => match b with
      | ⟨0, _⟩ => fun _ => rfl
      | ⟨1, _⟩ => fun h => absurd rfl h)
    (by show c.val + 192 = q.val; exact hc)

/-- The reference's concatenation — three tables side by side, twice, and the two results side by side — is `cat6`. -/
theorem cat6_stage (p0 p1 p2 p3 p4 p5 : TN64) :
    (concatenate S50000x384 1
      [⟨S50000x192, concatenate S50000x192 1 [⟨S50000x64, p0⟩, ⟨S50000x64, p1⟩, ⟨S50000x64, p2⟩]
          concatenates_S50000x64_S50000x64_S50000x64_S50000x192_d1⟩,
       ⟨S50000x192, concatenate S50000x192 1 [⟨S50000x64, p3⟩, ⟨S50000x64, p4⟩, ⟨S50000x64, p5⟩]
          concatenates_S50000x64_S50000x64_S50000x64_S50000x192_d1⟩]
      concatenates_S50000x192_S50000x192_S50000x384_d1 : TN384) = Cert.Spec.cat6 p0 p1 p2 p3 p4 p5 := by
  funext i
  obtain ⟨r, q, rfl⟩ : ∃ (r : Fin 50000) (q : Fin 384), i = ix2 r q := ⟨i 0, i 1, eq_ix2 i⟩
  show _ = Cert.Spec.cat6At p0 p1 p2 p3 p4 p5 r q
  unfold Cert.Spec.cat6At
  have hq := q.isLt
  by_cases h1 : q.val < 64
  · rw [if_pos h1]
    exact (cat2_l _ _ r q ⟨q.val, by omega⟩ rfl).trans
      (cat3_0 p0 p1 p2 r ⟨q.val, by omega⟩ _ (by show q.val % 64 = q.val; omega))
  rw [if_neg h1]
  by_cases h2 : q.val < 128
  · rw [if_pos h2]
    exact (cat2_l _ _ r q ⟨q.val, by omega⟩ rfl).trans
      (cat3_1 p0 p1 p2 r ⟨q.val, by omega⟩ _ (by show 64 + q.val % 64 = q.val; omega))
  rw [if_neg h2]
  by_cases h3 : q.val < 192
  · rw [if_pos h3]
    exact (cat2_l _ _ r q ⟨q.val, by omega⟩ rfl).trans
      (cat3_2 p0 p1 p2 r ⟨q.val, by omega⟩ _ (by show 128 + q.val % 64 = q.val; omega))
  rw [if_neg h3]
  by_cases h4 : q.val < 256
  · rw [if_pos h4]
    exact (cat2_r _ _ r q ⟨q.val - 192, by omega⟩ (by show q.val - 192 + 192 = q.val; omega)).trans
      (cat3_0 p3 p4 p5 r ⟨q.val - 192, by omega⟩ _ (by show q.val % 64 = q.val - 192; omega))
  rw [if_neg h4]
  by_cases h5 : q.val < 320
  · rw [if_pos h5]
    exact (cat2_r _ _ r q ⟨q.val - 192, by omega⟩ (by show q.val - 192 + 192 = q.val; omega)).trans
      (cat3_1 p3 p4 p5 r ⟨q.val - 192, by omega⟩ _ (by show 64 + q.val % 64 = q.val - 192; omega))
  rw [if_neg h5]
  exact (cat2_r _ _ r q ⟨q.val - 192, by omega⟩ (by show q.val - 192 + 192 = q.val; omega)).trans
    (cat3_2 p3 p4 p5 r ⟨q.val - 192, by omega⟩ _ (by show 128 + q.val % 64 = q.val - 192; omega))

end Aux

namespace Aux

theorem lidx267 (r : Fin 50000) (j : Fin 64) (k : Fin 384) : ReadP.lidx_main_v267 (ix2 r j) k = ix2 r k := by
  funext a; match a with
  | ⟨0, _⟩ => rfl
  | ⟨1, _⟩ => rfl
theorem ridx267 (r : Fin 50000) (j : Fin 64) (k : Fin 384) : ReadP.ridx_main_v267 (ix2 r j) k = ix2 k j := by
  funext a; match a with
  | ⟨0, _⟩ => rfl
  | ⟨1, _⟩ => rfl
theorem idx269 (r : Fin 50000) (j : Fin 64) : ReadP.idx_main_v269 (ix2 r j) = ix2 (0 : Fin 1) j := by
  funext a; match a with
  | ⟨0, _⟩ => rfl
  | ⟨1, _⟩ => rfl
theorem lidx272 (r : Fin 50000) (o : Fin 2) (k : Fin 64) : ReadP.lidx_main_v272 (ix2 r o) k = ix2 r k := by
  funext a; match a with
  | ⟨0, _⟩ => rfl
  | ⟨1, _⟩ => rfl
theorem ridx272 (r : Fin 50000) (o : Fin 2) (k : Fin 64) : ReadP.ridx_main_v272 (ix2 r o) k = ix2 k o := by
  funext a; match a with
  | ⟨0, _⟩ => rfl
  | ⟨1, _⟩ => rfl
theorem idx274 (r : Fin 50000) (o : Fin 2) : ReadP.idx_main_v274 (ix2 r o) = ix2 (0 : Fin 1) o := by
  funext a; match a with
  | ⟨0, _⟩ => rfl
  | ⟨1, _⟩ => rfl

end Aux

/-! The six filters: each stage is `comb` at its three printed coefficients, of the graph's three tables. In the
    first graph the coefficients are 3, −3, 3/4; 0, 3, −3/2; 0, 0, 3/4; in the second all nine are 4. -/
theorem ref_p0 (x0 : TN128) (x2 x3 : TE) (x6 : TW) (x7 : TB) :
    ReadP.val_main_v55 (F := Ideal) x0 x2 x3 x6 x7
      = Cert.Spec.comb (Ideal.ofBits .f32 0x40400000#32) (Ideal.ofBits .f32 0xC0400000#32) (Ideal.ofBits .f32 0x3F400000#32)
          (ReadP.val_main_v4 (F := Ideal) x0 x6 x7) (ReadP.val_main_v34 (F := Ideal) x0 x2 x3 x6 x7) (ReadP.val_main_v52 (F := Ideal) x0 x2 x3 x6 x7) :=
  Aux.comb_stage 0x40400000#32 0xC0400000#32 0x3F400000#32 _ _ _
theorem ref_p1 (x0 : TN128) (x2 x3 : TE) (x6 : TW) (x7 : TB) :
    ReadP.val_main_v93 (F := Ideal) x0 x2 x3 x6 x7
      = Cert.Spec.comb (Ideal.ofBits .f32 0x00000000#32) (Ideal.ofBits .f32 0x40400000#32) (Ideal.ofBits .f32 0xBFC00000#32)
          (ReadP.val_main_v4 (F := Ideal) x0 x6 x7) (ReadP.val_main_v34 (F := Ideal) x0 x2 x3 x6 x7) (ReadP.val_main_v52 (F := Ideal) x0 x2 x3 x6 x7) :=
  Aux.comb_stage 0x00000000#32 0x40400000#32 0xBFC00000#32 _ _ _
theorem ref_p2 (x0 : TN128) (x2 x3 : TE) (x6 : TW) (x7 : TB) :
    ReadP.val_main_v131 (F := Ideal) x0 x2 x3 x6 x7
      = Cert.Spec.comb (Ideal.ofBits .f32 0x00000000#32) (Ideal.ofBits .f32 0x00000000#32) (Ideal.ofBits .f32 0x3F400000#32)
          (ReadP.val_main_v4 (F := Ideal) x0 x6 x7) (ReadP.val_main_v34 (F := Ideal) x0 x2 x3 x6 x7) (ReadP.val_main_v52 (F := Ideal) x0 x2 x3 x6 x7) :=
  Aux.comb_stage 0x00000000#32 0x00000000#32 0x3F400000#32 _ _ _
theorem ref_p3 (x1 : TN128) (x4 x5 : TE) (x8 : TW) (x9 : TB) :
    ReadP.val_main_v188 (F := Ideal) x1 x4 x5 x8 x9
      = Cert.Spec.comb (Ideal.ofBits .f32 0x40800000#32) (Ideal.ofBits .f32 0x40800000#32) (Ideal.ofBits .f32 0x40800000#32)
          (ReadP.val_main_v4 (F := Ideal) x1 x8 x9) (ReadP.val_main_v34 (F := Ideal) x1 x4 x5 x8 x9) (ReadP.val_main_v52 (F := Ideal) x1 x4 x5 x8 x9) :=
  Aux.comb_stage 0x40800000#32 0x40800000#32 0x40800000#32 _ _ _
theorem ref_p4 (x1 : TN128) (x4 x5 : TE) (x8 : TW) (x9 : TB) :
    ReadP.val_main_v226 (F := Ideal) x1 x4 x5 x8 x9
      = Cert.Spec.comb (Ideal.ofBits .f32 0x40800000#32) (Ideal.ofBits .f32 0x40800000#32) (Ideal.ofBits .f32 0x40800000#32)
          (ReadP.val_main_v4 (F := Ideal) x1 x8 x9) (ReadP.val_main_v34 (F := Ideal) x1 x4 x5 x8 x9) (ReadP.val_main_v52 (F := Ideal) x1 x4 x5 x8 x9) :=
  Aux.comb_stage 0x40800000#32 0x40800000#32 0x40800000#32 _ _ _
theorem ref_p5 (x1 : TN128) (x4 x5 : TE) (x8 : TW) (x9 : TB) :
    ReadP.val_main_v264 (F := Ideal) x1 x4 x5 x8 x9
      = Cert.Spec.comb (Ideal.ofBits .f32 0x40800000#32) (Ideal.ofBits .f32 0x40800000#32) (Ideal.ofBits .f32 0x40800000#32)
          (ReadP.val_main_v4 (F := Ideal) x1 x8 x9) (ReadP.val_main_v34 (F := Ideal) x1 x4 x5 x8 x9) (ReadP.val_main_v52 (F := Ideal) x1 x4 x5 x8 x9) :=
  Aux.comb_stage 0x40800000#32 0x40800000#32 0x40800000#32 _ _ _

/-- The reference's first result, the 50000 × 384 table of the six filters side by side, through the specification's
    functions: per graph the features `hS` and the propagation steps `f1S`, `f2S`, combined with the printed
    coefficients. -/
theorem ref_out0 (x0 x1 : TN128) (x2 x3 x4 x5 : TE) (x6 : TW) (x7 : TB) (x8 : TW) (x9 : TB) :
    ReadP.val_main_v266 (F := Ideal) x0 x1 x2 x3 x4 x5 x6 x7 x8 x9
      = Cert.Spec.cat6
          (Cert.Spec.comb (Ideal.ofBits .f32 0x40400000#32) (Ideal.ofBits .f32 0xC0400000#32) (Ideal.ofBits .f32 0x3F400000#32)
            (hS x0 x6 x7) (f1S x0 x6 x7 x2 x3) (f2S x0 x6 x7 x2 x3))
          (Cert.Spec.comb (Ideal.ofBits .f32 0x00000000#32) (Ideal.ofBits .f32 0x40400000#32) (Ideal.ofBits .f32 0xBFC00000#32)
            (hS x0 x6 x7) (f1S x0 x6 x7 x2 x3) (f2S x0 x6 x7 x2 x3))
          (Cert.Spec.comb (Ideal.ofBits .f32 0x00000000#32) (Ideal.ofBits .f32 0x00000000#32) (Ideal.ofBits .f32 0x3F400000#32)
            (hS x0 x6 x7) (f1S x0 x6 x7 x2 x3) (f2S x0 x6 x7 x2 x3))
          (Cert.Spec.comb (Ideal.ofBits .f32 0x40800000#32) (Ideal.ofBits .f32 0x40800000#32) (Ideal.ofBits .f32 0x40800000#32)
            (hS x1 x8 x9) (f1S x1 x8 x9 x4 x5) (f2S x1 x8 x9 x4 x5))
          (Cert.Spec.comb (Ideal.ofBits .f32 0x40800000#32) (Ideal.ofBits .f32 0x40800000#32) (Ideal.ofBits .f32 0x40800000#32)
            (hS x1 x8 x9) (f1S x1 x8 x9 x4 x5) (f2S x1 x8 x9 x4 x5))
          (Cert.Spec.comb (Ideal.ofBits .f32 0x40800000#32) (Ideal.ofBits .f32 0x40800000#32) (Ideal.ofBits .f32 0x40800000#32)
            (hS x1 x8 x9) (f1S x1 x8 x9 x4 x5) (f2S x1 x8 x9 x4 x5)) := by
  refine (Aux.cat6_stage (ReadP.val_main_v55 (F := Ideal) x0 x2 x3 x6 x7) (ReadP.val_main_v93 (F := Ideal) x0 x2 x3 x6 x7)
    (ReadP.val_main_v131 (F := Ideal) x0 x2 x3 x6 x7) (ReadP.val_main_v188 (F := Ideal) x1 x4 x5 x8 x9)
    (ReadP.val_main_v226 (F := Ideal) x1 x4 x5 x8 x9) (ReadP.val_main_v264 (F := Ideal) x1 x4 x5 x8 x9)).trans ?_
  rw [ref_p0, ref_p1, ref_p2, ref_p3, ref_p4, ref_p5, ref_f2S x0, ref_f1S x0, ref_h x0, ref_f2S x1, ref_f1S x1, ref_h x1]

/-- The perceptron's hidden layer: stage %271 at row `r`, unit `k`. -/
theorem ref_hid (x0 x1 : TN128) (x2 x3 x4 x5 : TE) (x6 : TW) (x7 : TB) (x8 : TW) (x9 : TB)
    (x10 : (⟨S384x64, .f32⟩ : BufTy).Contents (Elt Ideal)) (x11 : TB) (r : Fin 50000) (k : Fin 64) :
    ReadP.val_main_v271 (F := Ideal) x0 x1 x2 x3 x4 x5 x6 x7 x8 x9 x10 x11 (ix2 r k)
      = Cert.Spec.hidAt (ReadP.val_main_v266 (F := Ideal) x0 x1 x2 x3 x4 x5 x6 x7 x8 x9) x10 (ReadP.val_main_v268 (F := Ideal) x11) r k := by
  rw [ReadP.val_main_v271_apply, ReadP.val_main_v270_apply, ReadP.val_main_v267_apply, ReadP.val_main_v269_apply,
    ReadP.val_main_call4_v0_apply, ReadP.val_main_call4_cst_apply, Aux.idx269]
  simp only [Aux.lidx267, Aux.ridx267]
  rfl

/-- The reference's second result, the 50000 × 2 table of class scores: the two-layer perceptron on the first result. -/
theorem ref_out1 (x0 x1 : TN128) (x2 x3 x4 x5 : TE) (x6 : TW) (x7 : TB) (x8 : TW) (x9 : TB)
    (x10 : (⟨S384x64, .f32⟩ : BufTy).Contents (Elt Ideal)) (x11 : TB)
    (x12 : (⟨S64x2, .f32⟩ : BufTy).Contents (Elt Ideal)) (x13 : (⟨S2, .f32⟩ : BufTy).Contents (Elt Ideal)) :
    ReadP.val_main_v275 (F := Ideal) x0 x1 x2 x3 x4 x5 x6 x7 x8 x9 x10 x11 x12 x13
      = Cert.Spec.mlp (ReadP.val_main_v266 (F := Ideal) x0 x1 x2 x3 x4 x5 x6 x7 x8 x9) x10 (ReadP.val_main_v268 (F := Ideal) x11) x12
          (ReadP.val_main_v273 (F := Ideal) x13) := by
  funext i
  obtain ⟨r, o, rfl⟩ : ∃ (r : Fin 50000) (o : Fin 2), i = ix2 r o := ⟨i 0, i 1, eq_ix2 i⟩
  rw [ReadP.val_main_v275_apply, ReadP.val_main_v272_apply, ReadP.val_main_v274_apply, Aux.idx274]
  simp only [Aux.lidx272, Aux.ridx272, ref_hid]
  rfl

end Cert.ReferenceIdeal.RefSpec

end
-- ==== Proof.KI.HostIdeal.lean ====
import proofs.«134461_j6124623364543_2_alg».proof.Proof.KI.HostVal
import Idealize.ShloMosaic.PureOps.Ideal
import Idealize.ShloMosaic.Lib.ValueIdx
import Idealize.ShloMosaic.Lib.ValueLayout
import Idealize.ShloMosaic.Lib.ReduceAll
import proofs.«134461_j6124623364543_2_alg».proof.Pre_finite_inputs
import proofs.«134461_j6124623364543_2_alg».proof.Proof.Gen.Pre_finite_inputs

set_option maxRecDepth 16384

noncomputable section

namespace Cert.KernelIdeal.H

open Cert.KernelIdeal Cert.KernelIdeal.Gen
open Idealize.ShloMosaic Idealize.ShloMosaic.TcCoe Idealize.SL.Sem Idealize.ShloMosaic.StableHlo

/-! # The host stretches' functions over the extended reals

At the ideal field a format change is the identity, the row view of a vector reads the vector at the column
index, and — under the precondition, which says every destination index is nonnegative — an index
normalisation that only wraps negative indices is the identity on nonnegative ones. -/

/-- The row view of a 64-vector reads the vector at the column index. -/
theorem rowOf64_apply (b : (⟨S64, .f32⟩ : BufTy).Contents (Elt Ideal)) (i : S1x64.Idx) :
    rowOf64 (F := Ideal) b i = b (ValueIdx.ix1 (i 1)) :=
  (congrArg (rowOf64 (F := Ideal) b) (ValueIdx.eq_ix2 i)).trans
    (ValueIdx.shapeCast_a_1a_apply b shapeCasts_S64_S1x64 (i 0) (i 1))

/-- The row view of a 2-vector reads the vector at the column index. -/
theorem rowOf2_apply (b : (⟨S2, .f32⟩ : BufTy).Contents (Elt Ideal)) (i : S1x2.Idx) :
    rowOf2 (F := Ideal) b i = b (ValueIdx.ix1 (i 1)) :=
  (congrArg (rowOf2 (F := Ideal) b) (ValueIdx.eq_ix2 i)).trans
    (ValueIdx.shapeCast_a_1a_apply b shapeCasts_S2_S1x2 (i 0) (i 1))

/-- Over the extended reals the widening from bf16 to f32 changes nothing. -/
theorem extf_ideal {s : Shape} (x : FVec Ideal s .bf16) : (extf .f32 x bitsLt_bf16_f32 : FVec Ideal s .f32) = x := rfl

namespace HostAux

/-- A scalar-shaped array has one index. -/
instance subsingleton_S_ : Subsingleton S_.Idx := ⟨fun a b => funext fun d => d.elim0⟩

end HostAux

open HostAux in
/-- THE PRECONDITION DECODED: its last two conjuncts are `all(dst ≥ 0)` for the two graphs' destination
    arrays; each `all` is a reduction by `and` that came out one, so the comparison is one at every index. -/
theorem dst_nonneg_of_pre
    (a0 a1 : FVec Ideal Cert.Pre_finite_inputs.S50000x128 .f32) (a2 a3 a4 a5 : IVec Cert.Pre_finite_inputs.S800000 32)
    (a6 : FVec Ideal Cert.Pre_finite_inputs.S128x64 .f32) (a7 : FVec Ideal Cert.Pre_finite_inputs.S64 .f32)
    (a8 : FVec Ideal Cert.Pre_finite_inputs.S128x64 .f32) (a9 : FVec Ideal Cert.Pre_finite_inputs.S64 .f32)
    (a10 : FVec Ideal Cert.Pre_finite_inputs.S384x64 .f32) (a11 : FVec Ideal Cert.Pre_finite_inputs.S64 .f32)
    (a12 : FVec Ideal Cert.Pre_finite_inputs.S64x2 .f32) (a13 : FVec Ideal Cert.Pre_finite_inputs.S2 .f32)
    (h : Cert.Pre_finite_inputs.fn (F := Ideal) a0 a1 a2 a3 a4 a5 a6 a7 a8 a9 a10 a11 a12 a13 = (fun _ => 1#1)) :
    cmpi .sge a3 (broadcastInDim S800000 ![] bcast_S_S800000 (constantI S_ 32 0#32)) = (fun _ => 1#1)
    ∧ cmpi .sge a5 (broadcastInDim S800000 ![] bcast_S_S800000 (constantI S_ 32 0#32)) = (fun _ => 1#1) := by
  have e := congrFun h ValueIdx.ix0
  dsimp only [Cert.Pre_finite_inputs.fn, Cert.Pre_finite_inputs.fn_part1, Cert.Pre_finite_inputs.fn_part2,
    Cert.Pre_finite_inputs.fn_part3] at e
  obtain ⟨e1, e5⟩ := IntOp.andi_eq_one.1 e
  obtain ⟨-, e3⟩ := IntOp.andi_eq_one.1 e1
  exact ⟨funext fun i => Host.reduce_andi_all _ _ _ _ _ e3 i, funext fun i => Host.reduce_andi_all _ _ _ _ _ e5 i⟩

/-- On nonnegative indices the normalisation does nothing: the sign test fails at every index and the select
    keeps the index itself. -/
theorem normIdx_of_nonneg (x : (⟨S800000, .i32⟩ : BufTy).Contents (Elt Ideal))
    (h : cmpi .sge x (broadcastInDim S800000 ![] bcast_S_S800000 (constantI S_ 32 0#32)) = (fun _ => 1#1)) :
    normIdx (F := Ideal) x = x := by
  funext i
  have hi : IntOp.cmpi .sge (x i) (0#32) = 1#1 := congrFun h i
  have hlt : IntOp.cmpi .slt (x i) (0#32) = 0#1 :=
    ValueIdx.eq_zero_of_ne_one fun h' => absurd (IntOp.cmpi_slt.1 h') (not_lt.2 (IntOp.cmpi_sge.1 hi))
  show Scalar.select (IntOp.cmpi .slt (x i) (0#32)) _ (x i) = x i
  rw [hlt]; exact ValueIdx.select_zero _ _

end Cert.KernelIdeal.H
-- ==== Proof.Bridge.lean ====
import proofs.«134461_j6124623364543_2_alg».proof.Proof.KI.HostIdeal
import proofs.«134461_j6124623364543_2_alg».proof.Proof.RefStages
import proofs.«134461_j6124623364543_2_alg».proof.Proof.RefSpecA

set_option maxRecDepth 16384

noncomputable section

namespace Cert.Bridge

open Idealize.ShloMosaic Idealize.ShloMosaic.TcCoe Idealize.SL.Sem

/-! # The kernel program's host functions against the reference's stages, over the extended reals

The kernel program and the reference spell the same host computations with their own vocabularies: the shape
names are separate abbreviations of the same literals and the gather / scatter dimension records differ only in
the proof they carry. Three things differ in substance. The kernel makes a bias row by a reshape, the reference
by a broadcast along the second axis: both read the vector at the column index. The reference's in-degree
scatter takes the destination index wrapped (a negative index moved up by the node count), the kernel's takes
it as it is: under the precondition the destinations are nonnegative and the wrap is the identity. The kernel
gathers a bf16 table and widens the rows: over the extended reals the widening is the identity. -/

/-- A bias row: the kernel's reshape of a 64-vector is the reference's broadcast along the second axis. -/
theorem row64 (b : (⟨Cert.KernelIdeal.S64, .f32⟩ : BufTy).Contents (Elt Ideal)) :
    Cert.KernelIdeal.H.rowOf64 (F := Ideal) b = Cert.ReferenceIdeal.ReadP.val_main_v1 (F := Ideal) b := by
  funext i
  rw [Cert.KernelIdeal.H.rowOf64_apply, Cert.ReferenceIdeal.ReadP.val_main_v1_apply]
  exact congrArg b (funext fun a => match a with | ⟨0, _⟩ => rfl)

/-- The same for the second graph's bias row stage. -/
theorem row64' (b : (⟨Cert.KernelIdeal.S64, .f32⟩ : BufTy).Contents (Elt Ideal)) :
    Cert.KernelIdeal.H.rowOf64 (F := Ideal) b = Cert.ReferenceIdeal.ReadP.val_main_v134 (F := Ideal) b := by
  funext i
  rw [Cert.KernelIdeal.H.rowOf64_apply, Cert.ReferenceIdeal.ReadP.val_main_v134_apply]
  exact congrArg b (funext fun a => match a with | ⟨0, _⟩ => rfl)

/-- The same for the mixing layer's bias row stage. -/
theorem row64m (b : (⟨Cert.KernelIdeal.S64, .f32⟩ : BufTy).Contents (Elt Ideal)) :
    Cert.KernelIdeal.H.rowOf64 (F := Ideal) b = Cert.ReferenceIdeal.ReadP.val_main_v268 (F := Ideal) b := by
  funext i
  rw [Cert.KernelIdeal.H.rowOf64_apply, Cert.ReferenceIdeal.ReadP.val_main_v268_apply]
  exact congrArg b (funext fun a => match a with | ⟨0, _⟩ => rfl)

/-- The output layer's bias row: the reshape of a 2-vector is the broadcast along the second axis. -/
theorem row2 (b : (⟨Cert.KernelIdeal.S2, .f32⟩ : BufTy).Contents (Elt Ideal)) :
    Cert.KernelIdeal.H.rowOf2 (F := Ideal) b = Cert.ReferenceIdeal.ReadP.val_main_v273 (F := Ideal) b := by
  funext i
  rw [Cert.KernelIdeal.H.rowOf2_apply, Cert.ReferenceIdeal.ReadP.val_main_v273_apply]
  exact congrArg b (funext fun a => match a with | ⟨0, _⟩ => rfl)

/-- The degree column: the reference scatters the ones at the wrapped destinations, the kernel at the
    destinations themselves; on nonnegative destinations the wrap does nothing, and the rest of the two chains
    (ones added into zeros, the maximum with one, the power −1/2, the column) is the same term. -/
theorem dinv (dst : (⟨Cert.KernelIdeal.S800000, .i32⟩ : BufTy).Contents (Elt Ideal))
    (h : cmpi .sge dst (broadcastInDim Cert.KernelIdeal.S800000 ![] Cert.KernelIdeal.Gen.bcast_S_S800000
        (constantI Cert.KernelIdeal.S_ 32 0#32)) = (fun _ => 1#1)) :
    Cert.KernelIdeal.H.dinvCol (F := Ideal) dst = Cert.ReferenceIdeal.RefSpec.dcol dst := by
  have key : Cert.ReferenceIdeal.ReadP.val_main_v11 (F := Ideal) dst = dst :=
    Cert.KernelIdeal.H.normIdx_of_nonneg dst h
  have e : Cert.ReferenceIdeal.RefSpec.dcol dst
      = Cert.KernelIdeal.H.dinvCol (F := Ideal) (Cert.ReferenceIdeal.ReadP.val_main_v11 (F := Ideal) dst) := rfl
  rw [e, key]

/-- The neighbourhood sum: the kernel's widening of the gathered bf16 rows is the identity over the extended
    reals, and the rest is the reference's term. -/
theorem agg (s : (⟨Cert.KernelIdeal.S50000x64, .bf16⟩ : BufTy).Contents (Elt Ideal))
    (src dst : (⟨Cert.KernelIdeal.S800000, .i32⟩ : BufTy).Contents (Elt Ideal)) :
    Cert.KernelIdeal.H.aggOf (F := Ideal) s src dst = Cert.ReferenceIdeal.RefSpec.aggR s src dst := rfl

end Cert.Bridge
-- ==== Proof.Final.lean ====
/- The two programs' results agree at the ideal instance (floats are extended reals). The kernel program's two output
   arrays are the specification's functions `cat6` and `mlp` of tables built from the launch memory with the kernel
   program's own host vocabulary (the reshaped bias rows, the degree column, the neighbourhood sum); the reference's
   two results are the same functions of the same tables in the reference's vocabulary. Graph by graph the tables
   agree: the bias rows read the same vector, the degree columns agree because the destinations are nonnegative,
   and the neighbourhood sums are the same term. -/
import proofs.«134461_j6124623364543_2_alg».proof.Proof.KI.Vals
import proofs.«134461_j6124623364543_2_alg».proof.Proof.RefSpecB
import proofs.«134461_j6124623364543_2_alg».proof.Proof.Bridge

set_option maxRecDepth 16384

noncomputable section

namespace Cert.Final

open Idealize.ShloMosaic Idealize.ShloMosaic.TcCoe Idealize.SL.Sem
open Cert.KernelIdeal Cert.KernelIdeal.H

namespace Aux

/-- The nonnegativity of a destination list, as the precondition states it: the signed comparison with zero is one
    at every edge. -/
abbrev NonNeg (dst : (⟨Cert.KernelIdeal.S800000, .i32⟩ : BufTy).Contents (Elt Ideal)) : Prop :=
  cmpi .sge dst (broadcastInDim Cert.KernelIdeal.S800000 ![] Cert.KernelIdeal.Gen.bcast_S_S800000
    (constantI Cert.KernelIdeal.S_ 32 0#32)) = (fun _ => 1#1)

/-- A graph's features: the kernel program's dense layer over its reshaped bias row is the reference's. -/
theorem tab_h (x : Cert.ReferenceIdeal.RefSpec.TN128) (W : Cert.ReferenceIdeal.RefSpec.TW) (b : Cert.ReferenceIdeal.RefSpec.TB) :
    Cert.Spec.lin x W (rowOf64 (F := Ideal) b) = Cert.ReferenceIdeal.RefSpec.hS x W b := by
  show Cert.Spec.lin x W (rowOf64 (F := Ideal) b) = Cert.Spec.lin x W (Cert.ReferenceIdeal.ReadP.val_main_v1 (F := Ideal) b)
  rw [Cert.Bridge.row64]

/-- A propagation step: the kernel program's degree column and neighbourhood sum give the reference's step of the
    same table (the destinations being nonnegative). -/
theorem tab_step (g : Cert.ReferenceIdeal.RefSpec.TN64) (src dst : Cert.ReferenceIdeal.RefSpec.TE) (h : NonNeg dst) :
    Cert.Spec.nxt g (dinvCol (F := Ideal) dst) (aggOf (F := Ideal) (Cert.Spec.scl g (dinvCol (F := Ideal) dst)) src dst)
      = Cert.Spec.nxt g (Cert.ReferenceIdeal.RefSpec.dcol dst)
          (Cert.ReferenceIdeal.RefSpec.aggR (Cert.Spec.scl g (Cert.ReferenceIdeal.RefSpec.dcol dst)) src dst) := by
  rw [Cert.Bridge.dinv dst h, Cert.Bridge.agg]

/-- So the kernel program's first propagation step of a graph is the reference's, -/
theorem tab_f1 (x : Cert.ReferenceIdeal.RefSpec.TN128) (W : Cert.ReferenceIdeal.RefSpec.TW) (b : Cert.ReferenceIdeal.RefSpec.TB)
    (src dst : Cert.ReferenceIdeal.RefSpec.TE) (h : NonNeg dst) :
    Cert.Spec.nxt (Cert.Spec.lin x W (rowOf64 (F := Ideal) b)) (dinvCol (F := Ideal) dst)
        (aggOf (F := Ideal) (Cert.Spec.scl (Cert.Spec.lin x W (rowOf64 (F := Ideal) b)) (dinvCol (F := Ideal) dst)) src dst)
      = Cert.ReferenceIdeal.RefSpec.f1S x W b src dst := by
  rw [tab_step _ src dst h, tab_h]

/-- and its second. -/
theorem tab_f2 (x : Cert.ReferenceIdeal.RefSpec.TN128) (W : Cert.ReferenceIdeal.RefSpec.TW) (b : Cert.ReferenceIdeal.RefSpec.TB)
    (src dst : Cert.ReferenceIdeal.RefSpec.TE) (h : NonNeg dst) :
    Cert.Spec.nxt
        (Cert.Spec.nxt (Cert.Spec.lin x W (rowOf64 (F := Ideal) b)) (dinvCol (F := Ideal) dst)
          (aggOf (F := Ideal) (Cert.Spec.scl (Cert.Spec.lin x W (rowOf64 (F := Ideal) b)) (dinvCol (F := Ideal) dst)) src dst))
        (dinvCol (F := Ideal) dst)
        (aggOf (F := Ideal) (Cert.Spec.scl
          (Cert.Spec.nxt (Cert.Spec.lin x W (rowOf64 (F := Ideal) b)) (dinvCol (F := Ideal) dst)
            (aggOf (F := Ideal) (Cert.Spec.scl (Cert.Spec.lin x W (rowOf64 (F := Ideal) b)) (dinvCol (F := Ideal) dst)) src dst))
          (dinvCol (F := Ideal) dst)) src dst)
      = Cert.ReferenceIdeal.RefSpec.f2S x W b src dst := by
  rw [tab_f1 x W b src dst h, tab_step _ src dst h]

end Aux

end Cert.Final

namespace Cert.Final

open Idealize.ShloMosaic Idealize.ShloMosaic.TcCoe Idealize.SL.Sem
open Cert.KernelIdeal Cert.KernelIdeal.H

variable (m : (ℓ : Loc nD τ sig) → Buf (Elt Ideal) ℓ) (c : Dev nD)

/-- The two programs' first results agree: the six filters side by side, of the same tables. -/
theorem out0_eq (h3 : Aux.NonNeg (m ((c : Thread nD τ).loc main_arg3))) (h5 : Aux.NonNeg (m ((c : Thread nD τ).loc main_arg5))) :
    kall m c
      = Cert.ReferenceIdeal.ReadP.val_main_v266 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  rw [Cert.ReferenceIdeal.RefSpec.ref_out0]
  have eh : kh m c = Cert.ReferenceIdeal.RefSpec.hS (m ((c : Thread nD τ).loc main_arg0)) (m ((c : Thread nD τ).loc main_arg6)) (m ((c : Thread nD τ).loc main_arg7)) :=
    Aux.tab_h _ _ _
  have e1 : kf1 m c = Cert.ReferenceIdeal.RefSpec.f1S (m ((c : Thread nD τ).loc main_arg0)) (m ((c : Thread nD τ).loc main_arg6)) (m ((c : Thread nD τ).loc main_arg7))
      (m ((c : Thread nD τ).loc main_arg2)) (m ((c : Thread nD τ).loc main_arg3)) := Aux.tab_f1 _ _ _ _ _ h3
  have e2 : kf2 m c = Cert.ReferenceIdeal.RefSpec.f2S (m ((c : Thread nD τ).loc main_arg0)) (m ((c : Thread nD τ).loc main_arg6)) (m ((c : Thread nD τ).loc main_arg7))
      (m ((c : Thread nD τ).loc main_arg2)) (m ((c : Thread nD τ).loc main_arg3)) := Aux.tab_f2 _ _ _ _ _ h3
  have eh' : kh' m c = Cert.ReferenceIdeal.RefSpec.hS (m ((c : Thread nD τ).loc main_arg1)) (m ((c : Thread nD τ).loc main_arg8)) (m ((c : Thread nD τ).loc main_arg9)) :=
    Aux.tab_h _ _ _
  have e1' : kf1' m c = Cert.ReferenceIdeal.RefSpec.f1S (m ((c : Thread nD τ).loc main_arg1)) (m ((c : Thread nD τ).loc main_arg8)) (m ((c : Thread nD τ).loc main_arg9))
      (m ((c : Thread nD τ).loc main_arg4)) (m ((c : Thread nD τ).loc main_arg5)) := Aux.tab_f1 _ _ _ _ _ h5
  have e2' : kf2' m c = Cert.ReferenceIdeal.RefSpec.f2S (m ((c : Thread nD τ).loc main_arg1)) (m ((c : Thread nD τ).loc main_arg8)) (m ((c : Thread nD τ).loc main_arg9))
      (m ((c : Thread nD τ).loc main_arg4)) (m ((c : Thread nD τ).loc main_arg5)) := Aux.tab_f2 _ _ _ _ _ h5
  unfold kall
  rw [eh, e1, e2, eh', e1', e2']

/-- The two programs' second results agree: the perceptron on the first result, over the same weights and the same
    bias rows. -/
theorem out1_eq (h3 : Aux.NonNeg (m ((c : Thread nD τ).loc main_arg3))) (h5 : Aux.NonNeg (m ((c : Thread nD τ).loc main_arg5))) :
    Cert.Spec.mlp (kall m c) (m ((c : Thread nD τ).loc main_arg10)) (rowOf64 (F := Ideal) (m ((c : Thread nD τ).loc main_arg11)))
        (m ((c : Thread nD τ).loc main_arg12)) (rowOf2 (F := Ideal) (m ((c : Thread nD τ).loc main_arg13)))
      = Cert.ReferenceIdeal.ReadP.val_main_v275 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) := by
  rw [Cert.ReferenceIdeal.RefSpec.ref_out1, ← out0_eq m c h3 h5, Cert.Bridge.row64m, Cert.Bridge.row2]

end Cert.Final

end
-- ==== Proof.lean ====
/-
  The certificate of a two-branch graph filter network. Both programs compute, for each of two graphs, a dense layer
  with rectifier  h = max(x·W + b, 0),  the degree column  d = max(deg, 1)^(−1/2)  of the graph's in-degrees, two
  propagation steps  f ↦ f − (A (f·d))·d  (A the sum over incoming edges, a gather by source followed by a scatter-add by
  target), three three-term filters of (h, f₁, f₂) per graph, the six filters side by side, and a two-layer perceptron
  on that table. The kernel program spreads this over seven blocked kernel regions (25 blocks of 2000 rows each) among
  host stretches that do the degree count and the edge aggregation; the reference is host operations only.

  * Frames: the kernel program's run is assembled from its regions' body runs and its host stretches, item by item,
    each argument array being written by nobody (KI/Run, KI/Args; the same text at the word level in K/); the reference's
    run is read back stretch by stretch (RefRunH).
  * Values (extended reals): each region's output arrays are whole-array functions of its input arrays (KI/Val0 … Val6),
    the host stretches are the same gather / scatter-add / power computations as the reference's (KI/HostVal, Bridge), and
    the composition (KI/Vals, RefSpecA, RefSpecB, Final) is the same function of the arguments on both sides.
  * The precondition's two index conjuncts (every target index non-negative) are used once: the reference counts
    in-degrees at target indices wrapped modulo the node count, the kernel program at the indices as given, and the two
    counts agree exactly when no target index is negative.
-/
import proofs.«134461_j6124623364543_2_alg».proof.Defs
import proofs.«134461_j6124623364543_2_alg».proof.Proof.Gen.Kernel
import proofs.«134461_j6124623364543_2_alg».proof.Proof.Gen.KernelIdeal
import proofs.«134461_j6124623364543_2_alg».proof.Proof.Gen.ReferenceIdeal
import proofs.«134461_j6124623364543_2_alg».proof.Proof.Gen.Pre_finite_inputs
import proofs.«134461_j6124623364543_2_alg».proof.Proof.K.Args
import proofs.«134461_j6124623364543_2_alg».proof.Proof.KI.Args
import proofs.«134461_j6124623364543_2_alg».proof.Proof.KI.Vals
import proofs.«134461_j6124623364543_2_alg».proof.Proof.RefRunH
import proofs.«134461_j6124623364543_2_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem

/-- The word-level program runs to the end and leaves its arguments unchanged. -/
theorem frame_k : @Cert.frame_Kernel Cert.Kernel.Gen.facts Cert.Pre_finite_inputs.Gen.facts :=
  fun m ρ _ => Cert.Kernel.H.frame (F := Bits) m ρ

/-- So does the idealized program. -/
theorem frame_ki : @Cert.frame_KernelIdeal Cert.KernelIdeal.Gen.facts Cert.Pre_finite_inputs.Gen.facts :=
  fun m ρ _ => Cert.KernelIdeal.H.frame (F := Ideal) m ρ

/-- The reference runs to the end and leaves its arguments unchanged: its run with the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.RunH.run (F := Ideal) m ρ)

/-- From memories agreeing on the arguments both idealized programs end with the same two result arrays: the kernel
    program's final contents of its two result buffers, which are the reference's two last stages of the same arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.H.W17 m ρ c (Proc.devRef .tc Cert.KernelIdeal.main_v70_0),
    fun c => Cert.KernelIdeal.H.W17 m ρ c (Proc.devRef .tc Cert.KernelIdeal.main_v70_1), ?_, ?_⟩
  · exact (θ_run Cert.KernelIdeal.defs _ _).mono (fun r h c =>
      ⟨h c _ (Cert.KernelIdeal.H.hmem_uc Cert.KernelIdeal.main_v70_0 (by decide)),
       h c _ (Cert.KernelIdeal.H.hmem_uc Cert.KernelIdeal.main_v70_1 (by decide)),
       (h c _ (Cert.KernelIdeal.H.hmem_uc Cert.KernelIdeal.main_arg0 (by decide))).trans (Cert.KernelIdeal.H.W17_main_arg0 m ρ c),
       (h c _ (Cert.KernelIdeal.H.hmem_uc Cert.KernelIdeal.main_arg1 (by decide))).trans (Cert.KernelIdeal.H.W17_main_arg1 m ρ c),
       (h c _ (Cert.KernelIdeal.H.hmem_uc Cert.KernelIdeal.main_arg2 (by decide))).trans (Cert.KernelIdeal.H.W17_main_arg2 m ρ c),
       (h c _ (Cert.KernelIdeal.H.hmem_uc Cert.KernelIdeal.main_arg3 (by decide))).trans (Cert.KernelIdeal.H.W17_main_arg3 m ρ c),
       (h c _ (Cert.KernelIdeal.H.hmem_uc Cert.KernelIdeal.main_arg4 (by decide))).trans (Cert.KernelIdeal.H.W17_main_arg4 m ρ c),
       (h c _ (Cert.KernelIdeal.H.hmem_uc Cert.KernelIdeal.main_arg5 (by decide))).trans (Cert.KernelIdeal.H.W17_main_arg5 m ρ c),
       (h c _ (Cert.KernelIdeal.H.hmem_uc Cert.KernelIdeal.main_arg6 (by decide))).trans (Cert.KernelIdeal.H.W17_main_arg6 m ρ c),
       (h c _ (Cert.KernelIdeal.H.hmem_uc Cert.KernelIdeal.main_arg7 (by decide))).trans (Cert.KernelIdeal.H.W17_main_arg7 m ρ c),
       (h c _ (Cert.KernelIdeal.H.hmem_uc Cert.KernelIdeal.main_arg8 (by decide))).trans (Cert.KernelIdeal.H.W17_main_arg8 m ρ c),
       (h c _ (Cert.KernelIdeal.H.hmem_uc Cert.KernelIdeal.main_arg9 (by decide))).trans (Cert.KernelIdeal.H.W17_main_arg9 m ρ c),
       (h c _ (Cert.KernelIdeal.H.hmem_uc Cert.KernelIdeal.main_arg10 (by decide))).trans (Cert.KernelIdeal.H.W17_main_arg10 m ρ c),
       (h c _ (Cert.KernelIdeal.H.hmem_uc Cert.KernelIdeal.main_arg11 (by decide))).trans (Cert.KernelIdeal.H.W17_main_arg11 m ρ c),
       (h c _ (Cert.KernelIdeal.H.hmem_uc Cert.KernelIdeal.main_arg12 (by decide))).trans (Cert.KernelIdeal.H.W17_main_arg12 m ρ c),
       (h c _ (Cert.KernelIdeal.H.hmem_uc Cert.KernelIdeal.main_arg13 (by decide))).trans (Cert.KernelIdeal.H.W17_main_arg13 m ρ c)⟩)
      (Cert.KernelIdeal.H.run_all m ρ)
  · refine (θ_run Cert.ReferenceIdeal.defs _ _).mono (fun r h c => ⟨(h c).1.trans ?_, (h c).2.1.trans ?_, (h c).2.2⟩)
      (Cert.ReferenceIdeal.RunH.run (F := Ideal) m' ρ')
    all_goals
      obtain ⟨e0, e1, e2, e3, e4, e5, e6, e7, e8, e9, e10, e11, e12, e13⟩ := hagree c
      have hnn := Cert.KernelIdeal.H.dst_nonneg_of_pre _ _ _ _ _ _ _ _ _ _ _ _ _ _ (hpre c)
    · rw [e0, e1, e2, e3, e4, e5, e6, e7, e8, e9]
      exact ((Cert.KernelIdeal.H.out0 m ρ c).trans (Cert.Final.out0_eq m c hnn.1 hnn.2)).symm
    · rw [e0, e1, e2, e3, e4, e5, e6, e7, e8, e9, e10, e11, e12, e13]
      exact ((Cert.KernelIdeal.H.out1 m ρ c).trans (Cert.Final.out1_eq m c hnn.1 hnn.2)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
